-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2048 : Shape := ⟨2, ![2048, 2048]⟩
abbrev S131072 : Shape := ⟨1, ![131072]⟩
abbrev S2048 : Shape := ⟨1, ![2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S131072 : S_.BroadcastsInDim S131072 (![] : Fin 0 → Fin S131072.rank)
  reducesTo_S131072_S_d0 : S131072.ReducesTo [0] S_
  bcast_S_S2048 : S_.BroadcastsInDim S2048 (![] : Fin 0 → Fin S2048.rank)
  reducesTo_S2048_S_d0 : S2048.ReducesTo [0] S_

variable [Facts]

def fn_part1 {F : FTy → Type} [FloatOps F] (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  main_v18

def fn {F : FTy → Type} [FloatOps F] (main_arg0 : FVec F S2048x2048 .f32) (main_arg1 : IVec S131072 32) (main_arg2 : IVec S131072 32) (main_arg3 : FVec F S131072 .f32) (main_arg4 : FVec F S131072 .f32) (main_arg5 : FVec F S2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S131072 .f32 := Host.absf main_arg3
  let main_cst_0 : FVec F S_ .f32 := constant S_ .f32 0x7F800000#32
  let main_v5 : FVec F S131072 .f32 := broadcastInDim S131072 ![] bcast_S_S131072 main_cst_0
  let main_v6 : IVec S131072 1 := cmpf .olt main_v4 main_v5
  let main_c_1 : IVec S_ 1 := constantI S_ 1 1#1
  let main_v7 : IVec S_ 1 := (fun x v => Host.reduce IntOp.andi x v reducesTo_S131072_S_d0 h_S_) main_v6 main_c_1
  let main_v8 : IVec S_ 1 := andi main_v3 main_v7
  let main_v9 : FVec F S131072 .f32 := Host.absf main_arg4
  let main_cst_2 : FVec F S_ .f32 := constant S_ .f32 0x7F800000#32
  let main_v10 : FVec F S131072 .f32 := broadcastInDim S131072 ![] bcast_S_S131072 main_cst_2
  let main_v11 : IVec S131072 1 := cmpf .olt main_v9 main_v10
  let main_c_3 : IVec S_ 1 := constantI S_ 1 1#1
  let main_v12 : IVec S_ 1 := (fun x v => Host.reduce IntOp.andi x v reducesTo_S131072_S_d0 h_S_) main_v11 main_c_3
  let main_v13 : IVec S_ 1 := andi main_v8 main_v12
  let main_v14 : FVec F S2048 .f32 := Host.absf main_arg5
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_v13 main_v16
-- ==== Kernel.lean ====
abbrev S2048x2048 : Shape := ⟨2, ![2048, 2048]⟩
abbrev S131072 : Shape := ⟨1, ![131072]⟩
abbrev S2048 : Shape := ⟨1, ![2048]⟩
abbrev S_ : Shape := ⟨0, ![]⟩
abbrev S131072x1 : Shape := ⟨2, ![131072, 1]⟩
abbrev S131072x2 : Shape := ⟨2, ![131072, 2]⟩
abbrev S1024x512 : Shape := ⟨2, ![1024, 512]⟩
abbrev S512x2048 : Shape := ⟨2, ![512, 2048]⟩
abbrev S1024x2048 : Shape := ⟨2, ![1024, 2048]⟩
abbrev S1x2048 : Shape := ⟨2, ![1, 2048]⟩

abbrev nBuf : Space → Nat
  | .hbm => 52
  | .vmem => 39
  | .smem => 0
  | _ => 0

abbrev bufTy : (tb : Table) → Fin (tcTables nBuf tb) → BufTy
  | .hbm, ⟨0, _⟩ => ⟨S2048x2048, .f32⟩
  | .hbm, ⟨1, _⟩ => ⟨S131072, .i32⟩
  | .hbm, ⟨2, _⟩ => ⟨S131072, .i32⟩
  | .hbm, ⟨3, _⟩ => ⟨S131072, .f32⟩
  | .hbm, ⟨4, _⟩ => ⟨S131072, .f32⟩
  | .hbm, ⟨5, _⟩ => ⟨S2048, .f32⟩
  | .hbm, ⟨6, _⟩ => ⟨S_, .f32⟩
  | .hbm, ⟨7, _⟩ => ⟨S2048x2048, .f32⟩
  | .hbm, ⟨8, _⟩ => ⟨S_, .i32⟩
  | .hbm, ⟨9, _⟩ => ⟨S131072, .i32⟩
  | .hbm, ⟨10, _⟩ => ⟨S131072, .i1⟩
  | .hbm, ⟨11, _⟩ => ⟨S_, .i32⟩
  | .hbm, ⟨12, _⟩ => ⟨S131072, .i32⟩
  | .hbm, ⟨13, _⟩ => ⟨S131072, .i32⟩
  | .hbm, ⟨14, _⟩ => ⟨S131072, .i32⟩
  | .hbm, ⟨15, _⟩ => ⟨S_, .i32⟩
  | .hbm, ⟨16, _⟩ => ⟨S131072, .i32⟩
  | .hbm, ⟨17, _⟩ => ⟨S131072, .i1⟩
  | .hbm, ⟨18, _⟩ => ⟨S_, .i32⟩
  | .hbm, ⟨19, _⟩ => ⟨S131072, .i32⟩
  | .hbm, ⟨20, _⟩ => ⟨S131072, .i32⟩
  | .hbm, ⟨21, _⟩ => ⟨S131072, .i32⟩
  | .hbm, ⟨22, _⟩ => ⟨S131072x1, .i32⟩
  | .hbm, ⟨23, _⟩ => ⟨S131072x1, .i32⟩
  | .hbm, ⟨24, _⟩ => ⟨S131072x2, .i32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S_, .i32⟩
  | .hbm, ⟨29, _⟩ => ⟨S131072, .i32⟩
  | .hbm, ⟨30, _⟩ => ⟨S131072, .i1⟩
  | .hbm, ⟨31, _⟩ => ⟨S_, .i32⟩
  | .hbm, ⟨32, _⟩ => ⟨S131072, .i32⟩
  | .hbm, ⟨33, _⟩ => ⟨S131072, .i32⟩
  | .hbm, ⟨34, _⟩ => ⟨S131072, .i32⟩
  | .hbm, ⟨35, _⟩ => ⟨S_, .i32⟩
  | .hbm, ⟨36, _⟩ => ⟨S131072, .i32⟩
  | .hbm, ⟨37, _⟩ => ⟨S131072, .i1⟩
  | .hbm, ⟨38, _⟩ => ⟨S_, .i32⟩
  | .hbm, ⟨39, _⟩ => ⟨S131072, .i32⟩
  | .hbm, ⟨40, _⟩ => ⟨S131072, .i32⟩
  | .hbm, ⟨41, _⟩ => ⟨S131072, .i32⟩
  | .hbm, ⟨42, _⟩ => ⟨S131072x1, .i32⟩
  | .hbm, ⟨43, _⟩ => ⟨S131072x1, .i32⟩
  | .hbm, ⟨44, _⟩ => ⟨S131072x2, .i32⟩
  | .hbm, ⟨45, _⟩ => ⟨S2048x2048, .f32⟩
  | .hbm, ⟨46, _⟩ => ⟨S2048x2048, .bf16⟩
  | .hbm, ⟨47, _⟩ => ⟨S1x2048, .f32⟩
  | .hbm, ⟨48, _⟩ => ⟨S2048x2048, .bf16⟩
  | .hbm, ⟨49, _⟩ => ⟨S2048x2048, .bf16⟩
  | .hbm, ⟨50, _⟩ => ⟨S2048x2048, .bf16⟩
  | .hbm, ⟨51, _⟩ => ⟨S2048x2048, .f32⟩
  | .local _ .vmem, ⟨0, _⟩ => ⟨S1024x512, .f32⟩
  | .local _ .vmem, ⟨1, _⟩ => ⟨S1024x512, .f32⟩
  | .local _ .vmem, ⟨2, _⟩ => ⟨S512x2048, .f32⟩
  | .local _ .vmem, ⟨3, _⟩ => ⟨S512x2048, .f32⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | .local _ .vmem, ⟨7, _⟩ => ⟨S1024x512, .bf16⟩
  | .local _ .vmem, ⟨8, _⟩ => ⟨S1024x512, .bf16⟩
  | .local _ .vmem, ⟨9, _⟩ => ⟨S512x2048, .f32⟩
  | .local _ .vmem, ⟨10, _⟩ => ⟨S512x2048, .f32⟩
  | .local _ .vmem, ⟨11, _⟩ => ⟨S1x2048, .f32⟩
  | .local _ .vmem, ⟨12, _⟩ => ⟨S1024x2048, .bf16⟩
  | .local _ .vmem, ⟨13, _⟩ => ⟨S1024x2048, .bf16⟩
  | .local _ .vmem, ⟨14, _⟩ => ⟨S1024x2048, .f32⟩
  | .local _ .vmem, ⟨15, _⟩ => ⟨S1024x512, .bf16⟩
  | .local _ .vmem, ⟨16, _⟩ => ⟨S1024x512, .bf16⟩
  | .local _ .vmem, ⟨17, _⟩ => ⟨S512x2048, .bf16⟩
  | .local _ .vmem, ⟨18, _⟩ => ⟨S512x2048, .bf16⟩
  | .local _ .vmem, ⟨19, _⟩ => ⟨S1x2048, .f32⟩
  | .local _ .vmem, ⟨20, _⟩ => ⟨S1024x2048, .bf16⟩
  | .local _ .vmem, ⟨21, _⟩ => ⟨S1024x2048, .bf16⟩
  | .local _ .vmem, ⟨22, _⟩ => ⟨S1024x2048, .f32⟩
  | .local _ .vmem, ⟨23, _⟩ => ⟨S1024x512, .bf16⟩
  | .local _ .vmem, ⟨24, _⟩ => ⟨S1024x512, .bf16⟩
  | .local _ .vmem, ⟨25, _⟩ => ⟨S512x2048, .bf16⟩
  | .local _ .vmem, ⟨26, _⟩ => ⟨S512x2048, .bf16⟩
  | .local _ .vmem, ⟨27, _⟩ => ⟨S1x2048, .f32⟩
  | .local _ .vmem, ⟨28, _⟩ => ⟨S1024x2048, .bf16⟩
  | .local _ .vmem, ⟨29, _⟩ => ⟨S1024x2048, .bf16⟩
  | .local _ .vmem, ⟨30, _⟩ => ⟨S1024x2048, .f32⟩
  | .local _ .vmem, ⟨31, _⟩ => ⟨S1024x512, .bf16⟩
  | .local _ .vmem, ⟨32, _⟩ => ⟨S1024x512, .bf16⟩
  | .local _ .vmem, ⟨33, _⟩ => ⟨S512x2048, .bf16⟩
  | .local _ .vmem, ⟨34, _⟩ => ⟨S512x2048, .bf16⟩
  | .local _ .vmem, ⟨35, _⟩ => ⟨S1x2048, .f32⟩
  | .local _ .vmem, ⟨36, _⟩ => ⟨S1024x2048, .f32⟩
  | .local _ .vmem, ⟨37, _⟩ => ⟨S1024x2048, .f32⟩
  | .local _ .vmem, ⟨38, _⟩ => ⟨S1024x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_v6 : Ref sig .tc := ⟨.hbm, 16, rfl⟩
abbrev main_v7 : Ref sig .tc := ⟨.hbm, 17, rfl⟩
abbrev main_c_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_c_4 : Ref sig .tc := ⟨.hbm, 28, rfl⟩
abbrev main_v16 : Ref sig .tc := ⟨.hbm, 29, rfl⟩
abbrev main_v17 : Ref sig .tc := ⟨.hbm, 30, rfl⟩
abbrev main_c_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_6 : Ref sig .tc := ⟨.hbm, 35, rfl⟩
abbrev main_v21 : Ref sig .tc := ⟨.hbm, 36, rfl⟩
abbrev main_v22 : Ref sig .tc := ⟨.hbm, 37, rfl⟩
abbrev main_c_7 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_scratch0 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc3_scratch0 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg1_1 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg3_1 : Ref sig .tc := ⟨.vmem, 37, rfl⟩
abbrev cc4_scratch0 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem3_1 : DmaSem sig := 26
abbrev cc4_sem0_0 : DmaSem sig := 27
abbrev cc4_sem0_1 : DmaSem sig := 28
abbrev cc4_sem1_0 : DmaSem sig := 29
abbrev cc4_sem1_1 : DmaSem sig := 30
abbrev cc4_sem2_0 : DmaSem sig := 31
abbrev cc4_sem3_0 : DmaSem sig := 32
abbrev cc4_sem3_1 : DmaSem sig := 33

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v15 : BitVec 1 := Scalar.cmpi .eq arg2 c3_i32
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 1, 4], ![false, false, false]⟩

def k1_cond2 (i : grid1.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S512x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, true, false]

abbrev stage1_3 : Fin 2 → Memref sig .tc .vmem S1024x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![2, 1, 4], ![false, false, false]⟩

def k2_cond2 (i : grid2.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S512x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 1 → Memref sig .tc .vmem S1x2048 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, true, false]

abbrev stage2_3 : Fin 2 → Memref sig .tc .vmem S1024x2048 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨3, ![2, 1, 4], ![false, false, false]⟩

def k3_cond2 (i : grid3.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S512x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 1 → Memref sig .tc .vmem S1x2048 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, true, false]

abbrev stage3_3 : Fin 2 → Memref sig .tc .vmem S1024x2048 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev grid4 : Pipeline.Grid := ⟨3, ![2, 1, 4], ![false, false, false]⟩

def k4_cond2 (i : grid4.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc4_transform_3 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S512x2048 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 1 → Memref sig .tc .vmem S1x2048 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, true, false]

abbrev stage4_3 : Fin 2 → Memref sig .tc .vmem S1024x2048 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true, false]

class Facts₀ : Prop where
  bcast_S_S2048x2048 : S_.BroadcastsInDim S2048x2048 (![] : Fin 0 → Fin S2048x2048.rank)
  bcast_S_S131072 : S_.BroadcastsInDim S131072 (![] : Fin 0 → Fin S131072.rank)
  bcast_S131072_S131072x1_0 : S131072.BroadcastsInDim S131072x1 (![0] : Fin 1 → Fin S131072x1.rank)
  concatenates_S131072x1_S131072x1_S131072x2_d1 : Shape.Concatenates [S131072x1, S131072x1] S131072x2 1
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  packedbf16_S1024x2048_S1024x2048_0_0 : (Rect.unit (s := S1024x2048) ![0, 0] S1024x2048.size inb_S1024x2048_S1024x2048_0_0).PackedRows (EltTy.packing .bf16)
  shapeCasts_S2048_S1x2048 : S2048.ShapeCasts S1x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  scatter_S2048x2048_S131072x2_S131072_n_01_01_1_wf : ScatterDims.WF S2048x2048 S131072x2 S131072 [] [0, 1] [0, 1] 1
  dot_S1024x512_S512x2048_S1024x2048_1_0_0_1_n_n_wf : DotDims.WF S1024x512 S512x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S2048x2048.size a
  hwx0_0 : ∀ i : grid0.Coords, EltTy.bits .f32 = 32 ∨ (Rect.block (s := S2048x2048) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S2048x2048.size a
  hwx0_1 : ∀ i : grid0.Coords, EltTy.bits .f32 = 32 ∨ (Rect.block (s := S2048x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S2048x2048.size a
  hwx0_2 : ∀ i : grid0.Coords, EltTy.bits .bf16 = 32 ∨ (Rect.block (s := S2048x2048) S1024x2048.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S2048x2048.size a
  hwx1_0 : ∀ i : grid1.Coords, EltTy.bits .bf16 = 32 ∨ (Rect.block (s := S2048x2048) S1024x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x2048.size a ≤ S2048x2048.size a
  hwx1_1 : ∀ i : grid1.Coords, EltTy.bits .f32 = 32 ∨ (Rect.block (s := S2048x2048) S512x2048.size (cc1_transform_1 i) (hinb1_1 i)).WholeWords (EltTy.packing .f32)
  hstage1_2 : ∀ j, (stage1_2 j).IsWhole
  nbuf1_2 : grid1.bufCount reads1_2 false = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x2048.size a ≤ S2048x2048.size a
  hwx1_3 : ∀ i : grid1.Coords, EltTy.bits .bf16 = 32 ∨ (Rect.block (s := S2048x2048) S1024x2048.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S2048x2048.size a
  hwx2_0 : ∀ i : grid2.Coords, EltTy.bits .bf16 = 32 ∨ (Rect.block (s := S2048x2048) S1024x512.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x2048.size a ≤ S2048x2048.size a
  hwx2_1 : ∀ i : grid2.Coords, EltTy.bits .bf16 = 32 ∨ (Rect.block (s := S2048x2048) S512x2048.size (cc2_transform_1 i) (hinb2_1 i)).WholeWords (EltTy.packing .bf16)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hinb2_2 : ∀ (i : grid2.Coords) a, (cc2_transform_2 i a + 1) * S1x2048.size a ≤ S1x2048.size a
  hwx2_2 : ∀ i : grid2.Coords, EltTy.bits .f32 = 32 ∨ (Rect.block (s := S1x2048) S1x2048.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x2048.size a ≤ S2048x2048.size a
  hwx2_3 : ∀ i : grid2.Coords, EltTy.bits .bf16 = 32 ∨ (Rect.block (s := S2048x2048) S1024x2048.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x512.size a ≤ S2048x2048.size a
  hwx3_0 : ∀ i : grid3.Coords, EltTy.bits .bf16 = 32 ∨ (Rect.block (s := S2048x2048) S1024x512.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S512x2048.size a ≤ S2048x2048.size a
  hwx3_1 : ∀ i : grid3.Coords, EltTy.bits .bf16 = 32 ∨ (Rect.block (s := S2048x2048) S512x2048.size (cc3_transform_1 i) (hinb3_1 i)).WholeWords (EltTy.packing .bf16)
  hstage3_2 : ∀ j, (stage3_2 j).IsWhole
  nbuf3_2 : grid3.bufCount reads3_2 false = 1
  hreads3_2 : ∀ i i' : grid3.Coords, (∀ a, reads3_2 a = true → i a = i' a) → cc3_transform_2 i = cc3_transform_2 i'
  hinb3_2 : ∀ (i : grid3.Coords) a, (cc3_transform_2 i a + 1) * S1x2048.size a ≤ S1x2048.size a
  hwx3_2 : ∀ i : grid3.Coords, EltTy.bits .f32 = 32 ∨ (Rect.block (s := S1x2048) S1x2048.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x2048.size a ≤ S2048x2048.size a
  hwx3_3 : ∀ i : grid3.Coords, EltTy.bits .bf16 = 32 ∨ (Rect.block (s := S2048x2048) S1024x2048.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x512.size a ≤ S2048x2048.size a
  hwx4_0 : ∀ i : grid4.Coords, EltTy.bits .bf16 = 32 ∨ (Rect.block (s := S2048x2048) S1024x512.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S512x2048.size a ≤ S2048x2048.size a
  hwx4_1 : ∀ i : grid4.Coords, EltTy.bits .bf16 = 32 ∨ (Rect.block (s := S2048x2048) S512x2048.size (cc4_transform_1 i) (hinb4_1 i)).WholeWords (EltTy.packing .bf16)
  hstage4_2 : ∀ j, (stage4_2 j).IsWhole
  nbuf4_2 : grid4.bufCount reads4_2 false = 1
  hreads4_2 : ∀ i i' : grid4.Coords, (∀ a, reads4_2 a = true → i a = i' a) → cc4_transform_2 i = cc4_transform_2 i'
  hinb4_2 : ∀ (i : grid4.Coords) a, (cc4_transform_2 i a + 1) * S1x2048.size a ≤ S1x2048.size a
  hwx4_2 : ∀ i : grid4.Coords, EltTy.bits .f32 = 32 ∨ (Rect.block (s := S1x2048) S1x2048.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1024x2048.size a ≤ S2048x2048.size a
  hwx4_3 : ∀ i : grid4.Coords, EltTy.bits .f32 = 32 ∨ (Rect.block (s := S2048x2048) S1024x2048.size (cc4_transform_3 i) (hinb4_3 i)).WholeWords (EltTy.packing .f32)

variable [Facts₀]

def scatter_S2048x2048_S131072x2_S131072_n_01_01_1 : ScatterDims S2048x2048 S131072x2 S131072 where
  updateWindowDims := []
  insertedWindowDims := [0, 1]
  scatterDimsToOperandDims := [0, 1]
  indexVectorDim := 1
  wf := scatter_S2048x2048_S131072x2_S131072_n_01_01_1_wf
def dot_S1024x512_S512x2048_S1024x2048_1_0_0_1_n_n : DotDims S1024x512 S512x2048 S1024x2048 where
  lhsContracting := [1]
  rhsContracting := [0]
  lhsNonContracting := [0]
  rhsNonContracting := [1]
  lhsBatch := []
  rhsBatch := []
  wf := dot_S1024x512_S512x2048_S1024x2048_1_0_0_1_n_n_wf

abbrev win0_0 : Pipeline.Window sig grid0 :=
  Pipeline.Window.ofSpec (Memref.whole main_v14) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v30) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S512x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31) S1x2048.size cc1_transform_2 reads1_2 false false 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S1024x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v30) S1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S512x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v31) S1x2048.size cc2_transform_2 reads2_2 false false 1 stage2_2 sem2_2
    hrank2 hreads2_2 hinb2_2 nbuf2_2 (Memref.isWhole_whole _) hwx2_2 hstage2_2

abbrev win2_3 : Pipeline.Window sig grid2 :=
  Pipeline.Window.ofSpec (Memref.whole main_v33) S1024x2048.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v30) S1024x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v33) S512x2048.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v31) S1x2048.size cc3_transform_2 reads3_2 false false 1 stage3_2 sem3_2
    hrank3 hreads3_2 hinb3_2 nbuf3_2 (Memref.isWhole_whole _) hwx3_2 hstage3_2

abbrev win3_3 : Pipeline.Window sig grid3 :=
  Pipeline.Window.ofSpec (Memref.whole main_v34) S1024x2048.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v30) S1024x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v34) S512x2048.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v31) S1x2048.size cc4_transform_2 reads4_2 false false 1 stage4_2 sem4_2
    hrank4 hreads4_2 hinb4_2 nbuf4_2 (Memref.isWhole_whole _) hwx4_2 hstage4_2

abbrev win4_3 : Pipeline.Window sig grid4 :=
  Pipeline.Window.ofSpec (Memref.whole main_v35) S1024x2048.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

class Facts : Prop extends Facts₀ where

variable [Facts]
-- ==== ReferenceIdeal.lean ====
abbrev S2048x2048 : Shape := ⟨2, ![2048, 2048]⟩
abbrev S131072 : Shape := ⟨1, ![131072]⟩
abbrev S2048 : Shape := ⟨1, ![2048]⟩
abbrev S_ : Shape := ⟨0, ![]⟩
abbrev S131072x1 : Shape := ⟨2, ![131072, 1]⟩
abbrev S131072x2 : Shape := ⟨2, ![131072, 2]⟩
abbrev S1x2048 : Shape := ⟨2, ![1, 2048]⟩

abbrev nBuf : Space → Nat
  | .hbm => 63
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S131072, .i32⟩
  | .hbm, ⟨2, _⟩ => ⟨S131072, .i32⟩
  | .hbm, ⟨3, _⟩ => ⟨S131072, .f32⟩
  | .hbm, ⟨4, _⟩ => ⟨S131072, .f32⟩
  | .hbm, ⟨5, _⟩ => ⟨S2048, .f32⟩
  | .hbm, ⟨6, _⟩ => ⟨S_, .f32⟩
  | .hbm, ⟨7, _⟩ => ⟨S2048x2048, .f32⟩
  | .hbm, ⟨8, _⟩ => ⟨S_, .i32⟩
  | .hbm, ⟨9, _⟩ => ⟨S131072, .i32⟩
  | .hbm, ⟨10, _⟩ => ⟨S131072, .i1⟩
  | .hbm, ⟨11, _⟩ => ⟨S_, .i32⟩
  | .hbm, ⟨12, _⟩ => ⟨S131072, .i32⟩
  | .hbm, ⟨13, _⟩ => ⟨S131072, .i32⟩
  | .hbm, ⟨14, _⟩ => ⟨S131072, .i32⟩
  | .hbm, ⟨15, _⟩ => ⟨S_, .i32⟩
  | .hbm, ⟨16, _⟩ => ⟨S131072, .i32⟩
  | .hbm, ⟨17, _⟩ => ⟨S131072, .i1⟩
  | .hbm, ⟨18, _⟩ => ⟨S_, .i32⟩
  | .hbm, ⟨19, _⟩ => ⟨S131072, .i32⟩
  | .hbm, ⟨20, _⟩ => ⟨S131072, .i32⟩
  | .hbm, ⟨21, _⟩ => ⟨S131072, .i32⟩
  | .hbm, ⟨22, _⟩ => ⟨S131072x1, .i32⟩
  | .hbm, ⟨23, _⟩ => ⟨S131072x1, .i32⟩
  | .hbm, ⟨24, _⟩ => ⟨S131072x2, .i32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S_, .i32⟩
  | .hbm, ⟨29, _⟩ => ⟨S131072, .i32⟩
  | .hbm, ⟨30, _⟩ => ⟨S131072, .i1⟩
  | .hbm, ⟨31, _⟩ => ⟨S_, .i32⟩
  | .hbm, ⟨32, _⟩ => ⟨S131072, .i32⟩
  | .hbm, ⟨33, _⟩ => ⟨S131072, .i32⟩
  | .hbm, ⟨34, _⟩ => ⟨S131072, .i32⟩
  | .hbm, ⟨35, _⟩ => ⟨S_, .i32⟩
  | .hbm, ⟨36, _⟩ => ⟨S131072, .i32⟩
  | .hbm, ⟨37, _⟩ => ⟨S131072, .i1⟩
  | .hbm, ⟨38, _⟩ => ⟨S_, .i32⟩
  | .hbm, ⟨39, _⟩ => ⟨S131072, .i32⟩
  | .hbm, ⟨40, _⟩ => ⟨S131072, .i32⟩
  | .hbm, ⟨41, _⟩ => ⟨S131072, .i32⟩
  | .hbm, ⟨42, _⟩ => ⟨S131072x1, .i32⟩
  | .hbm, ⟨43, _⟩ => ⟨S131072x1, .i32⟩
  | .hbm, ⟨44, _⟩ => ⟨S131072x2, .i32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S1x2048, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S1x2048, .f32⟩
  | .hbm, ⟨53, _⟩ => ⟨S2048x2048, .f32⟩
  | .hbm, ⟨54, _⟩ => ⟨S2048x2048, .f32⟩
  | .hbm, ⟨55, _⟩ => ⟨S2048x2048, .f32⟩
  | .hbm, ⟨56, _⟩ => ⟨S1x2048, .f32⟩
  | .hbm, ⟨57, _⟩ => ⟨S2048x2048, .f32⟩
  | .hbm, ⟨58, _⟩ => ⟨S2048x2048, .f32⟩
  | .hbm, ⟨59, _⟩ => ⟨S2048x2048, .f32⟩
  | .hbm, ⟨60, _⟩ => ⟨S1x2048, .f32⟩
  | .hbm, ⟨61, _⟩ => ⟨S2048x2048, .f32⟩
  | .hbm, ⟨62, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_v6 : Ref sig .tc := ⟨.hbm, 16, rfl⟩
abbrev main_v7 : Ref sig .tc := ⟨.hbm, 17, rfl⟩
abbrev main_c_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_c_4 : Ref sig .tc := ⟨.hbm, 28, rfl⟩
abbrev main_v16 : Ref sig .tc := ⟨.hbm, 29, rfl⟩
abbrev main_v17 : Ref sig .tc := ⟨.hbm, 30, rfl⟩
abbrev main_c_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_6 : Ref sig .tc := ⟨.hbm, 35, rfl⟩
abbrev main_v21 : Ref sig .tc := ⟨.hbm, 36, rfl⟩
abbrev main_v22 : Ref sig .tc := ⟨.hbm, 37, rfl⟩
abbrev main_c_7 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  bcast_S_S131072 : S_.BroadcastsInDim S131072 (![] : Fin 0 → Fin S131072.rank)
  bcast_S131072_S131072x1_0 : S131072.BroadcastsInDim S131072x1 (![0] : Fin 1 → Fin S131072x1.rank)
  concatenates_S131072x1_S131072x1_S131072x2_d1 : Shape.Concatenates [S131072x1, S131072x1] S131072x2 1
  bcast_S2048_S1x2048_1 : S2048.BroadcastsInDim S1x2048 (![1] : Fin 1 → Fin S1x2048.rank)
  bcast_S1x2048_S2048x2048_0_1 : S1x2048.BroadcastsInDim S2048x2048 (![0, 1] : Fin 2 → Fin S2048x2048.rank)
  scatter_S2048x2048_S131072x2_S131072_n_01_01_1_wf : ScatterDims.WF S2048x2048 S131072x2 S131072 [] [0, 1] [0, 1] 1
  dot_S2048x2048_S2048x2048_S2048x2048_1_0_0_1_n_n_wf : DotDims.WF S2048x2048 S2048x2048 S2048x2048 [1] [0] [0] [1] [] []

variable [Facts₀]

def scatter_S2048x2048_S131072x2_S131072_n_01_01_1 : ScatterDims S2048x2048 S131072x2 S131072 where
  updateWindowDims := []
  insertedWindowDims := [0, 1]
  scatterDimsToOperandDims := [0, 1]
  indexVectorDim := 1
  wf := scatter_S2048x2048_S131072x2_S131072_n_01_01_1_wf
def dot_S2048x2048_S2048x2048_S2048x2048_1_0_0_1_n_n : DotDims S2048x2048 S2048x2048 S2048x2048 where
  lhsContracting := [1]
  rhsContracting := [0]
  lhsNonContracting := [0]
  rhsNonContracting := [1]
  lhsBatch := []
  rhsBatch := []
  wf := dot_S2048x2048_S2048x2048_S2048x2048_1_0_0_1_n_n_wf

class Facts : Prop extends Facts₀ where

variable [Facts]
-- ==== Proof.KB.R0Base.lean ====
/- Region 0 (the product A·W accumulated over four column slabs): what every case of its body shares.
   The grid is (i, j, k) = (2, 1, 4), so point t has k = t mod 4. The body zeroes the accumulator when k = 0,
   adds the product of the point's two blocks at every point, and hands the accumulator to the output block
   when k = 3; elsewhere the output window is idle and is not written back. -/
import proofs.«106939_j75831942578756_2_alg».proof.Proof.Gen.Kernel.Launch
import proofs.«106939_j75831942578756_2_alg».proof.Proof.Gen.Kernel.Skeleton
import proofs.«106939_j75831942578756_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right operand's staging buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions over the grid -/

/-- "k = 0": the accumulator is zeroed. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "k = 3": the accumulator is handed to the output block. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from k = 3 the output window is idle and its block is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The memrefs the body is called with -/

abbrev VO0_2 : View sig .tc .vmem S1024x2048 .bf16 := (Memref.whole cc0_stg2_0 : Memref sig .tc .vmem S1024x2048 .bf16).view
abbrev ms0_0 (t : Fin cfg0.N) : Memref sig .tc .vmem S1024x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x2048 .bf16 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0_0 : Memref sig .tc .vmem S1024x2048 .f32 := Memref.whole cc0_scratch0
abbrev VS0_0 : View sig .tc .vmem S1024x2048 .f32 := scM0_0.view

/-- The region's starting invariant with the accumulator split off the scoped rest: the accumulator at anything,
    every other scoped buffer unopened, the generator register at some state. -/
theorem PhiA0_eq (c : Dev nD) :
    (Pipeline.ΦA spec0 c : sProp 𝕄)
      = iprop(iprop((∃ d, owns (c : Thread nD τ) scM0_0 fullShare d) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0_0, owns_whole]; try rfl

end Cert.Kernel.Hand

end
-- ==== Proof.KB.R0RunA.lean ====
/- Region 0, the points with k = 0: the body zeroes the accumulator, adds the blocks' product, leaves the output
   buffer alone. The pieces the accumulator ends with are found by running the body symbolically. -/
import proofs.«106939_j75831942578756_2_alg».proof.Proof.KB.R0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg3 : Memref sig .tc .vmem S1024x512 .f32) (harg3 : arg3.IsWhole) (arg4 : Memref sig .tc .vmem S512x2048 .f32) (harg4 : arg4.IsWhole) (arg5 : Memref sig .tc .vmem S1024x2048 .bf16) (harg5 : arg5.IsWhole) (arg6 : Memref sig .tc .vmem S1024x2048 .f32) (harg6 : arg6.IsWhole) (hc0 : cond0_0 i) (hc1 : ¬cond0_1 i)
    (x0 : Vec F S1024x512 .f32) (x1 : Vec F S512x2048 .f32) :
    Σ' (L2 : List (View.Piece (Elt F) S1024x2048 .bf16)), { LS0 : List (View.Piece (Elt F) S1024x2048 .f32) //
      ∀ (xi2 : Vec F S1024x2048 .bf16) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨[], ?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Hand

end
-- ==== Proof.KB.R0RunB.lean ====
/- Region 0, the points with k = 1, 2: the body adds the blocks' product to the accumulator it finds and leaves
   the output buffer alone. -/
import proofs.«106939_j75831942578756_2_alg».proof.Proof.KB.R0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg3 : Memref sig .tc .vmem S1024x512 .f32) (harg3 : arg3.IsWhole) (arg4 : Memref sig .tc .vmem S512x2048 .f32) (harg4 : arg4.IsWhole) (arg5 : Memref sig .tc .vmem S1024x2048 .bf16) (harg5 : arg5.IsWhole) (arg6 : Memref sig .tc .vmem S1024x2048 .f32) (harg6 : arg6.IsWhole) (hc0 : ¬cond0_0 i) (hc1 : ¬cond0_1 i)
    (x0 : Vec F S1024x512 .f32) (x1 : Vec F S512x2048 .f32) (xs0 : Vec F S1024x2048 .f32) :
    Σ' (L2 : List (View.Piece (Elt F) S1024x2048 .bf16)), { LS0 : List (View.Piece (Elt F) S1024x2048 .f32) //
      ∀ (xi2 : Vec F S1024x2048 .bf16) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨[], ?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Hand

end
-- ==== Proof.KB.R0RunC.lean ====
/- Region 0, the points with k = 3: the body adds the blocks' product to the accumulator it finds and stores the
   accumulator, narrowed to the output's format, over the whole output buffer. -/
import proofs.«106939_j75831942578756_2_alg».proof.Proof.KB.R0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg3 : Memref sig .tc .vmem S1024x512 .f32) (harg3 : arg3.IsWhole) (arg4 : Memref sig .tc .vmem S512x2048 .f32) (harg4 : arg4.IsWhole) (arg5 : Memref sig .tc .vmem S1024x2048 .bf16) (harg5 : arg5.IsWhole) (arg6 : Memref sig .tc .vmem S1024x2048 .f32) (harg6 : arg6.IsWhole) (hc0 : ¬cond0_0 i) (hc1 : cond0_1 i)
    (x0 : Vec F S1024x512 .f32) (x1 : Vec F S512x2048 .f32) (xs0 : Vec F S1024x2048 .f32) :
    Σ' (L2 : List (View.Piece (Elt F) S1024x2048 .bf16)), { LS0 : List (View.Piece (Elt F) S1024x2048 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel.Hand

end
-- ==== Proof.KB.R0Frame.lean ====
/- Region 0 (A·W over four column slabs): what the accumulator holds after each point, the pipeline's proof data,
   and the body obligation at every point. After point t the accumulator holds the sum of the products of the blocks
   of the points k' ≤ k of t's row of points, started from zero at k = 0; the output block of a row of points is the
   accumulator after its last point, narrowed to the output's format. -/
import proofs.«106939_j75831942578756_2_alg».proof.Proof.KB.R0RunA
import proofs.«106939_j75831942578756_2_alg».proof.Proof.KB.R0RunB
import proofs.«106939_j75831942578756_2_alg».proof.Proof.KB.R0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem scover0_A_0 (c : Dev nD) (i : grid0.Coords) (arg3 : Memref sig .tc .vmem S1024x512 .f32) (harg3 : arg3.IsWhole) (arg4 : Memref sig .tc .vmem S512x2048 .f32) (harg4 : arg4.IsWhole) (arg5 : Memref sig .tc .vmem S1024x2048 .bf16) (harg5 : arg5.IsWhole) (arg6 : Memref sig .tc .vmem S1024x2048 .f32) (harg6 : arg6.IsWhole) (hc0 : cond0_0 i) (hc1 : ¬cond0_1 i)
    (x0 : Vec F S1024x512 .f32) (x1 : Vec F S512x2048 .f32) (y : S1024x2048.Idx) :
    ∃ pc ∈ (kernelRun0_A c i arg3 harg3 arg4 harg4 arg5 harg5 arg6 harg6 hc0 hc1 x0 x1).2.1, y ∈ pc.1.set :=
  View.cover_of_tiledL (kernelRun0_A c i arg3 harg3 arg4 harg4 arg5 harg5 arg6 harg6 hc0 hc1 x0 x1).2.1 S1024x2048.size (by sl_kernel_rfl) y

/-- The accumulator after a point with k = 0. -/
def sout0_A_0 (c : Dev nD) (i : grid0.Coords) (arg3 : Memref sig .tc .vmem S1024x512 .f32) (harg3 : arg3.IsWhole) (arg4 : Memref sig .tc .vmem S512x2048 .f32) (harg4 : arg4.IsWhole) (arg5 : Memref sig .tc .vmem S1024x2048 .bf16) (harg5 : arg5.IsWhole) (arg6 : Memref sig .tc .vmem S1024x2048 .f32) (harg6 : arg6.IsWhole) (hc0 : cond0_0 i) (hc1 : ¬cond0_1 i)
    (x0 : Vec F S1024x512 .f32) (x1 : Vec F S512x2048 .f32) : Vec F S1024x2048 .f32 :=
  VS0_0.read (Elt F) (VS0_0.writes (Elt F) VS0_0.junk (kernelRun0_A c i arg3 harg3 arg4 harg4 arg5 harg5 arg6 harg6 hc0 hc1 x0 x1).2.1)

theorem scover0_B_0 (c : Dev nD) (i : grid0.Coords) (arg3 : Memref sig .tc .vmem S1024x512 .f32) (harg3 : arg3.IsWhole) (arg4 : Memref sig .tc .vmem S512x2048 .f32) (harg4 : arg4.IsWhole) (arg5 : Memref sig .tc .vmem S1024x2048 .bf16) (harg5 : arg5.IsWhole) (arg6 : Memref sig .tc .vmem S1024x2048 .f32) (harg6 : arg6.IsWhole) (hc0 : ¬cond0_0 i) (hc1 : ¬cond0_1 i)
    (x0 : Vec F S1024x512 .f32) (x1 : Vec F S512x2048 .f32) (xs0 : Vec F S1024x2048 .f32) (y : S1024x2048.Idx) :
    ∃ pc ∈ (kernelRun0_B c i arg3 harg3 arg4 harg4 arg5 harg5 arg6 harg6 hc0 hc1 x0 x1 xs0).2.1, y ∈ pc.1.set :=
  View.cover_of_tiledL (kernelRun0_B c i arg3 harg3 arg4 harg4 arg5 harg5 arg6 harg6 hc0 hc1 x0 x1 xs0).2.1 S1024x2048.size (by sl_kernel_rfl) y

/-- The accumulator after a point with k = 1, 2, from what the point before left. -/
def sout0_B_0 (c : Dev nD) (i : grid0.Coords) (arg3 : Memref sig .tc .vmem S1024x512 .f32) (harg3 : arg3.IsWhole) (arg4 : Memref sig .tc .vmem S512x2048 .f32) (harg4 : arg4.IsWhole) (arg5 : Memref sig .tc .vmem S1024x2048 .bf16) (harg5 : arg5.IsWhole) (arg6 : Memref sig .tc .vmem S1024x2048 .f32) (harg6 : arg6.IsWhole) (hc0 : ¬cond0_0 i) (hc1 : ¬cond0_1 i)
    (x0 : Vec F S1024x512 .f32) (x1 : Vec F S512x2048 .f32) (xs0 : Vec F S1024x2048 .f32) : Vec F S1024x2048 .f32 :=
  VS0_0.read (Elt F) (VS0_0.writes (Elt F) VS0_0.junk (kernelRun0_B c i arg3 harg3 arg4 harg4 arg5 harg5 arg6 harg6 hc0 hc1 x0 x1 xs0).2.1)

theorem cover0_C_2 (c : Dev nD) (i : grid0.Coords) (arg3 : Memref sig .tc .vmem S1024x512 .f32) (harg3 : arg3.IsWhole) (arg4 : Memref sig .tc .vmem S512x2048 .f32) (harg4 : arg4.IsWhole) (arg5 : Memref sig .tc .vmem S1024x2048 .bf16) (harg5 : arg5.IsWhole) (arg6 : Memref sig .tc .vmem S1024x2048 .f32) (harg6 : arg6.IsWhole) (hc0 : ¬cond0_0 i) (hc1 : cond0_1 i)
    (x0 : Vec F S1024x512 .f32) (x1 : Vec F S512x2048 .f32) (xs0 : Vec F S1024x2048 .f32) (y : S1024x2048.Idx) :
    ∃ pc ∈ (kernelRun0_C c i arg3 harg3 arg4 harg4 arg5 harg5 arg6 harg6 hc0 hc1 x0 x1 xs0).1, y ∈ pc.1.set :=
  View.cover_of_tiledL (kernelRun0_C c i arg3 harg3 arg4 harg4 arg5 harg5 arg6 harg6 hc0 hc1 x0 x1 xs0).1 S1024x2048.size (by sl_kernel_rfl) y

/-- The output buffer after a point with k = 3. -/
def out0_C_2 (c : Dev nD) (i : grid0.Coords) (arg3 : Memref sig .tc .vmem S1024x512 .f32) (harg3 : arg3.IsWhole) (arg4 : Memref sig .tc .vmem S512x2048 .f32) (harg4 : arg4.IsWhole) (arg5 : Memref sig .tc .vmem S1024x2048 .bf16) (harg5 : arg5.IsWhole) (arg6 : Memref sig .tc .vmem S1024x2048 .f32) (harg6 : arg6.IsWhole) (hc0 : ¬cond0_0 i) (hc1 : cond0_1 i)
    (x0 : Vec F S1024x512 .f32) (x1 : Vec F S512x2048 .f32) (xs0 : Vec F S1024x2048 .f32) : Vec F S1024x2048 .bf16 :=
  VO0_2.read (Elt F) (VO0_2.writes (Elt F) VO0_2.junk (kernelRun0_C c i arg3 harg3 arg4 harg4 arg5 harg5 arg6 harg6 hc0 hc1 x0 x1 xs0).1)

theorem scover0_C_0 (c : Dev nD) (i : grid0.Coords) (arg3 : Memref sig .tc .vmem S1024x512 .f32) (harg3 : arg3.IsWhole) (arg4 : Memref sig .tc .vmem S512x2048 .f32) (harg4 : arg4.IsWhole) (arg5 : Memref sig .tc .vmem S1024x2048 .bf16) (harg5 : arg5.IsWhole) (arg6 : Memref sig .tc .vmem S1024x2048 .f32) (harg6 : arg6.IsWhole) (hc0 : ¬cond0_0 i) (hc1 : cond0_1 i)
    (x0 : Vec F S1024x512 .f32) (x1 : Vec F S512x2048 .f32) (xs0 : Vec F S1024x2048 .f32) (y : S1024x2048.Idx) :
    ∃ pc ∈ (kernelRun0_C c i arg3 harg3 arg4 harg4 arg5 harg5 arg6 harg6 hc0 hc1 x0 x1 xs0).2.1, y ∈ pc.1.set :=
  View.cover_of_tiledL (kernelRun0_C c i arg3 harg3 arg4 harg4 arg5 harg5 arg6 harg6 hc0 hc1 x0 x1 xs0).2.1 S1024x2048.size (by sl_kernel_rfl) y

/-- The accumulator after a point with k = 3. -/
def sout0_C_0 (c : Dev nD) (i : grid0.Coords) (arg3 : Memref sig .tc .vmem S1024x512 .f32) (harg3 : arg3.IsWhole) (arg4 : Memref sig .tc .vmem S512x2048 .f32) (harg4 : arg4.IsWhole) (arg5 : Memref sig .tc .vmem S1024x2048 .bf16) (harg5 : arg5.IsWhole) (arg6 : Memref sig .tc .vmem S1024x2048 .f32) (harg6 : arg6.IsWhole) (hc0 : ¬cond0_0 i) (hc1 : cond0_1 i)
    (x0 : Vec F S1024x512 .f32) (x1 : Vec F S512x2048 .f32) (xs0 : Vec F S1024x2048 .f32) : Vec F S1024x2048 .f32 :=
  VS0_0.read (Elt F) (VS0_0.writes (Elt F) VS0_0.junk (kernelRun0_C c i arg3 harg3 arg4 harg4 arg5 harg5 arg6 harg6 hc0 hc1 x0 x1 xs0).2.1)

/-! ## The accumulator point by point -/

/-- What the accumulator holds after the body at position `n`. -/
def acc0 (c : Dev nD) : (n : ℕ) → n < cfg0.N → Vec F S1024x2048 .f32
  | 0, hn => sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h' => by (try dsimp only at h'); omega) ((hcond0_1 ⟨0, hn⟩).mp h)) (iblk0 V c 0 ⟨0, hn⟩) (iblk0 V c 1 ⟨0, hn⟩)
  | n + 1, hn =>
    if h0 : (n + 1) % 4 = 0 then
      sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => (fun h' => by (try dsimp only at h'); omega) ((hcond0_1 ⟨n + 1, hn⟩).mp h)) (iblk0 V c 0 ⟨n + 1, hn⟩) (iblk0 V c 1 ⟨n + 1, hn⟩)
    else if h1 : (n + 1) % 4 = 3 then
      sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (acc0 c n (Nat.lt_of_succ_lt hn))
    else
      sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (acc0 c n (Nat.lt_of_succ_lt hn))

theorem acc0_A (c : Dev nD) (t : Fin cfg0.N) (h0 : t.val % 4 = 0) (h1 : ¬t.val % 4 = 3) :
    acc0 V c t.val t.isLt = sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t) := by
  obtain ⟨n, hn⟩ := t
  cases n with
  | zero => exact rfl
  | succ n => exact (dif_pos h0).trans rfl

theorem acc0_B (c : Dev nD) (t : Fin cfg0.N) (h0 : ¬t.val % 4 = 0) (h1 : ¬t.val % 4 = 3) :
    acc0 V c t.val t.isLt = sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (acc0 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem acc0_C (c : Dev nD) (t : Fin cfg0.N) (h0 : ¬t.val % 4 = 0) (h1 : t.val % 4 = 3) :
    acc0 V c t.val t.isLt = sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (acc0 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- What the output buffer holds after the body at point `t`: at k = 3 the narrowed accumulator; elsewhere the
    window is idle and nothing consults this value. -/
def outAt0 (c : Dev nD) (t : Fin cfg0.N) : Vec F S1024x2048 .bf16 :=
  if h1 : t.val % 4 = 3 then
    out0_C_2 c (grid0.coords t) (ms0_0 t) (hs0_0 t) (ms0_1 t) (hs0_1 t) (ms0_2 t) (hs0_2 t) scM0_0 (Memref.isWhole_whole _) (fun h => absurd ((hcond0_0 t).mp h) (by omega)) ((hcond0_1 t).mpr h1) (iblk0 V c 0 t) (iblk0 V c 1 t) (acc0 V c (t.val - 1) (Nat.lt_of_le_of_lt (Nat.sub_le _ _) t.isLt))
  else VO0_2.read (Elt F) VO0_2.junk

theorem outAt0_C (c : Dev nD) (t : Fin cfg0.N) (h0 : ¬t.val % 4 = 0) (h1 : t.val % 4 = 3) :
    outAt0 V c t = out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (acc0 V c (t.val - 1) (Nat.lt_of_le_of_lt (Nat.sub_le _ _) t.isLt)) := by
  unfold outAt0; exact dif_pos h1

/-! ## The region's invariant -/

/-- Before the first point the accumulator is at anything; before any other it is at what the point before left. -/
def PhiS0 (c : Dev nD) : (n : ℕ) → n ≤ cfg0.N → sProp 𝕄
  | 0, _ => Pipeline.ΦA spec0 c
  | n + 1, hn => iprop(iprop(owns (c : Thread nD τ) scM0_0 fullShare (acc0 V c n hn) ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare (acc0 V c n hn) ∗ Pipeline.scopedRestBut (Ix := Unit) (Name := ℕ) (U := UR sig nD τ) (Lvl := ℕ) (Val := Elt F) spec0 c [cc0_scratch0]) ∗ (∃ r, prngReg c r)) := rfl

theorem PhiS0_pos (c : Dev nD) (n : ℕ) (h : n ≤ cfg0.N) (hz : n ≠ 0) :
    PhiS0 V c n h = iprop(iprop(owns (c : Thread nD τ) scM0_0 fullShare (acc0 V c (n - 1) (by omega)) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outAt0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = outAt0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 8 := lt_of_lt_of_eq t.isLt (show cfg0.N = 8 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 4 = 0
  · have h1 : ¬t.val % 4 = 3 := by omega
    rw [Dat.leavesExact_idle (dat0 V c) 2 t (idleAt0_2 t (fun h => h1 ((hcond0_1 t).mp h))) (noFlush0_2 t (fun h => h1 ((hcond0_1 t).mp h)))]
    rw [acc0_A V c t h0 h1]
    unfold sout0_A_0; (try dsimp only)
    by_cases hz : t.val = 0
    · rw [PhiS0_castSucc V c t, PhiS0_zero V c _ _ hz, PhiA0_eq]
      iintro ⟨⟨⟨HS0, Hrest⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A_0 c _ _ _ _ _ _ _ _ _ _ _ _ _)
          iexact Hrest
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS0, Hrest⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A_0 c _ _ _ _ _ _ _ _ _ _ _ _ _)
          iexact Hrest
        iexact Hg
      isplitl [Ho]; · iexact Ho
      isplitl [H0]; · iexact H0
      isplitl [H1]; · iexact H1
      iexists _; iexact H2
  · have hz : t.val ≠ 0 := fun h => h0 (by rw [h])
    by_cases h1 : t.val % 4 = 3
    · rw [show (dat0 V c).leavesExact 2 t = owns (c : Thread nD τ) (ms0_2 t) fullShare ((dat0 V c).after 2 t) from by
        unfold Dat.leavesExact; rw [liveAt0_2 t ((hcond0_1 t).mpr h1)], after0_2]
      rw [acc0_C V c t h0 h1, outAt0_C V c t h0 h1]
      unfold out0_C_2 sout0_C_0; (try dsimp only)
      rw [PhiS0_castSucc V c t, PhiS0_pos V c _ _ hz]
      iintro ⟨⟨⟨HS0, Hrest⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_C_0 c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dat0 V c) 2 t (idleAt0_2 t (fun h => h1 ((hcond0_1 t).mp h))) (noFlush0_2 t (fun h => h1 ((hcond0_1 t).mp h)))]
      rw [acc0_B V c t h0 h1]
      unfold sout0_B_0; (try dsimp only)
      rw [PhiS0_castSucc V c t, PhiS0_pos V c _ _ hz]
      iintro ⟨⟨⟨HS0, Hrest⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_B_0 c _ _ _ _ _ _ _ _ _ _ _ _ _ _)
          iexact Hrest
        iexact Hg
      isplitl [Ho]; · iexact Ho
      isplitl [H0]; · iexact H0
      isplitl [H1]; · iexact H1
      iexists _; iexact H2

theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the scoped rest back, the accumulator's contents forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 8 := N_0; omega), PhiA0_eq]
  iintro ⟨⟨HS0, Hrest⟩, Hg⟩
  isplitl [HS0 Hrest]
  · isplitl [HS0]
    · iexists _; iexact HS0
    iexact Hrest
  iexact Hg

end Cert.Kernel.Hand

end
-- ==== Proof.KB.R1Base.lean ====
/- Region 1 (one layer: the product M·x accumulated over four column slabs, plus the bias row): what every case of
   its body shares. The grid is (i, j, k) = (2, 1, 4), so point t has k = t mod 4. The body zeroes the accumulator
   when k = 0, adds the product of the point's two blocks at every point, and when k = 3 stores the accumulator plus
   the bias row over the output block; elsewhere the output window is idle and is not written back. -/
import proofs.«106939_j75831942578756_2_alg».proof.Proof.Gen.Kernel.Launch
import proofs.«106939_j75831942578756_2_alg».proof.Proof.Gen.Kernel.Skeleton
import proofs.«106939_j75831942578756_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left operand's staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The right operand's staging buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias row's staging buffer holds the row at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions over the grid -/

/-- "k = 0": the accumulator is zeroed. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- "k = 3": the accumulator plus the bias row is handed to the output block. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from k = 3 the output window is idle and its block is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The memrefs the body is called with -/

abbrev VO1_3 : View sig .tc .vmem S1024x2048 .bf16 := (Memref.whole cc1_stg3_0 : Memref sig .tc .vmem S1024x2048 .bf16).view
abbrev ms1_0 (t : Fin cfg1.N) : Memref sig .tc .vmem S1024x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x2048 .bf16 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1_0 : Memref sig .tc .vmem S1024x2048 .f32 := Memref.whole cc1_scratch0
abbrev VS1_0 : View sig .tc .vmem S1024x2048 .f32 := scM1_0.view

/-- The region's starting invariant with the accumulator split off the scoped rest: the accumulator at anything,
    every other scoped buffer unopened, the generator register at some state. -/
theorem PhiA1_eq (c : Dev nD) :
    (Pipeline.ΦA spec1 c : sProp 𝕄)
      = iprop(iprop((∃ d, owns (c : Thread nD τ) scM1_0 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

end Cert.Kernel.Hand

end
-- ==== Proof.KB.R1RunA.lean ====
/- Region 1, the points with k = 0: the body zeroes the accumulator, adds the blocks' product, leaves the output
   buffer alone. The pieces the accumulator ends with are found by running the body symbolically. -/
import proofs.«106939_j75831942578756_2_alg».proof.Proof.KB.R1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg3 : Memref sig .tc .vmem S1024x512 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : cond1_0 i) (hc1 : ¬cond1_1 i)
    (x0 : Vec F S1024x512 .bf16) (x1 : Vec F S512x2048 .f32) (x2 : Vec F S1x2048 .f32) :
    Σ' (L3 : List (View.Piece (Elt F) S1024x2048 .bf16)), { LS0 : List (View.Piece (Elt F) S1024x2048 .f32) //
      ∀ (xi3 : Vec F S1024x2048 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_bias_kernel i arg3 harg3 arg4 harg4 arg5 harg5 arg6 harg6 arg7 harg7) K } := by
  refine ⟨[], ?_, fun xi3 E K => ?run⟩
  case run =>
    simp only [cc1__matmul_bias_kernel_eq_skeleton]; unfold cc1__matmul_bias_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.KB.R1RunB.lean ====
/- Region 1, the points with k = 1, 2: the body adds the blocks' product to the accumulator it finds and leaves
   the output buffer alone. -/
import proofs.«106939_j75831942578756_2_alg».proof.Proof.KB.R1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg3 : Memref sig .tc .vmem S1024x512 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : ¬cond1_0 i) (hc1 : ¬cond1_1 i)
    (x0 : Vec F S1024x512 .bf16) (x1 : Vec F S512x2048 .f32) (x2 : Vec F S1x2048 .f32) (xs0 : Vec F S1024x2048 .f32) :
    Σ' (L3 : List (View.Piece (Elt F) S1024x2048 .bf16)), { LS0 : List (View.Piece (Elt F) S1024x2048 .f32) //
      ∀ (xi3 : Vec F S1024x2048 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_bias_kernel i arg3 harg3 arg4 harg4 arg5 harg5 arg6 harg6 arg7 harg7) K } := by
  refine ⟨[], ?_, fun xi3 E K => ?run⟩
  case run =>
    simp only [cc1__matmul_bias_kernel_eq_skeleton]; unfold cc1__matmul_bias_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.KB.R1RunC.lean ====
/- Region 1, the points with k = 3: the body adds the blocks' product to the accumulator it finds and stores the
   accumulator plus the bias row, in the output's format, over the whole output buffer. -/
import proofs.«106939_j75831942578756_2_alg».proof.Proof.KB.R1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg3 : Memref sig .tc .vmem S1024x512 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : ¬cond1_0 i) (hc1 : cond1_1 i)
    (x0 : Vec F S1024x512 .bf16) (x1 : Vec F S512x2048 .f32) (x2 : Vec F S1x2048 .f32) (xs0 : Vec F S1024x2048 .f32) :
    Σ' (L3 : List (View.Piece (Elt F) S1024x2048 .bf16)), { LS0 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_bias_kernel i arg3 harg3 arg4 harg4 arg5 harg5 arg6 harg6 arg7 harg7) K } := by
  refine ⟨?_, ?_, fun E K => ?run⟩
  case run =>
    simp only [cc1__matmul_bias_kernel_eq_skeleton]; unfold cc1__matmul_bias_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Hand

end
-- ==== Proof.KB.R1Frame.lean ====
/- Region 1 (one layer, M·x over four column slabs plus the bias row): what the accumulator holds after each point,
   the pipeline's proof data, and the body obligation at every point. After point t the accumulator holds the sum of
   the products of the blocks of the points k' ≤ k of t's row of points, started from zero at k = 0; the output block
   of a row of points is the accumulator after its last point plus the bias row, in the output's format. -/
import proofs.«106939_j75831942578756_2_alg».proof.Proof.KB.R1RunA
import proofs.«106939_j75831942578756_2_alg».proof.Proof.KB.R1RunB
import proofs.«106939_j75831942578756_2_alg».proof.Proof.KB.R1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem scover1_A_0 (c : Dev nD) (i : grid1.Coords) (arg3 : Memref sig .tc .vmem S1024x512 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : cond1_0 i) (hc1 : ¬cond1_1 i)
    (x0 : Vec F S1024x512 .bf16) (x1 : Vec F S512x2048 .f32) (x2 : Vec F S1x2048 .f32) (y : S1024x2048.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1024x2048.size (by sl_kernel_rfl) y

/-- The accumulator after a point with k = 0. -/
def sout1_A_0 (c : Dev nD) (i : grid1.Coords) (arg3 : Memref sig .tc .vmem S1024x512 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : cond1_0 i) (hc1 : ¬cond1_1 i)
    (x0 : Vec F S1024x512 .bf16) (x1 : Vec F S512x2048 .f32) (x2 : Vec F S1x2048 .f32) : Vec F S1024x2048 .f32 :=
  VS1_0.read (Elt F) (VS1_0.writes (Elt F) VS1_0.junk (kernelRun1_A c i arg3 harg3 arg4 harg4 arg5 harg5 arg6 harg6 arg7 harg7 hc0 hc1 x0 x1 x2).2.1)

theorem scover1_B_0 (c : Dev nD) (i : grid1.Coords) (arg3 : Memref sig .tc .vmem S1024x512 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : ¬cond1_0 i) (hc1 : ¬cond1_1 i)
    (x0 : Vec F S1024x512 .bf16) (x1 : Vec F S512x2048 .f32) (x2 : Vec F S1x2048 .f32) (xs0 : Vec F S1024x2048 .f32) (y : S1024x2048.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S1024x2048.size (by sl_kernel_rfl) y

/-- The accumulator after a point with k = 1, 2, from what the point before left. -/
def sout1_B_0 (c : Dev nD) (i : grid1.Coords) (arg3 : Memref sig .tc .vmem S1024x512 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : ¬cond1_0 i) (hc1 : ¬cond1_1 i)
    (x0 : Vec F S1024x512 .bf16) (x1 : Vec F S512x2048 .f32) (x2 : Vec F S1x2048 .f32) (xs0 : Vec F S1024x2048 .f32) : Vec F S1024x2048 .f32 :=
  VS1_0.read (Elt F) (VS1_0.writes (Elt F) VS1_0.junk (kernelRun1_B c i arg3 harg3 arg4 harg4 arg5 harg5 arg6 harg6 arg7 harg7 hc0 hc1 x0 x1 x2 xs0).2.1)

theorem cover1_C_3 (c : Dev nD) (i : grid1.Coords) (arg3 : Memref sig .tc .vmem S1024x512 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : ¬cond1_0 i) (hc1 : cond1_1 i)
    (x0 : Vec F S1024x512 .bf16) (x1 : Vec F S512x2048 .f32) (x2 : Vec F S1x2048 .f32) (xs0 : Vec F S1024x2048 .f32) (y : S1024x2048.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1024x2048.size (by sl_kernel_rfl) y

/-- The output buffer after a point with k = 3. -/
def out1_C_3 (c : Dev nD) (i : grid1.Coords) (arg3 : Memref sig .tc .vmem S1024x512 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : ¬cond1_0 i) (hc1 : cond1_1 i)
    (x0 : Vec F S1024x512 .bf16) (x1 : Vec F S512x2048 .f32) (x2 : Vec F S1x2048 .f32) (xs0 : Vec F S1024x2048 .f32) : Vec F S1024x2048 .bf16 :=
  VO1_3.read (Elt F) (VO1_3.writes (Elt F) VO1_3.junk (kernelRun1_C c i arg3 harg3 arg4 harg4 arg5 harg5 arg6 harg6 arg7 harg7 hc0 hc1 x0 x1 x2 xs0).1)

theorem scover1_C_0 (c : Dev nD) (i : grid1.Coords) (arg3 : Memref sig .tc .vmem S1024x512 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : ¬cond1_0 i) (hc1 : cond1_1 i)
    (x0 : Vec F S1024x512 .bf16) (x1 : Vec F S512x2048 .f32) (x2 : Vec F S1x2048 .f32) (xs0 : Vec F S1024x2048 .f32) (y : S1024x2048.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S1024x2048.size (by sl_kernel_rfl) y

/-- The accumulator after a point with k = 3. -/
def sout1_C_0 (c : Dev nD) (i : grid1.Coords) (arg3 : Memref sig .tc .vmem S1024x512 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : ¬cond1_0 i) (hc1 : cond1_1 i)
    (x0 : Vec F S1024x512 .bf16) (x1 : Vec F S512x2048 .f32) (x2 : Vec F S1x2048 .f32) (xs0 : Vec F S1024x2048 .f32) : Vec F S1024x2048 .f32 :=
  VS1_0.read (Elt F) (VS1_0.writes (Elt F) VS1_0.junk (kernelRun1_C c i arg3 harg3 arg4 harg4 arg5 harg5 arg6 harg6 arg7 harg7 hc0 hc1 x0 x1 x2 xs0).2.1)

/-! ## The accumulator point by point -/

/-- What the accumulator holds after the body at position `n`. -/
def acc1 (c : Dev nD) : (n : ℕ) → n < cfg1.N → Vec F S1024x2048 .f32
  | 0, hn => sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h' => by (try dsimp only at h'); omega) ((hcond1_1 ⟨0, hn⟩).mp h)) (iblk1 V c 0 ⟨0, hn⟩) (iblk1 V c 1 ⟨0, hn⟩) (iblk1 V c 2 ⟨0, hn⟩)
  | n + 1, hn =>
    if h0 : (n + 1) % 4 = 0 then
      sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => (fun h' => by (try dsimp only at h'); omega) ((hcond1_1 ⟨n + 1, hn⟩).mp h)) (iblk1 V c 0 ⟨n + 1, hn⟩) (iblk1 V c 1 ⟨n + 1, hn⟩) (iblk1 V c 2 ⟨n + 1, hn⟩)
    else if h1 : (n + 1) % 4 = 3 then
      sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (acc1 c n (Nat.lt_of_succ_lt hn))
    else
      sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (acc1 c n (Nat.lt_of_succ_lt hn))

theorem acc1_A (c : Dev nD) (t : Fin cfg1.N) (h0 : t.val % 4 = 0) (h1 : ¬t.val % 4 = 3) :
    acc1 V c t.val t.isLt = sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t) := by
  obtain ⟨n, hn⟩ := t
  cases n with
  | zero => exact rfl
  | succ n => exact (dif_pos h0).trans rfl

theorem acc1_B (c : Dev nD) (t : Fin cfg1.N) (h0 : ¬t.val % 4 = 0) (h1 : ¬t.val % 4 = 3) :
    acc1 V c t.val t.isLt = sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (acc1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem acc1_C (c : Dev nD) (t : Fin cfg1.N) (h0 : ¬t.val % 4 = 0) (h1 : t.val % 4 = 3) :
    acc1 V c t.val t.isLt = sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (acc1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- What the output buffer holds after the body at point `t`: at k = 3 the accumulator plus the bias row; elsewhere
    the window is idle and nothing consults this value. -/
def outAt1 (c : Dev nD) (t : Fin cfg1.N) : Vec F S1024x2048 .bf16 :=
  if h1 : t.val % 4 = 3 then
    out1_C_3 c (grid1.coords t) (ms1_0 t) (hs1_0 t) (ms1_1 t) (hs1_1 t) (ms1_2 t) (hs1_2 t) (ms1_3 t) (hs1_3 t) scM1_0 (Memref.isWhole_whole _) (fun h => absurd ((hcond1_0 t).mp h) (by omega)) ((hcond1_1 t).mpr h1) (iblk1 V c 0 t) (iblk1 V c 1 t) (iblk1 V c 2 t) (acc1 V c (t.val - 1) (Nat.lt_of_le_of_lt (Nat.sub_le _ _) t.isLt))
  else VO1_3.read (Elt F) VO1_3.junk

theorem outAt1_C (c : Dev nD) (t : Fin cfg1.N) (h0 : ¬t.val % 4 = 0) (h1 : t.val % 4 = 3) :
    outAt1 V c t = out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (acc1 V c (t.val - 1) (Nat.lt_of_le_of_lt (Nat.sub_le _ _) t.isLt)) := by
  unfold outAt1; exact dif_pos h1

/-! ## The region's invariant -/

/-- Before the first point the accumulator is at anything; before any other it is at what the point before left. -/
def PhiS1 (c : Dev nD) : (n : ℕ) → n ≤ cfg1.N → sProp 𝕄
  | 0, _ => Pipeline.ΦA spec1 c
  | n + 1, hn => iprop(iprop(owns (c : Thread nD τ) scM1_0 fullShare (acc1 V c n hn) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare (acc1 V c n hn) ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(owns (c : Thread nD τ) scM1_0 fullShare (acc1 V c (n - 1) (by omega)) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 8 := lt_of_lt_of_eq t.isLt (show cfg1.N = 8 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 4 = 0
  · have h1 : ¬t.val % 4 = 3 := by omega
    rw [Dat.leavesExact_idle (dat1 V c) 3 t (idleAt1_3 t (fun h => h1 ((hcond1_1 t).mp h))) (noFlush1_3 t (fun h => h1 ((hcond1_1 t).mp h)))]
    rw [acc1_A V c t h0 h1]
    unfold sout1_A_0; (try dsimp only)
    by_cases hz : t.val = 0
    · rw [PhiS1_castSucc V c t, PhiS1_zero V c _ _ hz, PhiA1_eq]
      iintro ⟨⟨⟨HS0, Hrest⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_A_0 c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS0, Hrest⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_A_0 c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 4 = 3
    · rw [show (dat1 V c).leavesExact 3 t = owns (c : Thread nD τ) (ms1_3 t) fullShare ((dat1 V c).after 3 t) from by
        unfold Dat.leavesExact; rw [liveAt1_3 t ((hcond1_1 t).mpr h1)], after1_3]
      rw [acc1_C V c t h0 h1, outAt1_C V c t h0 h1]
      unfold out1_C_3 sout1_C_0; (try dsimp only)
      rw [PhiS1_castSucc V c t, PhiS1_pos V c _ _ hz]
      iintro ⟨⟨⟨HS0, Hrest⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_C_0 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [acc1_B V c t h0 h1]
      unfold sout1_B_0; (try dsimp only)
      rw [PhiS1_castSucc V c t, PhiS1_pos V c _ _ hz]
      iintro ⟨⟨⟨HS0, Hrest⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_B_0 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the scoped rest back, the accumulator's contents forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 8 := N_1; omega), PhiA1_eq]
  iintro ⟨⟨HS0, Hrest⟩, Hg⟩
  isplitl [HS0 Hrest]
  · isplitl [HS0]
    · iexists _; iexact HS0
    iexact Hrest
  iexact Hg

end Cert.Kernel.Hand

end
-- ==== Proof.KB.R2Base.lean ====
/- Region 2 (one layer: the product M·x accumulated over four column slabs, plus the bias row): what every case of
   its body shares. The grid is (i, j, k) = (2, 1, 4), so point t has k = t mod 4. The body zeroes the accumulator
   when k = 0, adds the product of the point's two blocks at every point, and when k = 3 stores the accumulator plus
   the bias row over the output block; elsewhere the output window is idle and is not written back. -/
import proofs.«106939_j75831942578756_2_alg».proof.Proof.Gen.Kernel.Launch
import proofs.«106939_j75831942578756_2_alg».proof.Proof.Gen.Kernel.Skeleton
import proofs.«106939_j75831942578756_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The left operand's staging buffer holds its block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The right operand's staging buffer holds its block at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The bias row's staging buffer holds the row at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions over the grid -/

/-- "k = 0": the accumulator is zeroed. -/
abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)

/-- "k = 3": the accumulator plus the bias row is handed to the output block. -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Away from k = 3 the output window is idle and its block is not written back. -/
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
theorem liveAt2_3 : ∀ t : Fin cfg2.N, cond2_1 (grid2.coords t) → cfg2.idle 3 (grid2.coords t) = false := by decide +kernel

/-! ## The memrefs the body is called with -/

abbrev VO2_3 : View sig .tc .vmem S1024x2048 .bf16 := (Memref.whole cc2_stg3_0 : Memref sig .tc .vmem S1024x2048 .bf16).view
abbrev ms2_0 (t : Fin cfg2.N) : Memref sig .tc .vmem S1024x512 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x2048 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x2048 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x2048 .bf16 := win2_3.stage (cfg2.slots t 3)
abbrev hs2_3 (t : Fin cfg2.N) : (ms2_3 t).IsWhole := hstage2_3 ((cfg2.slots t 3).cast nbuf2_3)
/-- The accumulator: a whole scoped buffer of the kernel's own. -/
abbrev scM2_0 : Memref sig .tc .vmem S1024x2048 .f32 := Memref.whole cc2_scratch0
abbrev VS2_0 : View sig .tc .vmem S1024x2048 .f32 := scM2_0.view

/-- The region's starting invariant with the accumulator split off the scoped rest: the accumulator at anything,
    every other scoped buffer unopened, the generator register at some state. -/
theorem PhiA2_eq (c : Dev nD) :
    (Pipeline.ΦA spec2 c : sProp 𝕄)
      = iprop(iprop((∃ d, owns (c : Thread nD τ) scM2_0 fullShare d) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2_0, owns_whole]; try rfl

end Cert.Kernel.Hand

end
-- ==== Proof.KB.R2RunA.lean ====
/- Region 2, the points with k = 0: the body zeroes the accumulator, adds the blocks' product, leaves the output
   buffer alone. The pieces the accumulator ends with are found by running the body symbolically. -/
import proofs.«106939_j75831942578756_2_alg».proof.Proof.KB.R2Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_A (c : Dev nD) (i : grid2.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : cond2_0 i) (hc1 : ¬cond2_1 i)
    (x0 : Vec F S1024x512 .bf16) (x1 : Vec F S512x2048 .bf16) (x2 : Vec F S1x2048 .f32) :
    Σ' (L3 : List (View.Piece (Elt F) S1024x2048 .bf16)), { LS0 : List (View.Piece (Elt F) S1024x2048 .f32) //
      ∀ (xi3 : Vec F S1024x2048 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc2__matmul_bias_kernel i arg3 harg3 arg4 harg4 arg5 harg5 arg6 harg6 arg7 harg7) K } := by
  refine ⟨[], ?_, fun xi3 E K => ?run⟩
  case run =>
    simp only [cc2__matmul_bias_kernel_eq_skeleton]; unfold cc2__matmul_bias_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.KB.R2RunB.lean ====
/- Region 2, the points with k = 1, 2: the body adds the blocks' product to the accumulator it finds and leaves
   the output buffer alone. -/
import proofs.«106939_j75831942578756_2_alg».proof.Proof.KB.R2Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_B (c : Dev nD) (i : grid2.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : ¬cond2_0 i) (hc1 : ¬cond2_1 i)
    (x0 : Vec F S1024x512 .bf16) (x1 : Vec F S512x2048 .bf16) (x2 : Vec F S1x2048 .f32) (xs0 : Vec F S1024x2048 .f32) :
    Σ' (L3 : List (View.Piece (Elt F) S1024x2048 .bf16)), { LS0 : List (View.Piece (Elt F) S1024x2048 .f32) //
      ∀ (xi3 : Vec F S1024x2048 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc2__matmul_bias_kernel i arg3 harg3 arg4 harg4 arg5 harg5 arg6 harg6 arg7 harg7) K } := by
  refine ⟨[], ?_, fun xi3 E K => ?run⟩
  case run =>
    simp only [cc2__matmul_bias_kernel_eq_skeleton]; unfold cc2__matmul_bias_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.KB.R2RunC.lean ====
/- Region 2, the points with k = 3: the body adds the blocks' product to the accumulator it finds and stores the
   accumulator plus the bias row, in the output's format, over the whole output buffer. -/
import proofs.«106939_j75831942578756_2_alg».proof.Proof.KB.R2Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_C (c : Dev nD) (i : grid2.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : ¬cond2_0 i) (hc1 : cond2_1 i)
    (x0 : Vec F S1024x512 .bf16) (x1 : Vec F S512x2048 .bf16) (x2 : Vec F S1x2048 .f32) (xs0 : Vec F S1024x2048 .f32) :
    Σ' (L3 : List (View.Piece (Elt F) S1024x2048 .bf16)), { LS0 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc2__matmul_bias_kernel i arg3 harg3 arg4 harg4 arg5 harg5 arg6 harg6 arg7 harg7) K } := by
  refine ⟨?_, ?_, fun E K => ?run⟩
  case run =>
    simp only [cc2__matmul_bias_kernel_eq_skeleton]; unfold cc2__matmul_bias_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Hand

end
-- ==== Proof.KB.R2Frame.lean ====
/- Region 2 (one layer, M·x over four column slabs plus the bias row): what the accumulator holds after each point,
   the pipeline's proof data, and the body obligation at every point. After point t the accumulator holds the sum of
   the products of the blocks of the points k' ≤ k of t's row of points, started from zero at k = 0; the output block
   of a row of points is the accumulator after its last point plus the bias row, in the output's format. -/
import proofs.«106939_j75831942578756_2_alg».proof.Proof.KB.R2RunA
import proofs.«106939_j75831942578756_2_alg».proof.Proof.KB.R2RunB
import proofs.«106939_j75831942578756_2_alg».proof.Proof.KB.R2RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem scover2_A_0 (c : Dev nD) (i : grid2.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : cond2_0 i) (hc1 : ¬cond2_1 i)
    (x0 : Vec F S1024x512 .bf16) (x1 : Vec F S512x2048 .bf16) (x2 : Vec F S1x2048 .f32) (y : S1024x2048.Idx) :
    ∃ pc ∈ (kernelRun2_A c i arg3 harg3 arg4 harg4 arg5 harg5 arg6 harg6 arg7 harg7 hc0 hc1 x0 x1 x2).2.1, y ∈ pc.1.set :=
  View.cover_of_tiledL (kernelRun2_A c i arg3 harg3 arg4 harg4 arg5 harg5 arg6 harg6 arg7 harg7 hc0 hc1 x0 x1 x2).2.1 S1024x2048.size (by sl_kernel_rfl) y

/-- The accumulator after a point with k = 0. -/
def sout2_A_0 (c : Dev nD) (i : grid2.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : cond2_0 i) (hc1 : ¬cond2_1 i)
    (x0 : Vec F S1024x512 .bf16) (x1 : Vec F S512x2048 .bf16) (x2 : Vec F S1x2048 .f32) : Vec F S1024x2048 .f32 :=
  VS2_0.read (Elt F) (VS2_0.writes (Elt F) VS2_0.junk (kernelRun2_A c i arg3 harg3 arg4 harg4 arg5 harg5 arg6 harg6 arg7 harg7 hc0 hc1 x0 x1 x2).2.1)

theorem scover2_B_0 (c : Dev nD) (i : grid2.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : ¬cond2_0 i) (hc1 : ¬cond2_1 i)
    (x0 : Vec F S1024x512 .bf16) (x1 : Vec F S512x2048 .bf16) (x2 : Vec F S1x2048 .f32) (xs0 : Vec F S1024x2048 .f32) (y : S1024x2048.Idx) :
    ∃ pc ∈ (kernelRun2_B c i arg3 harg3 arg4 harg4 arg5 harg5 arg6 harg6 arg7 harg7 hc0 hc1 x0 x1 x2 xs0).2.1, y ∈ pc.1.set :=
  View.cover_of_tiledL (kernelRun2_B c i arg3 harg3 arg4 harg4 arg5 harg5 arg6 harg6 arg7 harg7 hc0 hc1 x0 x1 x2 xs0).2.1 S1024x2048.size (by sl_kernel_rfl) y

/-- The accumulator after a point with k = 1, 2, from what the point before left. -/
def sout2_B_0 (c : Dev nD) (i : grid2.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : ¬cond2_0 i) (hc1 : ¬cond2_1 i)
    (x0 : Vec F S1024x512 .bf16) (x1 : Vec F S512x2048 .bf16) (x2 : Vec F S1x2048 .f32) (xs0 : Vec F S1024x2048 .f32) : Vec F S1024x2048 .f32 :=
  VS2_0.read (Elt F) (VS2_0.writes (Elt F) VS2_0.junk (kernelRun2_B c i arg3 harg3 arg4 harg4 arg5 harg5 arg6 harg6 arg7 harg7 hc0 hc1 x0 x1 x2 xs0).2.1)

theorem cover2_C_3 (c : Dev nD) (i : grid2.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : ¬cond2_0 i) (hc1 : cond2_1 i)
    (x0 : Vec F S1024x512 .bf16) (x1 : Vec F S512x2048 .bf16) (x2 : Vec F S1x2048 .f32) (xs0 : Vec F S1024x2048 .f32) (y : S1024x2048.Idx) :
    ∃ pc ∈ (kernelRun2_C c i arg3 harg3 arg4 harg4 arg5 harg5 arg6 harg6 arg7 harg7 hc0 hc1 x0 x1 x2 xs0).1, y ∈ pc.1.set :=
  View.cover_of_tiledL (kernelRun2_C c i arg3 harg3 arg4 harg4 arg5 harg5 arg6 harg6 arg7 harg7 hc0 hc1 x0 x1 x2 xs0).1 S1024x2048.size (by sl_kernel_rfl) y

/-- The output buffer after a point with k = 3. -/
def out2_C_3 (c : Dev nD) (i : grid2.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : ¬cond2_0 i) (hc1 : cond2_1 i)
    (x0 : Vec F S1024x512 .bf16) (x1 : Vec F S512x2048 .bf16) (x2 : Vec F S1x2048 .f32) (xs0 : Vec F S1024x2048 .f32) : Vec F S1024x2048 .bf16 :=
  VO2_3.read (Elt F) (VO2_3.writes (Elt F) VO2_3.junk (kernelRun2_C c i arg3 harg3 arg4 harg4 arg5 harg5 arg6 harg6 arg7 harg7 hc0 hc1 x0 x1 x2 xs0).1)

theorem scover2_C_0 (c : Dev nD) (i : grid2.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : ¬cond2_0 i) (hc1 : cond2_1 i)
    (x0 : Vec F S1024x512 .bf16) (x1 : Vec F S512x2048 .bf16) (x2 : Vec F S1x2048 .f32) (xs0 : Vec F S1024x2048 .f32) (y : S1024x2048.Idx) :
    ∃ pc ∈ (kernelRun2_C c i arg3 harg3 arg4 harg4 arg5 harg5 arg6 harg6 arg7 harg7 hc0 hc1 x0 x1 x2 xs0).2.1, y ∈ pc.1.set :=
  View.cover_of_tiledL (kernelRun2_C c i arg3 harg3 arg4 harg4 arg5 harg5 arg6 harg6 arg7 harg7 hc0 hc1 x0 x1 x2 xs0).2.1 S1024x2048.size (by sl_kernel_rfl) y

/-- The accumulator after a point with k = 3. -/
def sout2_C_0 (c : Dev nD) (i : grid2.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : ¬cond2_0 i) (hc1 : cond2_1 i)
    (x0 : Vec F S1024x512 .bf16) (x1 : Vec F S512x2048 .bf16) (x2 : Vec F S1x2048 .f32) (xs0 : Vec F S1024x2048 .f32) : Vec F S1024x2048 .f32 :=
  VS2_0.read (Elt F) (VS2_0.writes (Elt F) VS2_0.junk (kernelRun2_C c i arg3 harg3 arg4 harg4 arg5 harg5 arg6 harg6 arg7 harg7 hc0 hc1 x0 x1 x2 xs0).2.1)

/-! ## The accumulator point by point -/

/-- What the accumulator holds after the body at position `n`. -/
def acc2 (c : Dev nD) : (n : ℕ) → n < cfg2.N → Vec F S1024x2048 .f32
  | 0, hn => sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h' => by (try dsimp only at h'); omega) ((hcond2_1 ⟨0, hn⟩).mp h)) (iblk2 V c 0 ⟨0, hn⟩) (iblk2 V c 1 ⟨0, hn⟩) (iblk2 V c 2 ⟨0, hn⟩)
  | n + 1, hn =>
    if h0 : (n + 1) % 4 = 0 then
      sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => (fun h' => by (try dsimp only at h'); omega) ((hcond2_1 ⟨n + 1, hn⟩).mp h)) (iblk2 V c 0 ⟨n + 1, hn⟩) (iblk2 V c 1 ⟨n + 1, hn⟩) (iblk2 V c 2 ⟨n + 1, hn⟩)
    else if h1 : (n + 1) % 4 = 3 then
      sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (acc2 c n (Nat.lt_of_succ_lt hn))
    else
      sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (acc2 c n (Nat.lt_of_succ_lt hn))

theorem acc2_A (c : Dev nD) (t : Fin cfg2.N) (h0 : t.val % 4 = 0) (h1 : ¬t.val % 4 = 3) :
    acc2 V c t.val t.isLt = sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t) := by
  obtain ⟨n, hn⟩ := t
  cases n with
  | zero => exact rfl
  | succ n => exact (dif_pos h0).trans rfl

theorem acc2_B (c : Dev nD) (t : Fin cfg2.N) (h0 : ¬t.val % 4 = 0) (h1 : ¬t.val % 4 = 3) :
    acc2 V c t.val t.isLt = sout2_B_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (acc2 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem acc2_C (c : Dev nD) (t : Fin cfg2.N) (h0 : ¬t.val % 4 = 0) (h1 : t.val % 4 = 3) :
    acc2 V c t.val t.isLt = sout2_C_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (acc2 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- What the output buffer holds after the body at point `t`: at k = 3 the accumulator plus the bias row; elsewhere
    the window is idle and nothing consults this value. -/
def outAt2 (c : Dev nD) (t : Fin cfg2.N) : Vec F S1024x2048 .bf16 :=
  if h1 : t.val % 4 = 3 then
    out2_C_3 c (grid2.coords t) (ms2_0 t) (hs2_0 t) (ms2_1 t) (hs2_1 t) (ms2_2 t) (hs2_2 t) (ms2_3 t) (hs2_3 t) scM2_0 (Memref.isWhole_whole _) (fun h => absurd ((hcond2_0 t).mp h) (by omega)) ((hcond2_1 t).mpr h1) (iblk2 V c 0 t) (iblk2 V c 1 t) (iblk2 V c 2 t) (acc2 V c (t.val - 1) (Nat.lt_of_le_of_lt (Nat.sub_le _ _) t.isLt))
  else VO2_3.read (Elt F) VO2_3.junk

theorem outAt2_C (c : Dev nD) (t : Fin cfg2.N) (h0 : ¬t.val % 4 = 0) (h1 : t.val % 4 = 3) :
    outAt2 V c t = out2_C_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (acc2 V c (t.val - 1) (Nat.lt_of_le_of_lt (Nat.sub_le _ _) t.isLt)) := by
  unfold outAt2; exact dif_pos h1

/-! ## The region's invariant -/

/-- Before the first point the accumulator is at anything; before any other it is at what the point before left. -/
def PhiS2 (c : Dev nD) : (n : ℕ) → n ≤ cfg2.N → sProp 𝕄
  | 0, _ => Pipeline.ΦA spec2 c
  | n + 1, hn => iprop(iprop(owns (c : Thread nD τ) scM2_0 fullShare (acc2 V c n hn) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare (acc2 V c n hn) ∗ Pipeline.scopedRestBut (Ix := Unit) (Name := ℕ) (U := UR sig nD τ) (Lvl := ℕ) (Val := Elt F) spec2 c [cc2_scratch0]) ∗ (∃ r, prngReg c r)) := rfl

theorem PhiS2_pos (c : Dev nD) (n : ℕ) (h : n ≤ cfg2.N) (hz : n ≠ 0) :
    PhiS2 V c n h = iprop(iprop(owns (c : Thread nD τ) scM2_0 fullShare (acc2 V c (n - 1) (by omega)) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The pipeline's proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => outAt2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = outAt2 V c t := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 8 := lt_of_lt_of_eq t.isLt (show cfg2.N = 8 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  by_cases h0 : t.val % 4 = 0
  · have h1 : ¬t.val % 4 = 3 := by omega
    rw [Dat.leavesExact_idle (dat2 V c) 3 t (idleAt2_3 t (fun h => h1 ((hcond2_1 t).mp h))) (noFlush2_3 t (fun h => h1 ((hcond2_1 t).mp h)))]
    rw [acc2_A V c t h0 h1]
    unfold sout2_A_0; (try dsimp only)
    by_cases hz : t.val = 0
    · rw [PhiS2_castSucc V c t, PhiS2_zero V c _ _ hz, PhiA2_eq]
      iintro ⟨⟨⟨HS0, Hrest⟩, Hg⟩, Ho, ⟨%d0, H0⟩, ⟨%d1, H1⟩, ⟨%d2, H2⟩, ⟨%d3, H3⟩⟩
      iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_A_0 c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [PhiS2_castSucc V c t, PhiS2_pos V c _ _ hz]
      iintro ⟨⟨⟨HS0, Hrest⟩, Hg⟩, Ho, ⟨%d0, H0⟩, ⟨%d1, H1⟩, ⟨%d2, H2⟩, ⟨%d3, H3⟩⟩
      iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_A_0 c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 4 = 3
    · rw [show (dat2 V c).leavesExact 3 t = owns (c : Thread nD τ) (ms2_3 t) fullShare ((dat2 V c).after 3 t) from by
        unfold Dat.leavesExact; rw [liveAt2_3 t ((hcond2_1 t).mpr h1)], after2_3]
      rw [acc2_C V c t h0 h1, outAt2_C V c t h0 h1]
      unfold out2_C_3 sout2_C_0; (try dsimp only)
      rw [PhiS2_castSucc V c t, PhiS2_pos V c _ _ hz]
      iintro ⟨⟨⟨HS0, Hrest⟩, Hg⟩, Ho, ⟨%d0, H0⟩, ⟨%d1, H1⟩, ⟨%d2, H2⟩, ⟨%d3, H3⟩⟩
      iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_C_0 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_C_3 c _ _ _ _ _ _ _ _ _ _ _ _ _ _ _ _ _)
    · rw [Dat.leavesExact_idle (dat2 V c) 3 t (idleAt2_3 t (fun h => h1 ((hcond2_1 t).mp h))) (noFlush2_3 t (fun h => h1 ((hcond2_1 t).mp h)))]
      rw [acc2_B V c t h0 h1]
      unfold sout2_B_0; (try dsimp only)
      rw [PhiS2_castSucc V c t, PhiS2_pos V c _ _ hz]
      iintro ⟨⟨⟨HS0, Hrest⟩, Hg⟩, Ho, ⟨%d0, H0⟩, ⟨%d1, H1⟩, ⟨%d2, H2⟩, ⟨%d3, H3⟩⟩
      iapply ((kernelRun2_B c (grid2.coords t) _ _ _ _ _ _ _ _ _ _ (fun h => h0 ((hcond2_0 t).mp h)) (fun h => h1 ((hcond2_1 t).mp h)) (iblk2 V c 0 t) (iblk2 V c 1 t) (iblk2 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_B_0 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

theorem body_obligation2 (c : Dev nD) : BodyObligation (dat2 (F := F) V c) (defs₀ (F := F)) Variants.none () Set.univ := fun t => by
  rw [bigSep_W2, bigSep_W2]
  exact sound_body2 V c t

/-- What the region is entered with is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the scoped rest back, the accumulator's contents forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 8 := N_2; omega), PhiA2_eq]
  iintro ⟨⟨HS0, Hrest⟩, Hg⟩
  isplitl [HS0 Hrest]
  · isplitl [HS0]
    · iexists _; iexact HS0
    iexact Hrest
  iexact Hg

end Cert.Kernel.Hand

end
-- ==== Proof.KB.R3Base.lean ====
/- Region 3 (one layer: the product M·x accumulated over four column slabs, plus the bias row): what every case of
   its body shares. The grid is (i, j, k) = (2, 1, 4), so point t has k = t mod 4. The body zeroes the accumulator
   when k = 0, adds the product of the point's two blocks at every point, and when k = 3 stores the accumulator plus
   the bias row over the output block; elsewhere the output window is idle and is not written back. -/
import proofs.«106939_j75831942578756_2_alg».proof.Proof.Gen.Kernel.Launch
import proofs.«106939_j75831942578756_2_alg».proof.Proof.Gen.Kernel.Skeleton
import proofs.«106939_j75831942578756_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The left operand's staging buffer holds its block at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The right operand's staging buffer holds its block at every point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The bias row's staging buffer holds the row at every point, fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's two conditions over the grid -/

/-- "k = 0": the accumulator is zeroed. -/
abbrev cond3_0 (i : grid3.Coords) : Prop := (Scalar.cmpi .ne (Scalar.extui (Scalar.cmpi .eq (BitVec.ofNat 32 (i 2).val) 0#32)) 0#32) = 1#1
theorem hcond3_0 : ∀ t : Fin cfg3.N, cond3_0 (grid3.coords t) ↔ t.val % 4 = 0 :=
  (by decide +kernel : ∀ t : Fin grid3.N, cond3_0 (grid3.coords t) ↔ t.val % 4 = 0)

/-- "k = 3": the accumulator plus the bias row is handed to the output block. -/
abbrev cond3_1 (i : grid3.Coords) : Prop := k3_cond2 i = 1#1
theorem hcond3_1 : ∀ t : Fin cfg3.N, cond3_1 (grid3.coords t) ↔ t.val % 4 = 3 :=
  (by decide +kernel : ∀ t : Fin grid3.N, cond3_1 (grid3.coords t) ↔ t.val % 4 = 3)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- Away from k = 3 the output window is idle and its block is not written back. -/
theorem idleAt3_3 : ∀ t : Fin cfg3.N, ¬cond3_1 (grid3.coords t) → cfg3.idle 3 (grid3.coords t) = true := by decide +kernel
theorem noFlush3_3 : ∀ t : Fin cfg3.N, ¬cond3_1 (grid3.coords t) → (cfg3.win 3).flush t = false := by decide +kernel
theorem liveAt3_3 : ∀ t : Fin cfg3.N, cond3_1 (grid3.coords t) → cfg3.idle 3 (grid3.coords t) = false := by decide +kernel

/-! ## The memrefs the body is called with -/

abbrev VO3_3 : View sig .tc .vmem S1024x2048 .bf16 := (Memref.whole cc3_stg3_0 : Memref sig .tc .vmem S1024x2048 .bf16).view
abbrev ms3_0 (t : Fin cfg3.N) : Memref sig .tc .vmem S1024x512 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S512x2048 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x2048 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x2048 .bf16 := win3_3.stage (cfg3.slots t 3)
abbrev hs3_3 (t : Fin cfg3.N) : (ms3_3 t).IsWhole := hstage3_3 ((cfg3.slots t 3).cast nbuf3_3)
/-- The accumulator: a whole scoped buffer of the kernel's own. -/
abbrev scM3_0 : Memref sig .tc .vmem S1024x2048 .f32 := Memref.whole cc3_scratch0
abbrev VS3_0 : View sig .tc .vmem S1024x2048 .f32 := scM3_0.view

/-- The region's starting invariant with the accumulator split off the scoped rest: the accumulator at anything,
    every other scoped buffer unopened, the generator register at some state. -/
theorem PhiA3_eq (c : Dev nD) :
    (Pipeline.ΦA spec3 c : sProp 𝕄)
      = iprop(iprop((∃ d, owns (c : Thread nD τ) scM3_0 fullShare d) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3_0, owns_whole]; try rfl

end Cert.Kernel.Hand

end
-- ==== Proof.KB.R3RunA.lean ====
/- Region 3, the points with k = 0: the body zeroes the accumulator, adds the blocks' product, leaves the output
   buffer alone. The pieces the accumulator ends with are found by running the body symbolically. -/
import proofs.«106939_j75831942578756_2_alg».proof.Proof.KB.R3Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun3_A (c : Dev nD) (i : grid3.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : cond3_0 i) (hc1 : ¬cond3_1 i)
    (x0 : Vec F S1024x512 .bf16) (x1 : Vec F S512x2048 .bf16) (x2 : Vec F S1x2048 .f32) :
    Σ' (L3 : List (View.Piece (Elt F) S1024x2048 .bf16)), { LS0 : List (View.Piece (Elt F) S1024x2048 .f32) //
      ∀ (xi3 : Vec F S1024x2048 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc3__matmul_bias_kernel i arg3 harg3 arg4 harg4 arg5 harg5 arg6 harg6 arg7 harg7) K } := by
  refine ⟨[], ?_, fun xi3 E K => ?run⟩
  case run =>
    simp only [cc3__matmul_bias_kernel_eq_skeleton]; unfold cc3__matmul_bias_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.KB.R3RunB.lean ====
/- Region 3, the points with k = 1, 2: the body adds the blocks' product to the accumulator it finds and leaves
   the output buffer alone. -/
import proofs.«106939_j75831942578756_2_alg».proof.Proof.KB.R3Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun3_B (c : Dev nD) (i : grid3.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : ¬cond3_0 i) (hc1 : ¬cond3_1 i)
    (x0 : Vec F S1024x512 .bf16) (x1 : Vec F S512x2048 .bf16) (x2 : Vec F S1x2048 .f32) (xs0 : Vec F S1024x2048 .f32) :
    Σ' (L3 : List (View.Piece (Elt F) S1024x2048 .bf16)), { LS0 : List (View.Piece (Elt F) S1024x2048 .f32) //
      ∀ (xi3 : Vec F S1024x2048 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc3__matmul_bias_kernel i arg3 harg3 arg4 harg4 arg5 harg5 arg6 harg6 arg7 harg7) K } := by
  refine ⟨[], ?_, fun xi3 E K => ?run⟩
  case run =>
    simp only [cc3__matmul_bias_kernel_eq_skeleton]; unfold cc3__matmul_bias_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.KB.R3RunC.lean ====
/- Region 3, the points with k = 3: the body adds the blocks' product to the accumulator it finds and stores the
   accumulator plus the bias row, in the output's format, over the whole output buffer. -/
import proofs.«106939_j75831942578756_2_alg».proof.Proof.KB.R3Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun3_C (c : Dev nD) (i : grid3.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : ¬cond3_0 i) (hc1 : cond3_1 i)
    (x0 : Vec F S1024x512 .bf16) (x1 : Vec F S512x2048 .bf16) (x2 : Vec F S1x2048 .f32) (xs0 : Vec F S1024x2048 .f32) :
    Σ' (L3 : List (View.Piece (Elt F) S1024x2048 .bf16)), { LS0 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc3__matmul_bias_kernel i arg3 harg3 arg4 harg4 arg5 harg5 arg6 harg6 arg7 harg7) K } := by
  refine ⟨?_, ?_, fun E K => ?run⟩
  case run =>
    simp only [cc3__matmul_bias_kernel_eq_skeleton]; unfold cc3__matmul_bias_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Hand

end
-- ==== Proof.KB.R3Frame.lean ====
/- Region 3 (one layer, M·x over four column slabs plus the bias row): what the accumulator holds after each point,
   the pipeline's proof data, and the body obligation at every point. After point t the accumulator holds the sum of
   the products of the blocks of the points k' ≤ k of t's row of points, started from zero at k = 0; the output block
   of a row of points is the accumulator after its last point plus the bias row, in the output's format. -/
import proofs.«106939_j75831942578756_2_alg».proof.Proof.KB.R3RunA
import proofs.«106939_j75831942578756_2_alg».proof.Proof.KB.R3RunB
import proofs.«106939_j75831942578756_2_alg».proof.Proof.KB.R3RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem scover3_A_0 (c : Dev nD) (i : grid3.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : cond3_0 i) (hc1 : ¬cond3_1 i)
    (x0 : Vec F S1024x512 .bf16) (x1 : Vec F S512x2048 .bf16) (x2 : Vec F S1x2048 .f32) (y : S1024x2048.Idx) :
    ∃ pc ∈ (kernelRun3_A c i arg3 harg3 arg4 harg4 arg5 harg5 arg6 harg6 arg7 harg7 hc0 hc1 x0 x1 x2).2.1, y ∈ pc.1.set :=
  View.cover_of_tiledL (kernelRun3_A c i arg3 harg3 arg4 harg4 arg5 harg5 arg6 harg6 arg7 harg7 hc0 hc1 x0 x1 x2).2.1 S1024x2048.size (by sl_kernel_rfl) y

/-- The accumulator after a point with k = 0. -/
def sout3_A_0 (c : Dev nD) (i : grid3.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : cond3_0 i) (hc1 : ¬cond3_1 i)
    (x0 : Vec F S1024x512 .bf16) (x1 : Vec F S512x2048 .bf16) (x2 : Vec F S1x2048 .f32) : Vec F S1024x2048 .f32 :=
  VS3_0.read (Elt F) (VS3_0.writes (Elt F) VS3_0.junk (kernelRun3_A c i arg3 harg3 arg4 harg4 arg5 harg5 arg6 harg6 arg7 harg7 hc0 hc1 x0 x1 x2).2.1)

theorem scover3_B_0 (c : Dev nD) (i : grid3.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : ¬cond3_0 i) (hc1 : ¬cond3_1 i)
    (x0 : Vec F S1024x512 .bf16) (x1 : Vec F S512x2048 .bf16) (x2 : Vec F S1x2048 .f32) (xs0 : Vec F S1024x2048 .f32) (y : S1024x2048.Idx) :
    ∃ pc ∈ (kernelRun3_B c i arg3 harg3 arg4 harg4 arg5 harg5 arg6 harg6 arg7 harg7 hc0 hc1 x0 x1 x2 xs0).2.1, y ∈ pc.1.set :=
  View.cover_of_tiledL (kernelRun3_B c i arg3 harg3 arg4 harg4 arg5 harg5 arg6 harg6 arg7 harg7 hc0 hc1 x0 x1 x2 xs0).2.1 S1024x2048.size (by sl_kernel_rfl) y

/-- The accumulator after a point with k = 1, 2, from what the point before left. -/
def sout3_B_0 (c : Dev nD) (i : grid3.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : ¬cond3_0 i) (hc1 : ¬cond3_1 i)
    (x0 : Vec F S1024x512 .bf16) (x1 : Vec F S512x2048 .bf16) (x2 : Vec F S1x2048 .f32) (xs0 : Vec F S1024x2048 .f32) : Vec F S1024x2048 .f32 :=
  VS3_0.read (Elt F) (VS3_0.writes (Elt F) VS3_0.junk (kernelRun3_B c i arg3 harg3 arg4 harg4 arg5 harg5 arg6 harg6 arg7 harg7 hc0 hc1 x0 x1 x2 xs0).2.1)

theorem cover3_C_3 (c : Dev nD) (i : grid3.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : ¬cond3_0 i) (hc1 : cond3_1 i)
    (x0 : Vec F S1024x512 .bf16) (x1 : Vec F S512x2048 .bf16) (x2 : Vec F S1x2048 .f32) (xs0 : Vec F S1024x2048 .f32) (y : S1024x2048.Idx) :
    ∃ pc ∈ (kernelRun3_C c i arg3 harg3 arg4 harg4 arg5 harg5 arg6 harg6 arg7 harg7 hc0 hc1 x0 x1 x2 xs0).1, y ∈ pc.1.set :=
  View.cover_of_tiledL (kernelRun3_C c i arg3 harg3 arg4 harg4 arg5 harg5 arg6 harg6 arg7 harg7 hc0 hc1 x0 x1 x2 xs0).1 S1024x2048.size (by sl_kernel_rfl) y

/-- The output buffer after a point with k = 3. -/
def out3_C_3 (c : Dev nD) (i : grid3.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : ¬cond3_0 i) (hc1 : cond3_1 i)
    (x0 : Vec F S1024x512 .bf16) (x1 : Vec F S512x2048 .bf16) (x2 : Vec F S1x2048 .f32) (xs0 : Vec F S1024x2048 .f32) : Vec F S1024x2048 .bf16 :=
  VO3_3.read (Elt F) (VO3_3.writes (Elt F) VO3_3.junk (kernelRun3_C c i arg3 harg3 arg4 harg4 arg5 harg5 arg6 harg6 arg7 harg7 hc0 hc1 x0 x1 x2 xs0).1)

theorem scover3_C_0 (c : Dev nD) (i : grid3.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : ¬cond3_0 i) (hc1 : cond3_1 i)
    (x0 : Vec F S1024x512 .bf16) (x1 : Vec F S512x2048 .bf16) (x2 : Vec F S1x2048 .f32) (xs0 : Vec F S1024x2048 .f32) (y : S1024x2048.Idx) :
    ∃ pc ∈ (kernelRun3_C c i arg3 harg3 arg4 harg4 arg5 harg5 arg6 harg6 arg7 harg7 hc0 hc1 x0 x1 x2 xs0).2.1, y ∈ pc.1.set :=
  View.cover_of_tiledL (kernelRun3_C c i arg3 harg3 arg4 harg4 arg5 harg5 arg6 harg6 arg7 harg7 hc0 hc1 x0 x1 x2 xs0).2.1 S1024x2048.size (by sl_kernel_rfl) y

/-- The accumulator after a point with k = 3. -/
def sout3_C_0 (c : Dev nD) (i : grid3.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : ¬cond3_0 i) (hc1 : cond3_1 i)
    (x0 : Vec F S1024x512 .bf16) (x1 : Vec F S512x2048 .bf16) (x2 : Vec F S1x2048 .f32) (xs0 : Vec F S1024x2048 .f32) : Vec F S1024x2048 .f32 :=
  VS3_0.read (Elt F) (VS3_0.writes (Elt F) VS3_0.junk (kernelRun3_C c i arg3 harg3 arg4 harg4 arg5 harg5 arg6 harg6 arg7 harg7 hc0 hc1 x0 x1 x2 xs0).2.1)

/-! ## The accumulator point by point -/

/-- What the accumulator holds after the body at position `n`. -/
def acc3 (c : Dev nD) : (n : ℕ) → n < cfg3.N → Vec F S1024x2048 .f32
  | 0, hn => sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h' => by (try dsimp only at h'); omega) ((hcond3_1 ⟨0, hn⟩).mp h)) (iblk3 V c 0 ⟨0, hn⟩) (iblk3 V c 1 ⟨0, hn⟩) (iblk3 V c 2 ⟨0, hn⟩)
  | n + 1, hn =>
    if h0 : (n + 1) % 4 = 0 then
      sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => (fun h' => by (try dsimp only at h'); omega) ((hcond3_1 ⟨n + 1, hn⟩).mp h)) (iblk3 V c 0 ⟨n + 1, hn⟩) (iblk3 V c 1 ⟨n + 1, hn⟩) (iblk3 V c 2 ⟨n + 1, hn⟩)
    else if h1 : (n + 1) % 4 = 3 then
      sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (acc3 c n (Nat.lt_of_succ_lt hn))
    else
      sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (acc3 c n (Nat.lt_of_succ_lt hn))

theorem acc3_A (c : Dev nD) (t : Fin cfg3.N) (h0 : t.val % 4 = 0) (h1 : ¬t.val % 4 = 3) :
    acc3 V c t.val t.isLt = sout3_A_0 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t) := by
  obtain ⟨n, hn⟩ := t
  cases n with
  | zero => exact rfl
  | succ n => exact (dif_pos h0).trans rfl

theorem acc3_B (c : Dev nD) (t : Fin cfg3.N) (h0 : ¬t.val % 4 = 0) (h1 : ¬t.val % 4 = 3) :
    acc3 V c t.val t.isLt = sout3_B_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) (acc3 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem acc3_C (c : Dev nD) (t : Fin cfg3.N) (h0 : ¬t.val % 4 = 0) (h1 : t.val % 4 = 3) :
    acc3 V c t.val t.isLt = sout3_C_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (acc3 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- What the output buffer holds after the body at point `t`: at k = 3 the accumulator plus the bias row; elsewhere
    the window is idle and nothing consults this value. -/
def outAt3 (c : Dev nD) (t : Fin cfg3.N) : Vec F S1024x2048 .bf16 :=
  if h1 : t.val % 4 = 3 then
    out3_C_3 c (grid3.coords t) (ms3_0 t) (hs3_0 t) (ms3_1 t) (hs3_1 t) (ms3_2 t) (hs3_2 t) (ms3_3 t) (hs3_3 t) scM3_0 (Memref.isWhole_whole _) (fun h => absurd ((hcond3_0 t).mp h) (by omega)) ((hcond3_1 t).mpr h1) (iblk3 V c 0 t) (iblk3 V c 1 t) (iblk3 V c 2 t) (acc3 V c (t.val - 1) (Nat.lt_of_le_of_lt (Nat.sub_le _ _) t.isLt))
  else VO3_3.read (Elt F) VO3_3.junk

theorem outAt3_C (c : Dev nD) (t : Fin cfg3.N) (h0 : ¬t.val % 4 = 0) (h1 : t.val % 4 = 3) :
    outAt3 V c t = out3_C_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (acc3 V c (t.val - 1) (Nat.lt_of_le_of_lt (Nat.sub_le _ _) t.isLt)) := by
  unfold outAt3; exact dif_pos h1

/-! ## The region's invariant -/

/-- Before the first point the accumulator is at anything; before any other it is at what the point before left. -/
def PhiS3 (c : Dev nD) : (n : ℕ) → n ≤ cfg3.N → sProp 𝕄
  | 0, _ => Pipeline.ΦA spec3 c
  | n + 1, hn => iprop(iprop(owns (c : Thread nD τ) scM3_0 fullShare (acc3 V c n hn) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3_0 fullShare (acc3 V c n hn) ∗ Pipeline.scopedRestBut (Ix := Unit) (Name := ℕ) (U := UR sig nD τ) (Lvl := ℕ) (Val := Elt F) spec3 c [cc3_scratch0]) ∗ (∃ r, prngReg c r)) := rfl

theorem PhiS3_pos (c : Dev nD) (n : ℕ) (h : n ≤ cfg3.N) (hz : n ≠ 0) :
    PhiS3 V c n h = iprop(iprop(owns (c : Thread nD τ) scM3_0 fullShare (acc3 V c (n - 1) (by omega)) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The pipeline's proof data -/

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => outAt3 V c t
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = outAt3 V c t := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  have hN : t.val < 8 := lt_of_lt_of_eq t.isLt (show cfg3.N = 8 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  by_cases h0 : t.val % 4 = 0
  · have h1 : ¬t.val % 4 = 3 := by omega
    rw [Dat.leavesExact_idle (dat3 V c) 3 t (idleAt3_3 t (fun h => h1 ((hcond3_1 t).mp h))) (noFlush3_3 t (fun h => h1 ((hcond3_1 t).mp h)))]
    rw [acc3_A V c t h0 h1]
    unfold sout3_A_0; (try dsimp only)
    by_cases hz : t.val = 0
    · rw [PhiS3_castSucc V c t, PhiS3_zero V c _ _ hz, PhiA3_eq]
      iintro ⟨⟨⟨HS0, Hrest⟩, Hg⟩, Ho, ⟨%d0, H0⟩, ⟨%d1, H1⟩, ⟨%d2, H2⟩, ⟨%d3, H3⟩⟩
      iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover3_A_0 c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [PhiS3_castSucc V c t, PhiS3_pos V c _ _ hz]
      iintro ⟨⟨⟨HS0, Hrest⟩, Hg⟩, Ho, ⟨%d0, H0⟩, ⟨%d1, H1⟩, ⟨%d2, H2⟩, ⟨%d3, H3⟩⟩
      iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover3_A_0 c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 4 = 3
    · rw [show (dat3 V c).leavesExact 3 t = owns (c : Thread nD τ) (ms3_3 t) fullShare ((dat3 V c).after 3 t) from by
        unfold Dat.leavesExact; rw [liveAt3_3 t ((hcond3_1 t).mpr h1)], after3_3]
      rw [acc3_C V c t h0 h1, outAt3_C V c t h0 h1]
      unfold out3_C_3 sout3_C_0; (try dsimp only)
      rw [PhiS3_castSucc V c t, PhiS3_pos V c _ _ hz]
      iintro ⟨⟨⟨HS0, Hrest⟩, Hg⟩, Ho, ⟨%d0, H0⟩, ⟨%d1, H1⟩, ⟨%d2, H2⟩, ⟨%d3, H3⟩⟩
      iapply ((kernelRun3_C c (grid3.coords t) _ _ _ _ _ _ _ _ _ _ (fun h => h0 ((hcond3_0 t).mp h)) ((hcond3_1 t).mpr h1) (iblk3 V c 0 t) (iblk3 V c 1 t) (iblk3 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover3_C_0 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover3_C_3 c _ _ _ _ _ _ _ _ _ _ _ _ _ _ _ _ _)
    · rw [Dat.leavesExact_idle (dat3 V c) 3 t (idleAt3_3 t (fun h => h1 ((hcond3_1 t).mp h))) (noFlush3_3 t (fun h => h1 ((hcond3_1 t).mp h)))]
      rw [acc3_B V c t h0 h1]
      unfold sout3_B_0; (try dsimp only)
      rw [PhiS3_castSucc V c t, PhiS3_pos V c _ _ hz]
      iintro ⟨⟨⟨HS0, Hrest⟩, Hg⟩, Ho, ⟨%d0, H0⟩, ⟨%d1, H1⟩, ⟨%d2, H2⟩, ⟨%d3, H3⟩⟩
      iapply ((kernelRun3_B c (grid3.coords t) _ _ _ _ _ _ _ _ _ _ (fun h => h0 ((hcond3_0 t).mp h)) (fun h => h1 ((hcond3_1 t).mp h)) (iblk3 V c 0 t) (iblk3 V c 1 t) (iblk3 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover3_B_0 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

theorem body_obligation3 (c : Dev nD) : BodyObligation (dat3 (F := F) V c) (defs₀ (F := F)) Variants.none () Set.univ := fun t => by
  rw [bigSep_W3, bigSep_W3]
  exact sound_body3 V c t

/-- What the region is entered with is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After the last point the invariant gives the scoped rest back, the accumulator's contents forgotten. -/
theorem hout3 (c : Dev nD) : (dat3 V c).Φ (Fin.last cfg3.N) ⊢ Pipeline.ΦA spec3 c := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 8 := N_3; omega), PhiA3_eq]
  iintro ⟨⟨HS0, Hrest⟩, Hg⟩
  isplitl [HS0 Hrest]
  · isplitl [HS0]
    · iexists _; iexact HS0
    iexact Hrest
  iexact Hg

end Cert.Kernel.Hand

end
-- ==== Proof.KB.R4Base.lean ====
/- Region 4 (one layer: the product M·x accumulated over four column slabs, plus the bias row): what every case of
   its body shares. The grid is (i, j, k) = (2, 1, 4), so point t has k = t mod 4. The body zeroes the accumulator
   when k = 0, adds the product of the point's two blocks at every point, and when k = 3 stores the accumulator plus
   the bias row over the output block; elsewhere the output window is idle and is not written back. -/
import proofs.«106939_j75831942578756_2_alg».proof.Proof.Gen.Kernel.Launch
import proofs.«106939_j75831942578756_2_alg».proof.Proof.Gen.Kernel.Skeleton
import proofs.«106939_j75831942578756_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The left operand's staging buffer holds its block at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The right operand's staging buffer holds its block at every point. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The bias row's staging buffer holds the row at every point, fetched there or not. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's two conditions over the grid -/

/-- "k = 0": the accumulator is zeroed. -/
abbrev cond4_0 (i : grid4.Coords) : Prop := (Scalar.cmpi .ne (Scalar.extui (Scalar.cmpi .eq (BitVec.ofNat 32 (i 2).val) 0#32)) 0#32) = 1#1
theorem hcond4_0 : ∀ t : Fin cfg4.N, cond4_0 (grid4.coords t) ↔ t.val % 4 = 0 :=
  (by decide +kernel : ∀ t : Fin grid4.N, cond4_0 (grid4.coords t) ↔ t.val % 4 = 0)

/-- "k = 3": the accumulator plus the bias row is handed to the output block. -/
abbrev cond4_1 (i : grid4.Coords) : Prop := k4_cond2 i = 1#1
theorem hcond4_1 : ∀ t : Fin cfg4.N, cond4_1 (grid4.coords t) ↔ t.val % 4 = 3 :=
  (by decide +kernel : ∀ t : Fin grid4.N, cond4_1 (grid4.coords t) ↔ t.val % 4 = 3)

/-! ## Where the windows are idle -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
/-- Away from k = 3 the output window is idle and its block is not written back. -/
theorem idleAt4_3 : ∀ t : Fin cfg4.N, ¬cond4_1 (grid4.coords t) → cfg4.idle 3 (grid4.coords t) = true := by decide +kernel
theorem noFlush4_3 : ∀ t : Fin cfg4.N, ¬cond4_1 (grid4.coords t) → (cfg4.win 3).flush t = false := by decide +kernel
theorem liveAt4_3 : ∀ t : Fin cfg4.N, cond4_1 (grid4.coords t) → cfg4.idle 3 (grid4.coords t) = false := by decide +kernel

/-! ## The memrefs the body is called with -/

abbrev VO4_3 : View sig .tc .vmem S1024x2048 .f32 := (Memref.whole cc4_stg3_0 : Memref sig .tc .vmem S1024x2048 .f32).view
abbrev ms4_0 (t : Fin cfg4.N) : Memref sig .tc .vmem S1024x512 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S512x2048 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x2048 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1024x2048 .f32 := win4_3.stage (cfg4.slots t 3)
abbrev hs4_3 (t : Fin cfg4.N) : (ms4_3 t).IsWhole := hstage4_3 ((cfg4.slots t 3).cast nbuf4_3)
/-- The accumulator: a whole scoped buffer of the kernel's own. -/
abbrev scM4_0 : Memref sig .tc .vmem S1024x2048 .f32 := Memref.whole cc4_scratch0
abbrev VS4_0 : View sig .tc .vmem S1024x2048 .f32 := scM4_0.view

/-- The region's starting invariant with the accumulator split off the scoped rest: the accumulator at anything,
    every other scoped buffer unopened, the generator register at some state. -/
theorem PhiA4_eq (c : Dev nD) :
    (Pipeline.ΦA spec4 c : sProp 𝕄)
      = iprop(iprop((∃ d, owns (c : Thread nD τ) scM4_0 fullShare d) ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4_0, owns_whole]; try rfl

end Cert.Kernel.Hand

end
-- ==== Proof.KB.R4RunA.lean ====
/- Region 4, the points with k = 0: the body zeroes the accumulator, adds the blocks' product, leaves the output
   buffer alone. The pieces the accumulator ends with are found by running the body symbolically. -/
import proofs.«106939_j75831942578756_2_alg».proof.Proof.KB.R4Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun4_A (c : Dev nD) (i : grid4.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond4_0 i) (hc1 : ¬cond4_1 i)
    (x0 : Vec F S1024x512 .bf16) (x1 : Vec F S512x2048 .bf16) (x2 : Vec F S1x2048 .f32) :
    Σ' (L3 : List (View.Piece (Elt F) S1024x2048 .f32)), { LS0 : List (View.Piece (Elt F) S1024x2048 .f32) //
      ∀ (xi3 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc4__matmul_bias_kernel i arg3 harg3 arg4 harg4 arg5 harg5 arg6 harg6 arg7 harg7) K } := by
  refine ⟨[], ?_, fun xi3 E K => ?run⟩
  case run =>
    simp only [cc4__matmul_bias_kernel_eq_skeleton]; unfold cc4__matmul_bias_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.KB.R4RunB.lean ====
/- Region 4, the points with k = 1, 2: the body adds the blocks' product to the accumulator it finds and leaves
   the output buffer alone. -/
import proofs.«106939_j75831942578756_2_alg».proof.Proof.KB.R4Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun4_B (c : Dev nD) (i : grid4.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond4_0 i) (hc1 : ¬cond4_1 i)
    (x0 : Vec F S1024x512 .bf16) (x1 : Vec F S512x2048 .bf16) (x2 : Vec F S1x2048 .f32) (xs0 : Vec F S1024x2048 .f32) :
    Σ' (L3 : List (View.Piece (Elt F) S1024x2048 .f32)), { LS0 : List (View.Piece (Elt F) S1024x2048 .f32) //
      ∀ (xi3 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc4__matmul_bias_kernel i arg3 harg3 arg4 harg4 arg5 harg5 arg6 harg6 arg7 harg7) K } := by
  refine ⟨[], ?_, fun xi3 E K => ?run⟩
  case run =>
    simp only [cc4__matmul_bias_kernel_eq_skeleton]; unfold cc4__matmul_bias_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.KB.R4RunC.lean ====
/- Region 4, the points with k = 3: the body adds the blocks' product to the accumulator it finds and stores the
   accumulator plus the bias row, in the output's format, over the whole output buffer. -/
import proofs.«106939_j75831942578756_2_alg».proof.Proof.KB.R4Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun4_C (c : Dev nD) (i : grid4.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond4_0 i) (hc1 : cond4_1 i)
    (x0 : Vec F S1024x512 .bf16) (x1 : Vec F S512x2048 .bf16) (x2 : Vec F S1x2048 .f32) (xs0 : Vec F S1024x2048 .f32) :
    Σ' (L3 : List (View.Piece (Elt F) S1024x2048 .f32)), { LS0 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc4__matmul_bias_kernel i arg3 harg3 arg4 harg4 arg5 harg5 arg6 harg6 arg7 harg7) K } := by
  refine ⟨?_, ?_, fun E K => ?run⟩
  case run =>
    simp only [cc4__matmul_bias_kernel_eq_skeleton]; unfold cc4__matmul_bias_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Hand

end
-- ==== Proof.KB.R4Frame.lean ====
/- Region 4 (one layer, M·x over four column slabs plus the bias row): what the accumulator holds after each point,
   the pipeline's proof data, and the body obligation at every point. After point t the accumulator holds the sum of
   the products of the blocks of the points k' ≤ k of t's row of points, started from zero at k = 0; the output block
   of a row of points is the accumulator after its last point plus the bias row, in the output's format. -/
import proofs.«106939_j75831942578756_2_alg».proof.Proof.KB.R4RunA
import proofs.«106939_j75831942578756_2_alg».proof.Proof.KB.R4RunB
import proofs.«106939_j75831942578756_2_alg».proof.Proof.KB.R4RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem scover4_A_0 (c : Dev nD) (i : grid4.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond4_0 i) (hc1 : ¬cond4_1 i)
    (x0 : Vec F S1024x512 .bf16) (x1 : Vec F S512x2048 .bf16) (x2 : Vec F S1x2048 .f32) (y : S1024x2048.Idx) :
    ∃ pc ∈ (kernelRun4_A c i arg3 harg3 arg4 harg4 arg5 harg5 arg6 harg6 arg7 harg7 hc0 hc1 x0 x1 x2).2.1, y ∈ pc.1.set :=
  View.cover_of_tiledL (kernelRun4_A c i arg3 harg3 arg4 harg4 arg5 harg5 arg6 harg6 arg7 harg7 hc0 hc1 x0 x1 x2).2.1 S1024x2048.size (by sl_kernel_rfl) y

/-- The accumulator after a point with k = 0. -/
def sout4_A_0 (c : Dev nD) (i : grid4.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond4_0 i) (hc1 : ¬cond4_1 i)
    (x0 : Vec F S1024x512 .bf16) (x1 : Vec F S512x2048 .bf16) (x2 : Vec F S1x2048 .f32) : Vec F S1024x2048 .f32 :=
  VS4_0.read (Elt F) (VS4_0.writes (Elt F) VS4_0.junk (kernelRun4_A c i arg3 harg3 arg4 harg4 arg5 harg5 arg6 harg6 arg7 harg7 hc0 hc1 x0 x1 x2).2.1)

theorem scover4_B_0 (c : Dev nD) (i : grid4.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond4_0 i) (hc1 : ¬cond4_1 i)
    (x0 : Vec F S1024x512 .bf16) (x1 : Vec F S512x2048 .bf16) (x2 : Vec F S1x2048 .f32) (xs0 : Vec F S1024x2048 .f32) (y : S1024x2048.Idx) :
    ∃ pc ∈ (kernelRun4_B c i arg3 harg3 arg4 harg4 arg5 harg5 arg6 harg6 arg7 harg7 hc0 hc1 x0 x1 x2 xs0).2.1, y ∈ pc.1.set :=
  View.cover_of_tiledL (kernelRun4_B c i arg3 harg3 arg4 harg4 arg5 harg5 arg6 harg6 arg7 harg7 hc0 hc1 x0 x1 x2 xs0).2.1 S1024x2048.size (by sl_kernel_rfl) y

/-- The accumulator after a point with k = 1, 2, from what the point before left. -/
def sout4_B_0 (c : Dev nD) (i : grid4.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond4_0 i) (hc1 : ¬cond4_1 i)
    (x0 : Vec F S1024x512 .bf16) (x1 : Vec F S512x2048 .bf16) (x2 : Vec F S1x2048 .f32) (xs0 : Vec F S1024x2048 .f32) : Vec F S1024x2048 .f32 :=
  VS4_0.read (Elt F) (VS4_0.writes (Elt F) VS4_0.junk (kernelRun4_B c i arg3 harg3 arg4 harg4 arg5 harg5 arg6 harg6 arg7 harg7 hc0 hc1 x0 x1 x2 xs0).2.1)

theorem cover4_C_3 (c : Dev nD) (i : grid4.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond4_0 i) (hc1 : cond4_1 i)
    (x0 : Vec F S1024x512 .bf16) (x1 : Vec F S512x2048 .bf16) (x2 : Vec F S1x2048 .f32) (xs0 : Vec F S1024x2048 .f32) (y : S1024x2048.Idx) :
    ∃ pc ∈ (kernelRun4_C c i arg3 harg3 arg4 harg4 arg5 harg5 arg6 harg6 arg7 harg7 hc0 hc1 x0 x1 x2 xs0).1, y ∈ pc.1.set :=
  View.cover_of_tiledL (kernelRun4_C c i arg3 harg3 arg4 harg4 arg5 harg5 arg6 harg6 arg7 harg7 hc0 hc1 x0 x1 x2 xs0).1 S1024x2048.size (by sl_kernel_rfl) y

/-- The output buffer after a point with k = 3. -/
def out4_C_3 (c : Dev nD) (i : grid4.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond4_0 i) (hc1 : cond4_1 i)
    (x0 : Vec F S1024x512 .bf16) (x1 : Vec F S512x2048 .bf16) (x2 : Vec F S1x2048 .f32) (xs0 : Vec F S1024x2048 .f32) : Vec F S1024x2048 .f32 :=
  VO4_3.read (Elt F) (VO4_3.writes (Elt F) VO4_3.junk (kernelRun4_C c i arg3 harg3 arg4 harg4 arg5 harg5 arg6 harg6 arg7 harg7 hc0 hc1 x0 x1 x2 xs0).1)

theorem scover4_C_0 (c : Dev nD) (i : grid4.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond4_0 i) (hc1 : cond4_1 i)
    (x0 : Vec F S1024x512 .bf16) (x1 : Vec F S512x2048 .bf16) (x2 : Vec F S1x2048 .f32) (xs0 : Vec F S1024x2048 .f32) (y : S1024x2048.Idx) :
    ∃ pc ∈ (kernelRun4_C c i arg3 harg3 arg4 harg4 arg5 harg5 arg6 harg6 arg7 harg7 hc0 hc1 x0 x1 x2 xs0).2.1, y ∈ pc.1.set :=
  View.cover_of_tiledL (kernelRun4_C c i arg3 harg3 arg4 harg4 arg5 harg5 arg6 harg6 arg7 harg7 hc0 hc1 x0 x1 x2 xs0).2.1 S1024x2048.size (by sl_kernel_rfl) y

/-- The accumulator after a point with k = 3. -/
def sout4_C_0 (c : Dev nD) (i : grid4.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond4_0 i) (hc1 : cond4_1 i)
    (x0 : Vec F S1024x512 .bf16) (x1 : Vec F S512x2048 .bf16) (x2 : Vec F S1x2048 .f32) (xs0 : Vec F S1024x2048 .f32) : Vec F S1024x2048 .f32 :=
  VS4_0.read (Elt F) (VS4_0.writes (Elt F) VS4_0.junk (kernelRun4_C c i arg3 harg3 arg4 harg4 arg5 harg5 arg6 harg6 arg7 harg7 hc0 hc1 x0 x1 x2 xs0).2.1)

/-! ## The accumulator point by point -/

/-- What the accumulator holds after the body at position `n`. -/
def acc4 (c : Dev nD) : (n : ℕ) → n < cfg4.N → Vec F S1024x2048 .f32
  | 0, hn => sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) ((hcond4_0 ⟨0, hn⟩).mpr (Nat.zero_mod _)) (fun h => (fun h' => by (try dsimp only at h'); omega) ((hcond4_1 ⟨0, hn⟩).mp h)) (iblk4 V c 0 ⟨0, hn⟩) (iblk4 V c 1 ⟨0, hn⟩) (iblk4 V c 2 ⟨0, hn⟩)
  | n + 1, hn =>
    if h0 : (n + 1) % 4 = 0 then
      sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) ((hcond4_0 ⟨n + 1, hn⟩).mpr h0) (fun h => (fun h' => by (try dsimp only at h'); omega) ((hcond4_1 ⟨n + 1, hn⟩).mp h)) (iblk4 V c 0 ⟨n + 1, hn⟩) (iblk4 V c 1 ⟨n + 1, hn⟩) (iblk4 V c 2 ⟨n + 1, hn⟩)
    else if h1 : (n + 1) % 4 = 3 then
      sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (acc4 c n (Nat.lt_of_succ_lt hn))
    else
      sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (acc4 c n (Nat.lt_of_succ_lt hn))

theorem acc4_A (c : Dev nD) (t : Fin cfg4.N) (h0 : t.val % 4 = 0) (h1 : ¬t.val % 4 = 3) :
    acc4 V c t.val t.isLt = sout4_A_0 c (grid4.coords t) (ms4_0 t) (hs4_0 t) (ms4_1 t) (hs4_1 t) (ms4_2 t) (hs4_2 t) (ms4_3 t) (hs4_3 t) scM4_0 (Memref.isWhole_whole _) ((hcond4_0 t).mpr h0) (fun h => h1 ((hcond4_1 t).mp h)) (iblk4 V c 0 t) (iblk4 V c 1 t) (iblk4 V c 2 t) := by
  obtain ⟨n, hn⟩ := t
  cases n with
  | zero => exact rfl
  | succ n => exact (dif_pos h0).trans rfl

theorem acc4_B (c : Dev nD) (t : Fin cfg4.N) (h0 : ¬t.val % 4 = 0) (h1 : ¬t.val % 4 = 3) :
    acc4 V c t.val t.isLt = sout4_B_0 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) (fun h => h1 ((hcond4_1 t).mp h)) (iblk4 V c 0 t) (iblk4 V c 1 t) (iblk4 V c 2 t) (acc4 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem acc4_C (c : Dev nD) (t : Fin cfg4.N) (h0 : ¬t.val % 4 = 0) (h1 : t.val % 4 = 3) :
    acc4 V c t.val t.isLt = sout4_C_0 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) ((hcond4_1 t).mpr h1) (iblk4 V c 0 t) (iblk4 V c 1 t) (iblk4 V c 2 t) (acc4 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- What the output buffer holds after the body at point `t`: at k = 3 the accumulator plus the bias row; elsewhere
    the window is idle and nothing consults this value. -/
def outAt4 (c : Dev nD) (t : Fin cfg4.N) : Vec F S1024x2048 .f32 :=
  if h1 : t.val % 4 = 3 then
    out4_C_3 c (grid4.coords t) (ms4_0 t) (hs4_0 t) (ms4_1 t) (hs4_1 t) (ms4_2 t) (hs4_2 t) (ms4_3 t) (hs4_3 t) scM4_0 (Memref.isWhole_whole _) (fun h => absurd ((hcond4_0 t).mp h) (by omega)) ((hcond4_1 t).mpr h1) (iblk4 V c 0 t) (iblk4 V c 1 t) (iblk4 V c 2 t) (acc4 V c (t.val - 1) (Nat.lt_of_le_of_lt (Nat.sub_le _ _) t.isLt))
  else VO4_3.read (Elt F) VO4_3.junk

theorem outAt4_C (c : Dev nD) (t : Fin cfg4.N) (h0 : ¬t.val % 4 = 0) (h1 : t.val % 4 = 3) :
    outAt4 V c t = out4_C_3 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) ((hcond4_1 t).mpr h1) (iblk4 V c 0 t) (iblk4 V c 1 t) (iblk4 V c 2 t) (acc4 V c (t.val - 1) (Nat.lt_of_le_of_lt (Nat.sub_le _ _) t.isLt)) := by
  unfold outAt4; exact dif_pos h1

/-! ## The region's invariant -/

/-- Before the first point the accumulator is at anything; before any other it is at what the point before left. -/
def PhiS4 (c : Dev nD) : (n : ℕ) → n ≤ cfg4.N → sProp 𝕄
  | 0, _ => Pipeline.ΦA spec4 c
  | n + 1, hn => iprop(iprop(owns (c : Thread nD τ) scM4_0 fullShare (acc4 V c n hn) ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4_0 fullShare (acc4 V c n hn) ∗ Pipeline.scopedRestBut (Ix := Unit) (Name := ℕ) (U := UR sig nD τ) (Lvl := ℕ) (Val := Elt F) spec4 c [cc4_scratch0]) ∗ (∃ r, prngReg c r)) := rfl

theorem PhiS4_pos (c : Dev nD) (n : ℕ) (h : n ≤ cfg4.N) (hz : n ≠ 0) :
    PhiS4 V c n h = iprop(iprop(owns (c : Thread nD τ) scM4_0 fullShare (acc4 V c (n - 1) (by omega)) ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-! ## The pipeline's proof data -/

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => outAt4 V c t
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = outAt4 V c t := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 4800000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = PhiS4 V c (t.val + 1) t.isLt from rfl, PhiS4_succ]
  have hN : t.val < 8 := lt_of_lt_of_eq t.isLt (show cfg4.N = 8 from N_4)
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  by_cases h0 : t.val % 4 = 0
  · have h1 : ¬t.val % 4 = 3 := by omega
    rw [Dat.leavesExact_idle (dat4 V c) 3 t (idleAt4_3 t (fun h => h1 ((hcond4_1 t).mp h))) (noFlush4_3 t (fun h => h1 ((hcond4_1 t).mp h)))]
    rw [acc4_A V c t h0 h1]
    unfold sout4_A_0; (try dsimp only)
    by_cases hz : t.val = 0
    · rw [PhiS4_castSucc V c t, PhiS4_zero V c _ _ hz, PhiA4_eq]
      iintro ⟨⟨⟨HS0, Hrest⟩, Hg⟩, Ho, ⟨%d0, H0⟩, ⟨%d1, H1⟩, ⟨%d2, H2⟩, ⟨%d3, H3⟩⟩
      iapply ((kernelRun4_A c (grid4.coords t) _ _ _ _ _ _ _ _ _ _ ((hcond4_0 t).mpr h0) (fun h => h1 ((hcond4_1 t).mp h)) (iblk4 V c 0 t) (iblk4 V c 1 t) (iblk4 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover4_A_0 c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [PhiS4_castSucc V c t, PhiS4_pos V c _ _ hz]
      iintro ⟨⟨⟨HS0, Hrest⟩, Hg⟩, Ho, ⟨%d0, H0⟩, ⟨%d1, H1⟩, ⟨%d2, H2⟩, ⟨%d3, H3⟩⟩
      iapply ((kernelRun4_A c (grid4.coords t) _ _ _ _ _ _ _ _ _ _ ((hcond4_0 t).mpr h0) (fun h => h1 ((hcond4_1 t).mp h)) (iblk4 V c 0 t) (iblk4 V c 1 t) (iblk4 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover4_A_0 c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 4 = 3
    · rw [show (dat4 V c).leavesExact 3 t = owns (c : Thread nD τ) (ms4_3 t) fullShare ((dat4 V c).after 3 t) from by
        unfold Dat.leavesExact; rw [liveAt4_3 t ((hcond4_1 t).mpr h1)], after4_3]
      rw [acc4_C V c t h0 h1, outAt4_C V c t h0 h1]
      unfold out4_C_3 sout4_C_0; (try dsimp only)
      rw [PhiS4_castSucc V c t, PhiS4_pos V c _ _ hz]
      iintro ⟨⟨⟨HS0, Hrest⟩, Hg⟩, Ho, ⟨%d0, H0⟩, ⟨%d1, H1⟩, ⟨%d2, H2⟩, ⟨%d3, H3⟩⟩
      iapply ((kernelRun4_C c (grid4.coords t) _ _ _ _ _ _ _ _ _ _ (fun h => h0 ((hcond4_0 t).mp h)) ((hcond4_1 t).mpr h1) (iblk4 V c 0 t) (iblk4 V c 1 t) (iblk4 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover4_C_0 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover4_C_3 c _ _ _ _ _ _ _ _ _ _ _ _ _ _ _ _ _)
    · rw [Dat.leavesExact_idle (dat4 V c) 3 t (idleAt4_3 t (fun h => h1 ((hcond4_1 t).mp h))) (noFlush4_3 t (fun h => h1 ((hcond4_1 t).mp h)))]
      rw [acc4_B V c t h0 h1]
      unfold sout4_B_0; (try dsimp only)
      rw [PhiS4_castSucc V c t, PhiS4_pos V c _ _ hz]
      iintro ⟨⟨⟨HS0, Hrest⟩, Hg⟩, Ho, ⟨%d0, H0⟩, ⟨%d1, H1⟩, ⟨%d2, H2⟩, ⟨%d3, H3⟩⟩
      iapply ((kernelRun4_B c (grid4.coords t) _ _ _ _ _ _ _ _ _ _ (fun h => h0 ((hcond4_0 t).mp h)) (fun h => h1 ((hcond4_1 t).mp h)) (iblk4 V c 0 t) (iblk4 V c 1 t) (iblk4 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover4_B_0 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

theorem body_obligation4 (c : Dev nD) : BodyObligation (dat4 (F := F) V c) (defs₀ (F := F)) Variants.none () Set.univ := fun t => by
  rw [bigSep_W4, bigSep_W4]
  exact sound_body4 V c t

/-- What the region is entered with is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After the last point the invariant gives the scoped rest back, the accumulator's contents forgotten. -/
theorem hout4 (c : Dev nD) : (dat4 V c).Φ (Fin.last cfg4.N) ⊢ Pipeline.ΦA spec4 c := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 8 := N_4; omega), PhiA4_eq]
  iintro ⟨⟨HS0, Hrest⟩, Hg⟩
  isplitl [HS0 Hrest]
  · isplitl [HS0]
    · iexists _; iexact HS0
    iexact Hrest
  iexact Hg

end Cert.Kernel.Hand

end
-- ==== Proof.KB.Run.lean ====
/- The whole program as host stretches and five kernel regions in order: the buffer contents at every boundary (a host
   stretch applies its operations; a region leaves its output array at what its write-backs leave and every other
   buffer as it found it), each region as a segment entered from "every unscoped buffer at the boundary's contents" and
   left at the next boundary's, and the run: every weakly fair execution terminates with every unscoped buffer at the
   last boundary's contents. Each region's invariant carries its accumulator; the other scoped buffers, the
   generator register and the (empty) dues ride along. -/
import proofs.«106939_j75831942578756_2_alg».proof.Proof.KB.R0Frame
import proofs.«106939_j75831942578756_2_alg».proof.Proof.KB.R1Frame
import proofs.«106939_j75831942578756_2_alg».proof.Proof.KB.R2Frame
import proofs.«106939_j75831942578756_2_alg».proof.Proof.KB.R3Frame
import proofs.«106939_j75831942578756_2_alg».proof.Proof.KB.R4Frame
import proofs.«106939_j75831942578756_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
abbrev V2 : (c : Dev nD) → (b : Ref sig .tc) → Buf (Elt F) ((c : Thread nD τ).loc b) := fun c b => W2 m ρ c b
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
abbrev V4 : (c : Dev nD) → (b : Ref sig .tc) → Buf (Elt F) ((c : Thread nD τ).loc b) := fun c b => W4 m ρ c b
def W5 (c : Dev nD) : Valuation τ sig (Elt F) :=
  Pipeline.withArrays spec2 c (W4 m ρ c) fun w => (dat2 (V4 m ρ) c).arrAt w cfg2.N
abbrev V5 : (c : Dev nD) → (b : Ref sig .tc) → Buf (Elt F) ((c : Thread nD τ).loc b) := fun c b => W5 m ρ c b
def W6 (c : Dev nD) : Valuation τ sig (Elt F) :=
  Pipeline.withArrays spec3 c (W5 m ρ c) fun w => (dat3 (V5 m ρ) c).arrAt w cfg3.N
abbrev V6 : (c : Dev nD) → (b : Ref sig .tc) → Buf (Elt F) ((c : Thread nD τ).loc b) := fun c b => W6 m ρ c b
def W7 (c : Dev nD) : Valuation τ sig (Elt F) :=
  Pipeline.withArrays spec4 c (W6 m ρ c) fun w => (dat4 (V6 m ρ) c).arrAt w cfg4.N
abbrev V7 : (c : Dev nD) → (b : Ref sig .tc) → Buf (Elt F) ((c : Thread nD τ).loc b) := fun c b => W7 m ρ c b

theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

theorem W6_arr (c : Dev nD) (w : Fin cfg3.W) :
    W6 m ρ c (Proc.devRef .tc (Pipeline.arrRef spec3 w)) = (dat3 (V5 m ρ) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m ρ c (Proc.devRef .tc b) = W5 m ρ c (Proc.devRef .tc b) := by
  unfold W6; exact Pipeline.withArrays_of_ne spec3 c _ _ b hb
theorem hF3 (c : Dev nD) (w : Fin cfg3.W) : (dat3 (V5 m ρ) c).arrAt w cfg3.N = V6 m ρ c (Pipeline.arrRef spec3 w) :=
  (W6_arr m ρ c w).symm
theorem hrest3 (c : Dev nD) : ∀ b, b ∉ Finset.univ.image (Pipeline.arrRef spec3) → V6 m ρ c b = V5 m ρ c b :=
  fun b hb => W6_of_ne m ρ c b fun w e => hb (Finset.mem_image.mpr ⟨w, Finset.mem_univ _, e⟩)

theorem W7_arr (c : Dev nD) (w : Fin cfg4.W) :
    W7 m ρ c (Proc.devRef .tc (Pipeline.arrRef spec4 w)) = (dat4 (V6 m ρ) c).arrAt w cfg4.N := by
  unfold W7; exact Pipeline.withArrays_arr spec4 launch4.win.arr_inj c _ _ w
theorem W7_of_ne (c : Dev nD) (b : Ref sig .tc) (hb : ∀ w, Pipeline.arrRef spec4 w ≠ b) :
    W7 m ρ c (Proc.devRef .tc b) = W6 m ρ c (Proc.devRef .tc b) := by
  unfold W7; exact Pipeline.withArrays_of_ne spec4 c _ _ b hb
theorem hF4 (c : Dev nD) (w : Fin cfg4.W) : (dat4 (V6 m ρ) c).arrAt w cfg4.N = V7 m ρ c (Pipeline.arrRef spec4 w) :=
  (W7_arr m ρ c w).symm
theorem hrest4 (c : Dev nD) : ∀ b, b ∉ Finset.univ.image (Pipeline.arrRef spec4) → V7 m ρ c b = V6 m ρ c b :=
  fun b hb => W7_of_ne m ρ c b fun w e => hb (Finset.mem_image.mpr ⟨w, Finset.mem_univ _, e⟩)

/-! ## The arguments end as launched -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := W7_of_ne m ρ c main_arg0 (by decide)
    _ = W5 m ρ c (Proc.devRef .tc main_arg0) := W6_of_ne m ρ c main_arg0 (by decide)
    _ = W4 m ρ c (Proc.devRef .tc main_arg0) := W5_of_ne m ρ c main_arg0 (by decide)
    _ = W3 m ρ c (Proc.devRef .tc main_arg0) := (W4_arr m ρ c 1).trans (((dat1 (V3 m ρ) c).arrAt_in 1 rfl _).trans (A_eq1 (V3 m ρ) c 1))
    _ = W2 m ρ c (Proc.devRef .tc main_arg0) := StableHlo.after_of_writes_sub hostOps1 _ hostOps1_writes (by decide : main_arg0 ∉ hostOps1_W)
    _ = W1 m ρ c (Proc.devRef .tc main_arg0) := W2_of_ne m ρ c main_arg0 (by decide)
    _ = W0 m ρ c (Proc.devRef .tc main_arg0) := StableHlo.after_of_writes_sub hostOps0 _ hostOps0_writes (by decide : main_arg0 ∉ hostOps0_W)
    _ = m ((c : Thread nD τ).loc main_arg0) := rfl

theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := W7_of_ne m ρ c main_arg1 (by decide)
    _ = W5 m ρ c (Proc.devRef .tc main_arg1) := W6_of_ne m ρ c main_arg1 (by decide)
    _ = W4 m ρ c (Proc.devRef .tc main_arg1) := W5_of_ne m ρ c main_arg1 (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide : main_arg1 ∉ hostOps1_W)
    _ = W1 m ρ c (Proc.devRef .tc main_arg1) := W2_of_ne m ρ c main_arg1 (by decide)
    _ = W0 m ρ c (Proc.devRef .tc main_arg1) := StableHlo.after_of_writes_sub hostOps0 _ hostOps0_writes (by decide : main_arg1 ∉ hostOps0_W)
    _ = m ((c : Thread nD τ).loc main_arg1) := rfl

theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := W7_of_ne m ρ c main_arg2 (by decide)
    _ = W5 m ρ c (Proc.devRef .tc main_arg2) := W6_of_ne m ρ c main_arg2 (by decide)
    _ = W4 m ρ c (Proc.devRef .tc main_arg2) := W5_of_ne m ρ c main_arg2 (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide : main_arg2 ∉ hostOps1_W)
    _ = W1 m ρ c (Proc.devRef .tc main_arg2) := W2_of_ne m ρ c main_arg2 (by decide)
    _ = W0 m ρ c (Proc.devRef .tc main_arg2) := StableHlo.after_of_writes_sub hostOps0 _ hostOps0_writes (by decide : main_arg2 ∉ hostOps0_W)
    _ = m ((c : Thread nD τ).loc main_arg2) := rfl

theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := W7_of_ne m ρ c main_arg3 (by decide)
    _ = W5 m ρ c (Proc.devRef .tc main_arg3) := W6_of_ne m ρ c main_arg3 (by decide)
    _ = W4 m ρ c (Proc.devRef .tc main_arg3) := W5_of_ne m ρ c main_arg3 (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide : main_arg3 ∉ hostOps1_W)
    _ = W1 m ρ c (Proc.devRef .tc main_arg3) := W2_of_ne m ρ c main_arg3 (by decide)
    _ = W0 m ρ c (Proc.devRef .tc main_arg3) := StableHlo.after_of_writes_sub hostOps0 _ hostOps0_writes (by decide : main_arg3 ∉ hostOps0_W)
    _ = m ((c : Thread nD τ).loc main_arg3) := rfl

theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := W7_of_ne m ρ c main_arg4 (by decide)
    _ = W5 m ρ c (Proc.devRef .tc main_arg4) := W6_of_ne m ρ c main_arg4 (by decide)
    _ = W4 m ρ c (Proc.devRef .tc main_arg4) := W5_of_ne m ρ c main_arg4 (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide : main_arg4 ∉ hostOps1_W)
    _ = W1 m ρ c (Proc.devRef .tc main_arg4) := W2_of_ne m ρ c main_arg4 (by decide)
    _ = W0 m ρ c (Proc.devRef .tc main_arg4) := StableHlo.after_of_writes_sub hostOps0 _ hostOps0_writes (by decide : main_arg4 ∉ hostOps0_W)
    _ = m ((c : Thread nD τ).loc main_arg4) := rfl

theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := W7_of_ne m ρ c main_arg5 (by decide)
    _ = W5 m ρ c (Proc.devRef .tc main_arg5) := W6_of_ne m ρ c main_arg5 (by decide)
    _ = W4 m ρ c (Proc.devRef .tc main_arg5) := W5_of_ne m ρ c main_arg5 (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide : main_arg5 ∉ hostOps1_W)
    _ = W1 m ρ c (Proc.devRef .tc main_arg5) := W2_of_ne m ρ c main_arg5 (by decide)
    _ = W0 m ρ c (Proc.devRef .tc main_arg5) := StableHlo.after_of_writes_sub hostOps0 _ hostOps0_writes (by decide : main_arg5 ∉ hostOps0_W)
    _ = m ((c : Thread nD τ).loc main_arg5) := rfl

/-! ## The proof data family and the thread state -/

abbrev adm' : (p : Fin 5) → (pcfgs (F := F) p).Adm := fun p => (cfgs p).toPCfg_adm
def pdats : (p : Fin 5) → (c : Dev nD) → Dat τ (Elt F) Unit ℕ (UR sig nD τ) ℕ (Pipeline.pin (pcfgs (F := F)) adm' p) c
  | ⟨0, _⟩ => fun c => dat0 (V1 m ρ) c
  | ⟨1, _⟩ => fun c => dat1 (V3 m ρ) c
  | ⟨2, _⟩ => fun c => dat2 (V4 m ρ) c
  | ⟨3, _⟩ => fun c => dat3 (V5 m ρ) c
  | ⟨4, _⟩ => fun c => dat4 (V6 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
def reg0 : Pipeline.RegionSeg (pcfgs (F := F)) adm' (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (V1 m ρ) c)
    unfold Pipeline.ΦA
    iintro ⟨Hp, -, Hr⟩
    isplitl [Hr]; · iexact Hr
    iexact Hp
  hout c := by
    rw [Pipeline.ownSems0_none]
    refine (hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm' (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm' (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V3 m ρ) c)
    unfold Pipeline.ΦA
    iintro ⟨Hp, -, Hr⟩
    isplitl [Hr]; · iexact Hr
    iexact Hp
  hout c := by
    rw [Pipeline.ownSems0_none]
    refine (hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm' (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm' (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (V4 m ρ) c)
    unfold Pipeline.ΦA
    iintro ⟨Hp, -, Hr⟩
    isplitl [Hr]; · iexact Hr
    iexact Hp
  hout c := by
    rw [Pipeline.ownSems0_none]
    refine (hout2 (V4 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm' (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg3 : Pipeline.RegionSeg (pcfgs (F := F)) adm' (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V5 m ρ) c).loose
  hwaits := Pipeline.hwaits_of_owed_zero _ _ _ _ L lv 3 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec3 c (V5 m ρ c)
  hentry c := by
    rw [Pipeline.ownSems0_none]
    have hsplit := Pipeline.arrays_of_unscopedBufs (p := 3) (pcfgs (F := F)) adm' (pdats m ρ) launch3.win launch3.arr_whole c
      ((pdats m ρ 3 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin3 (V5 m ρ) c)
    unfold Pipeline.ΦA
    iintro ⟨Hp, -, Hr⟩
    isplitl [Hr]; · iexact Hr
    iexact Hp
  hout c := by
    rw [Pipeline.ownSems0_none]
    refine (hout3 (V5 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm' (Ix := Unit) (Name := ℕ) (U := UR sig nD τ) (Lvl := ℕ)
      launch3.win launch3.arr_whole c (pdats m ρ) ((pdats m ρ 3 c).share_full fun _ => rfl)
      (V5 m ρ c) (V6 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg4 : Pipeline.RegionSeg (pcfgs (F := F)) adm' (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V6 m ρ) c).loose
  hwaits := Pipeline.hwaits_of_owed_zero _ _ _ _ L lv 4 fun _ _ => rfl
  pre c := iprop(StableHlo.held (c : Thread nD τ) (Pipeline.ucRefs τ sig) (W6 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V6 m ρ c)
  hentry c := by
    rw [Pipeline.ownSems0_none]
    have hsplit := Pipeline.arrays_of_unscopedBufs (p := 4) (pcfgs (F := F)) adm' (pdats m ρ) launch4.win launch4.arr_whole c
      ((pdats m ρ 4 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin4 (V6 m ρ) c)
    unfold Pipeline.ΦA
    iintro ⟨Hp, -, Hr⟩
    isplitl [Hr]; · iexact Hr
    iexact Hp
  hout c := by
    rw [Pipeline.ownSems0_none]
    refine (hout4 (V6 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm' (Ix := Unit) (Name := ℕ) (U := UR sig nD τ) (Lvl := ℕ)
      launch4.win launch4.arr_whole c (pdats m ρ) ((pdats m ρ 4 c).share_full fun _ => rfl)
      (V6 m ρ c) (V7 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm' (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ), .region (reg2 m ρ), .region (reg3 m ρ), .region (reg4 m ρ) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm' (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c)⟩) (run_all m ρ)

end Cert.Kernel.Hand

end
-- ==== Proof.KI.R0Base.lean ====
/- Region 0 (the product A·W accumulated over four column slabs): what every case of its body shares.
   The grid is (i, j, k) = (2, 1, 4), so point t has k = t mod 4. The body zeroes the accumulator when k = 0,
   adds the product of the point's two blocks at every point, and hands the accumulator to the output block
   when k = 3; elsewhere the output window is idle and is not written back. -/
import proofs.«106939_j75831942578756_2_alg».proof.Proof.Gen.KernelIdeal.Launch
import proofs.«106939_j75831942578756_2_alg».proof.Proof.Gen.KernelIdeal.Skeleton
import proofs.«106939_j75831942578756_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right operand's staging buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions over the grid -/

/-- "k = 0": the accumulator is zeroed. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "k = 3": the accumulator is handed to the output block. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from k = 3 the output window is idle and its block is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The memrefs the body is called with -/

abbrev VO0_2 : View sig .tc .vmem S1024x2048 .bf16 := (Memref.whole cc0_stg2_0 : Memref sig .tc .vmem S1024x2048 .bf16).view
abbrev ms0_0 (t : Fin cfg0.N) : Memref sig .tc .vmem S1024x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x2048 .bf16 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0_0 : Memref sig .tc .vmem S1024x2048 .f32 := Memref.whole cc0_scratch0
abbrev VS0_0 : View sig .tc .vmem S1024x2048 .f32 := scM0_0.view

/-- The region's starting invariant with the accumulator split off the scoped rest: the accumulator at anything,
    every other scoped buffer unopened, the generator register at some state. -/
theorem PhiA0_eq (c : Dev nD) :
    (Pipeline.ΦA spec0 c : sProp 𝕄)
      = iprop(iprop((∃ d, owns (c : Thread nD τ) scM0_0 fullShare d) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0_0, owns_whole]; try rfl

end Cert.KernelIdeal.Hand

end
-- ==== Proof.KI.R0RunA.lean ====
/- Region 0, the points with k = 0: the body zeroes the accumulator, adds the blocks' product, leaves the output
   buffer alone. The pieces the accumulator ends with are found by running the body symbolically. -/
import proofs.«106939_j75831942578756_2_alg».proof.Proof.KI.R0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg3 : Memref sig .tc .vmem S1024x512 .f32) (harg3 : arg3.IsWhole) (arg4 : Memref sig .tc .vmem S512x2048 .f32) (harg4 : arg4.IsWhole) (arg5 : Memref sig .tc .vmem S1024x2048 .bf16) (harg5 : arg5.IsWhole) (arg6 : Memref sig .tc .vmem S1024x2048 .f32) (harg6 : arg6.IsWhole) (hc0 : cond0_0 i) (hc1 : ¬cond0_1 i)
    (x0 : Vec F S1024x512 .f32) (x1 : Vec F S512x2048 .f32) :
    Σ' (L2 : List (View.Piece (Elt F) S1024x2048 .bf16)), { LS0 : List (View.Piece (Elt F) S1024x2048 .f32) //
      ∀ (xi2 : Vec F S1024x2048 .bf16) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨[], ?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Hand

end
-- ==== Proof.KI.R0RunB.lean ====
/- Region 0, the points with k = 1, 2: the body adds the blocks' product to the accumulator it finds and leaves
   the output buffer alone. -/
import proofs.«106939_j75831942578756_2_alg».proof.Proof.KI.R0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg3 : Memref sig .tc .vmem S1024x512 .f32) (harg3 : arg3.IsWhole) (arg4 : Memref sig .tc .vmem S512x2048 .f32) (harg4 : arg4.IsWhole) (arg5 : Memref sig .tc .vmem S1024x2048 .bf16) (harg5 : arg5.IsWhole) (arg6 : Memref sig .tc .vmem S1024x2048 .f32) (harg6 : arg6.IsWhole) (hc0 : ¬cond0_0 i) (hc1 : ¬cond0_1 i)
    (x0 : Vec F S1024x512 .f32) (x1 : Vec F S512x2048 .f32) (xs0 : Vec F S1024x2048 .f32) :
    Σ' (L2 : List (View.Piece (Elt F) S1024x2048 .bf16)), { LS0 : List (View.Piece (Elt F) S1024x2048 .f32) //
      ∀ (xi2 : Vec F S1024x2048 .bf16) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨[], ?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Hand

end
-- ==== Proof.KI.R0RunC.lean ====
/- Region 0, the points with k = 3: the body adds the blocks' product to the accumulator it finds and stores the
   accumulator, narrowed to the output's format, over the whole output buffer. -/
import proofs.«106939_j75831942578756_2_alg».proof.Proof.KI.R0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg3 : Memref sig .tc .vmem S1024x512 .f32) (harg3 : arg3.IsWhole) (arg4 : Memref sig .tc .vmem S512x2048 .f32) (harg4 : arg4.IsWhole) (arg5 : Memref sig .tc .vmem S1024x2048 .bf16) (harg5 : arg5.IsWhole) (arg6 : Memref sig .tc .vmem S1024x2048 .f32) (harg6 : arg6.IsWhole) (hc0 : ¬cond0_0 i) (hc1 : cond0_1 i)
    (x0 : Vec F S1024x512 .f32) (x1 : Vec F S512x2048 .f32) (xs0 : Vec F S1024x2048 .f32) :
    Σ' (L2 : List (View.Piece (Elt F) S1024x2048 .bf16)), { LS0 : List (View.Piece (Elt F) S1024x2048 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Hand

end
-- ==== Proof.KI.R0Frame.lean ====
/- Region 0 (A·W over four column slabs): what the accumulator holds after each point, the pipeline's proof data,
   and the body obligation at every point. After point t the accumulator holds the sum of the products of the blocks
   of the points k' ≤ k of t's row of points, started from zero at k = 0; the output block of a row of points is the
   accumulator after its last point, narrowed to the output's format. -/
import proofs.«106939_j75831942578756_2_alg».proof.Proof.KI.R0RunA
import proofs.«106939_j75831942578756_2_alg».proof.Proof.KI.R0RunB
import proofs.«106939_j75831942578756_2_alg».proof.Proof.KI.R0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem scover0_A_0 (c : Dev nD) (i : grid0.Coords) (arg3 : Memref sig .tc .vmem S1024x512 .f32) (harg3 : arg3.IsWhole) (arg4 : Memref sig .tc .vmem S512x2048 .f32) (harg4 : arg4.IsWhole) (arg5 : Memref sig .tc .vmem S1024x2048 .bf16) (harg5 : arg5.IsWhole) (arg6 : Memref sig .tc .vmem S1024x2048 .f32) (harg6 : arg6.IsWhole) (hc0 : cond0_0 i) (hc1 : ¬cond0_1 i)
    (x0 : Vec F S1024x512 .f32) (x1 : Vec F S512x2048 .f32) (y : S1024x2048.Idx) :
    ∃ pc ∈ (kernelRun0_A c i arg3 harg3 arg4 harg4 arg5 harg5 arg6 harg6 hc0 hc1 x0 x1).2.1, y ∈ pc.1.set :=
  View.cover_of_tiledL (kernelRun0_A c i arg3 harg3 arg4 harg4 arg5 harg5 arg6 harg6 hc0 hc1 x0 x1).2.1 S1024x2048.size (by sl_kernel_rfl) y

/-- The accumulator after a point with k = 0. -/
def sout0_A_0 (c : Dev nD) (i : grid0.Coords) (arg3 : Memref sig .tc .vmem S1024x512 .f32) (harg3 : arg3.IsWhole) (arg4 : Memref sig .tc .vmem S512x2048 .f32) (harg4 : arg4.IsWhole) (arg5 : Memref sig .tc .vmem S1024x2048 .bf16) (harg5 : arg5.IsWhole) (arg6 : Memref sig .tc .vmem S1024x2048 .f32) (harg6 : arg6.IsWhole) (hc0 : cond0_0 i) (hc1 : ¬cond0_1 i)
    (x0 : Vec F S1024x512 .f32) (x1 : Vec F S512x2048 .f32) : Vec F S1024x2048 .f32 :=
  VS0_0.read (Elt F) (VS0_0.writes (Elt F) VS0_0.junk (kernelRun0_A c i arg3 harg3 arg4 harg4 arg5 harg5 arg6 harg6 hc0 hc1 x0 x1).2.1)

theorem scover0_B_0 (c : Dev nD) (i : grid0.Coords) (arg3 : Memref sig .tc .vmem S1024x512 .f32) (harg3 : arg3.IsWhole) (arg4 : Memref sig .tc .vmem S512x2048 .f32) (harg4 : arg4.IsWhole) (arg5 : Memref sig .tc .vmem S1024x2048 .bf16) (harg5 : arg5.IsWhole) (arg6 : Memref sig .tc .vmem S1024x2048 .f32) (harg6 : arg6.IsWhole) (hc0 : ¬cond0_0 i) (hc1 : ¬cond0_1 i)
    (x0 : Vec F S1024x512 .f32) (x1 : Vec F S512x2048 .f32) (xs0 : Vec F S1024x2048 .f32) (y : S1024x2048.Idx) :
    ∃ pc ∈ (kernelRun0_B c i arg3 harg3 arg4 harg4 arg5 harg5 arg6 harg6 hc0 hc1 x0 x1 xs0).2.1, y ∈ pc.1.set :=
  View.cover_of_tiledL (kernelRun0_B c i arg3 harg3 arg4 harg4 arg5 harg5 arg6 harg6 hc0 hc1 x0 x1 xs0).2.1 S1024x2048.size (by sl_kernel_rfl) y

/-- The accumulator after a point with k = 1, 2, from what the point before left. -/
def sout0_B_0 (c : Dev nD) (i : grid0.Coords) (arg3 : Memref sig .tc .vmem S1024x512 .f32) (harg3 : arg3.IsWhole) (arg4 : Memref sig .tc .vmem S512x2048 .f32) (harg4 : arg4.IsWhole) (arg5 : Memref sig .tc .vmem S1024x2048 .bf16) (harg5 : arg5.IsWhole) (arg6 : Memref sig .tc .vmem S1024x2048 .f32) (harg6 : arg6.IsWhole) (hc0 : ¬cond0_0 i) (hc1 : ¬cond0_1 i)
    (x0 : Vec F S1024x512 .f32) (x1 : Vec F S512x2048 .f32) (xs0 : Vec F S1024x2048 .f32) : Vec F S1024x2048 .f32 :=
  VS0_0.read (Elt F) (VS0_0.writes (Elt F) VS0_0.junk (kernelRun0_B c i arg3 harg3 arg4 harg4 arg5 harg5 arg6 harg6 hc0 hc1 x0 x1 xs0).2.1)

theorem cover0_C_2 (c : Dev nD) (i : grid0.Coords) (arg3 : Memref sig .tc .vmem S1024x512 .f32) (harg3 : arg3.IsWhole) (arg4 : Memref sig .tc .vmem S512x2048 .f32) (harg4 : arg4.IsWhole) (arg5 : Memref sig .tc .vmem S1024x2048 .bf16) (harg5 : arg5.IsWhole) (arg6 : Memref sig .tc .vmem S1024x2048 .f32) (harg6 : arg6.IsWhole) (hc0 : ¬cond0_0 i) (hc1 : cond0_1 i)
    (x0 : Vec F S1024x512 .f32) (x1 : Vec F S512x2048 .f32) (xs0 : Vec F S1024x2048 .f32) (y : S1024x2048.Idx) :
    ∃ pc ∈ (kernelRun0_C c i arg3 harg3 arg4 harg4 arg5 harg5 arg6 harg6 hc0 hc1 x0 x1 xs0).1, y ∈ pc.1.set :=
  View.cover_of_tiledL (kernelRun0_C c i arg3 harg3 arg4 harg4 arg5 harg5 arg6 harg6 hc0 hc1 x0 x1 xs0).1 S1024x2048.size (by sl_kernel_rfl) y

/-- The output buffer after a point with k = 3. -/
def out0_C_2 (c : Dev nD) (i : grid0.Coords) (arg3 : Memref sig .tc .vmem S1024x512 .f32) (harg3 : arg3.IsWhole) (arg4 : Memref sig .tc .vmem S512x2048 .f32) (harg4 : arg4.IsWhole) (arg5 : Memref sig .tc .vmem S1024x2048 .bf16) (harg5 : arg5.IsWhole) (arg6 : Memref sig .tc .vmem S1024x2048 .f32) (harg6 : arg6.IsWhole) (hc0 : ¬cond0_0 i) (hc1 : cond0_1 i)
    (x0 : Vec F S1024x512 .f32) (x1 : Vec F S512x2048 .f32) (xs0 : Vec F S1024x2048 .f32) : Vec F S1024x2048 .bf16 :=
  VO0_2.read (Elt F) (VO0_2.writes (Elt F) VO0_2.junk (kernelRun0_C c i arg3 harg3 arg4 harg4 arg5 harg5 arg6 harg6 hc0 hc1 x0 x1 xs0).1)

theorem scover0_C_0 (c : Dev nD) (i : grid0.Coords) (arg3 : Memref sig .tc .vmem S1024x512 .f32) (harg3 : arg3.IsWhole) (arg4 : Memref sig .tc .vmem S512x2048 .f32) (harg4 : arg4.IsWhole) (arg5 : Memref sig .tc .vmem S1024x2048 .bf16) (harg5 : arg5.IsWhole) (arg6 : Memref sig .tc .vmem S1024x2048 .f32) (harg6 : arg6.IsWhole) (hc0 : ¬cond0_0 i) (hc1 : cond0_1 i)
    (x0 : Vec F S1024x512 .f32) (x1 : Vec F S512x2048 .f32) (xs0 : Vec F S1024x2048 .f32) (y : S1024x2048.Idx) :
    ∃ pc ∈ (kernelRun0_C c i arg3 harg3 arg4 harg4 arg5 harg5 arg6 harg6 hc0 hc1 x0 x1 xs0).2.1, y ∈ pc.1.set :=
  View.cover_of_tiledL (kernelRun0_C c i arg3 harg3 arg4 harg4 arg5 harg5 arg6 harg6 hc0 hc1 x0 x1 xs0).2.1 S1024x2048.size (by sl_kernel_rfl) y

/-- The accumulator after a point with k = 3. -/
def sout0_C_0 (c : Dev nD) (i : grid0.Coords) (arg3 : Memref sig .tc .vmem S1024x512 .f32) (harg3 : arg3.IsWhole) (arg4 : Memref sig .tc .vmem S512x2048 .f32) (harg4 : arg4.IsWhole) (arg5 : Memref sig .tc .vmem S1024x2048 .bf16) (harg5 : arg5.IsWhole) (arg6 : Memref sig .tc .vmem S1024x2048 .f32) (harg6 : arg6.IsWhole) (hc0 : ¬cond0_0 i) (hc1 : cond0_1 i)
    (x0 : Vec F S1024x512 .f32) (x1 : Vec F S512x2048 .f32) (xs0 : Vec F S1024x2048 .f32) : Vec F S1024x2048 .f32 :=
  VS0_0.read (Elt F) (VS0_0.writes (Elt F) VS0_0.junk (kernelRun0_C c i arg3 harg3 arg4 harg4 arg5 harg5 arg6 harg6 hc0 hc1 x0 x1 xs0).2.1)

/-! ## The accumulator point by point -/

/-- What the accumulator holds after the body at position `n`. -/
def acc0 (c : Dev nD) : (n : ℕ) → n < cfg0.N → Vec F S1024x2048 .f32
  | 0, hn => sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h' => by (try dsimp only at h'); omega) ((hcond0_1 ⟨0, hn⟩).mp h)) (iblk0 V c 0 ⟨0, hn⟩) (iblk0 V c 1 ⟨0, hn⟩)
  | n + 1, hn =>
    if h0 : (n + 1) % 4 = 0 then
      sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => (fun h' => by (try dsimp only at h'); omega) ((hcond0_1 ⟨n + 1, hn⟩).mp h)) (iblk0 V c 0 ⟨n + 1, hn⟩) (iblk0 V c 1 ⟨n + 1, hn⟩)
    else if h1 : (n + 1) % 4 = 3 then
      sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (acc0 c n (Nat.lt_of_succ_lt hn))
    else
      sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (acc0 c n (Nat.lt_of_succ_lt hn))

theorem acc0_A (c : Dev nD) (t : Fin cfg0.N) (h0 : t.val % 4 = 0) (h1 : ¬t.val % 4 = 3) :
    acc0 V c t.val t.isLt = sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t) := by
  obtain ⟨n, hn⟩ := t
  cases n with
  | zero => exact rfl
  | succ n => exact (dif_pos h0).trans rfl

theorem acc0_B (c : Dev nD) (t : Fin cfg0.N) (h0 : ¬t.val % 4 = 0) (h1 : ¬t.val % 4 = 3) :
    acc0 V c t.val t.isLt = sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (acc0 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem acc0_C (c : Dev nD) (t : Fin cfg0.N) (h0 : ¬t.val % 4 = 0) (h1 : t.val % 4 = 3) :
    acc0 V c t.val t.isLt = sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (acc0 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- What the output buffer holds after the body at point `t`: at k = 3 the narrowed accumulator; elsewhere the
    window is idle and nothing consults this value. -/
def outAt0 (c : Dev nD) (t : Fin cfg0.N) : Vec F S1024x2048 .bf16 :=
  if h1 : t.val % 4 = 3 then
    out0_C_2 c (grid0.coords t) (ms0_0 t) (hs0_0 t) (ms0_1 t) (hs0_1 t) (ms0_2 t) (hs0_2 t) scM0_0 (Memref.isWhole_whole _) (fun h => absurd ((hcond0_0 t).mp h) (by omega)) ((hcond0_1 t).mpr h1) (iblk0 V c 0 t) (iblk0 V c 1 t) (acc0 V c (t.val - 1) (Nat.lt_of_le_of_lt (Nat.sub_le _ _) t.isLt))
  else VO0_2.read (Elt F) VO0_2.junk

theorem outAt0_C (c : Dev nD) (t : Fin cfg0.N) (h0 : ¬t.val % 4 = 0) (h1 : t.val % 4 = 3) :
    outAt0 V c t = out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (acc0 V c (t.val - 1) (Nat.lt_of_le_of_lt (Nat.sub_le _ _) t.isLt)) := by
  unfold outAt0; exact dif_pos h1

/-! ## The region's invariant -/

/-- Before the first point the accumulator is at anything; before any other it is at what the point before left. -/
def PhiS0 (c : Dev nD) : (n : ℕ) → n ≤ cfg0.N → sProp 𝕄
  | 0, _ => Pipeline.ΦA spec0 c
  | n + 1, hn => iprop(iprop(owns (c : Thread nD τ) scM0_0 fullShare (acc0 V c n hn) ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare (acc0 V c n hn) ∗ Pipeline.scopedRestBut (Ix := Unit) (Name := ℕ) (U := UR sig nD τ) (Lvl := ℕ) (Val := Elt F) spec0 c [cc0_scratch0]) ∗ (∃ r, prngReg c r)) := rfl

theorem PhiS0_pos (c : Dev nD) (n : ℕ) (h : n ≤ cfg0.N) (hz : n ≠ 0) :
    PhiS0 V c n h = iprop(iprop(owns (c : Thread nD τ) scM0_0 fullShare (acc0 V c (n - 1) (by omega)) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outAt0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = outAt0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 8 := lt_of_lt_of_eq t.isLt (show cfg0.N = 8 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 4 = 0
  · have h1 : ¬t.val % 4 = 3 := by omega
    rw [Dat.leavesExact_idle (dat0 V c) 2 t (idleAt0_2 t (fun h => h1 ((hcond0_1 t).mp h))) (noFlush0_2 t (fun h => h1 ((hcond0_1 t).mp h)))]
    rw [acc0_A V c t h0 h1]
    unfold sout0_A_0; (try dsimp only)
    by_cases hz : t.val = 0
    · rw [PhiS0_castSucc V c t, PhiS0_zero V c _ _ hz, PhiA0_eq]
      iintro ⟨⟨⟨HS0, Hrest⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A_0 c _ _ _ _ _ _ _ _ _ _ _ _ _)
          iexact Hrest
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS0, Hrest⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A_0 c _ _ _ _ _ _ _ _ _ _ _ _ _)
          iexact Hrest
        iexact Hg
      isplitl [Ho]; · iexact Ho
      isplitl [H0]; · iexact H0
      isplitl [H1]; · iexact H1
      iexists _; iexact H2
  · have hz : t.val ≠ 0 := fun h => h0 (by rw [h])
    by_cases h1 : t.val % 4 = 3
    · rw [show (dat0 V c).leavesExact 2 t = owns (c : Thread nD τ) (ms0_2 t) fullShare ((dat0 V c).after 2 t) from by
        unfold Dat.leavesExact; rw [liveAt0_2 t ((hcond0_1 t).mpr h1)], after0_2]
      rw [acc0_C V c t h0 h1, outAt0_C V c t h0 h1]
      unfold out0_C_2 sout0_C_0; (try dsimp only)
      rw [PhiS0_castSucc V c t, PhiS0_pos V c _ _ hz]
      iintro ⟨⟨⟨HS0, Hrest⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_C_0 c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dat0 V c) 2 t (idleAt0_2 t (fun h => h1 ((hcond0_1 t).mp h))) (noFlush0_2 t (fun h => h1 ((hcond0_1 t).mp h)))]
      rw [acc0_B V c t h0 h1]
      unfold sout0_B_0; (try dsimp only)
      rw [PhiS0_castSucc V c t, PhiS0_pos V c _ _ hz]
      iintro ⟨⟨⟨HS0, Hrest⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_B_0 c _ _ _ _ _ _ _ _ _ _ _ _ _ _)
          iexact Hrest
        iexact Hg
      isplitl [Ho]; · iexact Ho
      isplitl [H0]; · iexact H0
      isplitl [H1]; · iexact H1
      iexists _; iexact H2

theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the scoped rest back, the accumulator's contents forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 8 := N_0; omega), PhiA0_eq]
  iintro ⟨⟨HS0, Hrest⟩, Hg⟩
  isplitl [HS0 Hrest]
  · isplitl [HS0]
    · iexists _; iexact HS0
    iexact Hrest
  iexact Hg

end Cert.KernelIdeal.Hand

end
-- ==== Proof.KI.R1Base.lean ====
/- Region 1 (one layer: the product M·x accumulated over four column slabs, plus the bias row): what every case of
   its body shares. The grid is (i, j, k) = (2, 1, 4), so point t has k = t mod 4. The body zeroes the accumulator
   when k = 0, adds the product of the point's two blocks at every point, and when k = 3 stores the accumulator plus
   the bias row over the output block; elsewhere the output window is idle and is not written back. -/
import proofs.«106939_j75831942578756_2_alg».proof.Proof.Gen.KernelIdeal.Launch
import proofs.«106939_j75831942578756_2_alg».proof.Proof.Gen.KernelIdeal.Skeleton
import proofs.«106939_j75831942578756_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left operand's staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The right operand's staging buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias row's staging buffer holds the row at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions over the grid -/

/-- "k = 0": the accumulator is zeroed. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- "k = 3": the accumulator plus the bias row is handed to the output block. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from k = 3 the output window is idle and its block is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The memrefs the body is called with -/

abbrev VO1_3 : View sig .tc .vmem S1024x2048 .bf16 := (Memref.whole cc1_stg3_0 : Memref sig .tc .vmem S1024x2048 .bf16).view
abbrev ms1_0 (t : Fin cfg1.N) : Memref sig .tc .vmem S1024x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x2048 .bf16 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1_0 : Memref sig .tc .vmem S1024x2048 .f32 := Memref.whole cc1_scratch0
abbrev VS1_0 : View sig .tc .vmem S1024x2048 .f32 := scM1_0.view

/-- The region's starting invariant with the accumulator split off the scoped rest: the accumulator at anything,
    every other scoped buffer unopened, the generator register at some state. -/
theorem PhiA1_eq (c : Dev nD) :
    (Pipeline.ΦA spec1 c : sProp 𝕄)
      = iprop(iprop((∃ d, owns (c : Thread nD τ) scM1_0 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

end Cert.KernelIdeal.Hand

end
-- ==== Proof.KI.R1RunA.lean ====
/- Region 1, the points with k = 0: the body zeroes the accumulator, adds the blocks' product, leaves the output
   buffer alone. The pieces the accumulator ends with are found by running the body symbolically. -/
import proofs.«106939_j75831942578756_2_alg».proof.Proof.KI.R1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg3 : Memref sig .tc .vmem S1024x512 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : cond1_0 i) (hc1 : ¬cond1_1 i)
    (x0 : Vec F S1024x512 .bf16) (x1 : Vec F S512x2048 .f32) (x2 : Vec F S1x2048 .f32) :
    Σ' (L3 : List (View.Piece (Elt F) S1024x2048 .bf16)), { LS0 : List (View.Piece (Elt F) S1024x2048 .f32) //
      ∀ (xi3 : Vec F S1024x2048 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_bias_kernel i arg3 harg3 arg4 harg4 arg5 harg5 arg6 harg6 arg7 harg7) K } := by
  refine ⟨[], ?_, fun xi3 E K => ?run⟩
  case run =>
    simp only [cc1__matmul_bias_kernel_eq_skeleton]; unfold cc1__matmul_bias_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.KI.R1RunB.lean ====
/- Region 1, the points with k = 1, 2: the body adds the blocks' product to the accumulator it finds and leaves
   the output buffer alone. -/
import proofs.«106939_j75831942578756_2_alg».proof.Proof.KI.R1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg3 : Memref sig .tc .vmem S1024x512 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : ¬cond1_0 i) (hc1 : ¬cond1_1 i)
    (x0 : Vec F S1024x512 .bf16) (x1 : Vec F S512x2048 .f32) (x2 : Vec F S1x2048 .f32) (xs0 : Vec F S1024x2048 .f32) :
    Σ' (L3 : List (View.Piece (Elt F) S1024x2048 .bf16)), { LS0 : List (View.Piece (Elt F) S1024x2048 .f32) //
      ∀ (xi3 : Vec F S1024x2048 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_bias_kernel i arg3 harg3 arg4 harg4 arg5 harg5 arg6 harg6 arg7 harg7) K } := by
  refine ⟨[], ?_, fun xi3 E K => ?run⟩
  case run =>
    simp only [cc1__matmul_bias_kernel_eq_skeleton]; unfold cc1__matmul_bias_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.KI.R1RunC.lean ====
/- Region 1, the points with k = 3: the body adds the blocks' product to the accumulator it finds and stores the
   accumulator plus the bias row, in the output's format, over the whole output buffer. -/
import proofs.«106939_j75831942578756_2_alg».proof.Proof.KI.R1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg3 : Memref sig .tc .vmem S1024x512 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : ¬cond1_0 i) (hc1 : cond1_1 i)
    (x0 : Vec F S1024x512 .bf16) (x1 : Vec F S512x2048 .f32) (x2 : Vec F S1x2048 .f32) (xs0 : Vec F S1024x2048 .f32) :
    Σ' (L3 : List (View.Piece (Elt F) S1024x2048 .bf16)), { LS0 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_bias_kernel i arg3 harg3 arg4 harg4 arg5 harg5 arg6 harg6 arg7 harg7) K } := by
  refine ⟨?_, ?_, fun E K => ?run⟩
  case run =>
    simp only [cc1__matmul_bias_kernel_eq_skeleton]; unfold cc1__matmul_bias_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Hand

end
-- ==== Proof.KI.R1Frame.lean ====
/- Region 1 (one layer, M·x over four column slabs plus the bias row): what the accumulator holds after each point,
   the pipeline's proof data, and the body obligation at every point. After point t the accumulator holds the sum of
   the products of the blocks of the points k' ≤ k of t's row of points, started from zero at k = 0; the output block
   of a row of points is the accumulator after its last point plus the bias row, in the output's format. -/
import proofs.«106939_j75831942578756_2_alg».proof.Proof.KI.R1RunA
import proofs.«106939_j75831942578756_2_alg».proof.Proof.KI.R1RunB
import proofs.«106939_j75831942578756_2_alg».proof.Proof.KI.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem scover1_A_0 (c : Dev nD) (i : grid1.Coords) (arg3 : Memref sig .tc .vmem S1024x512 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : cond1_0 i) (hc1 : ¬cond1_1 i)
    (x0 : Vec F S1024x512 .bf16) (x1 : Vec F S512x2048 .f32) (x2 : Vec F S1x2048 .f32) (y : S1024x2048.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1024x2048.size (by sl_kernel_rfl) y

/-- The accumulator after a point with k = 0. -/
def sout1_A_0 (c : Dev nD) (i : grid1.Coords) (arg3 : Memref sig .tc .vmem S1024x512 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : cond1_0 i) (hc1 : ¬cond1_1 i)
    (x0 : Vec F S1024x512 .bf16) (x1 : Vec F S512x2048 .f32) (x2 : Vec F S1x2048 .f32) : Vec F S1024x2048 .f32 :=
  VS1_0.read (Elt F) (VS1_0.writes (Elt F) VS1_0.junk (kernelRun1_A c i arg3 harg3 arg4 harg4 arg5 harg5 arg6 harg6 arg7 harg7 hc0 hc1 x0 x1 x2).2.1)

theorem scover1_B_0 (c : Dev nD) (i : grid1.Coords) (arg3 : Memref sig .tc .vmem S1024x512 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : ¬cond1_0 i) (hc1 : ¬cond1_1 i)
    (x0 : Vec F S1024x512 .bf16) (x1 : Vec F S512x2048 .f32) (x2 : Vec F S1x2048 .f32) (xs0 : Vec F S1024x2048 .f32) (y : S1024x2048.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S1024x2048.size (by sl_kernel_rfl) y

/-- The accumulator after a point with k = 1, 2, from what the point before left. -/
def sout1_B_0 (c : Dev nD) (i : grid1.Coords) (arg3 : Memref sig .tc .vmem S1024x512 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : ¬cond1_0 i) (hc1 : ¬cond1_1 i)
    (x0 : Vec F S1024x512 .bf16) (x1 : Vec F S512x2048 .f32) (x2 : Vec F S1x2048 .f32) (xs0 : Vec F S1024x2048 .f32) : Vec F S1024x2048 .f32 :=
  VS1_0.read (Elt F) (VS1_0.writes (Elt F) VS1_0.junk (kernelRun1_B c i arg3 harg3 arg4 harg4 arg5 harg5 arg6 harg6 arg7 harg7 hc0 hc1 x0 x1 x2 xs0).2.1)

theorem cover1_C_3 (c : Dev nD) (i : grid1.Coords) (arg3 : Memref sig .tc .vmem S1024x512 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : ¬cond1_0 i) (hc1 : cond1_1 i)
    (x0 : Vec F S1024x512 .bf16) (x1 : Vec F S512x2048 .f32) (x2 : Vec F S1x2048 .f32) (xs0 : Vec F S1024x2048 .f32) (y : S1024x2048.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1024x2048.size (by sl_kernel_rfl) y

/-- The output buffer after a point with k = 3. -/
def out1_C_3 (c : Dev nD) (i : grid1.Coords) (arg3 : Memref sig .tc .vmem S1024x512 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : ¬cond1_0 i) (hc1 : cond1_1 i)
    (x0 : Vec F S1024x512 .bf16) (x1 : Vec F S512x2048 .f32) (x2 : Vec F S1x2048 .f32) (xs0 : Vec F S1024x2048 .f32) : Vec F S1024x2048 .bf16 :=
  VO1_3.read (Elt F) (VO1_3.writes (Elt F) VO1_3.junk (kernelRun1_C c i arg3 harg3 arg4 harg4 arg5 harg5 arg6 harg6 arg7 harg7 hc0 hc1 x0 x1 x2 xs0).1)

theorem scover1_C_0 (c : Dev nD) (i : grid1.Coords) (arg3 : Memref sig .tc .vmem S1024x512 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : ¬cond1_0 i) (hc1 : cond1_1 i)
    (x0 : Vec F S1024x512 .bf16) (x1 : Vec F S512x2048 .f32) (x2 : Vec F S1x2048 .f32) (xs0 : Vec F S1024x2048 .f32) (y : S1024x2048.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S1024x2048.size (by sl_kernel_rfl) y

/-- The accumulator after a point with k = 3. -/
def sout1_C_0 (c : Dev nD) (i : grid1.Coords) (arg3 : Memref sig .tc .vmem S1024x512 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : ¬cond1_0 i) (hc1 : cond1_1 i)
    (x0 : Vec F S1024x512 .bf16) (x1 : Vec F S512x2048 .f32) (x2 : Vec F S1x2048 .f32) (xs0 : Vec F S1024x2048 .f32) : Vec F S1024x2048 .f32 :=
  VS1_0.read (Elt F) (VS1_0.writes (Elt F) VS1_0.junk (kernelRun1_C c i arg3 harg3 arg4 harg4 arg5 harg5 arg6 harg6 arg7 harg7 hc0 hc1 x0 x1 x2 xs0).2.1)

/-! ## The accumulator point by point -/

/-- What the accumulator holds after the body at position `n`. -/
def acc1 (c : Dev nD) : (n : ℕ) → n < cfg1.N → Vec F S1024x2048 .f32
  | 0, hn => sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h' => by (try dsimp only at h'); omega) ((hcond1_1 ⟨0, hn⟩).mp h)) (iblk1 V c 0 ⟨0, hn⟩) (iblk1 V c 1 ⟨0, hn⟩) (iblk1 V c 2 ⟨0, hn⟩)
  | n + 1, hn =>
    if h0 : (n + 1) % 4 = 0 then
      sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => (fun h' => by (try dsimp only at h'); omega) ((hcond1_1 ⟨n + 1, hn⟩).mp h)) (iblk1 V c 0 ⟨n + 1, hn⟩) (iblk1 V c 1 ⟨n + 1, hn⟩) (iblk1 V c 2 ⟨n + 1, hn⟩)
    else if h1 : (n + 1) % 4 = 3 then
      sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (acc1 c n (Nat.lt_of_succ_lt hn))
    else
      sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (acc1 c n (Nat.lt_of_succ_lt hn))

theorem acc1_A (c : Dev nD) (t : Fin cfg1.N) (h0 : t.val % 4 = 0) (h1 : ¬t.val % 4 = 3) :
    acc1 V c t.val t.isLt = sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t) := by
  obtain ⟨n, hn⟩ := t
  cases n with
  | zero => exact rfl
  | succ n => exact (dif_pos h0).trans rfl

theorem acc1_B (c : Dev nD) (t : Fin cfg1.N) (h0 : ¬t.val % 4 = 0) (h1 : ¬t.val % 4 = 3) :
    acc1 V c t.val t.isLt = sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (acc1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem acc1_C (c : Dev nD) (t : Fin cfg1.N) (h0 : ¬t.val % 4 = 0) (h1 : t.val % 4 = 3) :
    acc1 V c t.val t.isLt = sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (acc1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- What the output buffer holds after the body at point `t`: at k = 3 the accumulator plus the bias row; elsewhere
    the window is idle and nothing consults this value. -/
def outAt1 (c : Dev nD) (t : Fin cfg1.N) : Vec F S1024x2048 .bf16 :=
  if h1 : t.val % 4 = 3 then
    out1_C_3 c (grid1.coords t) (ms1_0 t) (hs1_0 t) (ms1_1 t) (hs1_1 t) (ms1_2 t) (hs1_2 t) (ms1_3 t) (hs1_3 t) scM1_0 (Memref.isWhole_whole _) (fun h => absurd ((hcond1_0 t).mp h) (by omega)) ((hcond1_1 t).mpr h1) (iblk1 V c 0 t) (iblk1 V c 1 t) (iblk1 V c 2 t) (acc1 V c (t.val - 1) (Nat.lt_of_le_of_lt (Nat.sub_le _ _) t.isLt))
  else VO1_3.read (Elt F) VO1_3.junk

theorem outAt1_C (c : Dev nD) (t : Fin cfg1.N) (h0 : ¬t.val % 4 = 0) (h1 : t.val % 4 = 3) :
    outAt1 V c t = out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (acc1 V c (t.val - 1) (Nat.lt_of_le_of_lt (Nat.sub_le _ _) t.isLt)) := by
  unfold outAt1; exact dif_pos h1

/-! ## The region's invariant -/

/-- Before the first point the accumulator is at anything; before any other it is at what the point before left. -/
def PhiS1 (c : Dev nD) : (n : ℕ) → n ≤ cfg1.N → sProp 𝕄
  | 0, _ => Pipeline.ΦA spec1 c
  | n + 1, hn => iprop(iprop(owns (c : Thread nD τ) scM1_0 fullShare (acc1 V c n hn) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare (acc1 V c n hn) ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(owns (c : Thread nD τ) scM1_0 fullShare (acc1 V c (n - 1) (by omega)) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 8 := lt_of_lt_of_eq t.isLt (show cfg1.N = 8 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 4 = 0
  · have h1 : ¬t.val % 4 = 3 := by omega
    rw [Dat.leavesExact_idle (dat1 V c) 3 t (idleAt1_3 t (fun h => h1 ((hcond1_1 t).mp h))) (noFlush1_3 t (fun h => h1 ((hcond1_1 t).mp h)))]
    rw [acc1_A V c t h0 h1]
    unfold sout1_A_0; (try dsimp only)
    by_cases hz : t.val = 0
    · rw [PhiS1_castSucc V c t, PhiS1_zero V c _ _ hz, PhiA1_eq]
      iintro ⟨⟨⟨HS0, Hrest⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_A_0 c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS0, Hrest⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_A_0 c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 4 = 3
    · rw [show (dat1 V c).leavesExact 3 t = owns (c : Thread nD τ) (ms1_3 t) fullShare ((dat1 V c).after 3 t) from by
        unfold Dat.leavesExact; rw [liveAt1_3 t ((hcond1_1 t).mpr h1)], after1_3]
      rw [acc1_C V c t h0 h1, outAt1_C V c t h0 h1]
      unfold out1_C_3 sout1_C_0; (try dsimp only)
      rw [PhiS1_castSucc V c t, PhiS1_pos V c _ _ hz]
      iintro ⟨⟨⟨HS0, Hrest⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_C_0 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [acc1_B V c t h0 h1]
      unfold sout1_B_0; (try dsimp only)
      rw [PhiS1_castSucc V c t, PhiS1_pos V c _ _ hz]
      iintro ⟨⟨⟨HS0, Hrest⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_B_0 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the scoped rest back, the accumulator's contents forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 8 := N_1; omega), PhiA1_eq]
  iintro ⟨⟨HS0, Hrest⟩, Hg⟩
  isplitl [HS0 Hrest]
  · isplitl [HS0]
    · iexists _; iexact HS0
    iexact Hrest
  iexact Hg

end Cert.KernelIdeal.Hand

end
-- ==== Proof.KI.R2Base.lean ====
/- Region 2 (one layer: the product M·x accumulated over four column slabs, plus the bias row): what every case of
   its body shares. The grid is (i, j, k) = (2, 1, 4), so point t has k = t mod 4. The body zeroes the accumulator
   when k = 0, adds the product of the point's two blocks at every point, and when k = 3 stores the accumulator plus
   the bias row over the output block; elsewhere the output window is idle and is not written back. -/
import proofs.«106939_j75831942578756_2_alg».proof.Proof.Gen.KernelIdeal.Launch
import proofs.«106939_j75831942578756_2_alg».proof.Proof.Gen.KernelIdeal.Skeleton
import proofs.«106939_j75831942578756_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The left operand's staging buffer holds its block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The right operand's staging buffer holds its block at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The bias row's staging buffer holds the row at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions over the grid -/

/-- "k = 0": the accumulator is zeroed. -/
abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)

/-- "k = 3": the accumulator plus the bias row is handed to the output block. -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Away from k = 3 the output window is idle and its block is not written back. -/
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
theorem liveAt2_3 : ∀ t : Fin cfg2.N, cond2_1 (grid2.coords t) → cfg2.idle 3 (grid2.coords t) = false := by decide +kernel

/-! ## The memrefs the body is called with -/

abbrev VO2_3 : View sig .tc .vmem S1024x2048 .bf16 := (Memref.whole cc2_stg3_0 : Memref sig .tc .vmem S1024x2048 .bf16).view
abbrev ms2_0 (t : Fin cfg2.N) : Memref sig .tc .vmem S1024x512 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x2048 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x2048 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x2048 .bf16 := win2_3.stage (cfg2.slots t 3)
abbrev hs2_3 (t : Fin cfg2.N) : (ms2_3 t).IsWhole := hstage2_3 ((cfg2.slots t 3).cast nbuf2_3)
/-- The accumulator: a whole scoped buffer of the kernel's own. -/
abbrev scM2_0 : Memref sig .tc .vmem S1024x2048 .f32 := Memref.whole cc2_scratch0
abbrev VS2_0 : View sig .tc .vmem S1024x2048 .f32 := scM2_0.view

/-- The region's starting invariant with the accumulator split off the scoped rest: the accumulator at anything,
    every other scoped buffer unopened, the generator register at some state. -/
theorem PhiA2_eq (c : Dev nD) :
    (Pipeline.ΦA spec2 c : sProp 𝕄)
      = iprop(iprop((∃ d, owns (c : Thread nD τ) scM2_0 fullShare d) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2_0, owns_whole]; try rfl

end Cert.KernelIdeal.Hand

end
-- ==== Proof.KI.R2RunA.lean ====
/- Region 2, the points with k = 0: the body zeroes the accumulator, adds the blocks' product, leaves the output
   buffer alone. The pieces the accumulator ends with are found by running the body symbolically. -/
import proofs.«106939_j75831942578756_2_alg».proof.Proof.KI.R2Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_A (c : Dev nD) (i : grid2.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : cond2_0 i) (hc1 : ¬cond2_1 i)
    (x0 : Vec F S1024x512 .bf16) (x1 : Vec F S512x2048 .bf16) (x2 : Vec F S1x2048 .f32) :
    Σ' (L3 : List (View.Piece (Elt F) S1024x2048 .bf16)), { LS0 : List (View.Piece (Elt F) S1024x2048 .f32) //
      ∀ (xi3 : Vec F S1024x2048 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc2__matmul_bias_kernel i arg3 harg3 arg4 harg4 arg5 harg5 arg6 harg6 arg7 harg7) K } := by
  refine ⟨[], ?_, fun xi3 E K => ?run⟩
  case run =>
    simp only [cc2__matmul_bias_kernel_eq_skeleton]; unfold cc2__matmul_bias_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.KI.R2RunB.lean ====
/- Region 2, the points with k = 1, 2: the body adds the blocks' product to the accumulator it finds and leaves
   the output buffer alone. -/
import proofs.«106939_j75831942578756_2_alg».proof.Proof.KI.R2Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_B (c : Dev nD) (i : grid2.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : ¬cond2_0 i) (hc1 : ¬cond2_1 i)
    (x0 : Vec F S1024x512 .bf16) (x1 : Vec F S512x2048 .bf16) (x2 : Vec F S1x2048 .f32) (xs0 : Vec F S1024x2048 .f32) :
    Σ' (L3 : List (View.Piece (Elt F) S1024x2048 .bf16)), { LS0 : List (View.Piece (Elt F) S1024x2048 .f32) //
      ∀ (xi3 : Vec F S1024x2048 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc2__matmul_bias_kernel i arg3 harg3 arg4 harg4 arg5 harg5 arg6 harg6 arg7 harg7) K } := by
  refine ⟨[], ?_, fun xi3 E K => ?run⟩
  case run =>
    simp only [cc2__matmul_bias_kernel_eq_skeleton]; unfold cc2__matmul_bias_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.KI.R2RunC.lean ====
/- Region 2, the points with k = 3: the body adds the blocks' product to the accumulator it finds and stores the
   accumulator plus the bias row, in the output's format, over the whole output buffer. -/
import proofs.«106939_j75831942578756_2_alg».proof.Proof.KI.R2Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_C (c : Dev nD) (i : grid2.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : ¬cond2_0 i) (hc1 : cond2_1 i)
    (x0 : Vec F S1024x512 .bf16) (x1 : Vec F S512x2048 .bf16) (x2 : Vec F S1x2048 .f32) (xs0 : Vec F S1024x2048 .f32) :
    Σ' (L3 : List (View.Piece (Elt F) S1024x2048 .bf16)), { LS0 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc2__matmul_bias_kernel i arg3 harg3 arg4 harg4 arg5 harg5 arg6 harg6 arg7 harg7) K } := by
  refine ⟨?_, ?_, fun E K => ?run⟩
  case run =>
    simp only [cc2__matmul_bias_kernel_eq_skeleton]; unfold cc2__matmul_bias_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Hand

end
-- ==== Proof.KI.R2Frame.lean ====
/- Region 2 (one layer, M·x over four column slabs plus the bias row): what the accumulator holds after each point,
   the pipeline's proof data, and the body obligation at every point. After point t the accumulator holds the sum of
   the products of the blocks of the points k' ≤ k of t's row of points, started from zero at k = 0; the output block
   of a row of points is the accumulator after its last point plus the bias row, in the output's format. -/
import proofs.«106939_j75831942578756_2_alg».proof.Proof.KI.R2RunA
import proofs.«106939_j75831942578756_2_alg».proof.Proof.KI.R2RunB
import proofs.«106939_j75831942578756_2_alg».proof.Proof.KI.R2RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem scover2_A_0 (c : Dev nD) (i : grid2.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : cond2_0 i) (hc1 : ¬cond2_1 i)
    (x0 : Vec F S1024x512 .bf16) (x1 : Vec F S512x2048 .bf16) (x2 : Vec F S1x2048 .f32) (y : S1024x2048.Idx) :
    ∃ pc ∈ (kernelRun2_A c i arg3 harg3 arg4 harg4 arg5 harg5 arg6 harg6 arg7 harg7 hc0 hc1 x0 x1 x2).2.1, y ∈ pc.1.set :=
  View.cover_of_tiledL (kernelRun2_A c i arg3 harg3 arg4 harg4 arg5 harg5 arg6 harg6 arg7 harg7 hc0 hc1 x0 x1 x2).2.1 S1024x2048.size (by sl_kernel_rfl) y

/-- The accumulator after a point with k = 0. -/
def sout2_A_0 (c : Dev nD) (i : grid2.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : cond2_0 i) (hc1 : ¬cond2_1 i)
    (x0 : Vec F S1024x512 .bf16) (x1 : Vec F S512x2048 .bf16) (x2 : Vec F S1x2048 .f32) : Vec F S1024x2048 .f32 :=
  VS2_0.read (Elt F) (VS2_0.writes (Elt F) VS2_0.junk (kernelRun2_A c i arg3 harg3 arg4 harg4 arg5 harg5 arg6 harg6 arg7 harg7 hc0 hc1 x0 x1 x2).2.1)

theorem scover2_B_0 (c : Dev nD) (i : grid2.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : ¬cond2_0 i) (hc1 : ¬cond2_1 i)
    (x0 : Vec F S1024x512 .bf16) (x1 : Vec F S512x2048 .bf16) (x2 : Vec F S1x2048 .f32) (xs0 : Vec F S1024x2048 .f32) (y : S1024x2048.Idx) :
    ∃ pc ∈ (kernelRun2_B c i arg3 harg3 arg4 harg4 arg5 harg5 arg6 harg6 arg7 harg7 hc0 hc1 x0 x1 x2 xs0).2.1, y ∈ pc.1.set :=
  View.cover_of_tiledL (kernelRun2_B c i arg3 harg3 arg4 harg4 arg5 harg5 arg6 harg6 arg7 harg7 hc0 hc1 x0 x1 x2 xs0).2.1 S1024x2048.size (by sl_kernel_rfl) y

/-- The accumulator after a point with k = 1, 2, from what the point before left. -/
def sout2_B_0 (c : Dev nD) (i : grid2.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : ¬cond2_0 i) (hc1 : ¬cond2_1 i)
    (x0 : Vec F S1024x512 .bf16) (x1 : Vec F S512x2048 .bf16) (x2 : Vec F S1x2048 .f32) (xs0 : Vec F S1024x2048 .f32) : Vec F S1024x2048 .f32 :=
  VS2_0.read (Elt F) (VS2_0.writes (Elt F) VS2_0.junk (kernelRun2_B c i arg3 harg3 arg4 harg4 arg5 harg5 arg6 harg6 arg7 harg7 hc0 hc1 x0 x1 x2 xs0).2.1)

theorem cover2_C_3 (c : Dev nD) (i : grid2.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : ¬cond2_0 i) (hc1 : cond2_1 i)
    (x0 : Vec F S1024x512 .bf16) (x1 : Vec F S512x2048 .bf16) (x2 : Vec F S1x2048 .f32) (xs0 : Vec F S1024x2048 .f32) (y : S1024x2048.Idx) :
    ∃ pc ∈ (kernelRun2_C c i arg3 harg3 arg4 harg4 arg5 harg5 arg6 harg6 arg7 harg7 hc0 hc1 x0 x1 x2 xs0).1, y ∈ pc.1.set :=
  View.cover_of_tiledL (kernelRun2_C c i arg3 harg3 arg4 harg4 arg5 harg5 arg6 harg6 arg7 harg7 hc0 hc1 x0 x1 x2 xs0).1 S1024x2048.size (by sl_kernel_rfl) y

/-- The output buffer after a point with k = 3. -/
def out2_C_3 (c : Dev nD) (i : grid2.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : ¬cond2_0 i) (hc1 : cond2_1 i)
    (x0 : Vec F S1024x512 .bf16) (x1 : Vec F S512x2048 .bf16) (x2 : Vec F S1x2048 .f32) (xs0 : Vec F S1024x2048 .f32) : Vec F S1024x2048 .bf16 :=
  VO2_3.read (Elt F) (VO2_3.writes (Elt F) VO2_3.junk (kernelRun2_C c i arg3 harg3 arg4 harg4 arg5 harg5 arg6 harg6 arg7 harg7 hc0 hc1 x0 x1 x2 xs0).1)

theorem scover2_C_0 (c : Dev nD) (i : grid2.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : ¬cond2_0 i) (hc1 : cond2_1 i)
    (x0 : Vec F S1024x512 .bf16) (x1 : Vec F S512x2048 .bf16) (x2 : Vec F S1x2048 .f32) (xs0 : Vec F S1024x2048 .f32) (y : S1024x2048.Idx) :
    ∃ pc ∈ (kernelRun2_C c i arg3 harg3 arg4 harg4 arg5 harg5 arg6 harg6 arg7 harg7 hc0 hc1 x0 x1 x2 xs0).2.1, y ∈ pc.1.set :=
  View.cover_of_tiledL (kernelRun2_C c i arg3 harg3 arg4 harg4 arg5 harg5 arg6 harg6 arg7 harg7 hc0 hc1 x0 x1 x2 xs0).2.1 S1024x2048.size (by sl_kernel_rfl) y

/-- The accumulator after a point with k = 3. -/
def sout2_C_0 (c : Dev nD) (i : grid2.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : ¬cond2_0 i) (hc1 : cond2_1 i)
    (x0 : Vec F S1024x512 .bf16) (x1 : Vec F S512x2048 .bf16) (x2 : Vec F S1x2048 .f32) (xs0 : Vec F S1024x2048 .f32) : Vec F S1024x2048 .f32 :=
  VS2_0.read (Elt F) (VS2_0.writes (Elt F) VS2_0.junk (kernelRun2_C c i arg3 harg3 arg4 harg4 arg5 harg5 arg6 harg6 arg7 harg7 hc0 hc1 x0 x1 x2 xs0).2.1)

/-! ## The accumulator point by point -/

/-- What the accumulator holds after the body at position `n`. -/
def acc2 (c : Dev nD) : (n : ℕ) → n < cfg2.N → Vec F S1024x2048 .f32
  | 0, hn => sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h' => by (try dsimp only at h'); omega) ((hcond2_1 ⟨0, hn⟩).mp h)) (iblk2 V c 0 ⟨0, hn⟩) (iblk2 V c 1 ⟨0, hn⟩) (iblk2 V c 2 ⟨0, hn⟩)
  | n + 1, hn =>
    if h0 : (n + 1) % 4 = 0 then
      sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => (fun h' => by (try dsimp only at h'); omega) ((hcond2_1 ⟨n + 1, hn⟩).mp h)) (iblk2 V c 0 ⟨n + 1, hn⟩) (iblk2 V c 1 ⟨n + 1, hn⟩) (iblk2 V c 2 ⟨n + 1, hn⟩)
    else if h1 : (n + 1) % 4 = 3 then
      sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (acc2 c n (Nat.lt_of_succ_lt hn))
    else
      sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (acc2 c n (Nat.lt_of_succ_lt hn))

theorem acc2_A (c : Dev nD) (t : Fin cfg2.N) (h0 : t.val % 4 = 0) (h1 : ¬t.val % 4 = 3) :
    acc2 V c t.val t.isLt = sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t) := by
  obtain ⟨n, hn⟩ := t
  cases n with
  | zero => exact rfl
  | succ n => exact (dif_pos h0).trans rfl

theorem acc2_B (c : Dev nD) (t : Fin cfg2.N) (h0 : ¬t.val % 4 = 0) (h1 : ¬t.val % 4 = 3) :
    acc2 V c t.val t.isLt = sout2_B_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (acc2 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem acc2_C (c : Dev nD) (t : Fin cfg2.N) (h0 : ¬t.val % 4 = 0) (h1 : t.val % 4 = 3) :
    acc2 V c t.val t.isLt = sout2_C_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (acc2 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- What the output buffer holds after the body at point `t`: at k = 3 the accumulator plus the bias row; elsewhere
    the window is idle and nothing consults this value. -/
def outAt2 (c : Dev nD) (t : Fin cfg2.N) : Vec F S1024x2048 .bf16 :=
  if h1 : t.val % 4 = 3 then
    out2_C_3 c (grid2.coords t) (ms2_0 t) (hs2_0 t) (ms2_1 t) (hs2_1 t) (ms2_2 t) (hs2_2 t) (ms2_3 t) (hs2_3 t) scM2_0 (Memref.isWhole_whole _) (fun h => absurd ((hcond2_0 t).mp h) (by omega)) ((hcond2_1 t).mpr h1) (iblk2 V c 0 t) (iblk2 V c 1 t) (iblk2 V c 2 t) (acc2 V c (t.val - 1) (Nat.lt_of_le_of_lt (Nat.sub_le _ _) t.isLt))
  else VO2_3.read (Elt F) VO2_3.junk

theorem outAt2_C (c : Dev nD) (t : Fin cfg2.N) (h0 : ¬t.val % 4 = 0) (h1 : t.val % 4 = 3) :
    outAt2 V c t = out2_C_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (acc2 V c (t.val - 1) (Nat.lt_of_le_of_lt (Nat.sub_le _ _) t.isLt)) := by
  unfold outAt2; exact dif_pos h1

/-! ## The region's invariant -/

/-- Before the first point the accumulator is at anything; before any other it is at what the point before left. -/
def PhiS2 (c : Dev nD) : (n : ℕ) → n ≤ cfg2.N → sProp 𝕄
  | 0, _ => Pipeline.ΦA spec2 c
  | n + 1, hn => iprop(iprop(owns (c : Thread nD τ) scM2_0 fullShare (acc2 V c n hn) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare (acc2 V c n hn) ∗ Pipeline.scopedRestBut (Ix := Unit) (Name := ℕ) (U := UR sig nD τ) (Lvl := ℕ) (Val := Elt F) spec2 c [cc2_scratch0]) ∗ (∃ r, prngReg c r)) := rfl

theorem PhiS2_pos (c : Dev nD) (n : ℕ) (h : n ≤ cfg2.N) (hz : n ≠ 0) :
    PhiS2 V c n h = iprop(iprop(owns (c : Thread nD τ) scM2_0 fullShare (acc2 V c (n - 1) (by omega)) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The pipeline's proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => outAt2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = outAt2 V c t := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 8 := lt_of_lt_of_eq t.isLt (show cfg2.N = 8 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  by_cases h0 : t.val % 4 = 0
  · have h1 : ¬t.val % 4 = 3 := by omega
    rw [Dat.leavesExact_idle (dat2 V c) 3 t (idleAt2_3 t (fun h => h1 ((hcond2_1 t).mp h))) (noFlush2_3 t (fun h => h1 ((hcond2_1 t).mp h)))]
    rw [acc2_A V c t h0 h1]
    unfold sout2_A_0; (try dsimp only)
    by_cases hz : t.val = 0
    · rw [PhiS2_castSucc V c t, PhiS2_zero V c _ _ hz, PhiA2_eq]
      iintro ⟨⟨⟨HS0, Hrest⟩, Hg⟩, Ho, ⟨%d0, H0⟩, ⟨%d1, H1⟩, ⟨%d2, H2⟩, ⟨%d3, H3⟩⟩
      iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_A_0 c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [PhiS2_castSucc V c t, PhiS2_pos V c _ _ hz]
      iintro ⟨⟨⟨HS0, Hrest⟩, Hg⟩, Ho, ⟨%d0, H0⟩, ⟨%d1, H1⟩, ⟨%d2, H2⟩, ⟨%d3, H3⟩⟩
      iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_A_0 c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 4 = 3
    · rw [show (dat2 V c).leavesExact 3 t = owns (c : Thread nD τ) (ms2_3 t) fullShare ((dat2 V c).after 3 t) from by
        unfold Dat.leavesExact; rw [liveAt2_3 t ((hcond2_1 t).mpr h1)], after2_3]
      rw [acc2_C V c t h0 h1, outAt2_C V c t h0 h1]
      unfold out2_C_3 sout2_C_0; (try dsimp only)
      rw [PhiS2_castSucc V c t, PhiS2_pos V c _ _ hz]
      iintro ⟨⟨⟨HS0, Hrest⟩, Hg⟩, Ho, ⟨%d0, H0⟩, ⟨%d1, H1⟩, ⟨%d2, H2⟩, ⟨%d3, H3⟩⟩
      iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_C_0 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_C_3 c _ _ _ _ _ _ _ _ _ _ _ _ _ _ _ _ _)
    · rw [Dat.leavesExact_idle (dat2 V c) 3 t (idleAt2_3 t (fun h => h1 ((hcond2_1 t).mp h))) (noFlush2_3 t (fun h => h1 ((hcond2_1 t).mp h)))]
      rw [acc2_B V c t h0 h1]
      unfold sout2_B_0; (try dsimp only)
      rw [PhiS2_castSucc V c t, PhiS2_pos V c _ _ hz]
      iintro ⟨⟨⟨HS0, Hrest⟩, Hg⟩, Ho, ⟨%d0, H0⟩, ⟨%d1, H1⟩, ⟨%d2, H2⟩, ⟨%d3, H3⟩⟩
      iapply ((kernelRun2_B c (grid2.coords t) _ _ _ _ _ _ _ _ _ _ (fun h => h0 ((hcond2_0 t).mp h)) (fun h => h1 ((hcond2_1 t).mp h)) (iblk2 V c 0 t) (iblk2 V c 1 t) (iblk2 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_B_0 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

theorem body_obligation2 (c : Dev nD) : BodyObligation (dat2 (F := F) V c) (defs₀ (F := F)) Variants.none () Set.univ := fun t => by
  rw [bigSep_W2, bigSep_W2]
  exact sound_body2 V c t

/-- What the region is entered with is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the scoped rest back, the accumulator's contents forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 8 := N_2; omega), PhiA2_eq]
  iintro ⟨⟨HS0, Hrest⟩, Hg⟩
  isplitl [HS0 Hrest]
  · isplitl [HS0]
    · iexists _; iexact HS0
    iexact Hrest
  iexact Hg

end Cert.KernelIdeal.Hand

end
-- ==== Proof.KI.R3Base.lean ====
/- Region 3 (one layer: the product M·x accumulated over four column slabs, plus the bias row): what every case of
   its body shares. The grid is (i, j, k) = (2, 1, 4), so point t has k = t mod 4. The body zeroes the accumulator
   when k = 0, adds the product of the point's two blocks at every point, and when k = 3 stores the accumulator plus
   the bias row over the output block; elsewhere the output window is idle and is not written back. -/
import proofs.«106939_j75831942578756_2_alg».proof.Proof.Gen.KernelIdeal.Launch
import proofs.«106939_j75831942578756_2_alg».proof.Proof.Gen.KernelIdeal.Skeleton
import proofs.«106939_j75831942578756_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The left operand's staging buffer holds its block at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The right operand's staging buffer holds its block at every point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The bias row's staging buffer holds the row at every point, fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's two conditions over the grid -/

/-- "k = 0": the accumulator is zeroed. -/
abbrev cond3_0 (i : grid3.Coords) : Prop := (Scalar.cmpi .ne (Scalar.extui (Scalar.cmpi .eq (BitVec.ofNat 32 (i 2).val) 0#32)) 0#32) = 1#1
theorem hcond3_0 : ∀ t : Fin cfg3.N, cond3_0 (grid3.coords t) ↔ t.val % 4 = 0 :=
  (by decide +kernel : ∀ t : Fin grid3.N, cond3_0 (grid3.coords t) ↔ t.val % 4 = 0)

/-- "k = 3": the accumulator plus the bias row is handed to the output block. -/
abbrev cond3_1 (i : grid3.Coords) : Prop := k3_cond2 i = 1#1
theorem hcond3_1 : ∀ t : Fin cfg3.N, cond3_1 (grid3.coords t) ↔ t.val % 4 = 3 :=
  (by decide +kernel : ∀ t : Fin grid3.N, cond3_1 (grid3.coords t) ↔ t.val % 4 = 3)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- Away from k = 3 the output window is idle and its block is not written back. -/
theorem idleAt3_3 : ∀ t : Fin cfg3.N, ¬cond3_1 (grid3.coords t) → cfg3.idle 3 (grid3.coords t) = true := by decide +kernel
theorem noFlush3_3 : ∀ t : Fin cfg3.N, ¬cond3_1 (grid3.coords t) → (cfg3.win 3).flush t = false := by decide +kernel
theorem liveAt3_3 : ∀ t : Fin cfg3.N, cond3_1 (grid3.coords t) → cfg3.idle 3 (grid3.coords t) = false := by decide +kernel

/-! ## The memrefs the body is called with -/

abbrev VO3_3 : View sig .tc .vmem S1024x2048 .bf16 := (Memref.whole cc3_stg3_0 : Memref sig .tc .vmem S1024x2048 .bf16).view
abbrev ms3_0 (t : Fin cfg3.N) : Memref sig .tc .vmem S1024x512 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S512x2048 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x2048 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x2048 .bf16 := win3_3.stage (cfg3.slots t 3)
abbrev hs3_3 (t : Fin cfg3.N) : (ms3_3 t).IsWhole := hstage3_3 ((cfg3.slots t 3).cast nbuf3_3)
/-- The accumulator: a whole scoped buffer of the kernel's own. -/
abbrev scM3_0 : Memref sig .tc .vmem S1024x2048 .f32 := Memref.whole cc3_scratch0
abbrev VS3_0 : View sig .tc .vmem S1024x2048 .f32 := scM3_0.view

/-- The region's starting invariant with the accumulator split off the scoped rest: the accumulator at anything,
    every other scoped buffer unopened, the generator register at some state. -/
theorem PhiA3_eq (c : Dev nD) :
    (Pipeline.ΦA spec3 c : sProp 𝕄)
      = iprop(iprop((∃ d, owns (c : Thread nD τ) scM3_0 fullShare d) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3_0, owns_whole]; try rfl

end Cert.KernelIdeal.Hand

end
-- ==== Proof.KI.R3RunA.lean ====
/- Region 3, the points with k = 0: the body zeroes the accumulator, adds the blocks' product, leaves the output
   buffer alone. The pieces the accumulator ends with are found by running the body symbolically. -/
import proofs.«106939_j75831942578756_2_alg».proof.Proof.KI.R3Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun3_A (c : Dev nD) (i : grid3.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : cond3_0 i) (hc1 : ¬cond3_1 i)
    (x0 : Vec F S1024x512 .bf16) (x1 : Vec F S512x2048 .bf16) (x2 : Vec F S1x2048 .f32) :
    Σ' (L3 : List (View.Piece (Elt F) S1024x2048 .bf16)), { LS0 : List (View.Piece (Elt F) S1024x2048 .f32) //
      ∀ (xi3 : Vec F S1024x2048 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc3__matmul_bias_kernel i arg3 harg3 arg4 harg4 arg5 harg5 arg6 harg6 arg7 harg7) K } := by
  refine ⟨[], ?_, fun xi3 E K => ?run⟩
  case run =>
    simp only [cc3__matmul_bias_kernel_eq_skeleton]; unfold cc3__matmul_bias_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.KI.R3RunB.lean ====
/- Region 3, the points with k = 1, 2: the body adds the blocks' product to the accumulator it finds and leaves
   the output buffer alone. -/
import proofs.«106939_j75831942578756_2_alg».proof.Proof.KI.R3Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun3_B (c : Dev nD) (i : grid3.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : ¬cond3_0 i) (hc1 : ¬cond3_1 i)
    (x0 : Vec F S1024x512 .bf16) (x1 : Vec F S512x2048 .bf16) (x2 : Vec F S1x2048 .f32) (xs0 : Vec F S1024x2048 .f32) :
    Σ' (L3 : List (View.Piece (Elt F) S1024x2048 .bf16)), { LS0 : List (View.Piece (Elt F) S1024x2048 .f32) //
      ∀ (xi3 : Vec F S1024x2048 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc3__matmul_bias_kernel i arg3 harg3 arg4 harg4 arg5 harg5 arg6 harg6 arg7 harg7) K } := by
  refine ⟨[], ?_, fun xi3 E K => ?run⟩
  case run =>
    simp only [cc3__matmul_bias_kernel_eq_skeleton]; unfold cc3__matmul_bias_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.KI.R3RunC.lean ====
/- Region 3, the points with k = 3: the body adds the blocks' product to the accumulator it finds and stores the
   accumulator plus the bias row, in the output's format, over the whole output buffer. -/
import proofs.«106939_j75831942578756_2_alg».proof.Proof.KI.R3Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun3_C (c : Dev nD) (i : grid3.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : ¬cond3_0 i) (hc1 : cond3_1 i)
    (x0 : Vec F S1024x512 .bf16) (x1 : Vec F S512x2048 .bf16) (x2 : Vec F S1x2048 .f32) (xs0 : Vec F S1024x2048 .f32) :
    Σ' (L3 : List (View.Piece (Elt F) S1024x2048 .bf16)), { LS0 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc3__matmul_bias_kernel i arg3 harg3 arg4 harg4 arg5 harg5 arg6 harg6 arg7 harg7) K } := by
  refine ⟨?_, ?_, fun E K => ?run⟩
  case run =>
    simp only [cc3__matmul_bias_kernel_eq_skeleton]; unfold cc3__matmul_bias_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Hand

end
-- ==== Proof.KI.R3Frame.lean ====
/- Region 3 (one layer, M·x over four column slabs plus the bias row): what the accumulator holds after each point,
   the pipeline's proof data, and the body obligation at every point. After point t the accumulator holds the sum of
   the products of the blocks of the points k' ≤ k of t's row of points, started from zero at k = 0; the output block
   of a row of points is the accumulator after its last point plus the bias row, in the output's format. -/
import proofs.«106939_j75831942578756_2_alg».proof.Proof.KI.R3RunA
import proofs.«106939_j75831942578756_2_alg».proof.Proof.KI.R3RunB
import proofs.«106939_j75831942578756_2_alg».proof.Proof.KI.R3RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem scover3_A_0 (c : Dev nD) (i : grid3.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : cond3_0 i) (hc1 : ¬cond3_1 i)
    (x0 : Vec F S1024x512 .bf16) (x1 : Vec F S512x2048 .bf16) (x2 : Vec F S1x2048 .f32) (y : S1024x2048.Idx) :
    ∃ pc ∈ (kernelRun3_A c i arg3 harg3 arg4 harg4 arg5 harg5 arg6 harg6 arg7 harg7 hc0 hc1 x0 x1 x2).2.1, y ∈ pc.1.set :=
  View.cover_of_tiledL (kernelRun3_A c i arg3 harg3 arg4 harg4 arg5 harg5 arg6 harg6 arg7 harg7 hc0 hc1 x0 x1 x2).2.1 S1024x2048.size (by sl_kernel_rfl) y

/-- The accumulator after a point with k = 0. -/
def sout3_A_0 (c : Dev nD) (i : grid3.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : cond3_0 i) (hc1 : ¬cond3_1 i)
    (x0 : Vec F S1024x512 .bf16) (x1 : Vec F S512x2048 .bf16) (x2 : Vec F S1x2048 .f32) : Vec F S1024x2048 .f32 :=
  VS3_0.read (Elt F) (VS3_0.writes (Elt F) VS3_0.junk (kernelRun3_A c i arg3 harg3 arg4 harg4 arg5 harg5 arg6 harg6 arg7 harg7 hc0 hc1 x0 x1 x2).2.1)

theorem scover3_B_0 (c : Dev nD) (i : grid3.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : ¬cond3_0 i) (hc1 : ¬cond3_1 i)
    (x0 : Vec F S1024x512 .bf16) (x1 : Vec F S512x2048 .bf16) (x2 : Vec F S1x2048 .f32) (xs0 : Vec F S1024x2048 .f32) (y : S1024x2048.Idx) :
    ∃ pc ∈ (kernelRun3_B c i arg3 harg3 arg4 harg4 arg5 harg5 arg6 harg6 arg7 harg7 hc0 hc1 x0 x1 x2 xs0).2.1, y ∈ pc.1.set :=
  View.cover_of_tiledL (kernelRun3_B c i arg3 harg3 arg4 harg4 arg5 harg5 arg6 harg6 arg7 harg7 hc0 hc1 x0 x1 x2 xs0).2.1 S1024x2048.size (by sl_kernel_rfl) y

/-- The accumulator after a point with k = 1, 2, from what the point before left. -/
def sout3_B_0 (c : Dev nD) (i : grid3.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : ¬cond3_0 i) (hc1 : ¬cond3_1 i)
    (x0 : Vec F S1024x512 .bf16) (x1 : Vec F S512x2048 .bf16) (x2 : Vec F S1x2048 .f32) (xs0 : Vec F S1024x2048 .f32) : Vec F S1024x2048 .f32 :=
  VS3_0.read (Elt F) (VS3_0.writes (Elt F) VS3_0.junk (kernelRun3_B c i arg3 harg3 arg4 harg4 arg5 harg5 arg6 harg6 arg7 harg7 hc0 hc1 x0 x1 x2 xs0).2.1)

theorem cover3_C_3 (c : Dev nD) (i : grid3.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : ¬cond3_0 i) (hc1 : cond3_1 i)
    (x0 : Vec F S1024x512 .bf16) (x1 : Vec F S512x2048 .bf16) (x2 : Vec F S1x2048 .f32) (xs0 : Vec F S1024x2048 .f32) (y : S1024x2048.Idx) :
    ∃ pc ∈ (kernelRun3_C c i arg3 harg3 arg4 harg4 arg5 harg5 arg6 harg6 arg7 harg7 hc0 hc1 x0 x1 x2 xs0).1, y ∈ pc.1.set :=
  View.cover_of_tiledL (kernelRun3_C c i arg3 harg3 arg4 harg4 arg5 harg5 arg6 harg6 arg7 harg7 hc0 hc1 x0 x1 x2 xs0).1 S1024x2048.size (by sl_kernel_rfl) y

/-- The output buffer after a point with k = 3. -/
def out3_C_3 (c : Dev nD) (i : grid3.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : ¬cond3_0 i) (hc1 : cond3_1 i)
    (x0 : Vec F S1024x512 .bf16) (x1 : Vec F S512x2048 .bf16) (x2 : Vec F S1x2048 .f32) (xs0 : Vec F S1024x2048 .f32) : Vec F S1024x2048 .bf16 :=
  VO3_3.read (Elt F) (VO3_3.writes (Elt F) VO3_3.junk (kernelRun3_C c i arg3 harg3 arg4 harg4 arg5 harg5 arg6 harg6 arg7 harg7 hc0 hc1 x0 x1 x2 xs0).1)

theorem scover3_C_0 (c : Dev nD) (i : grid3.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : ¬cond3_0 i) (hc1 : cond3_1 i)
    (x0 : Vec F S1024x512 .bf16) (x1 : Vec F S512x2048 .bf16) (x2 : Vec F S1x2048 .f32) (xs0 : Vec F S1024x2048 .f32) (y : S1024x2048.Idx) :
    ∃ pc ∈ (kernelRun3_C c i arg3 harg3 arg4 harg4 arg5 harg5 arg6 harg6 arg7 harg7 hc0 hc1 x0 x1 x2 xs0).2.1, y ∈ pc.1.set :=
  View.cover_of_tiledL (kernelRun3_C c i arg3 harg3 arg4 harg4 arg5 harg5 arg6 harg6 arg7 harg7 hc0 hc1 x0 x1 x2 xs0).2.1 S1024x2048.size (by sl_kernel_rfl) y

/-- The accumulator after a point with k = 3. -/
def sout3_C_0 (c : Dev nD) (i : grid3.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : ¬cond3_0 i) (hc1 : cond3_1 i)
    (x0 : Vec F S1024x512 .bf16) (x1 : Vec F S512x2048 .bf16) (x2 : Vec F S1x2048 .f32) (xs0 : Vec F S1024x2048 .f32) : Vec F S1024x2048 .f32 :=
  VS3_0.read (Elt F) (VS3_0.writes (Elt F) VS3_0.junk (kernelRun3_C c i arg3 harg3 arg4 harg4 arg5 harg5 arg6 harg6 arg7 harg7 hc0 hc1 x0 x1 x2 xs0).2.1)

/-! ## The accumulator point by point -/

/-- What the accumulator holds after the body at position `n`. -/
def acc3 (c : Dev nD) : (n : ℕ) → n < cfg3.N → Vec F S1024x2048 .f32
  | 0, hn => sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h' => by (try dsimp only at h'); omega) ((hcond3_1 ⟨0, hn⟩).mp h)) (iblk3 V c 0 ⟨0, hn⟩) (iblk3 V c 1 ⟨0, hn⟩) (iblk3 V c 2 ⟨0, hn⟩)
  | n + 1, hn =>
    if h0 : (n + 1) % 4 = 0 then
      sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => (fun h' => by (try dsimp only at h'); omega) ((hcond3_1 ⟨n + 1, hn⟩).mp h)) (iblk3 V c 0 ⟨n + 1, hn⟩) (iblk3 V c 1 ⟨n + 1, hn⟩) (iblk3 V c 2 ⟨n + 1, hn⟩)
    else if h1 : (n + 1) % 4 = 3 then
      sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (acc3 c n (Nat.lt_of_succ_lt hn))
    else
      sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (acc3 c n (Nat.lt_of_succ_lt hn))

theorem acc3_A (c : Dev nD) (t : Fin cfg3.N) (h0 : t.val % 4 = 0) (h1 : ¬t.val % 4 = 3) :
    acc3 V c t.val t.isLt = sout3_A_0 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t) := by
  obtain ⟨n, hn⟩ := t
  cases n with
  | zero => exact rfl
  | succ n => exact (dif_pos h0).trans rfl

theorem acc3_B (c : Dev nD) (t : Fin cfg3.N) (h0 : ¬t.val % 4 = 0) (h1 : ¬t.val % 4 = 3) :
    acc3 V c t.val t.isLt = sout3_B_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) (acc3 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem acc3_C (c : Dev nD) (t : Fin cfg3.N) (h0 : ¬t.val % 4 = 0) (h1 : t.val % 4 = 3) :
    acc3 V c t.val t.isLt = sout3_C_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (acc3 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- What the output buffer holds after the body at point `t`: at k = 3 the accumulator plus the bias row; elsewhere
    the window is idle and nothing consults this value. -/
def outAt3 (c : Dev nD) (t : Fin cfg3.N) : Vec F S1024x2048 .bf16 :=
  if h1 : t.val % 4 = 3 then
    out3_C_3 c (grid3.coords t) (ms3_0 t) (hs3_0 t) (ms3_1 t) (hs3_1 t) (ms3_2 t) (hs3_2 t) (ms3_3 t) (hs3_3 t) scM3_0 (Memref.isWhole_whole _) (fun h => absurd ((hcond3_0 t).mp h) (by omega)) ((hcond3_1 t).mpr h1) (iblk3 V c 0 t) (iblk3 V c 1 t) (iblk3 V c 2 t) (acc3 V c (t.val - 1) (Nat.lt_of_le_of_lt (Nat.sub_le _ _) t.isLt))
  else VO3_3.read (Elt F) VO3_3.junk

theorem outAt3_C (c : Dev nD) (t : Fin cfg3.N) (h0 : ¬t.val % 4 = 0) (h1 : t.val % 4 = 3) :
    outAt3 V c t = out3_C_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (acc3 V c (t.val - 1) (Nat.lt_of_le_of_lt (Nat.sub_le _ _) t.isLt)) := by
  unfold outAt3; exact dif_pos h1

/-! ## The region's invariant -/

/-- Before the first point the accumulator is at anything; before any other it is at what the point before left. -/
def PhiS3 (c : Dev nD) : (n : ℕ) → n ≤ cfg3.N → sProp 𝕄
  | 0, _ => Pipeline.ΦA spec3 c
  | n + 1, hn => iprop(iprop(owns (c : Thread nD τ) scM3_0 fullShare (acc3 V c n hn) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3_0 fullShare (acc3 V c n hn) ∗ Pipeline.scopedRestBut (Ix := Unit) (Name := ℕ) (U := UR sig nD τ) (Lvl := ℕ) (Val := Elt F) spec3 c [cc3_scratch0]) ∗ (∃ r, prngReg c r)) := rfl

theorem PhiS3_pos (c : Dev nD) (n : ℕ) (h : n ≤ cfg3.N) (hz : n ≠ 0) :
    PhiS3 V c n h = iprop(iprop(owns (c : Thread nD τ) scM3_0 fullShare (acc3 V c (n - 1) (by omega)) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The pipeline's proof data -/

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => outAt3 V c t
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = outAt3 V c t := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  have hN : t.val < 8 := lt_of_lt_of_eq t.isLt (show cfg3.N = 8 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  by_cases h0 : t.val % 4 = 0
  · have h1 : ¬t.val % 4 = 3 := by omega
    rw [Dat.leavesExact_idle (dat3 V c) 3 t (idleAt3_3 t (fun h => h1 ((hcond3_1 t).mp h))) (noFlush3_3 t (fun h => h1 ((hcond3_1 t).mp h)))]
    rw [acc3_A V c t h0 h1]
    unfold sout3_A_0; (try dsimp only)
    by_cases hz : t.val = 0
    · rw [PhiS3_castSucc V c t, PhiS3_zero V c _ _ hz, PhiA3_eq]
      iintro ⟨⟨⟨HS0, Hrest⟩, Hg⟩, Ho, ⟨%d0, H0⟩, ⟨%d1, H1⟩, ⟨%d2, H2⟩, ⟨%d3, H3⟩⟩
      iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover3_A_0 c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [PhiS3_castSucc V c t, PhiS3_pos V c _ _ hz]
      iintro ⟨⟨⟨HS0, Hrest⟩, Hg⟩, Ho, ⟨%d0, H0⟩, ⟨%d1, H1⟩, ⟨%d2, H2⟩, ⟨%d3, H3⟩⟩
      iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover3_A_0 c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 4 = 3
    · rw [show (dat3 V c).leavesExact 3 t = owns (c : Thread nD τ) (ms3_3 t) fullShare ((dat3 V c).after 3 t) from by
        unfold Dat.leavesExact; rw [liveAt3_3 t ((hcond3_1 t).mpr h1)], after3_3]
      rw [acc3_C V c t h0 h1, outAt3_C V c t h0 h1]
      unfold out3_C_3 sout3_C_0; (try dsimp only)
      rw [PhiS3_castSucc V c t, PhiS3_pos V c _ _ hz]
      iintro ⟨⟨⟨HS0, Hrest⟩, Hg⟩, Ho, ⟨%d0, H0⟩, ⟨%d1, H1⟩, ⟨%d2, H2⟩, ⟨%d3, H3⟩⟩
      iapply ((kernelRun3_C c (grid3.coords t) _ _ _ _ _ _ _ _ _ _ (fun h => h0 ((hcond3_0 t).mp h)) ((hcond3_1 t).mpr h1) (iblk3 V c 0 t) (iblk3 V c 1 t) (iblk3 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover3_C_0 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover3_C_3 c _ _ _ _ _ _ _ _ _ _ _ _ _ _ _ _ _)
    · rw [Dat.leavesExact_idle (dat3 V c) 3 t (idleAt3_3 t (fun h => h1 ((hcond3_1 t).mp h))) (noFlush3_3 t (fun h => h1 ((hcond3_1 t).mp h)))]
      rw [acc3_B V c t h0 h1]
      unfold sout3_B_0; (try dsimp only)
      rw [PhiS3_castSucc V c t, PhiS3_pos V c _ _ hz]
      iintro ⟨⟨⟨HS0, Hrest⟩, Hg⟩, Ho, ⟨%d0, H0⟩, ⟨%d1, H1⟩, ⟨%d2, H2⟩, ⟨%d3, H3⟩⟩
      iapply ((kernelRun3_B c (grid3.coords t) _ _ _ _ _ _ _ _ _ _ (fun h => h0 ((hcond3_0 t).mp h)) (fun h => h1 ((hcond3_1 t).mp h)) (iblk3 V c 0 t) (iblk3 V c 1 t) (iblk3 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover3_B_0 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

theorem body_obligation3 (c : Dev nD) : BodyObligation (dat3 (F := F) V c) (defs₀ (F := F)) Variants.none () Set.univ := fun t => by
  rw [bigSep_W3, bigSep_W3]
  exact sound_body3 V c t

/-- What the region is entered with is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After the last point the invariant gives the scoped rest back, the accumulator's contents forgotten. -/
theorem hout3 (c : Dev nD) : (dat3 V c).Φ (Fin.last cfg3.N) ⊢ Pipeline.ΦA spec3 c := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 8 := N_3; omega), PhiA3_eq]
  iintro ⟨⟨HS0, Hrest⟩, Hg⟩
  isplitl [HS0 Hrest]
  · isplitl [HS0]
    · iexists _; iexact HS0
    iexact Hrest
  iexact Hg

end Cert.KernelIdeal.Hand

end
-- ==== Proof.KI.R4Base.lean ====
/- Region 4 (one layer: the product M·x accumulated over four column slabs, plus the bias row): what every case of
   its body shares. The grid is (i, j, k) = (2, 1, 4), so point t has k = t mod 4. The body zeroes the accumulator
   when k = 0, adds the product of the point's two blocks at every point, and when k = 3 stores the accumulator plus
   the bias row over the output block; elsewhere the output window is idle and is not written back. -/
import proofs.«106939_j75831942578756_2_alg».proof.Proof.Gen.KernelIdeal.Launch
import proofs.«106939_j75831942578756_2_alg».proof.Proof.Gen.KernelIdeal.Skeleton
import proofs.«106939_j75831942578756_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The left operand's staging buffer holds its block at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The right operand's staging buffer holds its block at every point. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The bias row's staging buffer holds the row at every point, fetched there or not. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's two conditions over the grid -/

/-- "k = 0": the accumulator is zeroed. -/
abbrev cond4_0 (i : grid4.Coords) : Prop := (Scalar.cmpi .ne (Scalar.extui (Scalar.cmpi .eq (BitVec.ofNat 32 (i 2).val) 0#32)) 0#32) = 1#1
theorem hcond4_0 : ∀ t : Fin cfg4.N, cond4_0 (grid4.coords t) ↔ t.val % 4 = 0 :=
  (by decide +kernel : ∀ t : Fin grid4.N, cond4_0 (grid4.coords t) ↔ t.val % 4 = 0)

/-- "k = 3": the accumulator plus the bias row is handed to the output block. -/
abbrev cond4_1 (i : grid4.Coords) : Prop := k4_cond2 i = 1#1
theorem hcond4_1 : ∀ t : Fin cfg4.N, cond4_1 (grid4.coords t) ↔ t.val % 4 = 3 :=
  (by decide +kernel : ∀ t : Fin grid4.N, cond4_1 (grid4.coords t) ↔ t.val % 4 = 3)

/-! ## Where the windows are idle -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
/-- Away from k = 3 the output window is idle and its block is not written back. -/
theorem idleAt4_3 : ∀ t : Fin cfg4.N, ¬cond4_1 (grid4.coords t) → cfg4.idle 3 (grid4.coords t) = true := by decide +kernel
theorem noFlush4_3 : ∀ t : Fin cfg4.N, ¬cond4_1 (grid4.coords t) → (cfg4.win 3).flush t = false := by decide +kernel
theorem liveAt4_3 : ∀ t : Fin cfg4.N, cond4_1 (grid4.coords t) → cfg4.idle 3 (grid4.coords t) = false := by decide +kernel

/-! ## The memrefs the body is called with -/

abbrev VO4_3 : View sig .tc .vmem S1024x2048 .f32 := (Memref.whole cc4_stg3_0 : Memref sig .tc .vmem S1024x2048 .f32).view
abbrev ms4_0 (t : Fin cfg4.N) : Memref sig .tc .vmem S1024x512 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S512x2048 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x2048 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1024x2048 .f32 := win4_3.stage (cfg4.slots t 3)
abbrev hs4_3 (t : Fin cfg4.N) : (ms4_3 t).IsWhole := hstage4_3 ((cfg4.slots t 3).cast nbuf4_3)
/-- The accumulator: a whole scoped buffer of the kernel's own. -/
abbrev scM4_0 : Memref sig .tc .vmem S1024x2048 .f32 := Memref.whole cc4_scratch0
abbrev VS4_0 : View sig .tc .vmem S1024x2048 .f32 := scM4_0.view

/-- The region's starting invariant with the accumulator split off the scoped rest: the accumulator at anything,
    every other scoped buffer unopened, the generator register at some state. -/
theorem PhiA4_eq (c : Dev nD) :
    (Pipeline.ΦA spec4 c : sProp 𝕄)
      = iprop(iprop((∃ d, owns (c : Thread nD τ) scM4_0 fullShare d) ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4_0, owns_whole]; try rfl

end Cert.KernelIdeal.Hand

end
-- ==== Proof.KI.R4RunA.lean ====
/- Region 4, the points with k = 0: the body zeroes the accumulator, adds the blocks' product, leaves the output
   buffer alone. The pieces the accumulator ends with are found by running the body symbolically. -/
import proofs.«106939_j75831942578756_2_alg».proof.Proof.KI.R4Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun4_A (c : Dev nD) (i : grid4.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond4_0 i) (hc1 : ¬cond4_1 i)
    (x0 : Vec F S1024x512 .bf16) (x1 : Vec F S512x2048 .bf16) (x2 : Vec F S1x2048 .f32) :
    Σ' (L3 : List (View.Piece (Elt F) S1024x2048 .f32)), { LS0 : List (View.Piece (Elt F) S1024x2048 .f32) //
      ∀ (xi3 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc4__matmul_bias_kernel i arg3 harg3 arg4 harg4 arg5 harg5 arg6 harg6 arg7 harg7) K } := by
  refine ⟨[], ?_, fun xi3 E K => ?run⟩
  case run =>
    simp only [cc4__matmul_bias_kernel_eq_skeleton]; unfold cc4__matmul_bias_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.KI.R4RunB.lean ====
/- Region 4, the points with k = 1, 2: the body adds the blocks' product to the accumulator it finds and leaves
   the output buffer alone. -/
import proofs.«106939_j75831942578756_2_alg».proof.Proof.KI.R4Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun4_B (c : Dev nD) (i : grid4.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond4_0 i) (hc1 : ¬cond4_1 i)
    (x0 : Vec F S1024x512 .bf16) (x1 : Vec F S512x2048 .bf16) (x2 : Vec F S1x2048 .f32) (xs0 : Vec F S1024x2048 .f32) :
    Σ' (L3 : List (View.Piece (Elt F) S1024x2048 .f32)), { LS0 : List (View.Piece (Elt F) S1024x2048 .f32) //
      ∀ (xi3 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc4__matmul_bias_kernel i arg3 harg3 arg4 harg4 arg5 harg5 arg6 harg6 arg7 harg7) K } := by
  refine ⟨[], ?_, fun xi3 E K => ?run⟩
  case run =>
    simp only [cc4__matmul_bias_kernel_eq_skeleton]; unfold cc4__matmul_bias_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.KI.R4RunC.lean ====
/- Region 4, the points with k = 3: the body adds the blocks' product to the accumulator it finds and stores the
   accumulator plus the bias row, in the output's format, over the whole output buffer. -/
import proofs.«106939_j75831942578756_2_alg».proof.Proof.KI.R4Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun4_C (c : Dev nD) (i : grid4.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond4_0 i) (hc1 : cond4_1 i)
    (x0 : Vec F S1024x512 .bf16) (x1 : Vec F S512x2048 .bf16) (x2 : Vec F S1x2048 .f32) (xs0 : Vec F S1024x2048 .f32) :
    Σ' (L3 : List (View.Piece (Elt F) S1024x2048 .f32)), { LS0 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc4__matmul_bias_kernel i arg3 harg3 arg4 harg4 arg5 harg5 arg6 harg6 arg7 harg7) K } := by
  refine ⟨?_, ?_, fun E K => ?run⟩
  case run =>
    simp only [cc4__matmul_bias_kernel_eq_skeleton]; unfold cc4__matmul_bias_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Hand

end
-- ==== Proof.KI.R4Frame.lean ====
/- Region 4 (one layer, M·x over four column slabs plus the bias row): what the accumulator holds after each point,
   the pipeline's proof data, and the body obligation at every point. After point t the accumulator holds the sum of
   the products of the blocks of the points k' ≤ k of t's row of points, started from zero at k = 0; the output block
   of a row of points is the accumulator after its last point plus the bias row, in the output's format. -/
import proofs.«106939_j75831942578756_2_alg».proof.Proof.KI.R4RunA
import proofs.«106939_j75831942578756_2_alg».proof.Proof.KI.R4RunB
import proofs.«106939_j75831942578756_2_alg».proof.Proof.KI.R4RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem scover4_A_0 (c : Dev nD) (i : grid4.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond4_0 i) (hc1 : ¬cond4_1 i)
    (x0 : Vec F S1024x512 .bf16) (x1 : Vec F S512x2048 .bf16) (x2 : Vec F S1x2048 .f32) (y : S1024x2048.Idx) :
    ∃ pc ∈ (kernelRun4_A c i arg3 harg3 arg4 harg4 arg5 harg5 arg6 harg6 arg7 harg7 hc0 hc1 x0 x1 x2).2.1, y ∈ pc.1.set :=
  View.cover_of_tiledL (kernelRun4_A c i arg3 harg3 arg4 harg4 arg5 harg5 arg6 harg6 arg7 harg7 hc0 hc1 x0 x1 x2).2.1 S1024x2048.size (by sl_kernel_rfl) y

/-- The accumulator after a point with k = 0. -/
def sout4_A_0 (c : Dev nD) (i : grid4.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond4_0 i) (hc1 : ¬cond4_1 i)
    (x0 : Vec F S1024x512 .bf16) (x1 : Vec F S512x2048 .bf16) (x2 : Vec F S1x2048 .f32) : Vec F S1024x2048 .f32 :=
  VS4_0.read (Elt F) (VS4_0.writes (Elt F) VS4_0.junk (kernelRun4_A c i arg3 harg3 arg4 harg4 arg5 harg5 arg6 harg6 arg7 harg7 hc0 hc1 x0 x1 x2).2.1)

theorem scover4_B_0 (c : Dev nD) (i : grid4.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond4_0 i) (hc1 : ¬cond4_1 i)
    (x0 : Vec F S1024x512 .bf16) (x1 : Vec F S512x2048 .bf16) (x2 : Vec F S1x2048 .f32) (xs0 : Vec F S1024x2048 .f32) (y : S1024x2048.Idx) :
    ∃ pc ∈ (kernelRun4_B c i arg3 harg3 arg4 harg4 arg5 harg5 arg6 harg6 arg7 harg7 hc0 hc1 x0 x1 x2 xs0).2.1, y ∈ pc.1.set :=
  View.cover_of_tiledL (kernelRun4_B c i arg3 harg3 arg4 harg4 arg5 harg5 arg6 harg6 arg7 harg7 hc0 hc1 x0 x1 x2 xs0).2.1 S1024x2048.size (by sl_kernel_rfl) y

/-- The accumulator after a point with k = 1, 2, from what the point before left. -/
def sout4_B_0 (c : Dev nD) (i : grid4.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond4_0 i) (hc1 : ¬cond4_1 i)
    (x0 : Vec F S1024x512 .bf16) (x1 : Vec F S512x2048 .bf16) (x2 : Vec F S1x2048 .f32) (xs0 : Vec F S1024x2048 .f32) : Vec F S1024x2048 .f32 :=
  VS4_0.read (Elt F) (VS4_0.writes (Elt F) VS4_0.junk (kernelRun4_B c i arg3 harg3 arg4 harg4 arg5 harg5 arg6 harg6 arg7 harg7 hc0 hc1 x0 x1 x2 xs0).2.1)

theorem cover4_C_3 (c : Dev nD) (i : grid4.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond4_0 i) (hc1 : cond4_1 i)
    (x0 : Vec F S1024x512 .bf16) (x1 : Vec F S512x2048 .bf16) (x2 : Vec F S1x2048 .f32) (xs0 : Vec F S1024x2048 .f32) (y : S1024x2048.Idx) :
    ∃ pc ∈ (kernelRun4_C c i arg3 harg3 arg4 harg4 arg5 harg5 arg6 harg6 arg7 harg7 hc0 hc1 x0 x1 x2 xs0).1, y ∈ pc.1.set :=
  View.cover_of_tiledL (kernelRun4_C c i arg3 harg3 arg4 harg4 arg5 harg5 arg6 harg6 arg7 harg7 hc0 hc1 x0 x1 x2 xs0).1 S1024x2048.size (by sl_kernel_rfl) y

/-- The output buffer after a point with k = 3. -/
def out4_C_3 (c : Dev nD) (i : grid4.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond4_0 i) (hc1 : cond4_1 i)
    (x0 : Vec F S1024x512 .bf16) (x1 : Vec F S512x2048 .bf16) (x2 : Vec F S1x2048 .f32) (xs0 : Vec F S1024x2048 .f32) : Vec F S1024x2048 .f32 :=
  VO4_3.read (Elt F) (VO4_3.writes (Elt F) VO4_3.junk (kernelRun4_C c i arg3 harg3 arg4 harg4 arg5 harg5 arg6 harg6 arg7 harg7 hc0 hc1 x0 x1 x2 xs0).1)

theorem scover4_C_0 (c : Dev nD) (i : grid4.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond4_0 i) (hc1 : cond4_1 i)
    (x0 : Vec F S1024x512 .bf16) (x1 : Vec F S512x2048 .bf16) (x2 : Vec F S1x2048 .f32) (xs0 : Vec F S1024x2048 .f32) (y : S1024x2048.Idx) :
    ∃ pc ∈ (kernelRun4_C c i arg3 harg3 arg4 harg4 arg5 harg5 arg6 harg6 arg7 harg7 hc0 hc1 x0 x1 x2 xs0).2.1, y ∈ pc.1.set :=
  View.cover_of_tiledL (kernelRun4_C c i arg3 harg3 arg4 harg4 arg5 harg5 arg6 harg6 arg7 harg7 hc0 hc1 x0 x1 x2 xs0).2.1 S1024x2048.size (by sl_kernel_rfl) y

/-- The accumulator after a point with k = 3. -/
def sout4_C_0 (c : Dev nD) (i : grid4.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond4_0 i) (hc1 : cond4_1 i)
    (x0 : Vec F S1024x512 .bf16) (x1 : Vec F S512x2048 .bf16) (x2 : Vec F S1x2048 .f32) (xs0 : Vec F S1024x2048 .f32) : Vec F S1024x2048 .f32 :=
  VS4_0.read (Elt F) (VS4_0.writes (Elt F) VS4_0.junk (kernelRun4_C c i arg3 harg3 arg4 harg4 arg5 harg5 arg6 harg6 arg7 harg7 hc0 hc1 x0 x1 x2 xs0).2.1)

/-! ## The accumulator point by point -/

/-- What the accumulator holds after the body at position `n`. -/
def acc4 (c : Dev nD) : (n : ℕ) → n < cfg4.N → Vec F S1024x2048 .f32
  | 0, hn => sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) ((hcond4_0 ⟨0, hn⟩).mpr (Nat.zero_mod _)) (fun h => (fun h' => by (try dsimp only at h'); omega) ((hcond4_1 ⟨0, hn⟩).mp h)) (iblk4 V c 0 ⟨0, hn⟩) (iblk4 V c 1 ⟨0, hn⟩) (iblk4 V c 2 ⟨0, hn⟩)
  | n + 1, hn =>
    if h0 : (n + 1) % 4 = 0 then
      sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) ((hcond4_0 ⟨n + 1, hn⟩).mpr h0) (fun h => (fun h' => by (try dsimp only at h'); omega) ((hcond4_1 ⟨n + 1, hn⟩).mp h)) (iblk4 V c 0 ⟨n + 1, hn⟩) (iblk4 V c 1 ⟨n + 1, hn⟩) (iblk4 V c 2 ⟨n + 1, hn⟩)
    else if h1 : (n + 1) % 4 = 3 then
      sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (acc4 c n (Nat.lt_of_succ_lt hn))
    else
      sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (acc4 c n (Nat.lt_of_succ_lt hn))

theorem acc4_A (c : Dev nD) (t : Fin cfg4.N) (h0 : t.val % 4 = 0) (h1 : ¬t.val % 4 = 3) :
    acc4 V c t.val t.isLt = sout4_A_0 c (grid4.coords t) (ms4_0 t) (hs4_0 t) (ms4_1 t) (hs4_1 t) (ms4_2 t) (hs4_2 t) (ms4_3 t) (hs4_3 t) scM4_0 (Memref.isWhole_whole _) ((hcond4_0 t).mpr h0) (fun h => h1 ((hcond4_1 t).mp h)) (iblk4 V c 0 t) (iblk4 V c 1 t) (iblk4 V c 2 t) := by
  obtain ⟨n, hn⟩ := t
  cases n with
  | zero => exact rfl
  | succ n => exact (dif_pos h0).trans rfl

theorem acc4_B (c : Dev nD) (t : Fin cfg4.N) (h0 : ¬t.val % 4 = 0) (h1 : ¬t.val % 4 = 3) :
    acc4 V c t.val t.isLt = sout4_B_0 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) (fun h => h1 ((hcond4_1 t).mp h)) (iblk4 V c 0 t) (iblk4 V c 1 t) (iblk4 V c 2 t) (acc4 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem acc4_C (c : Dev nD) (t : Fin cfg4.N) (h0 : ¬t.val % 4 = 0) (h1 : t.val % 4 = 3) :
    acc4 V c t.val t.isLt = sout4_C_0 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) ((hcond4_1 t).mpr h1) (iblk4 V c 0 t) (iblk4 V c 1 t) (iblk4 V c 2 t) (acc4 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- What the output buffer holds after the body at point `t`: at k = 3 the accumulator plus the bias row; elsewhere
    the window is idle and nothing consults this value. -/
def outAt4 (c : Dev nD) (t : Fin cfg4.N) : Vec F S1024x2048 .f32 :=
  if h1 : t.val % 4 = 3 then
    out4_C_3 c (grid4.coords t) (ms4_0 t) (hs4_0 t) (ms4_1 t) (hs4_1 t) (ms4_2 t) (hs4_2 t) (ms4_3 t) (hs4_3 t) scM4_0 (Memref.isWhole_whole _) (fun h => absurd ((hcond4_0 t).mp h) (by omega)) ((hcond4_1 t).mpr h1) (iblk4 V c 0 t) (iblk4 V c 1 t) (iblk4 V c 2 t) (acc4 V c (t.val - 1) (Nat.lt_of_le_of_lt (Nat.sub_le _ _) t.isLt))
  else VO4_3.read (Elt F) VO4_3.junk

theorem outAt4_C (c : Dev nD) (t : Fin cfg4.N) (h0 : ¬t.val % 4 = 0) (h1 : t.val % 4 = 3) :
    outAt4 V c t = out4_C_3 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) ((hcond4_1 t).mpr h1) (iblk4 V c 0 t) (iblk4 V c 1 t) (iblk4 V c 2 t) (acc4 V c (t.val - 1) (Nat.lt_of_le_of_lt (Nat.sub_le _ _) t.isLt)) := by
  unfold outAt4; exact dif_pos h1

/-! ## The region's invariant -/

/-- Before the first point the accumulator is at anything; before any other it is at what the point before left. -/
def PhiS4 (c : Dev nD) : (n : ℕ) → n ≤ cfg4.N → sProp 𝕄
  | 0, _ => Pipeline.ΦA spec4 c
  | n + 1, hn => iprop(iprop(owns (c : Thread nD τ) scM4_0 fullShare (acc4 V c n hn) ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4_0 fullShare (acc4 V c n hn) ∗ Pipeline.scopedRestBut (Ix := Unit) (Name := ℕ) (U := UR sig nD τ) (Lvl := ℕ) (Val := Elt F) spec4 c [cc4_scratch0]) ∗ (∃ r, prngReg c r)) := rfl

theorem PhiS4_pos (c : Dev nD) (n : ℕ) (h : n ≤ cfg4.N) (hz : n ≠ 0) :
    PhiS4 V c n h = iprop(iprop(owns (c : Thread nD τ) scM4_0 fullShare (acc4 V c (n - 1) (by omega)) ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-! ## The pipeline's proof data -/

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => outAt4 V c t
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = outAt4 V c t := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 4800000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = PhiS4 V c (t.val + 1) t.isLt from rfl, PhiS4_succ]
  have hN : t.val < 8 := lt_of_lt_of_eq t.isLt (show cfg4.N = 8 from N_4)
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  by_cases h0 : t.val % 4 = 0
  · have h1 : ¬t.val % 4 = 3 := by omega
    rw [Dat.leavesExact_idle (dat4 V c) 3 t (idleAt4_3 t (fun h => h1 ((hcond4_1 t).mp h))) (noFlush4_3 t (fun h => h1 ((hcond4_1 t).mp h)))]
    rw [acc4_A V c t h0 h1]
    unfold sout4_A_0; (try dsimp only)
    by_cases hz : t.val = 0
    · rw [PhiS4_castSucc V c t, PhiS4_zero V c _ _ hz, PhiA4_eq]
      iintro ⟨⟨⟨HS0, Hrest⟩, Hg⟩, Ho, ⟨%d0, H0⟩, ⟨%d1, H1⟩, ⟨%d2, H2⟩, ⟨%d3, H3⟩⟩
      iapply ((kernelRun4_A c (grid4.coords t) _ _ _ _ _ _ _ _ _ _ ((hcond4_0 t).mpr h0) (fun h => h1 ((hcond4_1 t).mp h)) (iblk4 V c 0 t) (iblk4 V c 1 t) (iblk4 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover4_A_0 c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [PhiS4_castSucc V c t, PhiS4_pos V c _ _ hz]
      iintro ⟨⟨⟨HS0, Hrest⟩, Hg⟩, Ho, ⟨%d0, H0⟩, ⟨%d1, H1⟩, ⟨%d2, H2⟩, ⟨%d3, H3⟩⟩
      iapply ((kernelRun4_A c (grid4.coords t) _ _ _ _ _ _ _ _ _ _ ((hcond4_0 t).mpr h0) (fun h => h1 ((hcond4_1 t).mp h)) (iblk4 V c 0 t) (iblk4 V c 1 t) (iblk4 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover4_A_0 c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 4 = 3
    · rw [show (dat4 V c).leavesExact 3 t = owns (c : Thread nD τ) (ms4_3 t) fullShare ((dat4 V c).after 3 t) from by
        unfold Dat.leavesExact; rw [liveAt4_3 t ((hcond4_1 t).mpr h1)], after4_3]
      rw [acc4_C V c t h0 h1, outAt4_C V c t h0 h1]
      unfold out4_C_3 sout4_C_0; (try dsimp only)
      rw [PhiS4_castSucc V c t, PhiS4_pos V c _ _ hz]
      iintro ⟨⟨⟨HS0, Hrest⟩, Hg⟩, Ho, ⟨%d0, H0⟩, ⟨%d1, H1⟩, ⟨%d2, H2⟩, ⟨%d3, H3⟩⟩
      iapply ((kernelRun4_C c (grid4.coords t) _ _ _ _ _ _ _ _ _ _ (fun h => h0 ((hcond4_0 t).mp h)) ((hcond4_1 t).mpr h1) (iblk4 V c 0 t) (iblk4 V c 1 t) (iblk4 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover4_C_0 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover4_C_3 c _ _ _ _ _ _ _ _ _ _ _ _ _ _ _ _ _)
    · rw [Dat.leavesExact_idle (dat4 V c) 3 t (idleAt4_3 t (fun h => h1 ((hcond4_1 t).mp h))) (noFlush4_3 t (fun h => h1 ((hcond4_1 t).mp h)))]
      rw [acc4_B V c t h0 h1]
      unfold sout4_B_0; (try dsimp only)
      rw [PhiS4_castSucc V c t, PhiS4_pos V c _ _ hz]
      iintro ⟨⟨⟨HS0, Hrest⟩, Hg⟩, Ho, ⟨%d0, H0⟩, ⟨%d1, H1⟩, ⟨%d2, H2⟩, ⟨%d3, H3⟩⟩
      iapply ((kernelRun4_B c (grid4.coords t) _ _ _ _ _ _ _ _ _ _ (fun h => h0 ((hcond4_0 t).mp h)) (fun h => h1 ((hcond4_1 t).mp h)) (iblk4 V c 0 t) (iblk4 V c 1 t) (iblk4 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover4_B_0 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

theorem body_obligation4 (c : Dev nD) : BodyObligation (dat4 (F := F) V c) (defs₀ (F := F)) Variants.none () Set.univ := fun t => by
  rw [bigSep_W4, bigSep_W4]
  exact sound_body4 V c t

/-- What the region is entered with is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After the last point the invariant gives the scoped rest back, the accumulator's contents forgotten. -/
theorem hout4 (c : Dev nD) : (dat4 V c).Φ (Fin.last cfg4.N) ⊢ Pipeline.ΦA spec4 c := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 8 := N_4; omega), PhiA4_eq]
  iintro ⟨⟨HS0, Hrest⟩, Hg⟩
  isplitl [HS0 Hrest]
  · isplitl [HS0]
    · iexists _; iexact HS0
    iexact Hrest
  iexact Hg

end Cert.KernelIdeal.Hand

end
-- ==== Proof.KI.Run.lean ====
/- The whole program as host stretches and five kernel regions in order: the buffer contents at every boundary (a host
   stretch applies its operations; a region leaves its output array at what its write-backs leave and every other
   buffer as it found it), each region as a segment entered from "every unscoped buffer at the boundary's contents" and
   left at the next boundary's, and the run: every weakly fair execution terminates with every unscoped buffer at the
   last boundary's contents. Each region's invariant carries its accumulator; the other scoped buffers, the
   generator register and the (empty) dues ride along. -/
import proofs.«106939_j75831942578756_2_alg».proof.Proof.KI.R0Frame
import proofs.«106939_j75831942578756_2_alg».proof.Proof.KI.R1Frame
import proofs.«106939_j75831942578756_2_alg».proof.Proof.KI.R2Frame
import proofs.«106939_j75831942578756_2_alg».proof.Proof.KI.R3Frame
import proofs.«106939_j75831942578756_2_alg».proof.Proof.KI.R4Frame
import proofs.«106939_j75831942578756_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
abbrev V2 : (c : Dev nD) → (b : Ref sig .tc) → Buf (Elt F) ((c : Thread nD τ).loc b) := fun c b => W2 m ρ c b
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
abbrev V4 : (c : Dev nD) → (b : Ref sig .tc) → Buf (Elt F) ((c : Thread nD τ).loc b) := fun c b => W4 m ρ c b
def W5 (c : Dev nD) : Valuation τ sig (Elt F) :=
  Pipeline.withArrays spec2 c (W4 m ρ c) fun w => (dat2 (V4 m ρ) c).arrAt w cfg2.N
abbrev V5 : (c : Dev nD) → (b : Ref sig .tc) → Buf (Elt F) ((c : Thread nD τ).loc b) := fun c b => W5 m ρ c b
def W6 (c : Dev nD) : Valuation τ sig (Elt F) :=
  Pipeline.withArrays spec3 c (W5 m ρ c) fun w => (dat3 (V5 m ρ) c).arrAt w cfg3.N
abbrev V6 : (c : Dev nD) → (b : Ref sig .tc) → Buf (Elt F) ((c : Thread nD τ).loc b) := fun c b => W6 m ρ c b
def W7 (c : Dev nD) : Valuation τ sig (Elt F) :=
  Pipeline.withArrays spec4 c (W6 m ρ c) fun w => (dat4 (V6 m ρ) c).arrAt w cfg4.N
abbrev V7 : (c : Dev nD) → (b : Ref sig .tc) → Buf (Elt F) ((c : Thread nD τ).loc b) := fun c b => W7 m ρ c b

theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

theorem W6_arr (c : Dev nD) (w : Fin cfg3.W) :
    W6 m ρ c (Proc.devRef .tc (Pipeline.arrRef spec3 w)) = (dat3 (V5 m ρ) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m ρ c (Proc.devRef .tc b) = W5 m ρ c (Proc.devRef .tc b) := by
  unfold W6; exact Pipeline.withArrays_of_ne spec3 c _ _ b hb
theorem hF3 (c : Dev nD) (w : Fin cfg3.W) : (dat3 (V5 m ρ) c).arrAt w cfg3.N = V6 m ρ c (Pipeline.arrRef spec3 w) :=
  (W6_arr m ρ c w).symm
theorem hrest3 (c : Dev nD) : ∀ b, b ∉ Finset.univ.image (Pipeline.arrRef spec3) → V6 m ρ c b = V5 m ρ c b :=
  fun b hb => W6_of_ne m ρ c b fun w e => hb (Finset.mem_image.mpr ⟨w, Finset.mem_univ _, e⟩)

theorem W7_arr (c : Dev nD) (w : Fin cfg4.W) :
    W7 m ρ c (Proc.devRef .tc (Pipeline.arrRef spec4 w)) = (dat4 (V6 m ρ) c).arrAt w cfg4.N := by
  unfold W7; exact Pipeline.withArrays_arr spec4 launch4.win.arr_inj c _ _ w
theorem W7_of_ne (c : Dev nD) (b : Ref sig .tc) (hb : ∀ w, Pipeline.arrRef spec4 w ≠ b) :
    W7 m ρ c (Proc.devRef .tc b) = W6 m ρ c (Proc.devRef .tc b) := by
  unfold W7; exact Pipeline.withArrays_of_ne spec4 c _ _ b hb
theorem hF4 (c : Dev nD) (w : Fin cfg4.W) : (dat4 (V6 m ρ) c).arrAt w cfg4.N = V7 m ρ c (Pipeline.arrRef spec4 w) :=
  (W7_arr m ρ c w).symm
theorem hrest4 (c : Dev nD) : ∀ b, b ∉ Finset.univ.image (Pipeline.arrRef spec4) → V7 m ρ c b = V6 m ρ c b :=
  fun b hb => W7_of_ne m ρ c b fun w e => hb (Finset.mem_image.mpr ⟨w, Finset.mem_univ _, e⟩)

/-! ## The arguments end as launched -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := W7_of_ne m ρ c main_arg0 (by decide)
    _ = W5 m ρ c (Proc.devRef .tc main_arg0) := W6_of_ne m ρ c main_arg0 (by decide)
    _ = W4 m ρ c (Proc.devRef .tc main_arg0) := W5_of_ne m ρ c main_arg0 (by decide)
    _ = W3 m ρ c (Proc.devRef .tc main_arg0) := (W4_arr m ρ c 1).trans (((dat1 (V3 m ρ) c).arrAt_in 1 rfl _).trans (A_eq1 (V3 m ρ) c 1))
    _ = W2 m ρ c (Proc.devRef .tc main_arg0) := StableHlo.after_of_writes_sub hostOps1 _ hostOps1_writes (by decide : main_arg0 ∉ hostOps1_W)
    _ = W1 m ρ c (Proc.devRef .tc main_arg0) := W2_of_ne m ρ c main_arg0 (by decide)
    _ = W0 m ρ c (Proc.devRef .tc main_arg0) := StableHlo.after_of_writes_sub hostOps0 _ hostOps0_writes (by decide : main_arg0 ∉ hostOps0_W)
    _ = m ((c : Thread nD τ).loc main_arg0) := rfl

theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := W7_of_ne m ρ c main_arg1 (by decide)
    _ = W5 m ρ c (Proc.devRef .tc main_arg1) := W6_of_ne m ρ c main_arg1 (by decide)
    _ = W4 m ρ c (Proc.devRef .tc main_arg1) := W5_of_ne m ρ c main_arg1 (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide : main_arg1 ∉ hostOps1_W)
    _ = W1 m ρ c (Proc.devRef .tc main_arg1) := W2_of_ne m ρ c main_arg1 (by decide)
    _ = W0 m ρ c (Proc.devRef .tc main_arg1) := StableHlo.after_of_writes_sub hostOps0 _ hostOps0_writes (by decide : main_arg1 ∉ hostOps0_W)
    _ = m ((c : Thread nD τ).loc main_arg1) := rfl

theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := W7_of_ne m ρ c main_arg2 (by decide)
    _ = W5 m ρ c (Proc.devRef .tc main_arg2) := W6_of_ne m ρ c main_arg2 (by decide)
    _ = W4 m ρ c (Proc.devRef .tc main_arg2) := W5_of_ne m ρ c main_arg2 (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide : main_arg2 ∉ hostOps1_W)
    _ = W1 m ρ c (Proc.devRef .tc main_arg2) := W2_of_ne m ρ c main_arg2 (by decide)
    _ = W0 m ρ c (Proc.devRef .tc main_arg2) := StableHlo.after_of_writes_sub hostOps0 _ hostOps0_writes (by decide : main_arg2 ∉ hostOps0_W)
    _ = m ((c : Thread nD τ).loc main_arg2) := rfl

theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := W7_of_ne m ρ c main_arg3 (by decide)
    _ = W5 m ρ c (Proc.devRef .tc main_arg3) := W6_of_ne m ρ c main_arg3 (by decide)
    _ = W4 m ρ c (Proc.devRef .tc main_arg3) := W5_of_ne m ρ c main_arg3 (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide : main_arg3 ∉ hostOps1_W)
    _ = W1 m ρ c (Proc.devRef .tc main_arg3) := W2_of_ne m ρ c main_arg3 (by decide)
    _ = W0 m ρ c (Proc.devRef .tc main_arg3) := StableHlo.after_of_writes_sub hostOps0 _ hostOps0_writes (by decide : main_arg3 ∉ hostOps0_W)
    _ = m ((c : Thread nD τ).loc main_arg3) := rfl

theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := W7_of_ne m ρ c main_arg4 (by decide)
    _ = W5 m ρ c (Proc.devRef .tc main_arg4) := W6_of_ne m ρ c main_arg4 (by decide)
    _ = W4 m ρ c (Proc.devRef .tc main_arg4) := W5_of_ne m ρ c main_arg4 (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide : main_arg4 ∉ hostOps1_W)
    _ = W1 m ρ c (Proc.devRef .tc main_arg4) := W2_of_ne m ρ c main_arg4 (by decide)
    _ = W0 m ρ c (Proc.devRef .tc main_arg4) := StableHlo.after_of_writes_sub hostOps0 _ hostOps0_writes (by decide : main_arg4 ∉ hostOps0_W)
    _ = m ((c : Thread nD τ).loc main_arg4) := rfl

theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := W7_of_ne m ρ c main_arg5 (by decide)
    _ = W5 m ρ c (Proc.devRef .tc main_arg5) := W6_of_ne m ρ c main_arg5 (by decide)
    _ = W4 m ρ c (Proc.devRef .tc main_arg5) := W5_of_ne m ρ c main_arg5 (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide : main_arg5 ∉ hostOps1_W)
    _ = W1 m ρ c (Proc.devRef .tc main_arg5) := W2_of_ne m ρ c main_arg5 (by decide)
    _ = W0 m ρ c (Proc.devRef .tc main_arg5) := StableHlo.after_of_writes_sub hostOps0 _ hostOps0_writes (by decide : main_arg5 ∉ hostOps0_W)
    _ = m ((c : Thread nD τ).loc main_arg5) := rfl

/-! ## The proof data family and the thread state -/

abbrev adm' : (p : Fin 5) → (pcfgs (F := F) p).Adm := fun p => (cfgs p).toPCfg_adm
def pdats : (p : Fin 5) → (c : Dev nD) → Dat τ (Elt F) Unit ℕ (UR sig nD τ) ℕ (Pipeline.pin (pcfgs (F := F)) adm' p) c
  | ⟨0, _⟩ => fun c => dat0 (V1 m ρ) c
  | ⟨1, _⟩ => fun c => dat1 (V3 m ρ) c
  | ⟨2, _⟩ => fun c => dat2 (V4 m ρ) c
  | ⟨3, _⟩ => fun c => dat3 (V5 m ρ) c
  | ⟨4, _⟩ => fun c => dat4 (V6 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
def reg0 : Pipeline.RegionSeg (pcfgs (F := F)) adm' (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (V1 m ρ) c)
    unfold Pipeline.ΦA
    iintro ⟨Hp, -, Hr⟩
    isplitl [Hr]; · iexact Hr
    iexact Hp
  hout c := by
    rw [Pipeline.ownSems0_none]
    refine (hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm' (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm' (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V3 m ρ) c)
    unfold Pipeline.ΦA
    iintro ⟨Hp, -, Hr⟩
    isplitl [Hr]; · iexact Hr
    iexact Hp
  hout c := by
    rw [Pipeline.ownSems0_none]
    refine (hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm' (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm' (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (V4 m ρ) c)
    unfold Pipeline.ΦA
    iintro ⟨Hp, -, Hr⟩
    isplitl [Hr]; · iexact Hr
    iexact Hp
  hout c := by
    rw [Pipeline.ownSems0_none]
    refine (hout2 (V4 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm' (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg3 : Pipeline.RegionSeg (pcfgs (F := F)) adm' (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V5 m ρ) c).loose
  hwaits := Pipeline.hwaits_of_owed_zero _ _ _ _ L lv 3 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec3 c (V5 m ρ c)
  hentry c := by
    rw [Pipeline.ownSems0_none]
    have hsplit := Pipeline.arrays_of_unscopedBufs (p := 3) (pcfgs (F := F)) adm' (pdats m ρ) launch3.win launch3.arr_whole c
      ((pdats m ρ 3 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin3 (V5 m ρ) c)
    unfold Pipeline.ΦA
    iintro ⟨Hp, -, Hr⟩
    isplitl [Hr]; · iexact Hr
    iexact Hp
  hout c := by
    rw [Pipeline.ownSems0_none]
    refine (hout3 (V5 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm' (Ix := Unit) (Name := ℕ) (U := UR sig nD τ) (Lvl := ℕ)
      launch3.win launch3.arr_whole c (pdats m ρ) ((pdats m ρ 3 c).share_full fun _ => rfl)
      (V5 m ρ c) (V6 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg4 : Pipeline.RegionSeg (pcfgs (F := F)) adm' (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V6 m ρ) c).loose
  hwaits := Pipeline.hwaits_of_owed_zero _ _ _ _ L lv 4 fun _ _ => rfl
  pre c := iprop(StableHlo.held (c : Thread nD τ) (Pipeline.ucRefs τ sig) (W6 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V6 m ρ c)
  hentry c := by
    rw [Pipeline.ownSems0_none]
    have hsplit := Pipeline.arrays_of_unscopedBufs (p := 4) (pcfgs (F := F)) adm' (pdats m ρ) launch4.win launch4.arr_whole c
      ((pdats m ρ 4 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin4 (V6 m ρ) c)
    unfold Pipeline.ΦA
    iintro ⟨Hp, -, Hr⟩
    isplitl [Hr]; · iexact Hr
    iexact Hp
  hout c := by
    rw [Pipeline.ownSems0_none]
    refine (hout4 (V6 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm' (Ix := Unit) (Name := ℕ) (U := UR sig nD τ) (Lvl := ℕ)
      launch4.win launch4.arr_whole c (pdats m ρ) ((pdats m ρ 4 c).share_full fun _ => rfl)
      (V6 m ρ c) (V7 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm' (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ), .region (reg2 m ρ), .region (reg3 m ρ), .region (reg4 m ρ) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm' (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c)⟩) (run_all m ρ)

end Cert.KernelIdeal.Hand

end
-- ==== Proof.LibDense.lean ====
/-
  Dense layers on the extended reals, over rank-2 arrays of any extents.

  `mm A B` is the matrix product, `(A B)(p, q) = ∑ k, A(p, k) · B(k, q)`; `act A S b` is the rectified affine layer
  `max (A S + b, 0)` with the bias `b` a one-row array added to every row; `row b` is a vector laid out as that one row.
  A dot product whose dimension numbers contract the left operand's columns with the right operand's rows, with no batch
  axis, read at an output index `(p, q)` sums over the contraction index; that index set is in bijection with the
  contracted extent, so the sum is `mm` at `(p, q)` — for the vector unit's matmul into a zero accumulator and for the
  host's dot product alike. The remaining lemmas read the layout operations that carry a bias (a vector cast or broadcast
  to one row, a row broadcast to all rows, a scalar zero broadcast everywhere) at an index.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- A rank-2 array of extended reals. -/
abbrev Mat (a b : ℕ) : Type := (⟨2, ![a, b]⟩ : Shape).Idx → EReal
/-- A rank-1 array of extended reals. -/
abbrev Row (a : ℕ) : Type := (⟨1, ![a]⟩ : Shape).Idx → EReal

/-- The first coordinate of a rank-2 index, typed by the extent itself. -/
abbrev c0 {a b : ℕ} (i : (⟨2, ![a, b]⟩ : Shape).Idx) : Fin a := ⟨(i 0).val, idx2_lt0 i⟩
/-- The second coordinate of a rank-2 index, typed by the extent itself. -/
abbrev c1 {a b : ℕ} (i : (⟨2, ![a, b]⟩ : Shape).Idx) : Fin b := ⟨(i 1).val, idx2_lt1 i⟩

/-- The matrix product on the extended reals. -/
def mm {M K N : ℕ} (A : Mat M K) (B : Mat K N) : Mat M N :=
  fun i => ∑ k : Fin K, A (ix2 (c0 i) k) * B (ix2 k (c1 i))

theorem mm_apply {M K N : ℕ} (A : Mat M K) (B : Mat K N) (p : Fin M) (q : Fin N) :
    mm A B (ix2 p q) = ∑ k : Fin K, A (ix2 p k) * B (ix2 k q) := rfl

/-- The rectified affine layer `max (A S + b, 0)`, the one-row bias `b` added to every row. -/
def act {M K N : ℕ} (A : Mat M K) (S : Mat K N) (b : Mat 1 N) : Mat M N :=
  fun i => max (mm A S i + b (ix2 (0 : Fin 1) (c1 i))) 0

theorem act_apply {M K N : ℕ} (A : Mat M K) (S : Mat K N) (b : Mat 1 N) (p : Fin M) (q : Fin N) :
    act A S b (ix2 p q) = max ((∑ k : Fin K, A (ix2 p k) * S (ix2 k q)) + b (ix2 (0 : Fin 1) q)) 0 := rfl

/-- A vector laid out as a one-row array. -/
def row {N : ℕ} (b : Row N) : Mat 1 N := fun i => b (ix1 (c1 i))

theorem row_apply {N : ℕ} (b : Row N) (u : Fin 1) (q : Fin N) : row b (ix2 u q) = b (ix1 q) := rfl

/-- A plain product's contraction sum at `(p, q)` is the sum over the contracted extent of `l(p, k) · r(k, q)`. -/
theorem plain_sum {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : Mat M K) (r : Mat K N) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have hlc : D.lhsContracting = [1] := by subst hD; rfl
  have hrc : D.rhsContracting = [0] := by subst hD; rfl
  have el : D.lhsIdx (ix2 p q) ((contrEquiv1 D K hr hs).symm k) = ix2 p k := funext fun a => Fin.ext (by
    match a with
    | ⟨0, _⟩ =>
      subst hD
      rfl
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ =>
      subst hD
      rfl)
  rw [el, er]

/-- The host's plain dot product is the matrix product. -/
theorem hostDot_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    Host.dotGeneral (F := Ideal) D prec l r = mm l r := by
  funext i
  obtain ⟨p, q, rfl⟩ : ∃ (p : Fin M) (q : Fin N), i = ix2 p q := ⟨i 0, i 1, eq_ix2 i⟩
  exact (Ideal.dotGeneral_apply D prec .single l r (ix2 p q)).trans (plain_sum D h1 h2 h3 h4 h5 h6 l r p q)

/-- The vector unit's plain matmul into a zero accumulator is the matrix product. -/
theorem matmul_zero_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    matmul (F := Ideal) D prec l r (constant ⟨2, ![M, N]⟩ .f32 0x00000000#32) = mm l r := by
  funext i
  obtain ⟨p, q, rfl⟩ : ∃ (p : Fin M) (q : Fin N), i = ix2 p q := ⟨i 0, i 1, eq_ix2 i⟩
  exact (Ideal.matmul_constant_zero_apply D prec l r (ix2 p q)).trans (plain_sum D h1 h2 h3 h4 h5 h6 l r p q)

/-- A one-row bias added to every row, then rectified. -/
def reluBias {M N : ℕ} (X : Mat M N) (b : Mat 1 N) : Mat M N := fun i => max (X i + b (ix2 (0 : Fin 1) (c1 i))) 0

theorem act_eq {M K N : ℕ} (A : Mat M K) (S : Mat K N) (b : Mat 1 N) : act A S b = reluBias (mm A S) b := rfl

/-- The vector unit's form: the row broadcast to every row, added, and the maximum with a zero splat. -/
theorem vecReluBias {M N : ℕ} (X : FVec Ideal ⟨2, ![M, N]⟩ .f32) (b : FVec Ideal ⟨2, ![1, N]⟩ .f32)
    (h : (⟨2, ![1, N]⟩ : Shape).Broadcasts ⟨2, ![M, N]⟩) :
    maximumf (addf X (broadcastTo ⟨2, ![M, N]⟩ b h)) (broadcast ⟨2, ![M, N]⟩ (Scalar.ofBits (F := Ideal) .f32 0x00000000#32))
      = reluBias X b := by
  funext i
  obtain ⟨p, q, rfl⟩ : ∃ (p : Fin M) (q : Fin N), i = ix2 p q := ⟨i 0, i 1, eq_ix2 i⟩
  show max (X (ix2 p q) + broadcastTo ⟨2, ![M, N]⟩ b h (ix2 p q)) (Ideal.ofBits .f32 0x00000000#32) = _
  rw [broadcastTo_1b_ab_apply, Ideal.ofBits_zero_f32]
  rfl

/-- The host's form: the vector broadcast to one row, that row to every row, added, and the maximum with a broadcast
    scalar zero. -/
theorem hostReluBias {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf X (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluBias X (row b) := by
  funext i
  obtain ⟨p, q, rfl⟩ : ∃ (p : Fin M) (q : Fin N), i = ix2 p q := ⟨i 0, i 1, eq_ix2 i⟩
  show max (X (ix2 p q) + broadcastInDim ⟨2, ![M, N]⟩ ![0, 1] h2 (broadcastInDim ⟨2, ![1, N]⟩ ![1] h1 b) (ix2 p q))
      (broadcastInDim ⟨2, ![M, N]⟩ ![] h0 (constant (F := Ideal) ⟨0, ![]⟩ .f32 0x00000000#32) (ix2 p q)) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl),
    broadcastInDim_apply ![] h0 _ (ix2 p q) ix0 (fun a => a.elim0)]
  show max (X (ix2 p q) + b (ix1 q)) (Ideal.ofBits .f32 0x00000000#32) = _
  rw [Ideal.ofBits_zero_f32]
  rfl

/-- A vector cast to one row is that row. -/
theorem shapeCast_row {N : ℕ} (b : Row N) (h : (⟨1, ![N]⟩ : Shape).ShapeCasts ⟨2, ![1, N]⟩) :
    shapeCast ⟨2, ![1, N]⟩ b h = row b := by
  funext i
  obtain ⟨u, q, rfl⟩ : ∃ (u : Fin 1) (q : Fin N), i = ix2 u q := ⟨i 0, i 1, eq_ix2 i⟩
  exact shapeCast_a_1a_apply b h u q

/-- Rows of the layer's output depend on the same rows of the left operand only. -/
theorem mm_act_rows {M M' K N P : ℕ} (A : Mat M K) (A' : Mat M' K) (S : Mat K N) (b : Mat 1 N) (W : Mat N P)
    (p : Fin M) (p' : Fin M') (hA : ∀ k, A' (ix2 p' k) = A (ix2 p k)) (q : Fin P) :
    mm (act A' S b) W (ix2 p' q) = mm (act A S b) W (ix2 p q) := by
  simp only [mm_apply, act_apply, hA]

theorem act_rows {M M' K N : ℕ} (A : Mat M K) (A' : Mat M' K) (S : Mat K N) (b : Mat 1 N)
    (p : Fin M) (p' : Fin M') (hA : ∀ k, A' (ix2 p' k) = A (ix2 p k)) (q : Fin N) :
    act A' S b (ix2 p' q) = act A S b (ix2 p q) := by
  simp only [act_apply, hA]

theorem mm_rows {M M' K N : ℕ} (A : Mat M K) (A' : Mat M' K) (B : Mat K N)
    (p : Fin M) (p' : Fin M') (hA : ∀ k, A' (ix2 p' k) = A (ix2 p k)) (q : Fin N) :
    mm A' B (ix2 p' q) = mm A B (ix2 p q) := by
  simp only [mm_apply, hA]

end Cert.Dense

end
-- ==== Proof.LibFoldSum.lean ====
/-
  Two facts about sums on a commutative monoid, used to read an output that is accumulated over consecutive grid points.

  A fold that starts at its first point from zero plus that point's share, and at each later point adds the point's share to
  what the point before left, holds after point j zero plus the sum of the shares of points 0 … j. And a sum over the A·B rows
  of an array is the sum over its A blocks of B consecutive rows of each block's sum. Both use only that addition is
  commutative and associative, so they hold on the extended reals with no finiteness.
-/
import Idealize.ShloMosaic.Lib.Pipeline.Value
import Idealize.ShloMosaic.Lib.ValueIdx

noncomputable section

namespace Cert.FoldSum

open Idealize.ShloMosaic Idealize.ShloMosaic.ValueIdx

/-- The fold over the points 0 … j, read at entry d, is zero plus the sum of the points' shares at d. -/
theorem accAt_sum {M : Type*} [AddCommMonoid M] {N c : ℕ}
    (a : (n : ℕ) → n < N → ((⟨1, ![c]⟩ : Shape).Idx → M))
    (g : (n : ℕ) → n < N → ((⟨1, ![c]⟩ : Shape).Idx → M) → ((⟨1, ![c]⟩ : Shape).Idx → M))
    (P : (n : ℕ) → n < N → Fin c → M)
    (ha : ∀ n h d, a n h (ix1 d) = 0 + P n h d)
    (hg : ∀ n h acc d, g n h acc (ix1 d) = acc (ix1 d) + P n h d)
    (j : ℕ) (h : 0 + j < N) (d : Fin c) :
    Pipeline.accAt a g 0 j h (ix1 d) = 0 + ∑ n : Fin (j + 1), P n.val (by have := n.isLt; omega) d := by
  have hP : ∀ (n n' : ℕ) (hn : n < N) (hn' : n' < N), n = n' → P n hn d = P n' hn' d := by
    intro n n' hn hn' e; subst e; rfl
  induction j with
  | zero =>
    rw [Pipeline.accAt_zero, ha, Fin.sum_univ_one]
    exact congrArg (0 + ·) (hP _ _ _ _ rfl)
  | succ j ih =>
    rw [Pipeline.accAt_succ, hg, ih (by omega), add_assoc]
    conv_rhs => rw [Fin.sum_univ_castSucc]
    refine congrArg (0 + ·) (congrArg₂ (· + ·) (Finset.sum_congr rfl fun n _ => hP _ _ _ _ rfl) (hP _ _ _ _ ?_))
    simp

/-- A sum over C = A·B rows is the sum over the A blocks of B consecutive rows of each block's sum. -/
theorem sum_blocks {M : Type*} [AddCommMonoid M] {A B C : ℕ} (hC : C = A * B) (f : Fin C → M) :
    ∑ i : Fin C, f i = ∑ n : Fin A, ∑ r : Fin B, f ⟨B * n.val + r.val, by
      subst hC
      have h1 := n.isLt
      have h2 := r.isLt
      calc B * n.val + r.val < B * n.val + B := by omega
        _ = B * (n.val + 1) := by ring
        _ ≤ B * A := Nat.mul_le_mul_left _ h1
        _ = A * B := Nat.mul_comm _ _⟩ := by
  subst hC
  rw [← Equiv.sum_comp finProdFinEquiv f, Fintype.sum_prod_type]
  refine Finset.sum_congr rfl fun n _ => Finset.sum_congr rfl fun r _ => congrArg f (Fin.ext ?_)
  simp only [finProdFinEquiv_apply_val]
  omega

end Cert.FoldSum

end
-- ==== Proof.KI.R0Value.lean ====
/- Region 0's value: the array it leaves is the matrix product of the two arrays it reads. Each case's found pieces
   are the body's payloads of the point's blocks and of what the accumulator held; over a row of four points the
   accumulator runs 0 + P₀ + P₁ + P₂ + P₃ with P_k the product of the row block's k-th column slab with the right
   operand's k-th row slab; the 2048 terms of an entry of the whole product are those four slabs of 512 terms. Only
   commutativity and associativity of addition on the extended reals are used. -/
import proofs.«106939_j75831942578756_2_alg».proof.Proof.KI.R0Frame
import proofs.«106939_j75831942578756_2_alg».proof.Proof.LibDense
import proofs.«106939_j75831942578756_2_alg».proof.Proof.LibFoldSum
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.Dense

theorem hz2 : (![0, 0] : Fin 2 → Nat) = fun _ => 0 := funext fun a => by fin_cases a <;> rfl

section Pieces
variable (V : (c : Dev nD) → (b : Ref sig .tc) → Buf (Elt F) ((c : Thread nD τ).loc b))

/-- A point with k = 0 leaves the payload over the zero fill. -/
theorem soutA0_eq (c : Dev nD) (i : grid0.Coords) (arg3 : Memref sig .tc .vmem S1024x512 .f32) (harg3 : arg3.IsWhole) (arg4 : Memref sig .tc .vmem S512x2048 .f32) (harg4 : arg4.IsWhole) (arg5 : Memref sig .tc .vmem S1024x2048 .bf16) (harg5 : arg5.IsWhole) (arg6 : Memref sig .tc .vmem S1024x2048 .f32) (harg6 : arg6.IsWhole) (hc0 : cond0_0 i) (hc1 : ¬cond0_1 i)
    (x0 : Vec F S1024x512 .f32) (x1 : Vec F S512x2048 .f32) :
    sout0_A_0 c i arg3 harg3 arg4 harg4 arg5 harg5 arg6 harg6 hc0 hc1 x0 x1 = k0_pay2 x0 x1 (k0_pay1 (F := F)) := by
  unfold sout0_A_0
  rw [View.read_writes_eq_canon _ _ _ (scover0_A_0 c i arg3 harg3 arg4 harg4 arg5 harg5 arg6 harg6 hc0 hc1 x0 x1)]
  unfold kernelRun0_A
  dsimp only
  try sl_unfold_words
  rw [View.canon_cons_unit_zero hz2, View.readCov_unit_zero (S := S1024x2048) _ hz2]
  simp only [View.readAt_eq_ld, harg3.read_unread, harg4.read_unread, View.ld_unit_zero (S := S1024x512) hz2, View.ld_unit_zero (S := S512x2048) hz2]

/-- A point with k = 1, 2 leaves the payload over what the accumulator held. -/
theorem soutB0_eq (c : Dev nD) (i : grid0.Coords) (arg3 : Memref sig .tc .vmem S1024x512 .f32) (harg3 : arg3.IsWhole) (arg4 : Memref sig .tc .vmem S512x2048 .f32) (harg4 : arg4.IsWhole) (arg5 : Memref sig .tc .vmem S1024x2048 .bf16) (harg5 : arg5.IsWhole) (arg6 : Memref sig .tc .vmem S1024x2048 .f32) (harg6 : arg6.IsWhole) (hc0 : ¬cond0_0 i) (hc1 : ¬cond0_1 i)
    (x0 : Vec F S1024x512 .f32) (x1 : Vec F S512x2048 .f32) (xs0 : Vec F S1024x2048 .f32) :
    sout0_B_0 c i arg3 harg3 arg4 harg4 arg5 harg5 arg6 harg6 hc0 hc1 x0 x1 xs0 = k0_pay2 x0 x1 xs0 := by
  unfold sout0_B_0
  rw [View.read_writes_eq_canon _ _ _ (scover0_B_0 c i arg3 harg3 arg4 harg4 arg5 harg5 arg6 harg6 hc0 hc1 x0 x1 xs0)]
  unfold kernelRun0_B
  dsimp only
  try sl_unfold_words
  rw [View.canon_unit_zero hz2]
  simp only [View.readAt_eq_ld, harg3.read_unread, harg4.read_unread, harg6.read_unread, View.ld_unit_zero (S := S1024x512) hz2, View.ld_unit_zero (S := S512x2048) hz2, View.ld_unit_zero (S := S1024x2048) hz2]

/-- A point with k = 3 stores the narrowed payload over the output block. -/
theorem outC0_eq (c : Dev nD) (i : grid0.Coords) (arg3 : Memref sig .tc .vmem S1024x512 .f32) (harg3 : arg3.IsWhole) (arg4 : Memref sig .tc .vmem S512x2048 .f32) (harg4 : arg4.IsWhole) (arg5 : Memref sig .tc .vmem S1024x2048 .bf16) (harg5 : arg5.IsWhole) (arg6 : Memref sig .tc .vmem S1024x2048 .f32) (harg6 : arg6.IsWhole) (hc0 : ¬cond0_0 i) (hc1 : cond0_1 i)
    (x0 : Vec F S1024x512 .f32) (x1 : Vec F S512x2048 .f32) (xs0 : Vec F S1024x2048 .f32) :
    out0_C_2 c i arg3 harg3 arg4 harg4 arg5 harg5 arg6 harg6 hc0 hc1 x0 x1 xs0 = k0_pay3 (k0_pay2 x0 x1 xs0) := by
  unfold out0_C_2
  rw [View.read_writes_eq_canon _ _ _ (cover0_C_2 c i arg3 harg3 arg4 harg4 arg5 harg5 arg6 harg6 hc0 hc1 x0 x1 xs0)]
  unfold kernelRun0_C
  dsimp only
  try sl_unfold_words
  rw [View.canon_unit_zero hz2, View.readCov_unit_zero (S := S1024x2048) _ hz2]
  simp only [View.readAt_eq_ld, harg3.read_unread, harg4.read_unread, harg6.read_unread, View.ld_unit_zero (S := S1024x512) hz2, View.ld_unit_zero (S := S512x2048) hz2, View.ld_unit_zero (S := S1024x2048) hz2]

/-- Point k of row-of-points i. -/
def pt0 (i : Fin 2) (k : ℕ) (hk : k < 4) : Fin cfg0.N := ⟨4 * i.val + k, by rw [show cfg0.N = 8 from N_0]; omega⟩

theorem acc0_congr (c : Dev nD) (n n' : ℕ) (h : n < cfg0.N) (h' : n' < cfg0.N) (e : n = n') : acc0 V c n h = acc0 V c n' h' := by
  subst e; rfl

/-- The accumulator after the first point of a row of points. -/
theorem acc0_k0 (c : Dev nD) (i : Fin 2) :
    acc0 V c (pt0 i 0 (by decide)).val (pt0 i 0 (by decide)).isLt
      = k0_pay2 (iblk0 V c 0 (pt0 i 0 (by decide))) (iblk0 V c 1 (pt0 i 0 (by decide))) (k0_pay1 (F := F)) := by
  rw [acc0_A V c (pt0 i 0 (by decide)) (by show (4 * i.val + 0) % 4 = 0; omega) (by show ¬(4 * i.val + 0) % 4 = 3; omega), soutA0_eq]

/-- The accumulator after a middle point, over what the point before left. -/
theorem acc0_mid (c : Dev nD) (i : Fin 2) (k : ℕ) (hk : k + 1 < 4) (hk3 : k + 1 ≠ 3) :
    acc0 V c (pt0 i (k + 1) hk).val (pt0 i (k + 1) hk).isLt
      = k0_pay2 (iblk0 V c 0 (pt0 i (k + 1) hk)) (iblk0 V c 1 (pt0 i (k + 1) hk)) (acc0 V c (pt0 i k (by omega)).val (pt0 i k (by omega)).isLt) := by
  rw [acc0_B V c (pt0 i (k + 1) hk) (by show ¬(4 * i.val + (k + 1)) % 4 = 0; omega) (by show ¬(4 * i.val + (k + 1)) % 4 = 3; omega), soutB0_eq]
  exact congrArg _ (acc0_congr V c _ _ _ _ (by show 4 * i.val + (k + 1) - 1 = 4 * i.val + k; omega))

/-- The output buffer after the last point of a row of points. -/
theorem outAt0_k3 (c : Dev nD) (i : Fin 2) :
    outAt0 V c (pt0 i 3 (by decide))
      = k0_pay3 (k0_pay2 (iblk0 V c 0 (pt0 i 3 (by decide))) (iblk0 V c 1 (pt0 i 3 (by decide))) (acc0 V c (pt0 i 2 (by decide)).val (pt0 i 2 (by decide)).isLt)) := by
  rw [outAt0_C V c (pt0 i 3 (by decide)) (by show ¬(4 * i.val + 3) % 4 = 0; omega) (by show (4 * i.val + 3) % 4 = 3; omega), outC0_eq]
  exact congrArg (fun a => k0_pay3 (k0_pay2 _ _ a)) (acc0_congr V c _ _ _ _ (by show 4 * i.val + 3 - 1 = 4 * i.val + 2; omega))

/-- The printed index maps over the grid. -/
theorem idx0 : ∀ t : Fin cfg0.N, win0_0.index t (0 : Fin 2) = t.val / 4 ∧ win0_0.index t (1 : Fin 2) = t.val % 4
    ∧ win0_1.index t (0 : Fin 2) = t.val % 4 ∧ win0_1.index t (1 : Fin 2) = 0
    ∧ win0_2.index t (0 : Fin 2) = t.val / 4 ∧ win0_2.index t (1 : Fin 2) = 0 :=
  (by decide +kernel : ∀ t : Fin grid0.N, _)

/-- The left block at point t is rows 1024·(t/4) … and columns 512·(t%4) … of the left array. -/
theorem iblk0_0_apply (c : Dev nD) (t : Fin cfg0.N) (y : S1024x512.Idx) (k : S2048x2048.Idx)
    (hk0 : (k 0).val = 1024 * (t.val / 4) + (y 0).val) (hk1 : (k 1).val = 512 * (t.val % 4) + (y 1).val) :
    (iblk0 V c 0 t : Vec F S1024x512 .f32) y = (V c (Pipeline.arrRef spec0 0) : S2048x2048.Idx → Elt F .f32) k := by
  obtain ⟨e0, e1, -⟩ := idx0 t
  unfold iblk0
  rw [View.read_apply]
  show (V c (Pipeline.arrRef spec0 0) : S2048x2048.Idx → Elt F .f32) _ = (V c (Pipeline.arrRef spec0 0) : S2048x2048.Idx → Elt F .f32) k
  refine congrArg _ (funext fun a => Fin.ext ?_)
  match a with
  | ⟨0, _⟩ => show win0_0.index t 0 * 1024 + 1 * (y 0).val = (k 0).val; rw [e0, hk0]; omega
  | ⟨1, _⟩ => show win0_0.index t 1 * 512 + 1 * (y 1).val = (k 1).val; rw [e1, hk1]; omega

/-- The right block at point t is rows 512·(t%4) … of the right array, every column. -/
theorem iblk0_1_apply (c : Dev nD) (t : Fin cfg0.N) (y : S512x2048.Idx) (k : S2048x2048.Idx)
    (hk0 : (k 0).val = 512 * (t.val % 4) + (y 0).val) (hk1 : (k 1).val = (y 1).val) :
    (iblk0 V c 1 t : Vec F S512x2048 .f32) y = (V c (Pipeline.arrRef spec0 1) : S2048x2048.Idx → Elt F .f32) k := by
  obtain ⟨-, -, e0, e1, -⟩ := idx0 t
  unfold iblk0
  rw [View.read_apply]
  show (V c (Pipeline.arrRef spec0 1) : S2048x2048.Idx → Elt F .f32) _ = (V c (Pipeline.arrRef spec0 1) : S2048x2048.Idx → Elt F .f32) k
  refine congrArg _ (funext fun a => Fin.ext ?_)
  match a with
  | ⟨0, _⟩ => show win0_1.index t 0 * 512 + 1 * (y 0).val = (k 0).val; rw [e0, hk0]; omega
  | ⟨1, _⟩ => show win0_1.index t 1 * 2048 + 1 * (y 1).val = (k 1).val; rw [e1, hk1]; omega

end Pieces

/-! ## At the extended reals -/

section IdealPart
variable (V : (c : Dev nD) → (b : Ref sig .tc) → Buf (Elt Ideal) ((c : Thread nD τ).loc b))

theorem k0_pay1_ideal : (k0_pay1 (F := Ideal) : S1024x2048.Idx → EReal) = fun _ => 0 := by
  unfold k0_pay1
  simp only [shapeCast_self]
  funext i
  show Ideal.ofBits .f32 0x00000000#32 = 0
  exact Ideal.ofBits_zero_f32

theorem k0_pay2_ideal (x0 : Vec Ideal S1024x512 .f32) (x1 : Vec Ideal S512x2048 .f32) (acc : Vec Ideal S1024x2048 .f32) :
    (k0_pay2 x0 x1 acc : S1024x2048.Idx → EReal) = fun i => (acc i : EReal) + mm (M := 1024) (K := 512) (N := 2048) x0 x1 i := by
  unfold k0_pay2
  simp only [shapeCast_self]
  funext i
  rw [addf_apply, matmul_zero_eq_mm _ rfl rfl rfl rfl rfl rfl]
  rfl

theorem k0_pay3_ideal (v : Vec Ideal S1024x2048 .f32) : (k0_pay3 v : S1024x2048.Idx → EReal) = v := rfl

/-- The product of the two blocks of a point at an entry: one 512-term slab of the whole product's sum. -/
theorem slab0 (c : Dev nD) (t : Fin cfg0.N) (r : Fin 1024) (q : Fin 2048) (A B : Mat 2048 2048)
    (hA : (V c (Pipeline.arrRef spec0 0) : S2048x2048.Idx → EReal) = A) (hB : (V c (Pipeline.arrRef spec0 1) : S2048x2048.Idx → EReal) = B)
    (R : Fin 2048) (hR : R.val = 1024 * (t.val / 4) + r.val) (n : Fin 4) (hn : n.val = t.val % 4) :
    mm (M := 1024) (K := 512) (N := 2048) (iblk0 V c 0 t) (iblk0 V c 1 t) (ix2 r q)
      = ∑ p : Fin 512, A (ix2 R ⟨512 * n.val + p.val, by have := p.isLt; have := n.isLt; omega⟩) * B (ix2 ⟨512 * n.val + p.val, by have := p.isLt; have := n.isLt; omega⟩ q) := by
  rw [mm_apply]
  refine Finset.sum_congr rfl fun p _ => ?_
  rw [iblk0_0_apply V c t (ix2 r p) (ix2 R ⟨512 * n.val + p.val, by have := p.isLt; have := n.isLt; omega⟩) (by show R.val = _; rw [hR]) (by show 512 * n.val + p.val = _; rw [hn]),
    iblk0_1_apply V c t (ix2 p q) (ix2 ⟨512 * n.val + p.val, by have := p.isLt; have := n.isLt; omega⟩ q) (by show 512 * n.val + p.val = _; rw [hn]) rfl, hA, hB]

end IdealPart

section FinalPart
variable (V : (c : Dev nD) → (b : Ref sig .tc) → Buf (Elt Ideal) ((c : Thread nD τ).loc b))

/-- An entry of what a row of points stores: the four slabs' sums added up are the whole product's entry. -/
theorem row_entry0 (c : Dev nD) (i : Fin 2) (r : Fin 1024) (q : Fin 2048) (A B : Mat 2048 2048)
    (hA : (V c (Pipeline.arrRef spec0 0) : S2048x2048.Idx → EReal) = A) (hB : (V c (Pipeline.arrRef spec0 1) : S2048x2048.Idx → EReal) = B)
    (j : S2048x2048.Idx) (hj0 : (j 0).val = 1024 * i.val + r.val) (hj1 : (j 1).val = q.val) :
    (k0_pay3 (F := Ideal) (k0_pay2 (iblk0 V c 0 (pt0 i 3 (by decide))) (iblk0 V c 1 (pt0 i 3 (by decide))) (k0_pay2 (iblk0 V c 0 (pt0 i 2 (by decide))) (iblk0 V c 1 (pt0 i 2 (by decide))) (k0_pay2 (iblk0 V c 0 (pt0 i 1 (by decide))) (iblk0 V c 1 (pt0 i 1 (by decide))) (k0_pay2 (iblk0 V c 0 (pt0 i 0 (by decide))) (iblk0 V c 1 (pt0 i 0 (by decide))) (k0_pay1 (F := Ideal)))))) : S1024x2048.Idx → EReal) (ix2 r q) = mm A B j := by
  obtain ⟨R, Q, rfl⟩ : ∃ (R : Fin 2048) (Q : Fin 2048), j = ix2 R Q := ⟨j 0, j 1, eq_ix2 j⟩
  have hR : R.val = 1024 * i.val + r.val := hj0
  obtain rfl : Q = q := Fin.ext hj1
  rw [k0_pay3_ideal, k0_pay2_ideal, k0_pay2_ideal, k0_pay2_ideal, k0_pay2_ideal, k0_pay1_ideal]
  dsimp only
  rw [slab0 V c (pt0 i 0 (by decide)) r Q A B hA hB R (by show R.val = 1024 * ((4 * i.val + 0) / 4) + r.val; omega) (0 : Fin 4) (by show 0 = (4 * i.val + 0) % 4; omega),
    slab0 V c (pt0 i 1 (by decide)) r Q A B hA hB R (by show R.val = 1024 * ((4 * i.val + 1) / 4) + r.val; omega) (1 : Fin 4) (by show 1 = (4 * i.val + 1) % 4; omega),
    slab0 V c (pt0 i 2 (by decide)) r Q A B hA hB R (by show R.val = 1024 * ((4 * i.val + 2) / 4) + r.val; omega) (2 : Fin 4) (by show 2 = (4 * i.val + 2) % 4; omega),
    slab0 V c (pt0 i 3 (by decide)) r Q A B hA hB R (by show R.val = 1024 * ((4 * i.val + 3) / 4) + r.val; omega) (3 : Fin 4) (by show 3 = (4 * i.val + 3) % 4; omega)]
  rw [mm_apply, Cert.FoldSum.sum_blocks (A := 4) (B := 512) (C := 2048) rfl, Fin.sum_univ_four, zero_add]

/-- WHAT A ROW OF POINTS WRITES BACK is its block of the whole product. -/
theorem flushed0_eq (c : Dev nD) (A B : Mat 2048 2048)
    (hA : (V c (Pipeline.arrRef spec0 0) : S2048x2048.Idx → EReal) = A) (hB : (V c (Pipeline.arrRef spec0 1) : S2048x2048.Idx → EReal) = B)
    (t : Fin cfg0.N) (hf : (cfg0.win 2).flush t = true) :
    (dat0 V c).flushed 2 t = ((cfg0.win 2).blk t).view.read (Elt Ideal) (mm A B : S2048x2048.Idx → EReal) := by
  have ht : t.val % 4 = 3 := (flush0_2 t).mp hf
  have hN : t.val < 8 := lt_of_lt_of_eq t.isLt (show cfg0.N = 8 from N_0)
  obtain ⟨i, rfl⟩ : ∃ i : Fin 2, t = pt0 i 3 (by decide) :=
    ⟨⟨t.val / 4, by omega⟩, Fin.ext (by show t.val = 4 * (t.val / 4) + 3; omega)⟩
  show (cfg0.win 2).cut (grid0.coords _) ((dat0 V c).after 2 _) = _
  rw [after0_2, outAt0_k3, acc0_mid V c i 1 (by decide) (by decide), acc0_mid V c i 0 (by decide) (by decide), acc0_k0]
  obtain ⟨-, -, -, -, e4, e5⟩ := idx0 (pt0 i 3 (by decide))
  funext y
  obtain ⟨r, q, rfl⟩ : ∃ (r : Fin 1024) (q : Fin 2048), y = ix2 r q := ⟨y 0, y 1, eq_ix2 y⟩
  rw [View.read_apply]
  show _ = (mm A B : S2048x2048.Idx → EReal) _
  refine row_entry0 V c i r q A B hA hB _ ?_ ?_
  · show win0_2.index (pt0 i 3 (by decide)) 0 * 1024 + 1 * r.val = 1024 * i.val + r.val
    rw [e4]; show (4 * i.val + 3) / 4 * 1024 + 1 * r.val = _; omega
  · show win0_2.index (pt0 i 3 (by decide)) 1 * 2048 + 1 * q.val = q.val
    rw [e5]; omega

/-- The two rows of points' blocks cover the array. -/
theorem cover0 (i : S2048x2048.Idx) : ∃ t : Fin cfg0.N, (cfg0.win 2).flush t = true ∧ i ∈ ((cfg0.win 2).blk t).view.set := by
  have h0 : (i 0).val < 2048 := (i 0).isLt
  have h1 : (i 1).val < 2048 := (i 1).isLt
  have key : ∀ t : Fin cfg0.N, t.val / 4 = (i 0).val / 1024 → i ∈ ((cfg0.win 2).blk t).view.set := by
    intro t hq
    obtain ⟨-, -, -, -, e4, e5⟩ := idx0 t
    show i ∈ ((View.whole main_v30).slice (win0_2.rect t)).set
    rw [View.set_slice_whole, Rect.mem_set_unit]
    intro a
    match a with
    | ⟨0, _⟩ =>
      show win0_2.index t 0 * 1024 ≤ (i 0).val ∧ (i 0).val < win0_2.index t 0 * 1024 + 1024
      rw [e4, hq]; omega
    | ⟨1, _⟩ =>
      show win0_2.index t 1 * 2048 ≤ (i 1).val ∧ (i 1).val < win0_2.index t 1 * 2048 + 2048
      rw [e5]; omega
  exact ⟨pt0 ⟨(i 0).val / 1024, by omega⟩ 3 (by decide), (flush0_2 _).mpr (by show (4 * ((i 0).val / 1024) + 3) % 4 = 3; omega),
    key _ (by show (4 * ((i 0).val / 1024) + 3) / 4 = (i 0).val / 1024; omega)⟩

/-- THE ARRAY region 0 leaves: the product of the two arrays it reads. -/
theorem final0 (c : Dev nD) (A B : Mat 2048 2048)
    (hA : (V c (Pipeline.arrRef spec0 0) : S2048x2048.Idx → EReal) = A) (hB : (V c (Pipeline.arrRef spec0 1) : S2048x2048.Idx → EReal) = B) :
    ((dat0 V c).arrAt 2 cfg0.N : S2048x2048.Idx → EReal) = mm A B :=
  (dat0 V c).arrAt_eq_of_cover 2 (mm A B : S2048x2048.Idx → EReal) (flushed0_eq V c A B hA hB) cover0

end FinalPart

end Cert.KernelIdeal.Hand

end
-- ==== Proof.LibBiasRow.lean ====
/-
  A one-row bias added to every row of a rank-2 array, on the extended reals, at any extents.

  `addRow X b` is `X(p, q) + b(0, q)`.  The vector unit spells it as the row broadcast along the rows and added; the
  host as the vector broadcast to one row, that row broadcast to every row, and added.  Both are `addRow`, the host's
  over the vector laid out as a row (`Cert.Dense.row`).  The entry at `(p, q)` depends on the entry of `X` there and
  on entry `q` of the bias only (`addRow_at`; `reluBias_at` for the rectified layer, `mm_at` for the matrix product, whose
  entry depends on one row of the left operand), which is what reading a block of rows against the whole array needs.
-/
import proofs.«106939_j75831942578756_2_alg».proof.Proof.LibDense

noncomputable section

namespace Cert.BiasRow

open Idealize.ShloMosaic Idealize.ShloMosaic.ValueIdx Cert.Dense

/-- A one-row array added to every row. -/
def addRow {M N : ℕ} (X : Mat M N) (b : Mat 1 N) : Mat M N := fun i => X i + b (ix2 (0 : Fin 1) (c1 i))

theorem addRow_apply {M N : ℕ} (X : Mat M N) (b : Mat 1 N) (p : Fin M) (q : Fin N) :
    addRow X b (ix2 p q) = X (ix2 p q) + b (ix2 (0 : Fin 1) q) := rfl

/-- The vector unit's form: the row broadcast to every row, added. -/
theorem vecAddRow {M N : ℕ} (X : FVec Ideal ⟨2, ![M, N]⟩ .f32) (b : FVec Ideal ⟨2, ![1, N]⟩ .f32)
    (h : (⟨2, ![1, N]⟩ : Shape).Broadcasts ⟨2, ![M, N]⟩) :
    addf X (broadcastTo ⟨2, ![M, N]⟩ b h) = addRow X b := by
  funext i
  obtain ⟨p, q, rfl⟩ : ∃ (p : Fin M) (q : Fin N), i = ix2 p q := ⟨i 0, i 1, eq_ix2 i⟩
  show X (ix2 p q) + broadcastTo ⟨2, ![M, N]⟩ b h (ix2 p q) = _
  rw [broadcastTo_1b_ab_apply]
  rfl

/-- The host's form: the vector broadcast to one row, that row to every row, added. -/
theorem hostAddRow {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf X (broadcastInDim ⟨2, ![M, N]⟩ ![0, 1] h2 (broadcastInDim ⟨2, ![1, N]⟩ ![1] h1 b)) = addRow X (row b) := by
  funext i
  obtain ⟨p, q, rfl⟩ : ∃ (p : Fin M) (q : Fin N), i = ix2 p q := ⟨i 0, i 1, eq_ix2 i⟩
  show X (ix2 p q) + broadcastInDim ⟨2, ![M, N]⟩ ![0, 1] h2 (broadcastInDim ⟨2, ![1, N]⟩ ![1] h1 b) (ix2 p q) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl)]
  rfl

/-- The biased array at an index depends on the entry there and on the bias of its column. -/
theorem addRow_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    addRow X' b' j = addRow X b i := by
  unfold addRow; rw [hX, hb]

/-- The rectified bias layer at an index depends on the entry there and on the bias of its column. -/
theorem reluBias_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    reluBias X' b' j = reluBias X b i := by
  unfold reluBias; rw [hX, hb]

/-- The matrix product at an index depends on one row of the left operand and one column of the right one. -/
theorem mm_at {M M' K N N' : ℕ} (A : Mat M K) (B : Mat K N) (A' : Mat M' K) (B' : Mat K N')
    (j : (⟨2, ![M', N']⟩ : Shape).Idx) (i : (⟨2, ![M, N]⟩ : Shape).Idx)
    (hA : ∀ k : Fin K, A' (ix2 (c0 j) k) = A (ix2 (c0 i) k))
    (hB : ∀ k : Fin K, B' (ix2 k (c1 j)) = B (ix2 k (c1 i))) : mm A' B' j = mm A B i :=
  Finset.sum_congr rfl fun k _ => by rw [hA k, hB k]

end Cert.BiasRow

end
-- ==== Proof.Spec.lean ====
/-
  The network the two programs compute, on the extended reals: four layers X ↦ M·X + b with the one matrix M = A·W,
  the bias b a one-row array added to every row.
-/
import proofs.«106939_j75831942578756_2_alg».proof.Proof.LibDense
import proofs.«106939_j75831942578756_2_alg».proof.Proof.LibBiasRow

noncomputable section

namespace Cert.Net

open Idealize.ShloMosaic Idealize.ShloMosaic.ValueIdx Cert.Dense Cert.BiasRow

/-- One layer: the product with the layer matrix, then the bias row added to every row. -/
def layer (M X : Mat 2048 2048) (b : Mat 1 2048) : Mat 2048 2048 := addRow (mm M X) b

/-- Four layers over the one matrix A·W. -/
def net (A W X : Mat 2048 2048) (b : Mat 1 2048) : Mat 2048 2048 :=
  layer (mm A W) (layer (mm A W) (layer (mm A W) (layer (mm A W) X b) b) b) b

end Cert.Net

end
-- ==== Proof.KI.R1Value.lean ====
/- Region 1's value: the array it leaves is the layer M·X + b of the arrays it reads. Each case's found pieces are the
   body's payloads of the point's blocks and of what the accumulator held; over a row of four points the accumulator
   runs 0 + P₀ + P₁ + P₂ + P₃ with P_k the product of the row block's k-th column slab with X's k-th row slab, and the
   last point adds the bias row; the 2048 terms of an entry of M·X are those four slabs of 512 terms. Only commutativity
   and associativity of addition on the extended reals are used. -/
import proofs.«106939_j75831942578756_2_alg».proof.Proof.KI.R1Frame
import proofs.«106939_j75831942578756_2_alg».proof.Proof.Spec
import proofs.«106939_j75831942578756_2_alg».proof.Proof.LibFoldSum
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.Dense Cert.BiasRow Cert.Net

theorem hz2_1 : (![0, 0] : Fin 2 → Nat) = fun _ => 0 := funext fun a => by fin_cases a <;> rfl

section Pieces
variable (V : (c : Dev nD) → (b : Ref sig .tc) → Buf (Elt F) ((c : Thread nD τ).loc b))

theorem soutA1_eq (c : Dev nD) (i : grid1.Coords) (arg3 : Memref sig .tc .vmem S1024x512 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : cond1_0 i) (hc1 : ¬cond1_1 i)
    (x0 : Vec F S1024x512 .bf16) (x1 : Vec F S512x2048 .f32) (x2 : Vec F S1x2048 .f32) :
    sout1_A_0 c i arg3 harg3 arg4 harg4 arg5 harg5 arg6 harg6 arg7 harg7 hc0 hc1 x0 x1 x2 = k1_pay2 x0 x1 (k1_pay1 (F := F)) := by
  have hz2 := hz2_1
  unfold sout1_A_0
  rw [View.read_writes_eq_canon _ _ _ (scover1_A_0 c i arg3 harg3 arg4 harg4 arg5 harg5 arg6 harg6 arg7 harg7 hc0 hc1 x0 x1 x2)]
  unfold kernelRun1_A
  dsimp only
  try sl_unfold_words
  rw [View.canon_cons_unit_zero hz2, View.readCov_unit_zero (S := S1024x2048) _ hz2]
  simp only [View.readAt_eq_ld, harg3.read_unread, harg4.read_unread, View.ld_unit_zero (S := S1024x512) hz2, View.ld_unit_zero (S := S512x2048) hz2]

theorem soutB1_eq (c : Dev nD) (i : grid1.Coords) (arg3 : Memref sig .tc .vmem S1024x512 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : ¬cond1_0 i) (hc1 : ¬cond1_1 i)
    (x0 : Vec F S1024x512 .bf16) (x1 : Vec F S512x2048 .f32) (x2 : Vec F S1x2048 .f32) (xs0 : Vec F S1024x2048 .f32) :
    sout1_B_0 c i arg3 harg3 arg4 harg4 arg5 harg5 arg6 harg6 arg7 harg7 hc0 hc1 x0 x1 x2 xs0 = k1_pay2 x0 x1 xs0 := by
  have hz2 := hz2_1
  unfold sout1_B_0
  rw [View.read_writes_eq_canon _ _ _ (scover1_B_0 c i arg3 harg3 arg4 harg4 arg5 harg5 arg6 harg6 arg7 harg7 hc0 hc1 x0 x1 x2 xs0)]
  unfold kernelRun1_B
  dsimp only
  try sl_unfold_words
  rw [View.canon_unit_zero hz2]
  simp only [View.readAt_eq_ld, harg3.read_unread, harg4.read_unread, View.ld_unit_zero (S := S1024x512) hz2, View.ld_unit_zero (S := S512x2048) hz2, harg7.read_unread, View.ld_unit_zero (S := S1024x2048) hz2]

theorem outC1_eq (c : Dev nD) (i : grid1.Coords) (arg3 : Memref sig .tc .vmem S1024x512 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : ¬cond1_0 i) (hc1 : cond1_1 i)
    (x0 : Vec F S1024x512 .bf16) (x1 : Vec F S512x2048 .f32) (x2 : Vec F S1x2048 .f32) (xs0 : Vec F S1024x2048 .f32) :
    out1_C_3 c i arg3 harg3 arg4 harg4 arg5 harg5 arg6 harg6 arg7 harg7 hc0 hc1 x0 x1 x2 xs0 = k1_pay3 (k1_pay2 x0 x1 xs0) x2 := by
  have hz2 := hz2_1
  unfold out1_C_3
  rw [View.read_writes_eq_canon _ _ _ (cover1_C_3 c i arg3 harg3 arg4 harg4 arg5 harg5 arg6 harg6 arg7 harg7 hc0 hc1 x0 x1 x2 xs0)]
  unfold kernelRun1_C
  dsimp only
  try sl_unfold_words
  rw [View.canon_unit_zero hz2, View.readCov_unit_zero (S := S1024x2048) _ hz2]
  simp only [View.readAt_eq_ld, harg3.read_unread, harg4.read_unread, View.ld_unit_zero (S := S1024x512) hz2, View.ld_unit_zero (S := S512x2048) hz2, harg5.read_unread, harg7.read_unread, View.ld_unit_zero (S := S1024x2048) hz2, View.ld_unit_zero (S := S1x2048) hz2]

/-- Point k of row-of-points i. -/
def pt1 (i : Fin 2) (k : ℕ) (hk : k < 4) : Fin cfg1.N := ⟨4 * i.val + k, by rw [show cfg1.N = 8 from N_1]; omega⟩

theorem acc1_congr (c : Dev nD) (n n' : ℕ) (h : n < cfg1.N) (h' : n' < cfg1.N) (e : n = n') : acc1 V c n h = acc1 V c n' h' := by
  subst e; rfl

theorem acc1_k0 (c : Dev nD) (i : Fin 2) :
    acc1 V c (pt1 i 0 (by decide)).val (pt1 i 0 (by decide)).isLt = k1_pay2 (iblk1 V c 0 (pt1 i 0 (by decide))) (iblk1 V c 1 (pt1 i 0 (by decide))) (k1_pay1 (F := F)) := by
  rw [acc1_A V c (pt1 i 0 (by decide)) (by show (4 * i.val + 0) % 4 = 0; omega) (by show ¬(4 * i.val + 0) % 4 = 3; omega), soutA1_eq]

theorem acc1_mid (c : Dev nD) (i : Fin 2) (k : ℕ) (hk : k + 1 < 4) (hk3 : k + 1 ≠ 3) :
    acc1 V c (pt1 i (k + 1) hk).val (pt1 i (k + 1) hk).isLt
      = k1_pay2 (iblk1 V c 0 (pt1 i (k + 1) hk)) (iblk1 V c 1 (pt1 i (k + 1) hk)) (acc1 V c (pt1 i k (by omega)).val (pt1 i k (by omega)).isLt) := by
  rw [acc1_B V c (pt1 i (k + 1) hk) (by show ¬(4 * i.val + (k + 1)) % 4 = 0; omega) (by show ¬(4 * i.val + (k + 1)) % 4 = 3; omega), soutB1_eq]
  exact congrArg _ (acc1_congr V c _ _ _ _ (by show 4 * i.val + (k + 1) - 1 = 4 * i.val + k; omega))

theorem outAt1_k3 (c : Dev nD) (i : Fin 2) :
    outAt1 V c (pt1 i 3 (by decide))
      = k1_pay3 (k1_pay2 (iblk1 V c 0 (pt1 i 3 (by decide))) (iblk1 V c 1 (pt1 i 3 (by decide))) (acc1 V c (pt1 i 2 (by decide)).val (pt1 i 2 (by decide)).isLt)) (iblk1 V c 2 (pt1 i 3 (by decide))) := by
  rw [outAt1_C V c (pt1 i 3 (by decide)) (by show ¬(4 * i.val + 3) % 4 = 0; omega) (by show (4 * i.val + 3) % 4 = 3; omega), outC1_eq]
  exact congrArg (fun a => k1_pay3 (k1_pay2 _ _ a) _) (acc1_congr V c _ _ _ _ (by show 4 * i.val + 3 - 1 = 4 * i.val + 2; omega))

/-- The printed index maps over the grid. -/
theorem idx1 : ∀ t : Fin cfg1.N, win1_0.index t (0 : Fin 2) = t.val / 4 ∧ win1_0.index t (1 : Fin 2) = t.val % 4
    ∧ win1_1.index t (0 : Fin 2) = t.val % 4 ∧ win1_1.index t (1 : Fin 2) = 0
    ∧ win1_2.index t (0 : Fin 2) = 0 ∧ win1_2.index t (1 : Fin 2) = 0
    ∧ win1_3.index t (0 : Fin 2) = t.val / 4 ∧ win1_3.index t (1 : Fin 2) = 0 :=
  (by decide +kernel : ∀ t : Fin grid1.N, _)

theorem iblk1_0_apply (c : Dev nD) (t : Fin cfg1.N) (y : S1024x512.Idx) (k : S2048x2048.Idx)
    (hk0 : (k 0).val = 1024 * (t.val / 4) + (y 0).val) (hk1 : (k 1).val = 512 * (t.val % 4) + (y 1).val) :
    (iblk1 V c 0 t : Vec F S1024x512 .bf16) y = (V c (Pipeline.arrRef spec1 0) : S2048x2048.Idx → Elt F .bf16) k := by
  obtain ⟨e0, e1, -⟩ := idx1 t
  unfold iblk1
  rw [View.read_apply]
  show (V c (Pipeline.arrRef spec1 0) : S2048x2048.Idx → Elt F .bf16) _ = (V c (Pipeline.arrRef spec1 0) : S2048x2048.Idx → Elt F .bf16) k
  refine congrArg _ (funext fun a => Fin.ext ?_)
  match a with
  | ⟨0, _⟩ => show win1_0.index t 0 * 1024 + 1 * (y 0).val = (k 0).val; rw [e0, hk0]; omega
  | ⟨1, _⟩ => show win1_0.index t 1 * 512 + 1 * (y 1).val = (k 1).val; rw [e1, hk1]; omega

theorem iblk1_1_apply (c : Dev nD) (t : Fin cfg1.N) (y : S512x2048.Idx) (k : S2048x2048.Idx)
    (hk0 : (k 0).val = 512 * (t.val % 4) + (y 0).val) (hk1 : (k 1).val = (y 1).val) :
    (iblk1 V c 1 t : Vec F S512x2048 .f32) y = (V c (Pipeline.arrRef spec1 1) : S2048x2048.Idx → Elt F .f32) k := by
  obtain ⟨-, -, e0, e1, -⟩ := idx1 t
  unfold iblk1
  rw [View.read_apply]
  show (V c (Pipeline.arrRef spec1 1) : S2048x2048.Idx → Elt F .f32) _ = (V c (Pipeline.arrRef spec1 1) : S2048x2048.Idx → Elt F .f32) k
  refine congrArg _ (funext fun a => Fin.ext ?_)
  match a with
  | ⟨0, _⟩ => show win1_1.index t 0 * 512 + 1 * (y 0).val = (k 0).val; rw [e0, hk0]; omega
  | ⟨1, _⟩ => show win1_1.index t 1 * 2048 + 1 * (y 1).val = (k 1).val; rw [e1, hk1]; omega

/-- The bias block is the whole bias row at every point. -/
theorem iblk1_2_apply (c : Dev nD) (t : Fin cfg1.N) (y : S1x2048.Idx) :
    (iblk1 V c 2 t : Vec F S1x2048 .f32) y = (V c (Pipeline.arrRef spec1 2) : S1x2048.Idx → Elt F .f32) y := by
  obtain ⟨-, -, -, -, e0, e1, -⟩ := idx1 t
  unfold iblk1
  rw [View.read_apply]
  show (V c (Pipeline.arrRef spec1 2) : S1x2048.Idx → Elt F .f32) _ = (V c (Pipeline.arrRef spec1 2) : S1x2048.Idx → Elt F .f32) y
  refine congrArg _ (funext fun a => Fin.ext ?_)
  match a with
  | ⟨0, _⟩ => show win1_2.index t 0 * 1 + 1 * (y 0).val = (y 0).val; rw [e0]; omega
  | ⟨1, _⟩ => show win1_2.index t 1 * 2048 + 1 * (y 1).val = (y 1).val; rw [e1]; omega

end Pieces

/-! ## At the extended reals -/

section IdealPart
variable (V : (c : Dev nD) → (b : Ref sig .tc) → Buf (Elt Ideal) ((c : Thread nD τ).loc b))

theorem k1_pay1_ideal : (k1_pay1 (F := Ideal) : S1024x2048.Idx → EReal) = fun _ => 0 := by
  unfold k1_pay1
  simp only [shapeCast_self]
  funext i
  show Ideal.ofBits .f32 0x00000000#32 = 0
  exact Ideal.ofBits_zero_f32

theorem k1_pay2_ideal (x0 : Vec Ideal S1024x512 .bf16) (x1 : Vec Ideal S512x2048 .f32) (acc : Vec Ideal S1024x2048 .f32) :
    (k1_pay2 x0 x1 acc : S1024x2048.Idx → EReal) = fun i => (acc i : EReal) + mm (M := 1024) (K := 512) (N := 2048) x0 x1 i := by
  unfold k1_pay2
  simp only [shapeCast_self]
  funext i
  rw [addf_apply, matmul_zero_eq_mm _ rfl rfl rfl rfl rfl rfl]
  rfl

theorem k1_pay3_ideal (v : Vec Ideal S1024x2048 .f32) (b : Vec Ideal S1x2048 .f32) :
    (k1_pay3 v b : S1024x2048.Idx → EReal) = addRow (M := 1024) (N := 2048) v b := by
  unfold k1_pay3
  simp only [shapeCast_self]
  exact vecAddRow (M := 1024) (N := 2048) v b _

theorem slab1 (c : Dev nD) (t : Fin cfg1.N) (r : Fin 1024) (q : Fin 2048) (A B : Mat 2048 2048)
    (hA : (V c (Pipeline.arrRef spec1 0) : S2048x2048.Idx → EReal) = A) (hB : (V c (Pipeline.arrRef spec1 1) : S2048x2048.Idx → EReal) = B)
    (R : Fin 2048) (hR : R.val = 1024 * (t.val / 4) + r.val) (n : Fin 4) (hn : n.val = t.val % 4) :
    mm (M := 1024) (K := 512) (N := 2048) (iblk1 V c 0 t) (iblk1 V c 1 t) (ix2 r q)
      = ∑ p : Fin 512, A (ix2 R ⟨512 * n.val + p.val, by have := p.isLt; have := n.isLt; omega⟩) * B (ix2 ⟨512 * n.val + p.val, by have := p.isLt; have := n.isLt; omega⟩ q) := by
  rw [mm_apply]
  refine Finset.sum_congr rfl fun p _ => ?_
  rw [iblk1_0_apply V c t (ix2 r p) (ix2 R ⟨512 * n.val + p.val, by have := p.isLt; have := n.isLt; omega⟩) (by show R.val = _; rw [hR]) (by show 512 * n.val + p.val = _; rw [hn]),
    iblk1_1_apply V c t (ix2 p q) (ix2 ⟨512 * n.val + p.val, by have := p.isLt; have := n.isLt; omega⟩ q) (by show 512 * n.val + p.val = _; rw [hn]) rfl, hA, hB]

end IdealPart

section FinalPart
variable (V : (c : Dev nD) → (b : Ref sig .tc) → Buf (Elt Ideal) ((c : Thread nD τ).loc b))

theorem row_entry1 (c : Dev nD) (i : Fin 2) (r : Fin 1024) (q : Fin 2048) (A B : Mat 2048 2048) (b : Mat 1 2048)
    (hA : (V c (Pipeline.arrRef spec1 0) : S2048x2048.Idx → EReal) = A) (hB : (V c (Pipeline.arrRef spec1 1) : S2048x2048.Idx → EReal) = B)
    (hb : (V c (Pipeline.arrRef spec1 2) : S1x2048.Idx → EReal) = b)
    (j : S2048x2048.Idx) (hj0 : (j 0).val = 1024 * i.val + r.val) (hj1 : (j 1).val = q.val) :
    (k1_pay3 (F := Ideal) (k1_pay2 (iblk1 V c 0 (pt1 i 3 (by decide))) (iblk1 V c 1 (pt1 i 3 (by decide))) (k1_pay2 (iblk1 V c 0 (pt1 i 2 (by decide))) (iblk1 V c 1 (pt1 i 2 (by decide))) (k1_pay2 (iblk1 V c 0 (pt1 i 1 (by decide))) (iblk1 V c 1 (pt1 i 1 (by decide))) (k1_pay2 (iblk1 V c 0 (pt1 i 0 (by decide))) (iblk1 V c 1 (pt1 i 0 (by decide))) (k1_pay1 (F := Ideal)))))) (iblk1 V c 2 (pt1 i 3 (by decide))) : S1024x2048.Idx → EReal) (ix2 r q) = layer A B b j := by
  obtain ⟨R, Q, rfl⟩ : ∃ (R : Fin 2048) (Q : Fin 2048), j = ix2 R Q := ⟨j 0, j 1, eq_ix2 j⟩
  have hR : R.val = 1024 * i.val + r.val := hj0
  obtain rfl : Q = q := Fin.ext hj1
  rw [k1_pay3_ideal, addRow_apply, k1_pay2_ideal, k1_pay2_ideal, k1_pay2_ideal, k1_pay2_ideal, k1_pay1_ideal]
  dsimp only
  rw [slab1 V c (pt1 i 0 (by decide)) r Q A B hA hB R (by show R.val = 1024 * ((4 * i.val + 0) / 4) + r.val; omega) (0 : Fin 4) (by show 0 = (4 * i.val + 0) % 4; omega),
    slab1 V c (pt1 i 1 (by decide)) r Q A B hA hB R (by show R.val = 1024 * ((4 * i.val + 1) / 4) + r.val; omega) (1 : Fin 4) (by show 1 = (4 * i.val + 1) % 4; omega),
    slab1 V c (pt1 i 2 (by decide)) r Q A B hA hB R (by show R.val = 1024 * ((4 * i.val + 2) / 4) + r.val; omega) (2 : Fin 4) (by show 2 = (4 * i.val + 2) % 4; omega),
    slab1 V c (pt1 i 3 (by decide)) r Q A B hA hB R (by show R.val = 1024 * ((4 * i.val + 3) / 4) + r.val; omega) (3 : Fin 4) (by show 3 = (4 * i.val + 3) % 4; omega),
    iblk1_2_apply V c (pt1 i 3 (by decide)) (ix2 (0 : Fin 1) Q), hb]
  unfold layer
  rw [addRow_apply, mm_apply, Cert.FoldSum.sum_blocks (A := 4) (B := 512) (C := 2048) rfl, Fin.sum_univ_four, zero_add]

theorem flushed1_eq (c : Dev nD) (A B : Mat 2048 2048) (b : Mat 1 2048)
    (hA : (V c (Pipeline.arrRef spec1 0) : S2048x2048.Idx → EReal) = A) (hB : (V c (Pipeline.arrRef spec1 1) : S2048x2048.Idx → EReal) = B)
    (hb : (V c (Pipeline.arrRef spec1 2) : S1x2048.Idx → EReal) = b)
    (t : Fin cfg1.N) (hf : (cfg1.win 3).flush t = true) :
    (dat1 V c).flushed 3 t = ((cfg1.win 3).blk t).view.read (Elt Ideal) (layer A B b : S2048x2048.Idx → EReal) := by
  have ht : t.val % 4 = 3 := (flush1_3 t).mp hf
  have hN : t.val < 8 := lt_of_lt_of_eq t.isLt (show cfg1.N = 8 from N_1)
  obtain ⟨i, rfl⟩ : ∃ i : Fin 2, t = pt1 i 3 (by decide) :=
    ⟨⟨t.val / 4, by omega⟩, Fin.ext (by show t.val = 4 * (t.val / 4) + 3; omega)⟩
  show (cfg1.win 3).cut (grid1.coords _) ((dat1 V c).after 3 _) = _
  rw [after1_3, outAt1_k3, acc1_mid V c i 1 (by decide) (by decide), acc1_mid V c i 0 (by decide) (by decide), acc1_k0]
  obtain ⟨-, -, -, -, -, -, e4, e5⟩ := idx1 (pt1 i 3 (by decide))
  funext y
  obtain ⟨r, q, rfl⟩ : ∃ (r : Fin 1024) (q : Fin 2048), y = ix2 r q := ⟨y 0, y 1, eq_ix2 y⟩
  rw [View.read_apply]
  show _ = (layer A B b : S2048x2048.Idx → EReal) _
  refine row_entry1 V c i r q A B b hA hB hb _ ?_ ?_
  · show win1_3.index (pt1 i 3 (by decide)) 0 * 1024 + 1 * r.val = 1024 * i.val + r.val
    rw [e4]; show (4 * i.val + 3) / 4 * 1024 + 1 * r.val = _; omega
  · show win1_3.index (pt1 i 3 (by decide)) 1 * 2048 + 1 * q.val = q.val
    rw [e5]; omega

theorem cover1 (i : S2048x2048.Idx) : ∃ t : Fin cfg1.N, (cfg1.win 3).flush t = true ∧ i ∈ ((cfg1.win 3).blk t).view.set := by
  have h0 : (i 0).val < 2048 := (i 0).isLt
  have h1 : (i 1).val < 2048 := (i 1).isLt
  have key : ∀ t : Fin cfg1.N, t.val / 4 = (i 0).val / 1024 → i ∈ ((cfg1.win 3).blk t).view.set := by
    intro t hq
    obtain ⟨-, -, -, -, -, -, e4, e5⟩ := idx1 t
    show i ∈ ((View.whole (Pipeline.arrRef spec1 3)).slice (win1_3.rect t)).set
    rw [View.set_slice_whole, Rect.mem_set_unit]
    intro a
    match a with
    | ⟨0, _⟩ =>
      show win1_3.index t 0 * 1024 ≤ (i 0).val ∧ (i 0).val < win1_3.index t 0 * 1024 + 1024
      rw [e4, hq]; omega
    | ⟨1, _⟩ =>
      show win1_3.index t 1 * 2048 ≤ (i 1).val ∧ (i 1).val < win1_3.index t 1 * 2048 + 2048
      rw [e5]; omega
  exact ⟨pt1 ⟨(i 0).val / 1024, by omega⟩ 3 (by decide), (flush1_3 _).mpr (by show (4 * ((i 0).val / 1024) + 3) % 4 = 3; omega),
    key _ (by show (4 * ((i 0).val / 1024) + 3) / 4 = (i 0).val / 1024; omega)⟩

/-- THE ARRAY region 1 leaves: one layer of the arrays it reads. -/
theorem final1 (c : Dev nD) (A B : Mat 2048 2048) (b : Mat 1 2048)
    (hA : (V c (Pipeline.arrRef spec1 0) : S2048x2048.Idx → EReal) = A) (hB : (V c (Pipeline.arrRef spec1 1) : S2048x2048.Idx → EReal) = B)
    (hb : (V c (Pipeline.arrRef spec1 2) : S1x2048.Idx → EReal) = b) :
    ((dat1 V c).arrAt 3 cfg1.N : S2048x2048.Idx → EReal) = layer A B b :=
  (dat1 V c).arrAt_eq_of_cover 3 (layer A B b : S2048x2048.Idx → EReal) (flushed1_eq V c A B b hA hB hb) cover1

end FinalPart

end Cert.KernelIdeal.Hand

end
-- ==== Proof.KI.R2Value.lean ====
/- Region 2's value: the array it leaves is the layer M·X + b of the arrays it reads. Each case's found pieces are the
   body's payloads of the point's blocks and of what the accumulator held; over a row of four points the accumulator
   runs 0 + P₀ + P₁ + P₂ + P₃ with P_k the product of the row block's k-th column slab with X's k-th row slab, and the
   last point adds the bias row; the 2048 terms of an entry of M·X are those four slabs of 512 terms. Only commutativity
   and associativity of addition on the extended reals are used. -/
import proofs.«106939_j75831942578756_2_alg».proof.Proof.KI.R2Frame
import proofs.«106939_j75831942578756_2_alg».proof.Proof.Spec
import proofs.«106939_j75831942578756_2_alg».proof.Proof.LibFoldSum
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.Dense Cert.BiasRow Cert.Net

theorem hz2_2 : (![0, 0] : Fin 2 → Nat) = fun _ => 0 := funext fun a => by fin_cases a <;> rfl

section Pieces
variable (V : (c : Dev nD) → (b : Ref sig .tc) → Buf (Elt F) ((c : Thread nD τ).loc b))

theorem soutA2_eq (c : Dev nD) (i : grid2.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : cond2_0 i) (hc1 : ¬cond2_1 i)
    (x0 : Vec F S1024x512 .bf16) (x1 : Vec F S512x2048 .bf16) (x2 : Vec F S1x2048 .f32) :
    sout2_A_0 c i arg3 harg3 arg4 harg4 arg5 harg5 arg6 harg6 arg7 harg7 hc0 hc1 x0 x1 x2 = k2_pay2 x0 x1 (k2_pay1 (F := F)) := by
  have hz2 := hz2_2
  unfold sout2_A_0
  rw [View.read_writes_eq_canon _ _ _ (scover2_A_0 c i arg3 harg3 arg4 harg4 arg5 harg5 arg6 harg6 arg7 harg7 hc0 hc1 x0 x1 x2)]
  unfold kernelRun2_A
  dsimp only
  try sl_unfold_words
  rw [View.canon_cons_unit_zero hz2, View.readCov_unit_zero (S := S1024x2048) _ hz2]
  simp only [View.readAt_eq_ld, harg3.read_unread, harg4.read_unread, View.ld_unit_zero (S := S1024x512) hz2, View.ld_unit_zero (S := S512x2048) hz2]

theorem soutB2_eq (c : Dev nD) (i : grid2.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : ¬cond2_0 i) (hc1 : ¬cond2_1 i)
    (x0 : Vec F S1024x512 .bf16) (x1 : Vec F S512x2048 .bf16) (x2 : Vec F S1x2048 .f32) (xs0 : Vec F S1024x2048 .f32) :
    sout2_B_0 c i arg3 harg3 arg4 harg4 arg5 harg5 arg6 harg6 arg7 harg7 hc0 hc1 x0 x1 x2 xs0 = k2_pay2 x0 x1 xs0 := by
  have hz2 := hz2_2
  unfold sout2_B_0
  rw [View.read_writes_eq_canon _ _ _ (scover2_B_0 c i arg3 harg3 arg4 harg4 arg5 harg5 arg6 harg6 arg7 harg7 hc0 hc1 x0 x1 x2 xs0)]
  unfold kernelRun2_B
  dsimp only
  try sl_unfold_words
  rw [View.canon_unit_zero hz2]
  simp only [View.readAt_eq_ld, harg3.read_unread, harg4.read_unread, View.ld_unit_zero (S := S1024x512) hz2, View.ld_unit_zero (S := S512x2048) hz2, harg7.read_unread, View.ld_unit_zero (S := S1024x2048) hz2]

theorem outC2_eq (c : Dev nD) (i : grid2.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : ¬cond2_0 i) (hc1 : cond2_1 i)
    (x0 : Vec F S1024x512 .bf16) (x1 : Vec F S512x2048 .bf16) (x2 : Vec F S1x2048 .f32) (xs0 : Vec F S1024x2048 .f32) :
    out2_C_3 c i arg3 harg3 arg4 harg4 arg5 harg5 arg6 harg6 arg7 harg7 hc0 hc1 x0 x1 x2 xs0 = k2_pay3 (k2_pay2 x0 x1 xs0) x2 := by
  have hz2 := hz2_2
  unfold out2_C_3
  rw [View.read_writes_eq_canon _ _ _ (cover2_C_3 c i arg3 harg3 arg4 harg4 arg5 harg5 arg6 harg6 arg7 harg7 hc0 hc1 x0 x1 x2 xs0)]
  unfold kernelRun2_C
  dsimp only
  try sl_unfold_words
  rw [View.canon_unit_zero hz2, View.readCov_unit_zero (S := S1024x2048) _ hz2]
  simp only [View.readAt_eq_ld, harg3.read_unread, harg4.read_unread, View.ld_unit_zero (S := S1024x512) hz2, View.ld_unit_zero (S := S512x2048) hz2, harg5.read_unread, harg7.read_unread, View.ld_unit_zero (S := S1024x2048) hz2, View.ld_unit_zero (S := S1x2048) hz2]

/-- Point k of row-of-points i. -/
def pt2 (i : Fin 2) (k : ℕ) (hk : k < 4) : Fin cfg2.N := ⟨4 * i.val + k, by rw [show cfg2.N = 8 from N_2]; omega⟩

theorem acc2_congr (c : Dev nD) (n n' : ℕ) (h : n < cfg2.N) (h' : n' < cfg2.N) (e : n = n') : acc2 V c n h = acc2 V c n' h' := by
  subst e; rfl

theorem acc2_k0 (c : Dev nD) (i : Fin 2) :
    acc2 V c (pt2 i 0 (by decide)).val (pt2 i 0 (by decide)).isLt = k2_pay2 (iblk2 V c 0 (pt2 i 0 (by decide))) (iblk2 V c 1 (pt2 i 0 (by decide))) (k2_pay1 (F := F)) := by
  rw [acc2_A V c (pt2 i 0 (by decide)) (by show (4 * i.val + 0) % 4 = 0; omega) (by show ¬(4 * i.val + 0) % 4 = 3; omega), soutA2_eq]

theorem acc2_mid (c : Dev nD) (i : Fin 2) (k : ℕ) (hk : k + 1 < 4) (hk3 : k + 1 ≠ 3) :
    acc2 V c (pt2 i (k + 1) hk).val (pt2 i (k + 1) hk).isLt
      = k2_pay2 (iblk2 V c 0 (pt2 i (k + 1) hk)) (iblk2 V c 1 (pt2 i (k + 1) hk)) (acc2 V c (pt2 i k (by omega)).val (pt2 i k (by omega)).isLt) := by
  rw [acc2_B V c (pt2 i (k + 1) hk) (by show ¬(4 * i.val + (k + 1)) % 4 = 0; omega) (by show ¬(4 * i.val + (k + 1)) % 4 = 3; omega), soutB2_eq]
  exact congrArg _ (acc2_congr V c _ _ _ _ (by show 4 * i.val + (k + 1) - 1 = 4 * i.val + k; omega))

theorem outAt2_k3 (c : Dev nD) (i : Fin 2) :
    outAt2 V c (pt2 i 3 (by decide))
      = k2_pay3 (k2_pay2 (iblk2 V c 0 (pt2 i 3 (by decide))) (iblk2 V c 1 (pt2 i 3 (by decide))) (acc2 V c (pt2 i 2 (by decide)).val (pt2 i 2 (by decide)).isLt)) (iblk2 V c 2 (pt2 i 3 (by decide))) := by
  rw [outAt2_C V c (pt2 i 3 (by decide)) (by show ¬(4 * i.val + 3) % 4 = 0; omega) (by show (4 * i.val + 3) % 4 = 3; omega), outC2_eq]
  exact congrArg (fun a => k2_pay3 (k2_pay2 _ _ a) _) (acc2_congr V c _ _ _ _ (by show 4 * i.val + 3 - 1 = 4 * i.val + 2; omega))

/-- The printed index maps over the grid. -/
theorem idx2 : ∀ t : Fin cfg2.N, win2_0.index t (0 : Fin 2) = t.val / 4 ∧ win2_0.index t (1 : Fin 2) = t.val % 4
    ∧ win2_1.index t (0 : Fin 2) = t.val % 4 ∧ win2_1.index t (1 : Fin 2) = 0
    ∧ win2_2.index t (0 : Fin 2) = 0 ∧ win2_2.index t (1 : Fin 2) = 0
    ∧ win2_3.index t (0 : Fin 2) = t.val / 4 ∧ win2_3.index t (1 : Fin 2) = 0 :=
  (by decide +kernel : ∀ t : Fin grid2.N, _)

theorem iblk2_0_apply (c : Dev nD) (t : Fin cfg2.N) (y : S1024x512.Idx) (k : S2048x2048.Idx)
    (hk0 : (k 0).val = 1024 * (t.val / 4) + (y 0).val) (hk1 : (k 1).val = 512 * (t.val % 4) + (y 1).val) :
    (iblk2 V c 0 t : Vec F S1024x512 .bf16) y = (V c (Pipeline.arrRef spec2 0) : S2048x2048.Idx → Elt F .bf16) k := by
  obtain ⟨e0, e1, -⟩ := idx2 t
  unfold iblk2
  rw [View.read_apply]
  show (V c (Pipeline.arrRef spec2 0) : S2048x2048.Idx → Elt F .bf16) _ = (V c (Pipeline.arrRef spec2 0) : S2048x2048.Idx → Elt F .bf16) k
  refine congrArg _ (funext fun a => Fin.ext ?_)
  match a with
  | ⟨0, _⟩ => show win2_0.index t 0 * 1024 + 1 * (y 0).val = (k 0).val; rw [e0, hk0]; omega
  | ⟨1, _⟩ => show win2_0.index t 1 * 512 + 1 * (y 1).val = (k 1).val; rw [e1, hk1]; omega

theorem iblk2_1_apply (c : Dev nD) (t : Fin cfg2.N) (y : S512x2048.Idx) (k : S2048x2048.Idx)
    (hk0 : (k 0).val = 512 * (t.val % 4) + (y 0).val) (hk1 : (k 1).val = (y 1).val) :
    (iblk2 V c 1 t : Vec F S512x2048 .bf16) y = (V c (Pipeline.arrRef spec2 1) : S2048x2048.Idx → Elt F .bf16) k := by
  obtain ⟨-, -, e0, e1, -⟩ := idx2 t
  unfold iblk2
  rw [View.read_apply]
  show (V c (Pipeline.arrRef spec2 1) : S2048x2048.Idx → Elt F .bf16) _ = (V c (Pipeline.arrRef spec2 1) : S2048x2048.Idx → Elt F .bf16) k
  refine congrArg _ (funext fun a => Fin.ext ?_)
  match a with
  | ⟨0, _⟩ => show win2_1.index t 0 * 512 + 1 * (y 0).val = (k 0).val; rw [e0, hk0]; omega
  | ⟨1, _⟩ => show win2_1.index t 1 * 2048 + 1 * (y 1).val = (k 1).val; rw [e1, hk1]; omega

/-- The bias block is the whole bias row at every point. -/
theorem iblk2_2_apply (c : Dev nD) (t : Fin cfg2.N) (y : S1x2048.Idx) :
    (iblk2 V c 2 t : Vec F S1x2048 .f32) y = (V c (Pipeline.arrRef spec2 2) : S1x2048.Idx → Elt F .f32) y := by
  obtain ⟨-, -, -, -, e0, e1, -⟩ := idx2 t
  unfold iblk2
  rw [View.read_apply]
  show (V c (Pipeline.arrRef spec2 2) : S1x2048.Idx → Elt F .f32) _ = (V c (Pipeline.arrRef spec2 2) : S1x2048.Idx → Elt F .f32) y
  refine congrArg _ (funext fun a => Fin.ext ?_)
  match a with
  | ⟨0, _⟩ => show win2_2.index t 0 * 1 + 1 * (y 0).val = (y 0).val; rw [e0]; omega
  | ⟨1, _⟩ => show win2_2.index t 1 * 2048 + 1 * (y 1).val = (y 1).val; rw [e1]; omega

end Pieces

/-! ## At the extended reals -/

section IdealPart
variable (V : (c : Dev nD) → (b : Ref sig .tc) → Buf (Elt Ideal) ((c : Thread nD τ).loc b))

theorem k2_pay1_ideal : (k2_pay1 (F := Ideal) : S1024x2048.Idx → EReal) = fun _ => 0 := by
  unfold k2_pay1
  simp only [shapeCast_self]
  funext i
  show Ideal.ofBits .f32 0x00000000#32 = 0
  exact Ideal.ofBits_zero_f32

theorem k2_pay2_ideal (x0 : Vec Ideal S1024x512 .bf16) (x1 : Vec Ideal S512x2048 .bf16) (acc : Vec Ideal S1024x2048 .f32) :
    (k2_pay2 x0 x1 acc : S1024x2048.Idx → EReal) = fun i => (acc i : EReal) + mm (M := 1024) (K := 512) (N := 2048) x0 x1 i := by
  unfold k2_pay2
  simp only [shapeCast_self]
  funext i
  rw [addf_apply, matmul_zero_eq_mm _ rfl rfl rfl rfl rfl rfl]

theorem k2_pay3_ideal (v : Vec Ideal S1024x2048 .f32) (b : Vec Ideal S1x2048 .f32) :
    (k2_pay3 v b : S1024x2048.Idx → EReal) = addRow (M := 1024) (N := 2048) v b := by
  unfold k2_pay3
  simp only [shapeCast_self]
  exact vecAddRow (M := 1024) (N := 2048) v b _

theorem slab2 (c : Dev nD) (t : Fin cfg2.N) (r : Fin 1024) (q : Fin 2048) (A B : Mat 2048 2048)
    (hA : (V c (Pipeline.arrRef spec2 0) : S2048x2048.Idx → EReal) = A) (hB : (V c (Pipeline.arrRef spec2 1) : S2048x2048.Idx → EReal) = B)
    (R : Fin 2048) (hR : R.val = 1024 * (t.val / 4) + r.val) (n : Fin 4) (hn : n.val = t.val % 4) :
    mm (M := 1024) (K := 512) (N := 2048) (iblk2 V c 0 t) (iblk2 V c 1 t) (ix2 r q)
      = ∑ p : Fin 512, A (ix2 R ⟨512 * n.val + p.val, by have := p.isLt; have := n.isLt; omega⟩) * B (ix2 ⟨512 * n.val + p.val, by have := p.isLt; have := n.isLt; omega⟩ q) := by
  rw [mm_apply]
  refine Finset.sum_congr rfl fun p _ => ?_
  rw [iblk2_0_apply V c t (ix2 r p) (ix2 R ⟨512 * n.val + p.val, by have := p.isLt; have := n.isLt; omega⟩) (by show R.val = _; rw [hR]) (by show 512 * n.val + p.val = _; rw [hn]),
    iblk2_1_apply V c t (ix2 p q) (ix2 ⟨512 * n.val + p.val, by have := p.isLt; have := n.isLt; omega⟩ q) (by show 512 * n.val + p.val = _; rw [hn]) rfl, hA, hB]

end IdealPart

section FinalPart
variable (V : (c : Dev nD) → (b : Ref sig .tc) → Buf (Elt Ideal) ((c : Thread nD τ).loc b))

theorem row_entry2 (c : Dev nD) (i : Fin 2) (r : Fin 1024) (q : Fin 2048) (A B : Mat 2048 2048) (b : Mat 1 2048)
    (hA : (V c (Pipeline.arrRef spec2 0) : S2048x2048.Idx → EReal) = A) (hB : (V c (Pipeline.arrRef spec2 1) : S2048x2048.Idx → EReal) = B)
    (hb : (V c (Pipeline.arrRef spec2 2) : S1x2048.Idx → EReal) = b)
    (j : S2048x2048.Idx) (hj0 : (j 0).val = 1024 * i.val + r.val) (hj1 : (j 1).val = q.val) :
    (k2_pay3 (F := Ideal) (k2_pay2 (iblk2 V c 0 (pt2 i 3 (by decide))) (iblk2 V c 1 (pt2 i 3 (by decide))) (k2_pay2 (iblk2 V c 0 (pt2 i 2 (by decide))) (iblk2 V c 1 (pt2 i 2 (by decide))) (k2_pay2 (iblk2 V c 0 (pt2 i 1 (by decide))) (iblk2 V c 1 (pt2 i 1 (by decide))) (k2_pay2 (iblk2 V c 0 (pt2 i 0 (by decide))) (iblk2 V c 1 (pt2 i 0 (by decide))) (k2_pay1 (F := Ideal)))))) (iblk2 V c 2 (pt2 i 3 (by decide))) : S1024x2048.Idx → EReal) (ix2 r q) = layer A B b j := by
  obtain ⟨R, Q, rfl⟩ : ∃ (R : Fin 2048) (Q : Fin 2048), j = ix2 R Q := ⟨j 0, j 1, eq_ix2 j⟩
  have hR : R.val = 1024 * i.val + r.val := hj0
  obtain rfl : Q = q := Fin.ext hj1
  rw [k2_pay3_ideal, addRow_apply, k2_pay2_ideal, k2_pay2_ideal, k2_pay2_ideal, k2_pay2_ideal, k2_pay1_ideal]
  dsimp only
  rw [slab2 V c (pt2 i 0 (by decide)) r Q A B hA hB R (by show R.val = 1024 * ((4 * i.val + 0) / 4) + r.val; omega) (0 : Fin 4) (by show 0 = (4 * i.val + 0) % 4; omega),
    slab2 V c (pt2 i 1 (by decide)) r Q A B hA hB R (by show R.val = 1024 * ((4 * i.val + 1) / 4) + r.val; omega) (1 : Fin 4) (by show 1 = (4 * i.val + 1) % 4; omega),
    slab2 V c (pt2 i 2 (by decide)) r Q A B hA hB R (by show R.val = 1024 * ((4 * i.val + 2) / 4) + r.val; omega) (2 : Fin 4) (by show 2 = (4 * i.val + 2) % 4; omega),
    slab2 V c (pt2 i 3 (by decide)) r Q A B hA hB R (by show R.val = 1024 * ((4 * i.val + 3) / 4) + r.val; omega) (3 : Fin 4) (by show 3 = (4 * i.val + 3) % 4; omega),
    iblk2_2_apply V c (pt2 i 3 (by decide)) (ix2 (0 : Fin 1) Q), hb]
  unfold layer
  rw [addRow_apply, mm_apply, Cert.FoldSum.sum_blocks (A := 4) (B := 512) (C := 2048) rfl, Fin.sum_univ_four, zero_add]

theorem flushed2_eq (c : Dev nD) (A B : Mat 2048 2048) (b : Mat 1 2048)
    (hA : (V c (Pipeline.arrRef spec2 0) : S2048x2048.Idx → EReal) = A) (hB : (V c (Pipeline.arrRef spec2 1) : S2048x2048.Idx → EReal) = B)
    (hb : (V c (Pipeline.arrRef spec2 2) : S1x2048.Idx → EReal) = b)
    (t : Fin cfg2.N) (hf : (cfg2.win 3).flush t = true) :
    (dat2 V c).flushed 3 t = ((cfg2.win 3).blk t).view.read (Elt Ideal) (layer A B b : S2048x2048.Idx → EReal) := by
  have ht : t.val % 4 = 3 := (flush2_3 t).mp hf
  have hN : t.val < 8 := lt_of_lt_of_eq t.isLt (show cfg2.N = 8 from N_2)
  obtain ⟨i, rfl⟩ : ∃ i : Fin 2, t = pt2 i 3 (by decide) :=
    ⟨⟨t.val / 4, by omega⟩, Fin.ext (by show t.val = 4 * (t.val / 4) + 3; omega)⟩
  show (cfg2.win 3).cut (grid2.coords _) ((dat2 V c).after 3 _) = _
  rw [after2_3, outAt2_k3, acc2_mid V c i 1 (by decide) (by decide), acc2_mid V c i 0 (by decide) (by decide), acc2_k0]
  obtain ⟨-, -, -, -, -, -, e4, e5⟩ := idx2 (pt2 i 3 (by decide))
  funext y
  obtain ⟨r, q, rfl⟩ : ∃ (r : Fin 1024) (q : Fin 2048), y = ix2 r q := ⟨y 0, y 1, eq_ix2 y⟩
  rw [View.read_apply]
  show _ = (layer A B b : S2048x2048.Idx → EReal) _
  refine row_entry2 V c i r q A B b hA hB hb _ ?_ ?_
  · show win2_3.index (pt2 i 3 (by decide)) 0 * 1024 + 1 * r.val = 1024 * i.val + r.val
    rw [e4]; show (4 * i.val + 3) / 4 * 1024 + 1 * r.val = _; omega
  · show win2_3.index (pt2 i 3 (by decide)) 1 * 2048 + 1 * q.val = q.val
    rw [e5]; omega

theorem cover2 (i : S2048x2048.Idx) : ∃ t : Fin cfg2.N, (cfg2.win 3).flush t = true ∧ i ∈ ((cfg2.win 3).blk t).view.set := by
  have h0 : (i 0).val < 2048 := (i 0).isLt
  have h1 : (i 1).val < 2048 := (i 1).isLt
  have key : ∀ t : Fin cfg2.N, t.val / 4 = (i 0).val / 1024 → i ∈ ((cfg2.win 3).blk t).view.set := by
    intro t hq
    obtain ⟨-, -, -, -, -, -, e4, e5⟩ := idx2 t
    show i ∈ ((View.whole (Pipeline.arrRef spec2 3)).slice (win2_3.rect t)).set
    rw [View.set_slice_whole, Rect.mem_set_unit]
    intro a
    match a with
    | ⟨0, _⟩ =>
      show win2_3.index t 0 * 1024 ≤ (i 0).val ∧ (i 0).val < win2_3.index t 0 * 1024 + 1024
      rw [e4, hq]; omega
    | ⟨1, _⟩ =>
      show win2_3.index t 1 * 2048 ≤ (i 1).val ∧ (i 1).val < win2_3.index t 1 * 2048 + 2048
      rw [e5]; omega
  exact ⟨pt2 ⟨(i 0).val / 1024, by omega⟩ 3 (by decide), (flush2_3 _).mpr (by show (4 * ((i 0).val / 1024) + 3) % 4 = 3; omega),
    key _ (by show (4 * ((i 0).val / 1024) + 3) / 4 = (i 0).val / 1024; omega)⟩

/-- THE ARRAY region 2 leaves: one layer of the arrays it reads. -/
theorem final2 (c : Dev nD) (A B : Mat 2048 2048) (b : Mat 1 2048)
    (hA : (V c (Pipeline.arrRef spec2 0) : S2048x2048.Idx → EReal) = A) (hB : (V c (Pipeline.arrRef spec2 1) : S2048x2048.Idx → EReal) = B)
    (hb : (V c (Pipeline.arrRef spec2 2) : S1x2048.Idx → EReal) = b) :
    ((dat2 V c).arrAt 3 cfg2.N : S2048x2048.Idx → EReal) = layer A B b :=
  (dat2 V c).arrAt_eq_of_cover 3 (layer A B b : S2048x2048.Idx → EReal) (flushed2_eq V c A B b hA hB hb) cover2

end FinalPart

end Cert.KernelIdeal.Hand

end
-- ==== Proof.KI.R3Value.lean ====
/- Region 3's value: the array it leaves is the layer M·X + b of the arrays it reads. Each case's found pieces are the
   body's payloads of the point's blocks and of what the accumulator held; over a row of four points the accumulator
   runs 0 + P₀ + P₁ + P₂ + P₃ with P_k the product of the row block's k-th column slab with X's k-th row slab, and the
   last point adds the bias row; the 2048 terms of an entry of M·X are those four slabs of 512 terms. Only commutativity
   and associativity of addition on the extended reals are used. -/
import proofs.«106939_j75831942578756_2_alg».proof.Proof.KI.R3Frame
import proofs.«106939_j75831942578756_2_alg».proof.Proof.Spec
import proofs.«106939_j75831942578756_2_alg».proof.Proof.LibFoldSum
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.Dense Cert.BiasRow Cert.Net

theorem hz2_3 : (![0, 0] : Fin 2 → Nat) = fun _ => 0 := funext fun a => by fin_cases a <;> rfl

section Pieces
variable (V : (c : Dev nD) → (b : Ref sig .tc) → Buf (Elt F) ((c : Thread nD τ).loc b))

theorem soutA3_eq (c : Dev nD) (i : grid3.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : cond3_0 i) (hc1 : ¬cond3_1 i)
    (x0 : Vec F S1024x512 .bf16) (x1 : Vec F S512x2048 .bf16) (x2 : Vec F S1x2048 .f32) :
    sout3_A_0 c i arg3 harg3 arg4 harg4 arg5 harg5 arg6 harg6 arg7 harg7 hc0 hc1 x0 x1 x2 = k3_pay2 x0 x1 (k3_pay1 (F := F)) := by
  have hz2 := hz2_3
  unfold sout3_A_0
  rw [View.read_writes_eq_canon _ _ _ (scover3_A_0 c i arg3 harg3 arg4 harg4 arg5 harg5 arg6 harg6 arg7 harg7 hc0 hc1 x0 x1 x2)]
  unfold kernelRun3_A
  dsimp only
  try sl_unfold_words
  rw [View.canon_cons_unit_zero hz2, View.readCov_unit_zero (S := S1024x2048) _ hz2]
  simp only [View.readAt_eq_ld, harg3.read_unread, harg4.read_unread, View.ld_unit_zero (S := S1024x512) hz2, View.ld_unit_zero (S := S512x2048) hz2]

theorem soutB3_eq (c : Dev nD) (i : grid3.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : ¬cond3_0 i) (hc1 : ¬cond3_1 i)
    (x0 : Vec F S1024x512 .bf16) (x1 : Vec F S512x2048 .bf16) (x2 : Vec F S1x2048 .f32) (xs0 : Vec F S1024x2048 .f32) :
    sout3_B_0 c i arg3 harg3 arg4 harg4 arg5 harg5 arg6 harg6 arg7 harg7 hc0 hc1 x0 x1 x2 xs0 = k3_pay2 x0 x1 xs0 := by
  have hz2 := hz2_3
  unfold sout3_B_0
  rw [View.read_writes_eq_canon _ _ _ (scover3_B_0 c i arg3 harg3 arg4 harg4 arg5 harg5 arg6 harg6 arg7 harg7 hc0 hc1 x0 x1 x2 xs0)]
  unfold kernelRun3_B
  dsimp only
  try sl_unfold_words
  rw [View.canon_unit_zero hz2]
  simp only [View.readAt_eq_ld, harg3.read_unread, harg4.read_unread, View.ld_unit_zero (S := S1024x512) hz2, View.ld_unit_zero (S := S512x2048) hz2, harg7.read_unread, View.ld_unit_zero (S := S1024x2048) hz2]

theorem outC3_eq (c : Dev nD) (i : grid3.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : ¬cond3_0 i) (hc1 : cond3_1 i)
    (x0 : Vec F S1024x512 .bf16) (x1 : Vec F S512x2048 .bf16) (x2 : Vec F S1x2048 .f32) (xs0 : Vec F S1024x2048 .f32) :
    out3_C_3 c i arg3 harg3 arg4 harg4 arg5 harg5 arg6 harg6 arg7 harg7 hc0 hc1 x0 x1 x2 xs0 = k3_pay3 (k3_pay2 x0 x1 xs0) x2 := by
  have hz2 := hz2_3
  unfold out3_C_3
  rw [View.read_writes_eq_canon _ _ _ (cover3_C_3 c i arg3 harg3 arg4 harg4 arg5 harg5 arg6 harg6 arg7 harg7 hc0 hc1 x0 x1 x2 xs0)]
  unfold kernelRun3_C
  dsimp only
  try sl_unfold_words
  rw [View.canon_unit_zero hz2, View.readCov_unit_zero (S := S1024x2048) _ hz2]
  simp only [View.readAt_eq_ld, harg3.read_unread, harg4.read_unread, View.ld_unit_zero (S := S1024x512) hz2, View.ld_unit_zero (S := S512x2048) hz2, harg5.read_unread, harg7.read_unread, View.ld_unit_zero (S := S1024x2048) hz2, View.ld_unit_zero (S := S1x2048) hz2]

/-- Point k of row-of-points i. -/
def pt3 (i : Fin 2) (k : ℕ) (hk : k < 4) : Fin cfg3.N := ⟨4 * i.val + k, by rw [show cfg3.N = 8 from N_3]; omega⟩

theorem acc3_congr (c : Dev nD) (n n' : ℕ) (h : n < cfg3.N) (h' : n' < cfg3.N) (e : n = n') : acc3 V c n h = acc3 V c n' h' := by
  subst e; rfl

theorem acc3_k0 (c : Dev nD) (i : Fin 2) :
    acc3 V c (pt3 i 0 (by decide)).val (pt3 i 0 (by decide)).isLt = k3_pay2 (iblk3 V c 0 (pt3 i 0 (by decide))) (iblk3 V c 1 (pt3 i 0 (by decide))) (k3_pay1 (F := F)) := by
  rw [acc3_A V c (pt3 i 0 (by decide)) (by show (4 * i.val + 0) % 4 = 0; omega) (by show ¬(4 * i.val + 0) % 4 = 3; omega), soutA3_eq]

theorem acc3_mid (c : Dev nD) (i : Fin 2) (k : ℕ) (hk : k + 1 < 4) (hk3 : k + 1 ≠ 3) :
    acc3 V c (pt3 i (k + 1) hk).val (pt3 i (k + 1) hk).isLt
      = k3_pay2 (iblk3 V c 0 (pt3 i (k + 1) hk)) (iblk3 V c 1 (pt3 i (k + 1) hk)) (acc3 V c (pt3 i k (by omega)).val (pt3 i k (by omega)).isLt) := by
  rw [acc3_B V c (pt3 i (k + 1) hk) (by show ¬(4 * i.val + (k + 1)) % 4 = 0; omega) (by show ¬(4 * i.val + (k + 1)) % 4 = 3; omega), soutB3_eq]
  exact congrArg _ (acc3_congr V c _ _ _ _ (by show 4 * i.val + (k + 1) - 1 = 4 * i.val + k; omega))

theorem outAt3_k3 (c : Dev nD) (i : Fin 2) :
    outAt3 V c (pt3 i 3 (by decide))
      = k3_pay3 (k3_pay2 (iblk3 V c 0 (pt3 i 3 (by decide))) (iblk3 V c 1 (pt3 i 3 (by decide))) (acc3 V c (pt3 i 2 (by decide)).val (pt3 i 2 (by decide)).isLt)) (iblk3 V c 2 (pt3 i 3 (by decide))) := by
  rw [outAt3_C V c (pt3 i 3 (by decide)) (by show ¬(4 * i.val + 3) % 4 = 0; omega) (by show (4 * i.val + 3) % 4 = 3; omega), outC3_eq]
  exact congrArg (fun a => k3_pay3 (k3_pay2 _ _ a) _) (acc3_congr V c _ _ _ _ (by show 4 * i.val + 3 - 1 = 4 * i.val + 2; omega))

/-- The printed index maps over the grid. -/
theorem idx3 : ∀ t : Fin cfg3.N, win3_0.index t (0 : Fin 2) = t.val / 4 ∧ win3_0.index t (1 : Fin 2) = t.val % 4
    ∧ win3_1.index t (0 : Fin 2) = t.val % 4 ∧ win3_1.index t (1 : Fin 2) = 0
    ∧ win3_2.index t (0 : Fin 2) = 0 ∧ win3_2.index t (1 : Fin 2) = 0
    ∧ win3_3.index t (0 : Fin 2) = t.val / 4 ∧ win3_3.index t (1 : Fin 2) = 0 :=
  (by decide +kernel : ∀ t : Fin grid3.N, _)

theorem iblk3_0_apply (c : Dev nD) (t : Fin cfg3.N) (y : S1024x512.Idx) (k : S2048x2048.Idx)
    (hk0 : (k 0).val = 1024 * (t.val / 4) + (y 0).val) (hk1 : (k 1).val = 512 * (t.val % 4) + (y 1).val) :
    (iblk3 V c 0 t : Vec F S1024x512 .bf16) y = (V c (Pipeline.arrRef spec3 0) : S2048x2048.Idx → Elt F .bf16) k := by
  obtain ⟨e0, e1, -⟩ := idx3 t
  unfold iblk3
  rw [View.read_apply]
  show (V c (Pipeline.arrRef spec3 0) : S2048x2048.Idx → Elt F .bf16) _ = (V c (Pipeline.arrRef spec3 0) : S2048x2048.Idx → Elt F .bf16) k
  refine congrArg _ (funext fun a => Fin.ext ?_)
  match a with
  | ⟨0, _⟩ => show win3_0.index t 0 * 1024 + 1 * (y 0).val = (k 0).val; rw [e0, hk0]; omega
  | ⟨1, _⟩ => show win3_0.index t 1 * 512 + 1 * (y 1).val = (k 1).val; rw [e1, hk1]; omega

theorem iblk3_1_apply (c : Dev nD) (t : Fin cfg3.N) (y : S512x2048.Idx) (k : S2048x2048.Idx)
    (hk0 : (k 0).val = 512 * (t.val % 4) + (y 0).val) (hk1 : (k 1).val = (y 1).val) :
    (iblk3 V c 1 t : Vec F S512x2048 .bf16) y = (V c (Pipeline.arrRef spec3 1) : S2048x2048.Idx → Elt F .bf16) k := by
  obtain ⟨-, -, e0, e1, -⟩ := idx3 t
  unfold iblk3
  rw [View.read_apply]
  show (V c (Pipeline.arrRef spec3 1) : S2048x2048.Idx → Elt F .bf16) _ = (V c (Pipeline.arrRef spec3 1) : S2048x2048.Idx → Elt F .bf16) k
  refine congrArg _ (funext fun a => Fin.ext ?_)
  match a with
  | ⟨0, _⟩ => show win3_1.index t 0 * 512 + 1 * (y 0).val = (k 0).val; rw [e0, hk0]; omega
  | ⟨1, _⟩ => show win3_1.index t 1 * 2048 + 1 * (y 1).val = (k 1).val; rw [e1, hk1]; omega

/-- The bias block is the whole bias row at every point. -/
theorem iblk3_2_apply (c : Dev nD) (t : Fin cfg3.N) (y : S1x2048.Idx) :
    (iblk3 V c 2 t : Vec F S1x2048 .f32) y = (V c (Pipeline.arrRef spec3 2) : S1x2048.Idx → Elt F .f32) y := by
  obtain ⟨-, -, -, -, e0, e1, -⟩ := idx3 t
  unfold iblk3
  rw [View.read_apply]
  show (V c (Pipeline.arrRef spec3 2) : S1x2048.Idx → Elt F .f32) _ = (V c (Pipeline.arrRef spec3 2) : S1x2048.Idx → Elt F .f32) y
  refine congrArg _ (funext fun a => Fin.ext ?_)
  match a with
  | ⟨0, _⟩ => show win3_2.index t 0 * 1 + 1 * (y 0).val = (y 0).val; rw [e0]; omega
  | ⟨1, _⟩ => show win3_2.index t 1 * 2048 + 1 * (y 1).val = (y 1).val; rw [e1]; omega

end Pieces

/-! ## At the extended reals -/

section IdealPart
variable (V : (c : Dev nD) → (b : Ref sig .tc) → Buf (Elt Ideal) ((c : Thread nD τ).loc b))

theorem k3_pay1_ideal : (k3_pay1 (F := Ideal) : S1024x2048.Idx → EReal) = fun _ => 0 := by
  unfold k3_pay1
  simp only [shapeCast_self]
  funext i
  show Ideal.ofBits .f32 0x00000000#32 = 0
  exact Ideal.ofBits_zero_f32

theorem k3_pay2_ideal (x0 : Vec Ideal S1024x512 .bf16) (x1 : Vec Ideal S512x2048 .bf16) (acc : Vec Ideal S1024x2048 .f32) :
    (k3_pay2 x0 x1 acc : S1024x2048.Idx → EReal) = fun i => (acc i : EReal) + mm (M := 1024) (K := 512) (N := 2048) x0 x1 i := by
  unfold k3_pay2
  simp only [shapeCast_self]
  funext i
  rw [addf_apply, matmul_zero_eq_mm _ rfl rfl rfl rfl rfl rfl]

theorem k3_pay3_ideal (v : Vec Ideal S1024x2048 .f32) (b : Vec Ideal S1x2048 .f32) :
    (k3_pay3 v b : S1024x2048.Idx → EReal) = addRow (M := 1024) (N := 2048) v b := by
  unfold k3_pay3
  simp only [shapeCast_self]
  exact vecAddRow (M := 1024) (N := 2048) v b _

theorem slab3 (c : Dev nD) (t : Fin cfg3.N) (r : Fin 1024) (q : Fin 2048) (A B : Mat 2048 2048)
    (hA : (V c (Pipeline.arrRef spec3 0) : S2048x2048.Idx → EReal) = A) (hB : (V c (Pipeline.arrRef spec3 1) : S2048x2048.Idx → EReal) = B)
    (R : Fin 2048) (hR : R.val = 1024 * (t.val / 4) + r.val) (n : Fin 4) (hn : n.val = t.val % 4) :
    mm (M := 1024) (K := 512) (N := 2048) (iblk3 V c 0 t) (iblk3 V c 1 t) (ix2 r q)
      = ∑ p : Fin 512, A (ix2 R ⟨512 * n.val + p.val, by have := p.isLt; have := n.isLt; omega⟩) * B (ix2 ⟨512 * n.val + p.val, by have := p.isLt; have := n.isLt; omega⟩ q) := by
  rw [mm_apply]
  refine Finset.sum_congr rfl fun p _ => ?_
  rw [iblk3_0_apply V c t (ix2 r p) (ix2 R ⟨512 * n.val + p.val, by have := p.isLt; have := n.isLt; omega⟩) (by show R.val = _; rw [hR]) (by show 512 * n.val + p.val = _; rw [hn]),
    iblk3_1_apply V c t (ix2 p q) (ix2 ⟨512 * n.val + p.val, by have := p.isLt; have := n.isLt; omega⟩ q) (by show 512 * n.val + p.val = _; rw [hn]) rfl, hA, hB]

end IdealPart

section FinalPart
variable (V : (c : Dev nD) → (b : Ref sig .tc) → Buf (Elt Ideal) ((c : Thread nD τ).loc b))

theorem row_entry3 (c : Dev nD) (i : Fin 2) (r : Fin 1024) (q : Fin 2048) (A B : Mat 2048 2048) (b : Mat 1 2048)
    (hA : (V c (Pipeline.arrRef spec3 0) : S2048x2048.Idx → EReal) = A) (hB : (V c (Pipeline.arrRef spec3 1) : S2048x2048.Idx → EReal) = B)
    (hb : (V c (Pipeline.arrRef spec3 2) : S1x2048.Idx → EReal) = b)
    (j : S2048x2048.Idx) (hj0 : (j 0).val = 1024 * i.val + r.val) (hj1 : (j 1).val = q.val) :
    (k3_pay3 (F := Ideal) (k3_pay2 (iblk3 V c 0 (pt3 i 3 (by decide))) (iblk3 V c 1 (pt3 i 3 (by decide))) (k3_pay2 (iblk3 V c 0 (pt3 i 2 (by decide))) (iblk3 V c 1 (pt3 i 2 (by decide))) (k3_pay2 (iblk3 V c 0 (pt3 i 1 (by decide))) (iblk3 V c 1 (pt3 i 1 (by decide))) (k3_pay2 (iblk3 V c 0 (pt3 i 0 (by decide))) (iblk3 V c 1 (pt3 i 0 (by decide))) (k3_pay1 (F := Ideal)))))) (iblk3 V c 2 (pt3 i 3 (by decide))) : S1024x2048.Idx → EReal) (ix2 r q) = layer A B b j := by
  obtain ⟨R, Q, rfl⟩ : ∃ (R : Fin 2048) (Q : Fin 2048), j = ix2 R Q := ⟨j 0, j 1, eq_ix2 j⟩
  have hR : R.val = 1024 * i.val + r.val := hj0
  obtain rfl : Q = q := Fin.ext hj1
  rw [k3_pay3_ideal, addRow_apply, k3_pay2_ideal, k3_pay2_ideal, k3_pay2_ideal, k3_pay2_ideal, k3_pay1_ideal]
  dsimp only
  rw [slab3 V c (pt3 i 0 (by decide)) r Q A B hA hB R (by show R.val = 1024 * ((4 * i.val + 0) / 4) + r.val; omega) (0 : Fin 4) (by show 0 = (4 * i.val + 0) % 4; omega),
    slab3 V c (pt3 i 1 (by decide)) r Q A B hA hB R (by show R.val = 1024 * ((4 * i.val + 1) / 4) + r.val; omega) (1 : Fin 4) (by show 1 = (4 * i.val + 1) % 4; omega),
    slab3 V c (pt3 i 2 (by decide)) r Q A B hA hB R (by show R.val = 1024 * ((4 * i.val + 2) / 4) + r.val; omega) (2 : Fin 4) (by show 2 = (4 * i.val + 2) % 4; omega),
    slab3 V c (pt3 i 3 (by decide)) r Q A B hA hB R (by show R.val = 1024 * ((4 * i.val + 3) / 4) + r.val; omega) (3 : Fin 4) (by show 3 = (4 * i.val + 3) % 4; omega),
    iblk3_2_apply V c (pt3 i 3 (by decide)) (ix2 (0 : Fin 1) Q), hb]
  unfold layer
  rw [addRow_apply, mm_apply, Cert.FoldSum.sum_blocks (A := 4) (B := 512) (C := 2048) rfl, Fin.sum_univ_four, zero_add]

theorem flushed3_eq (c : Dev nD) (A B : Mat 2048 2048) (b : Mat 1 2048)
    (hA : (V c (Pipeline.arrRef spec3 0) : S2048x2048.Idx → EReal) = A) (hB : (V c (Pipeline.arrRef spec3 1) : S2048x2048.Idx → EReal) = B)
    (hb : (V c (Pipeline.arrRef spec3 2) : S1x2048.Idx → EReal) = b)
    (t : Fin cfg3.N) (hf : (cfg3.win 3).flush t = true) :
    (dat3 V c).flushed 3 t = ((cfg3.win 3).blk t).view.read (Elt Ideal) (layer A B b : S2048x2048.Idx → EReal) := by
  have ht : t.val % 4 = 3 := (flush3_3 t).mp hf
  have hN : t.val < 8 := lt_of_lt_of_eq t.isLt (show cfg3.N = 8 from N_3)
  obtain ⟨i, rfl⟩ : ∃ i : Fin 2, t = pt3 i 3 (by decide) :=
    ⟨⟨t.val / 4, by omega⟩, Fin.ext (by show t.val = 4 * (t.val / 4) + 3; omega)⟩
  show (cfg3.win 3).cut (grid3.coords _) ((dat3 V c).after 3 _) = _
  rw [after3_3, outAt3_k3, acc3_mid V c i 1 (by decide) (by decide), acc3_mid V c i 0 (by decide) (by decide), acc3_k0]
  obtain ⟨-, -, -, -, -, -, e4, e5⟩ := idx3 (pt3 i 3 (by decide))
  funext y
  obtain ⟨r, q, rfl⟩ : ∃ (r : Fin 1024) (q : Fin 2048), y = ix2 r q := ⟨y 0, y 1, eq_ix2 y⟩
  rw [View.read_apply]
  show _ = (layer A B b : S2048x2048.Idx → EReal) _
  refine row_entry3 V c i r q A B b hA hB hb _ ?_ ?_
  · show win3_3.index (pt3 i 3 (by decide)) 0 * 1024 + 1 * r.val = 1024 * i.val + r.val
    rw [e4]; show (4 * i.val + 3) / 4 * 1024 + 1 * r.val = _; omega
  · show win3_3.index (pt3 i 3 (by decide)) 1 * 2048 + 1 * q.val = q.val
    rw [e5]; omega

theorem cover3 (i : S2048x2048.Idx) : ∃ t : Fin cfg3.N, (cfg3.win 3).flush t = true ∧ i ∈ ((cfg3.win 3).blk t).view.set := by
  have h0 : (i 0).val < 2048 := (i 0).isLt
  have h1 : (i 1).val < 2048 := (i 1).isLt
  have key : ∀ t : Fin cfg3.N, t.val / 4 = (i 0).val / 1024 → i ∈ ((cfg3.win 3).blk t).view.set := by
    intro t hq
    obtain ⟨-, -, -, -, -, -, e4, e5⟩ := idx3 t
    show i ∈ ((View.whole (Pipeline.arrRef spec3 3)).slice (win3_3.rect t)).set
    rw [View.set_slice_whole, Rect.mem_set_unit]
    intro a
    match a with
    | ⟨0, _⟩ =>
      show win3_3.index t 0 * 1024 ≤ (i 0).val ∧ (i 0).val < win3_3.index t 0 * 1024 + 1024
      rw [e4, hq]; omega
    | ⟨1, _⟩ =>
      show win3_3.index t 1 * 2048 ≤ (i 1).val ∧ (i 1).val < win3_3.index t 1 * 2048 + 2048
      rw [e5]; omega
  exact ⟨pt3 ⟨(i 0).val / 1024, by omega⟩ 3 (by decide), (flush3_3 _).mpr (by show (4 * ((i 0).val / 1024) + 3) % 4 = 3; omega),
    key _ (by show (4 * ((i 0).val / 1024) + 3) / 4 = (i 0).val / 1024; omega)⟩

/-- THE ARRAY region 3 leaves: one layer of the arrays it reads. -/
theorem final3 (c : Dev nD) (A B : Mat 2048 2048) (b : Mat 1 2048)
    (hA : (V c (Pipeline.arrRef spec3 0) : S2048x2048.Idx → EReal) = A) (hB : (V c (Pipeline.arrRef spec3 1) : S2048x2048.Idx → EReal) = B)
    (hb : (V c (Pipeline.arrRef spec3 2) : S1x2048.Idx → EReal) = b) :
    ((dat3 V c).arrAt 3 cfg3.N : S2048x2048.Idx → EReal) = layer A B b :=
  (dat3 V c).arrAt_eq_of_cover 3 (layer A B b : S2048x2048.Idx → EReal) (flushed3_eq V c A B b hA hB hb) cover3

end FinalPart

end Cert.KernelIdeal.Hand

end
-- ==== Proof.KI.R4Value.lean ====
/- Region 4's value: the array it leaves is the layer M·X + b of the arrays it reads. Each case's found pieces are the
   body's payloads of the point's blocks and of what the accumulator held; over a row of four points the accumulator
   runs 0 + P₀ + P₁ + P₂ + P₃ with P_k the product of the row block's k-th column slab with X's k-th row slab, and the
   last point adds the bias row; the 2048 terms of an entry of M·X are those four slabs of 512 terms. Only commutativity
   and associativity of addition on the extended reals are used. -/
import proofs.«106939_j75831942578756_2_alg».proof.Proof.KI.R4Frame
import proofs.«106939_j75831942578756_2_alg».proof.Proof.Spec
import proofs.«106939_j75831942578756_2_alg».proof.Proof.LibFoldSum
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.Dense Cert.BiasRow Cert.Net

theorem hz2_4 : (![0, 0] : Fin 2 → Nat) = fun _ => 0 := funext fun a => by fin_cases a <;> rfl

section Pieces
variable (V : (c : Dev nD) → (b : Ref sig .tc) → Buf (Elt F) ((c : Thread nD τ).loc b))

theorem soutA4_eq (c : Dev nD) (i : grid4.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond4_0 i) (hc1 : ¬cond4_1 i)
    (x0 : Vec F S1024x512 .bf16) (x1 : Vec F S512x2048 .bf16) (x2 : Vec F S1x2048 .f32) :
    sout4_A_0 c i arg3 harg3 arg4 harg4 arg5 harg5 arg6 harg6 arg7 harg7 hc0 hc1 x0 x1 x2 = k4_pay2 x0 x1 (k4_pay1 (F := F)) := by
  have hz2 := hz2_4
  unfold sout4_A_0
  rw [View.read_writes_eq_canon _ _ _ (scover4_A_0 c i arg3 harg3 arg4 harg4 arg5 harg5 arg6 harg6 arg7 harg7 hc0 hc1 x0 x1 x2)]
  unfold kernelRun4_A
  dsimp only
  try sl_unfold_words
  rw [View.canon_cons_unit_zero hz2, View.readCov_unit_zero (S := S1024x2048) _ hz2]
  simp only [View.readAt_eq_ld, harg3.read_unread, harg4.read_unread, View.ld_unit_zero (S := S1024x512) hz2, View.ld_unit_zero (S := S512x2048) hz2]

theorem soutB4_eq (c : Dev nD) (i : grid4.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond4_0 i) (hc1 : ¬cond4_1 i)
    (x0 : Vec F S1024x512 .bf16) (x1 : Vec F S512x2048 .bf16) (x2 : Vec F S1x2048 .f32) (xs0 : Vec F S1024x2048 .f32) :
    sout4_B_0 c i arg3 harg3 arg4 harg4 arg5 harg5 arg6 harg6 arg7 harg7 hc0 hc1 x0 x1 x2 xs0 = k4_pay2 x0 x1 xs0 := by
  have hz2 := hz2_4
  unfold sout4_B_0
  rw [View.read_writes_eq_canon _ _ _ (scover4_B_0 c i arg3 harg3 arg4 harg4 arg5 harg5 arg6 harg6 arg7 harg7 hc0 hc1 x0 x1 x2 xs0)]
  unfold kernelRun4_B
  dsimp only
  try sl_unfold_words
  rw [View.canon_unit_zero hz2]
  simp only [View.readAt_eq_ld, harg3.read_unread, harg4.read_unread, View.ld_unit_zero (S := S1024x512) hz2, View.ld_unit_zero (S := S512x2048) hz2, harg7.read_unread, View.ld_unit_zero (S := S1024x2048) hz2]

theorem outC4_eq (c : Dev nD) (i : grid4.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond4_0 i) (hc1 : cond4_1 i)
    (x0 : Vec F S1024x512 .bf16) (x1 : Vec F S512x2048 .bf16) (x2 : Vec F S1x2048 .f32) (xs0 : Vec F S1024x2048 .f32) :
    out4_C_3 c i arg3 harg3 arg4 harg4 arg5 harg5 arg6 harg6 arg7 harg7 hc0 hc1 x0 x1 x2 xs0 = k4_pay3 (k4_pay2 x0 x1 xs0) x2 := by
  have hz2 := hz2_4
  unfold out4_C_3
  rw [View.read_writes_eq_canon _ _ _ (cover4_C_3 c i arg3 harg3 arg4 harg4 arg5 harg5 arg6 harg6 arg7 harg7 hc0 hc1 x0 x1 x2 xs0)]
  unfold kernelRun4_C
  dsimp only
  try sl_unfold_words
  rw [View.canon_unit_zero hz2, View.readCov_unit_zero (S := S1024x2048) _ hz2]
  simp only [View.readAt_eq_ld, harg3.read_unread, harg4.read_unread, View.ld_unit_zero (S := S1024x512) hz2, View.ld_unit_zero (S := S512x2048) hz2, harg5.read_unread, harg7.read_unread, View.ld_unit_zero (S := S1024x2048) hz2, View.ld_unit_zero (S := S1x2048) hz2]

/-- Point k of row-of-points i. -/
def pt4 (i : Fin 2) (k : ℕ) (hk : k < 4) : Fin cfg4.N := ⟨4 * i.val + k, by rw [show cfg4.N = 8 from N_4]; omega⟩

theorem acc4_congr (c : Dev nD) (n n' : ℕ) (h : n < cfg4.N) (h' : n' < cfg4.N) (e : n = n') : acc4 V c n h = acc4 V c n' h' := by
  subst e; rfl

theorem acc4_k0 (c : Dev nD) (i : Fin 2) :
    acc4 V c (pt4 i 0 (by decide)).val (pt4 i 0 (by decide)).isLt = k4_pay2 (iblk4 V c 0 (pt4 i 0 (by decide))) (iblk4 V c 1 (pt4 i 0 (by decide))) (k4_pay1 (F := F)) := by
  rw [acc4_A V c (pt4 i 0 (by decide)) (by show (4 * i.val + 0) % 4 = 0; omega) (by show ¬(4 * i.val + 0) % 4 = 3; omega), soutA4_eq]

theorem acc4_mid (c : Dev nD) (i : Fin 2) (k : ℕ) (hk : k + 1 < 4) (hk3 : k + 1 ≠ 3) :
    acc4 V c (pt4 i (k + 1) hk).val (pt4 i (k + 1) hk).isLt
      = k4_pay2 (iblk4 V c 0 (pt4 i (k + 1) hk)) (iblk4 V c 1 (pt4 i (k + 1) hk)) (acc4 V c (pt4 i k (by omega)).val (pt4 i k (by omega)).isLt) := by
  rw [acc4_B V c (pt4 i (k + 1) hk) (by show ¬(4 * i.val + (k + 1)) % 4 = 0; omega) (by show ¬(4 * i.val + (k + 1)) % 4 = 3; omega), soutB4_eq]
  exact congrArg _ (acc4_congr V c _ _ _ _ (by show 4 * i.val + (k + 1) - 1 = 4 * i.val + k; omega))

theorem outAt4_k3 (c : Dev nD) (i : Fin 2) :
    outAt4 V c (pt4 i 3 (by decide))
      = k4_pay3 (k4_pay2 (iblk4 V c 0 (pt4 i 3 (by decide))) (iblk4 V c 1 (pt4 i 3 (by decide))) (acc4 V c (pt4 i 2 (by decide)).val (pt4 i 2 (by decide)).isLt)) (iblk4 V c 2 (pt4 i 3 (by decide))) := by
  rw [outAt4_C V c (pt4 i 3 (by decide)) (by show ¬(4 * i.val + 3) % 4 = 0; omega) (by show (4 * i.val + 3) % 4 = 3; omega), outC4_eq]
  exact congrArg (fun a => k4_pay3 (k4_pay2 _ _ a) _) (acc4_congr V c _ _ _ _ (by show 4 * i.val + 3 - 1 = 4 * i.val + 2; omega))

/-- The printed index maps over the grid. -/
theorem idx4 : ∀ t : Fin cfg4.N, win4_0.index t (0 : Fin 2) = t.val / 4 ∧ win4_0.index t (1 : Fin 2) = t.val % 4
    ∧ win4_1.index t (0 : Fin 2) = t.val % 4 ∧ win4_1.index t (1 : Fin 2) = 0
    ∧ win4_2.index t (0 : Fin 2) = 0 ∧ win4_2.index t (1 : Fin 2) = 0
    ∧ win4_3.index t (0 : Fin 2) = t.val / 4 ∧ win4_3.index t (1 : Fin 2) = 0 :=
  (by decide +kernel : ∀ t : Fin grid4.N, _)

theorem iblk4_0_apply (c : Dev nD) (t : Fin cfg4.N) (y : S1024x512.Idx) (k : S2048x2048.Idx)
    (hk0 : (k 0).val = 1024 * (t.val / 4) + (y 0).val) (hk1 : (k 1).val = 512 * (t.val % 4) + (y 1).val) :
    (iblk4 V c 0 t : Vec F S1024x512 .bf16) y = (V c (Pipeline.arrRef spec4 0) : S2048x2048.Idx → Elt F .bf16) k := by
  obtain ⟨e0, e1, -⟩ := idx4 t
  unfold iblk4
  rw [View.read_apply]
  show (V c (Pipeline.arrRef spec4 0) : S2048x2048.Idx → Elt F .bf16) _ = (V c (Pipeline.arrRef spec4 0) : S2048x2048.Idx → Elt F .bf16) k
  refine congrArg _ (funext fun a => Fin.ext ?_)
  match a with
  | ⟨0, _⟩ => show win4_0.index t 0 * 1024 + 1 * (y 0).val = (k 0).val; rw [e0, hk0]; omega
  | ⟨1, _⟩ => show win4_0.index t 1 * 512 + 1 * (y 1).val = (k 1).val; rw [e1, hk1]; omega

theorem iblk4_1_apply (c : Dev nD) (t : Fin cfg4.N) (y : S512x2048.Idx) (k : S2048x2048.Idx)
    (hk0 : (k 0).val = 512 * (t.val % 4) + (y 0).val) (hk1 : (k 1).val = (y 1).val) :
    (iblk4 V c 1 t : Vec F S512x2048 .bf16) y = (V c (Pipeline.arrRef spec4 1) : S2048x2048.Idx → Elt F .bf16) k := by
  obtain ⟨-, -, e0, e1, -⟩ := idx4 t
  unfold iblk4
  rw [View.read_apply]
  show (V c (Pipeline.arrRef spec4 1) : S2048x2048.Idx → Elt F .bf16) _ = (V c (Pipeline.arrRef spec4 1) : S2048x2048.Idx → Elt F .bf16) k
  refine congrArg _ (funext fun a => Fin.ext ?_)
  match a with
  | ⟨0, _⟩ => show win4_1.index t 0 * 512 + 1 * (y 0).val = (k 0).val; rw [e0, hk0]; omega
  | ⟨1, _⟩ => show win4_1.index t 1 * 2048 + 1 * (y 1).val = (k 1).val; rw [e1, hk1]; omega

/-- The bias block is the whole bias row at every point. -/
theorem iblk4_2_apply (c : Dev nD) (t : Fin cfg4.N) (y : S1x2048.Idx) :
    (iblk4 V c 2 t : Vec F S1x2048 .f32) y = (V c (Pipeline.arrRef spec4 2) : S1x2048.Idx → Elt F .f32) y := by
  obtain ⟨-, -, -, -, e0, e1, -⟩ := idx4 t
  unfold iblk4
  rw [View.read_apply]
  show (V c (Pipeline.arrRef spec4 2) : S1x2048.Idx → Elt F .f32) _ = (V c (Pipeline.arrRef spec4 2) : S1x2048.Idx → Elt F .f32) y
  refine congrArg _ (funext fun a => Fin.ext ?_)
  match a with
  | ⟨0, _⟩ => show win4_2.index t 0 * 1 + 1 * (y 0).val = (y 0).val; rw [e0]; omega
  | ⟨1, _⟩ => show win4_2.index t 1 * 2048 + 1 * (y 1).val = (y 1).val; rw [e1]; omega

end Pieces

/-! ## At the extended reals -/

section IdealPart
variable (V : (c : Dev nD) → (b : Ref sig .tc) → Buf (Elt Ideal) ((c : Thread nD τ).loc b))

theorem k4_pay1_ideal : (k4_pay1 (F := Ideal) : S1024x2048.Idx → EReal) = fun _ => 0 := by
  unfold k4_pay1
  simp only [shapeCast_self]
  funext i
  show Ideal.ofBits .f32 0x00000000#32 = 0
  exact Ideal.ofBits_zero_f32

theorem k4_pay2_ideal (x0 : Vec Ideal S1024x512 .bf16) (x1 : Vec Ideal S512x2048 .bf16) (acc : Vec Ideal S1024x2048 .f32) :
    (k4_pay2 x0 x1 acc : S1024x2048.Idx → EReal) = fun i => (acc i : EReal) + mm (M := 1024) (K := 512) (N := 2048) x0 x1 i := by
  unfold k4_pay2
  simp only [shapeCast_self]
  funext i
  rw [addf_apply, matmul_zero_eq_mm _ rfl rfl rfl rfl rfl rfl]

theorem k4_pay3_ideal (v : Vec Ideal S1024x2048 .f32) (b : Vec Ideal S1x2048 .f32) :
    (k4_pay3 v b : S1024x2048.Idx → EReal) = addRow (M := 1024) (N := 2048) v b := by
  unfold k4_pay3
  simp only [shapeCast_self]
  exact vecAddRow (M := 1024) (N := 2048) v b _

theorem slab4 (c : Dev nD) (t : Fin cfg4.N) (r : Fin 1024) (q : Fin 2048) (A B : Mat 2048 2048)
    (hA : (V c (Pipeline.arrRef spec4 0) : S2048x2048.Idx → EReal) = A) (hB : (V c (Pipeline.arrRef spec4 1) : S2048x2048.Idx → EReal) = B)
    (R : Fin 2048) (hR : R.val = 1024 * (t.val / 4) + r.val) (n : Fin 4) (hn : n.val = t.val % 4) :
    mm (M := 1024) (K := 512) (N := 2048) (iblk4 V c 0 t) (iblk4 V c 1 t) (ix2 r q)
      = ∑ p : Fin 512, A (ix2 R ⟨512 * n.val + p.val, by have := p.isLt; have := n.isLt; omega⟩) * B (ix2 ⟨512 * n.val + p.val, by have := p.isLt; have := n.isLt; omega⟩ q) := by
  rw [mm_apply]
  refine Finset.sum_congr rfl fun p _ => ?_
  rw [iblk4_0_apply V c t (ix2 r p) (ix2 R ⟨512 * n.val + p.val, by have := p.isLt; have := n.isLt; omega⟩) (by show R.val = _; rw [hR]) (by show 512 * n.val + p.val = _; rw [hn]),
    iblk4_1_apply V c t (ix2 p q) (ix2 ⟨512 * n.val + p.val, by have := p.isLt; have := n.isLt; omega⟩ q) (by show 512 * n.val + p.val = _; rw [hn]) rfl, hA, hB]

end IdealPart

section FinalPart
variable (V : (c : Dev nD) → (b : Ref sig .tc) → Buf (Elt Ideal) ((c : Thread nD τ).loc b))

theorem row_entry4 (c : Dev nD) (i : Fin 2) (r : Fin 1024) (q : Fin 2048) (A B : Mat 2048 2048) (b : Mat 1 2048)
    (hA : (V c (Pipeline.arrRef spec4 0) : S2048x2048.Idx → EReal) = A) (hB : (V c (Pipeline.arrRef spec4 1) : S2048x2048.Idx → EReal) = B)
    (hb : (V c (Pipeline.arrRef spec4 2) : S1x2048.Idx → EReal) = b)
    (j : S2048x2048.Idx) (hj0 : (j 0).val = 1024 * i.val + r.val) (hj1 : (j 1).val = q.val) :
    (k4_pay3 (F := Ideal) (k4_pay2 (iblk4 V c 0 (pt4 i 3 (by decide))) (iblk4 V c 1 (pt4 i 3 (by decide))) (k4_pay2 (iblk4 V c 0 (pt4 i 2 (by decide))) (iblk4 V c 1 (pt4 i 2 (by decide))) (k4_pay2 (iblk4 V c 0 (pt4 i 1 (by decide))) (iblk4 V c 1 (pt4 i 1 (by decide))) (k4_pay2 (iblk4 V c 0 (pt4 i 0 (by decide))) (iblk4 V c 1 (pt4 i 0 (by decide))) (k4_pay1 (F := Ideal)))))) (iblk4 V c 2 (pt4 i 3 (by decide))) : S1024x2048.Idx → EReal) (ix2 r q) = layer A B b j := by
  obtain ⟨R, Q, rfl⟩ : ∃ (R : Fin 2048) (Q : Fin 2048), j = ix2 R Q := ⟨j 0, j 1, eq_ix2 j⟩
  have hR : R.val = 1024 * i.val + r.val := hj0
  obtain rfl : Q = q := Fin.ext hj1
  rw [k4_pay3_ideal, addRow_apply, k4_pay2_ideal, k4_pay2_ideal, k4_pay2_ideal, k4_pay2_ideal, k4_pay1_ideal]
  dsimp only
  rw [slab4 V c (pt4 i 0 (by decide)) r Q A B hA hB R (by show R.val = 1024 * ((4 * i.val + 0) / 4) + r.val; omega) (0 : Fin 4) (by show 0 = (4 * i.val + 0) % 4; omega),
    slab4 V c (pt4 i 1 (by decide)) r Q A B hA hB R (by show R.val = 1024 * ((4 * i.val + 1) / 4) + r.val; omega) (1 : Fin 4) (by show 1 = (4 * i.val + 1) % 4; omega),
    slab4 V c (pt4 i 2 (by decide)) r Q A B hA hB R (by show R.val = 1024 * ((4 * i.val + 2) / 4) + r.val; omega) (2 : Fin 4) (by show 2 = (4 * i.val + 2) % 4; omega),
    slab4 V c (pt4 i 3 (by decide)) r Q A B hA hB R (by show R.val = 1024 * ((4 * i.val + 3) / 4) + r.val; omega) (3 : Fin 4) (by show 3 = (4 * i.val + 3) % 4; omega),
    iblk4_2_apply V c (pt4 i 3 (by decide)) (ix2 (0 : Fin 1) Q), hb]
  unfold layer
  rw [addRow_apply, mm_apply, Cert.FoldSum.sum_blocks (A := 4) (B := 512) (C := 2048) rfl, Fin.sum_univ_four, zero_add]

theorem flushed4_eq (c : Dev nD) (A B : Mat 2048 2048) (b : Mat 1 2048)
    (hA : (V c (Pipeline.arrRef spec4 0) : S2048x2048.Idx → EReal) = A) (hB : (V c (Pipeline.arrRef spec4 1) : S2048x2048.Idx → EReal) = B)
    (hb : (V c (Pipeline.arrRef spec4 2) : S1x2048.Idx → EReal) = b)
    (t : Fin cfg4.N) (hf : (cfg4.win 3).flush t = true) :
    (dat4 V c).flushed 3 t = ((cfg4.win 3).blk t).view.read (Elt Ideal) (layer A B b : S2048x2048.Idx → EReal) := by
  have ht : t.val % 4 = 3 := (flush4_3 t).mp hf
  have hN : t.val < 8 := lt_of_lt_of_eq t.isLt (show cfg4.N = 8 from N_4)
  obtain ⟨i, rfl⟩ : ∃ i : Fin 2, t = pt4 i 3 (by decide) :=
    ⟨⟨t.val / 4, by omega⟩, Fin.ext (by show t.val = 4 * (t.val / 4) + 3; omega)⟩
  show (cfg4.win 3).cut (grid4.coords _) ((dat4 V c).after 3 _) = _
  rw [after4_3, outAt4_k3, acc4_mid V c i 1 (by decide) (by decide), acc4_mid V c i 0 (by decide) (by decide), acc4_k0]
  obtain ⟨-, -, -, -, -, -, e4, e5⟩ := idx4 (pt4 i 3 (by decide))
  funext y
  obtain ⟨r, q, rfl⟩ : ∃ (r : Fin 1024) (q : Fin 2048), y = ix2 r q := ⟨y 0, y 1, eq_ix2 y⟩
  rw [View.read_apply]
  show _ = (layer A B b : S2048x2048.Idx → EReal) _
  refine row_entry4 V c i r q A B b hA hB hb _ ?_ ?_
  · show win4_3.index (pt4 i 3 (by decide)) 0 * 1024 + 1 * r.val = 1024 * i.val + r.val
    rw [e4]; show (4 * i.val + 3) / 4 * 1024 + 1 * r.val = _; omega
  · show win4_3.index (pt4 i 3 (by decide)) 1 * 2048 + 1 * q.val = q.val
    rw [e5]; omega

theorem cover4 (i : S2048x2048.Idx) : ∃ t : Fin cfg4.N, (cfg4.win 3).flush t = true ∧ i ∈ ((cfg4.win 3).blk t).view.set := by
  have h0 : (i 0).val < 2048 := (i 0).isLt
  have h1 : (i 1).val < 2048 := (i 1).isLt
  have key : ∀ t : Fin cfg4.N, t.val / 4 = (i 0).val / 1024 → i ∈ ((cfg4.win 3).blk t).view.set := by
    intro t hq
    obtain ⟨-, -, -, -, -, -, e4, e5⟩ := idx4 t
    show i ∈ ((View.whole (Pipeline.arrRef spec4 3)).slice (win4_3.rect t)).set
    rw [View.set_slice_whole, Rect.mem_set_unit]
    intro a
    match a with
    | ⟨0, _⟩ =>
      show win4_3.index t 0 * 1024 ≤ (i 0).val ∧ (i 0).val < win4_3.index t 0 * 1024 + 1024
      rw [e4, hq]; omega
    | ⟨1, _⟩ =>
      show win4_3.index t 1 * 2048 ≤ (i 1).val ∧ (i 1).val < win4_3.index t 1 * 2048 + 2048
      rw [e5]; omega
  exact ⟨pt4 ⟨(i 0).val / 1024, by omega⟩ 3 (by decide), (flush4_3 _).mpr (by show (4 * ((i 0).val / 1024) + 3) % 4 = 3; omega),
    key _ (by show (4 * ((i 0).val / 1024) + 3) / 4 = (i 0).val / 1024; omega)⟩

/-- THE ARRAY region 4 leaves: one layer of the arrays it reads. -/
theorem final4 (c : Dev nD) (A B : Mat 2048 2048) (b : Mat 1 2048)
    (hA : (V c (Pipeline.arrRef spec4 0) : S2048x2048.Idx → EReal) = A) (hB : (V c (Pipeline.arrRef spec4 1) : S2048x2048.Idx → EReal) = B)
    (hb : (V c (Pipeline.arrRef spec4 2) : S1x2048.Idx → EReal) = b) :
    ((dat4 V c).arrAt 3 cfg4.N : S2048x2048.Idx → EReal) = layer A B b :=
  (dat4 V c).arrAt_eq_of_cover 3 (layer A B b : S2048x2048.Idx → EReal) (flushed4_eq V c A B b hA hB hb) cover4

end FinalPart

end Cert.KernelIdeal.Hand

end
-- ==== Proof.KI.Value.lean ====
/- The kernel program's result at the extended reals: region 0 leaves M = A·W of the two scatter-added arrays, the
   reshape lays the bias out as one row, and each of the four layer regions leaves M·X + b of the array before it; so
   the last array is the four-layer network of A, W, the input and the bias row. -/
import proofs.«106939_j75831942578756_2_alg».proof.Proof.KI.Run
import proofs.«106939_j75831942578756_2_alg».proof.Proof.KI.R0Value
import proofs.«106939_j75831942578756_2_alg».proof.Proof.KI.R1Value
import proofs.«106939_j75831942578756_2_alg».proof.Proof.KI.R2Value
import proofs.«106939_j75831942578756_2_alg».proof.Proof.KI.R3Value
import proofs.«106939_j75831942578756_2_alg».proof.Proof.KI.R4Value
import proofs.«106939_j75831942578756_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.Dense Cert.BiasRow Cert.Net

variable (m : (ℓ : Loc nD τ sig) → Buf (Elt Ideal) ℓ) (ρ : Dev nD → PrngReg)

/-- The two scatter-added arrays and the layer matrix, as the first host stretch and region 0 leave them. -/
abbrev kA (c : Dev nD) : Mat 2048 2048 := (V1 m ρ c main_v14 : S2048x2048.Idx → EReal)
abbrev kW (c : Dev nD) : Mat 2048 2048 := (V1 m ρ c main_v29 : S2048x2048.Idx → EReal)
abbrev kX (c : Dev nD) : Mat 2048 2048 := (m ((c : Thread nD τ).loc main_arg0) : S2048x2048.Idx → EReal)
abbrev kb (c : Dev nD) : Mat 1 2048 := row (N := 2048) (m ((c : Thread nD τ).loc main_arg5) : S2048.Idx → EReal)

theorem V2_v30 (c : Dev nD) : (V2 m ρ c main_v30 : S2048x2048.Idx → EReal) = mm (kA m ρ c) (kW m ρ c) :=
  (W2_arr m ρ c 2).trans (final0 (V1 m ρ) c _ _ rfl rfl)

theorem V3_v30 (c : Dev nD) : (V3 m ρ c main_v30 : S2048x2048.Idx → EReal) = mm (kA m ρ c) (kW m ρ c) :=
  (StableHlo.after_of_writes_sub hostOps1 _ hostOps1_writes (by decide : main_v30 ∉ hostOps1_W)).trans (V2_v30 m ρ c)

theorem V3_arg0 (c : Dev nD) : (V3 m ρ c main_arg0 : S2048x2048.Idx → EReal) = kX m c :=
  (StableHlo.after_of_writes_sub hostOps1 _ hostOps1_writes (by decide : main_arg0 ∉ hostOps1_W)).trans
    ((W2_of_ne m ρ c main_arg0 (by decide)).trans
      ((StableHlo.after_of_writes_sub hostOps0 _ hostOps0_writes (by decide : main_arg0 ∉ hostOps0_W)).trans rfl))

theorem W2_arg5 (c : Dev nD) : (W2 m ρ c (Proc.devRef .tc main_arg5) : S2048.Idx → EReal) = (m ((c : Thread nD τ).loc main_arg5) : S2048.Idx → EReal) :=
  (W2_of_ne m ρ c main_arg5 (by decide)).trans
    ((StableHlo.after_of_writes_sub hostOps0 _ hostOps0_writes (by decide : main_arg5 ∉ hostOps0_W)).trans rfl)

theorem V3_v31 (c : Dev nD) : (V3 m ρ c main_v31 : S1x2048.Idx → EReal) = kb m c := by
  have e : (V3 m ρ c main_v31 : S1x2048.Idx → EReal)
      = shapeCast S1x2048 (W2 m ρ c (Proc.devRef .tc main_arg5) : S2048.Idx → EReal) shapeCasts_S2048_S1x2048 := by
    show StableHlo.after hostOps1 (W2 m ρ c) (Proc.devRef .tc main_v31) = _
    after_results
    rfl
  rw [e, W2_arg5]
  exact shapeCast_row (N := 2048) _ _

/-! ## Region 1 -/

theorem V4_v30 (c : Dev nD) : (V4 m ρ c main_v30 : S2048x2048.Idx → EReal) = (V3 m ρ c main_v30 : S2048x2048.Idx → EReal) :=
  (W4_arr m ρ c 0).trans (((dat1 (V3 m ρ) c).arrAt_in 0 rfl _).trans (A_eq1 (V3 m ρ) c 0))
theorem V4_v31 (c : Dev nD) : (V4 m ρ c main_v31 : S1x2048.Idx → EReal) = (V3 m ρ c main_v31 : S1x2048.Idx → EReal) :=
  (W4_arr m ρ c 2).trans (((dat1 (V3 m ρ) c).arrAt_in 2 rfl _).trans (A_eq1 (V3 m ρ) c 2))
theorem V4_out (c : Dev nD) (M X : Mat 2048 2048) (b : Mat 1 2048)
    (hM : (V3 m ρ c main_v30 : S2048x2048.Idx → EReal) = M) (hX : (V3 m ρ c main_arg0 : S2048x2048.Idx → EReal) = X)
    (hb : (V3 m ρ c main_v31 : S1x2048.Idx → EReal) = b) :
    (V4 m ρ c main_v32 : S2048x2048.Idx → EReal) = layer M X b :=
  (W4_arr m ρ c 3).trans (final1 (V3 m ρ) c M X b hM hX hb)

/-! ## Region 2 -/

theorem V5_v30 (c : Dev nD) : (V5 m ρ c main_v30 : S2048x2048.Idx → EReal) = (V4 m ρ c main_v30 : S2048x2048.Idx → EReal) :=
  (W5_arr m ρ c 0).trans (((dat2 (V4 m ρ) c).arrAt_in 0 rfl _).trans (A_eq2 (V4 m ρ) c 0))
theorem V5_v31 (c : Dev nD) : (V5 m ρ c main_v31 : S1x2048.Idx → EReal) = (V4 m ρ c main_v31 : S1x2048.Idx → EReal) :=
  (W5_arr m ρ c 2).trans (((dat2 (V4 m ρ) c).arrAt_in 2 rfl _).trans (A_eq2 (V4 m ρ) c 2))
theorem V5_out (c : Dev nD) (M X : Mat 2048 2048) (b : Mat 1 2048)
    (hM : (V4 m ρ c main_v30 : S2048x2048.Idx → EReal) = M) (hX : (V4 m ρ c main_v32 : S2048x2048.Idx → EReal) = X)
    (hb : (V4 m ρ c main_v31 : S1x2048.Idx → EReal) = b) :
    (V5 m ρ c main_v33 : S2048x2048.Idx → EReal) = layer M X b :=
  (W5_arr m ρ c 3).trans (final2 (V4 m ρ) c M X b hM hX hb)

/-! ## Region 3 -/

theorem V6_v30 (c : Dev nD) : (V6 m ρ c main_v30 : S2048x2048.Idx → EReal) = (V5 m ρ c main_v30 : S2048x2048.Idx → EReal) :=
  (W6_arr m ρ c 0).trans (((dat3 (V5 m ρ) c).arrAt_in 0 rfl _).trans (A_eq3 (V5 m ρ) c 0))
theorem V6_v31 (c : Dev nD) : (V6 m ρ c main_v31 : S1x2048.Idx → EReal) = (V5 m ρ c main_v31 : S1x2048.Idx → EReal) :=
  (W6_arr m ρ c 2).trans (((dat3 (V5 m ρ) c).arrAt_in 2 rfl _).trans (A_eq3 (V5 m ρ) c 2))
theorem V6_out (c : Dev nD) (M X : Mat 2048 2048) (b : Mat 1 2048)
    (hM : (V5 m ρ c main_v30 : S2048x2048.Idx → EReal) = M) (hX : (V5 m ρ c main_v33 : S2048x2048.Idx → EReal) = X)
    (hb : (V5 m ρ c main_v31 : S1x2048.Idx → EReal) = b) :
    (V6 m ρ c main_v34 : S2048x2048.Idx → EReal) = layer M X b :=
  (W6_arr m ρ c 3).trans (final3 (V5 m ρ) c M X b hM hX hb)

/-! ## Region 4 -/

theorem V7_v30 (c : Dev nD) : (V7 m ρ c main_v30 : S2048x2048.Idx → EReal) = (V6 m ρ c main_v30 : S2048x2048.Idx → EReal) :=
  (W7_arr m ρ c 0).trans (((dat4 (V6 m ρ) c).arrAt_in 0 rfl _).trans (A_eq4 (V6 m ρ) c 0))
theorem V7_v31 (c : Dev nD) : (V7 m ρ c main_v31 : S1x2048.Idx → EReal) = (V6 m ρ c main_v31 : S1x2048.Idx → EReal) :=
  (W7_arr m ρ c 2).trans (((dat4 (V6 m ρ) c).arrAt_in 2 rfl _).trans (A_eq4 (V6 m ρ) c 2))
theorem V7_out (c : Dev nD) (M X : Mat 2048 2048) (b : Mat 1 2048)
    (hM : (V6 m ρ c main_v30 : S2048x2048.Idx → EReal) = M) (hX : (V6 m ρ c main_v34 : S2048x2048.Idx → EReal) = X)
    (hb : (V6 m ρ c main_v31 : S1x2048.Idx → EReal) = b) :
    (V7 m ρ c main_v35 : S2048x2048.Idx → EReal) = layer M X b :=
  (W7_arr m ρ c 3).trans (final4 (V6 m ρ) c M X b hM hX hb)

/-- THE RESULT: the last region's output array is the four-layer network. -/
theorem result_eq (c : Dev nD) :
    (W7 m ρ c (Proc.devRef .tc main_v35) : S2048x2048.Idx → EReal) = net (kA m ρ c) (kW m ρ c) (kX m c) (kb m c) := by
  have hM3 := V3_v30 m ρ c
  have hb3 := V3_v31 m ρ c
  have hM4 := (V4_v30 m ρ c).trans hM3
  have hb4 := (V4_v31 m ρ c).trans hb3
  have hM5 := (V5_v30 m ρ c).trans hM4
  have hb5 := (V5_v31 m ρ c).trans hb4
  have hM6 := (V6_v30 m ρ c).trans hM5
  have hb6 := (V6_v31 m ρ c).trans hb5
  have h1 := V4_out m ρ c _ _ _ hM3 (V3_arg0 m ρ c) hb3
  have h2 := V5_out m ρ c _ _ _ hM4 h1 hb4
  have h3 := V6_out m ρ c _ _ _ hM5 h2 hb5
  have h4 := V7_out m ρ c _ _ _ hM6 h3 hb6
  exact h4

end Cert.KernelIdeal.Hand

end
-- ==== Proof.KI.HostA.lean ====
/- The two scatter-added arrays of the kernel program's first host stretch are the reference's: the same operations of
   the same arguments, one term. -/
import proofs.«106939_j75831942578756_2_alg».proof.Proof.KI.Run
import proofs.«106939_j75831942578756_2_alg».proof.Proof.Gen.ReferenceIdeal.Read

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt Ideal) ℓ) (ρ : Dev nD → PrngReg)

set_option maxRecDepth 65536 in
theorem hostA_eq (c : Dev nD) :
    (V1 m ρ c main_v14 : S2048x2048.Idx → EReal)
      = Cert.ReferenceIdeal.Read.val_main_v14 (F := Ideal) (m ((c : Thread nD τ).loc main_arg1)) (m ((c : Thread nD τ).loc main_arg2)) (m ((c : Thread nD τ).loc main_arg3)) := by
  show StableHlo.after hostOps0 (W0 m ρ c) (Proc.devRef .tc main_v14) = _
  after_results_simp
  rfl

set_option maxRecDepth 65536 in
theorem hostW_eq (c : Dev nD) :
    (V1 m ρ c main_v29 : S2048x2048.Idx → EReal)
      = Cert.ReferenceIdeal.Read.val_main_v29 (F := Ideal) (m ((c : Thread nD τ).loc main_arg1)) (m ((c : Thread nD τ).loc main_arg2)) (m ((c : Thread nD τ).loc main_arg4)) := by
  show StableHlo.after hostOps0 (W0 m ρ c) (Proc.devRef .tc main_v29) = _
  after_results_simp
  rfl

end Cert.KernelIdeal.Hand

end
-- ==== Proof.RefValue.lean ====
/- The reference at the extended reals: its result is four layers X ↦ M·X + b over M = A·W, with A and W the two
   scatter-added arrays (left as the stages the run names) — each host dot product is the matrix product, each bias
   broadcast-and-add is the bias row added to every row. -/
import proofs.«106939_j75831942578756_2_alg».proof.Proof.Gen.ReferenceIdeal.Run
import proofs.«106939_j75831942578756_2_alg».proof.Proof.Gen.ReferenceIdeal.Read
import proofs.«106939_j75831942578756_2_alg».proof.Proof.Spec

noncomputable section

namespace Cert.ReferenceIdeal.RefValue

open Idealize.ShloMosaic Idealize.ShloMosaic.TcCoe Idealize.SL.Sem Idealize.ShloMosaic.ValueIdx
open Cert.ReferenceIdeal Cert.ReferenceIdeal.Read Cert.Dense Cert.BiasRow Cert.Net

/-- The reference's last stage is the network of the two scatter-added arrays, the input and the bias row. -/
theorem ref_eq (x0 : (⟨S2048x2048, .f32⟩ : BufTy).Contents (Elt Ideal)) (x1 x2 : (⟨S131072, .i32⟩ : BufTy).Contents (Elt Ideal))
    (x3 x4 : (⟨S131072, .f32⟩ : BufTy).Contents (Elt Ideal)) (x5 : (⟨S2048, .f32⟩ : BufTy).Contents (Elt Ideal)) :
    (val_main_v46 (F := Ideal) x0 x1 x2 x3 x4 x5 : S2048x2048.Idx → EReal)
      = net (val_main_v14 (F := Ideal) x1 x2 x3) (val_main_v29 (F := Ideal) x1 x2 x4) x0 (row (N := 2048) x5) := by
  unfold val_main_v46 val_main_v45 val_main_v44 val_main_v43 val_main_v42 val_main_v41 val_main_v40 val_main_v39 val_main_v38
    val_main_v37 val_main_v36 val_main_v35 val_main_v34 val_main_v33 val_main_v32 val_main_v31 val_main_v30
  generalize val_main_v14 (F := Ideal) x1 x2 x3 = A
  generalize val_main_v29 (F := Ideal) x1 x2 x4 = W
  have hd : ∀ (l r : FVec Ideal S2048x2048 .f32), Host.dotGeneral (F := Ideal) dot_S2048x2048_S2048x2048_S2048x2048_1_0_0_1_n_n none l r = mm (M := 2048) (K := 2048) (N := 2048) l r :=
    fun l r => hostDot_eq_mm dot_S2048x2048_S2048x2048_S2048x2048_1_0_0_1_n_n rfl rfl rfl rfl rfl rfl none l r
  have ha : ∀ (X : FVec Ideal S2048x2048 .f32), addf X (broadcastInDim S2048x2048 ![0, 1] Gen.bcast_S1x2048_S2048x2048_0_1 (broadcastInDim S1x2048 ![1] Gen.bcast_S2048_S1x2048_1 x5)) = addRow (M := 2048) (N := 2048) X (row (N := 2048) x5) :=
    fun X => hostAddRow (M := 2048) (N := 2048) X x5 _ _
  simp only [hd, ha]
  rfl

end Cert.ReferenceIdeal.RefValue

end
-- ==== Proof.lean ====
/- The proof of `Cert.Claim`. The kernel program is a scatter-add prelude, one pipelined product M = A·W and four pipelined
   layers X ↦ M·X + b, each accumulated over four column slabs in a buffer the kernel carries between grid points; the
   reference is the same prelude, one whole product and four whole layers.

   * The three frames. For the two kernel programs (Proof/KB/*, Proof/KI/*: one text at the two instances): per region,
     the body run symbolically in its three cases (first, middle and last point of a row of four points), the
     accumulator's contents point by point, the pipeline's proof data with the accumulator carried in the region's
     invariant, the body obligation; then the program as host stretches and five regions in order (Run.lean). The
     reference's frame is its generated run with the result dropped.
   * `preserves` has no conjunct: the idealization rewrote nothing.
   * `algebraic`: each region's output array is the product / the layer of the arrays it reads (Proof/KI/R*Value.lean:
     the four slabs' 512-term sums added from zero are the 2048-term sum, by associativity and commutativity of
     addition on the extended reals, no finiteness), so the kernel's result is the four-layer network of the two
     scatter-added arrays (Proof/KI/Value.lean); the reference's is the same network (Proof/RefValue.lean), over the
     same two arrays (Proof/KI/HostA.lean). -/
import proofs.«106939_j75831942578756_2_alg».proof.Defs
import proofs.«106939_j75831942578756_2_alg».proof.Proof.Gen.Kernel
import proofs.«106939_j75831942578756_2_alg».proof.Proof.Gen.KernelIdeal
import proofs.«106939_j75831942578756_2_alg».proof.Proof.Gen.ReferenceIdeal
import proofs.«106939_j75831942578756_2_alg».proof.Proof.Gen.Pre_finite_inputs
import proofs.«106939_j75831942578756_2_alg».proof.Proof.KB.Run
import proofs.«106939_j75831942578756_2_alg».proof.Proof.KI.Run
import proofs.«106939_j75831942578756_2_alg».proof.Proof.KI.Value
import proofs.«106939_j75831942578756_2_alg».proof.Proof.KI.HostA
import proofs.«106939_j75831942578756_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

open Cert.KernelIdeal Cert.KernelIdeal.Hand in
/-- Both programs end at the four-layer network of the two scatter-added arrays, the input and the bias row. -/
theorem algebraic : Cert.algebraic_KernelIdeal_ReferenceIdeal := by
  intro m ρ m' ρ' _ hagree
  refine ⟨fun c => (Cert.Net.net (kA m ρ c) (kW m ρ c) (kX m c) (kb m c) : S2048x2048.Idx → EReal), ?_, ?_⟩
  · exact (θ_run Cert.KernelIdeal.defs _ _).mono (fun r h c =>
      ⟨(h c _ (mem_uc main_v35 (by decide))).trans (result_eq m ρ c),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩) (run_all m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5⟩ := hagree c
    rw [Cert.ReferenceIdeal.Read.val_main_v46_eq, e0, e1, e2, e3, e4, e5]
    exact (Cert.ReferenceIdeal.RefValue.ref_eq _ _ _ _ _ _).trans
      (by rw [← hostA_eq m ρ c, ← hostW_eq m ρ c])

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
